-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v115)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v115) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v198) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S170000x128 : Shape := ⟨2, ![170000, 128]⟩
abbrev S1200000 : Shape := ⟨1, ![1200000]⟩
abbrev S128x64 : Shape := ⟨2, ![128, 64]⟩
abbrev S64 : Shape := ⟨1, ![64]⟩
abbrev S7x64x64 : Shape := ⟨3, ![7, 64, 64]⟩
abbrev S64x40 : Shape := ⟨2, ![64, 40]⟩
abbrev S40 : Shape := ⟨1, ![40]⟩
abbrev S_ : Shape := ⟨0, ![]⟩

class Facts : Prop where
  bcast_S_S170000x128 : S_.BroadcastsInDim S170000x128 (![] : Fin 0 → Fin S170000x128.rank)
  reducesTo_S170000x128_S_d0_1 : S170000x128.ReducesTo [0, 1] S_
  h_S_ : 0 < S_.numel
  bcast_S_S1200000 : S_.BroadcastsInDim S1200000 (![] : Fin 0 → Fin S1200000.rank)
  reducesTo_S1200000_S_d0 : S1200000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S7x64x64 : S_.BroadcastsInDim S7x64x64 (![] : Fin 0 → Fin S7x64x64.rank)
  reducesTo_S7x64x64_S_d0_1_2 : S7x64x64.ReducesTo [0, 1, 2] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg6 : FVec F S7x64x64 .f32) (main_arg7 : FVec F S64x40 .f32) (main_arg8 : FVec F S40 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S7x64x64 .f32 := Host.absf main_arg6
  let main_cst_6 : FVec F S_ .f32 := constant S_ .f32 0x7F800000#32
  let main_v20 : FVec F S7x64x64 .f32 := broadcastInDim S7x64x64 ![] bcast_S_S7x64x64 main_cst_6
  let main_v21 : IVec S7x64x64 1 := cmpf .olt main_v19 main_v20
  let main_c_7 : IVec S_ 1 := constantI S_ 1 1#1
  let main_v22 : IVec S_ 1 := (fun x v => Host.reduce IntOp.andi x v reducesTo_S7x64x64_S_d0_1_2 h_S_) main_v21 main_c_7
  let main_v23 : IVec S_ 1 := andi main_v18 main_v22
  let main_v24 : FVec F S64x40 .f32 := Host.absf main_arg7
  let main_cst_8 : FVec F S_ .f32 := constant S_ .f32 0x7F800000#32
  let main_v25 : FVec F S64x40 .f32 := broadcastInDim S64x40 ![] bcast_S_S64x40 main_cst_8
  let main_v26 : IVec S64x40 1 := cmpf .olt main_v24 main_v25
  let main_c_9 : IVec S_ 1 := constantI S_ 1 1#1
  let main_v27 : IVec S_ 1 := (fun x v => Host.reduce IntOp.andi x v reducesTo_S64x40_S_d0_1 h_S_) main_v26 main_c_9
  let main_v28 : IVec S_ 1 := andi main_v23 main_v27
  let main_v29 : FVec F S40 .f32 := Host.absf main_arg8
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S170000x128 .f32) (main_arg1 : IVec S1200000 32) (main_arg2 : IVec S1200000 32) (main_arg3 : FVec F S1200000 .f32) (main_arg4 : FVec F S128x64 .f32) (main_arg5 : FVec F S64 .f32) (main_arg6 : FVec F S7x64x64 .f32) (main_arg7 : FVec F S64x40 .f32) (main_arg8 : FVec F S40 .f32) : IVec S_ 1 :=
  let main_v0 : FVec F S170000x128 .f32 := Host.absf main_arg0
  let main_cst : FVec F S_ .f32 := constant S_ .f32 0x7F800000#32
  let main_v1 : FVec F S170000x128 .f32 := broadcastInDim S170000x128 ![] bcast_S_S170000x128 main_cst
  let main_v2 : IVec S170000x128 1 := cmpf .olt main_v0 main_v1
  let main_c : IVec S_ 1 := constantI S_ 1 1#1
  let main_v3 : IVec S_ 1 := (fun x v => Host.reduce IntOp.andi x v reducesTo_S170000x128_S_d0_1 h_S_) main_v2 main_c
  let main_v4 : FVec F S1200000 .f32 := Host.absf main_arg3
  let main_cst_0 : FVec F S_ .f32 := constant S_ .f32 0x7F800000#32
  let main_v5 : FVec F S1200000 .f32 := broadcastInDim S1200000 ![] bcast_S_S1200000 main_cst_0
  let main_v6 : IVec S1200000 1 := cmpf .olt main_v4 main_v5
  let main_c_1 : IVec S_ 1 := constantI S_ 1 1#1
  let main_v7 : IVec S_ 1 := (fun x v => Host.reduce IntOp.andi x v reducesTo_S1200000_S_d0 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_v13 main_v16
-- ==== Kernel.lean ====
abbrev S170000x128 : Shape := ⟨2, ![170000, 128]⟩
abbrev S1200000 : Shape := ⟨1, ![1200000]⟩
abbrev S128x64 : Shape := ⟨2, ![128, 64]⟩
abbrev S64 : Shape := ⟨1, ![64]⟩
abbrev S7x64x64 : Shape := ⟨3, ![7, 64, 64]⟩
abbrev S64x40 : Shape := ⟨2, ![64, 40]⟩
abbrev S40 : Shape := ⟨1, ![40]⟩
abbrev S1x64 : Shape := ⟨2, ![1, 64]⟩
abbrev S170000x64 : Shape := ⟨2, ![170000, 64]⟩
abbrev S5000x128 : Shape := ⟨2, ![5000, 128]⟩
abbrev S5000x64 : Shape := ⟨2, ![5000, 64]⟩
abbrev S_ : Shape := ⟨0, ![]⟩
abbrev S1200000x1 : Shape := ⟨2, ![1200000, 1]⟩
abbrev S1200000x64 : Shape := ⟨2, ![1200000, 64]⟩
abbrev S1x64x64 : Shape := ⟨3, ![1, 64, 64]⟩
abbrev S64x64 : Shape := ⟨2, ![64, 64]⟩
abbrev S1x40 : Shape := ⟨2, ![1, 40]⟩
abbrev S170000x40 : Shape := ⟨2, ![170000, 40]⟩
abbrev S5000x40 : Shape := ⟨2, ![5000, 40]⟩
abbrev S5000 : Shape := ⟨1, ![5000]⟩
abbrev S5000x1 : Shape := ⟨2, ![5000, 1]⟩

abbrev nBuf : Space → Nat
  | .hbm => 146
  | .vmem => 61
  | .smem => 0
  | _ => 0

abbrev hbmTy0_0 (i : Nat) : BufTy := match i % 128 with
  | 0 => ⟨S170000x128, .f32⟩
  | 1 => ⟨S1200000, .i32⟩
  | 2 => ⟨S1200000, .i32⟩
  | 3 => ⟨S1200000, .f32⟩
  | 4 => ⟨S128x64, .f32⟩
  | 5 => ⟨S64, .f32⟩
  | 6 => ⟨S7x64x64, .f32⟩
  | 7 => ⟨S64x40, .f32⟩
  | 8 => ⟨S40, .f32⟩
  | 9 => ⟨S1x64, .f32⟩
  | 10 => ⟨S170000x64, .f32⟩
  | 11 => ⟨S_, .i32⟩
  | 12 => ⟨S1200000, .i32⟩
  | 13 => ⟨S1200000, .i1⟩
  | 14 => ⟨S_, .i32⟩
  | 15 => ⟨S1200000, .i32⟩
  | 16 => ⟨S1200000, .i32⟩
  | 17 => ⟨S1200000, .i32⟩
  | 18 => ⟨S1200000x1, .i32⟩
  | 19 => ⟨S1200000x64, .f32⟩
  | 20 => ⟨S1200000x1, .f32⟩
  | 21 => ⟨S1200000x64, .f32⟩
  | 22 => ⟨S1200000x64, .f32⟩
  | 23 => ⟨S_, .f32⟩
  | 24 => ⟨S170000x64, .f32⟩
  | 25 => ⟨S1200000x1, .i32⟩
  | 26 => ⟨S170000x64, .f32⟩
  | 27 => ⟨S1x64x64, .f32⟩
  | 28 => ⟨S64x64, .f32⟩
  | 29 => ⟨S170000x64, .f32⟩
  | 30 => ⟨S_, .i32⟩
  | 31 => ⟨S1200000, .i32⟩
  | 32 => ⟨S1200000, .i1⟩
  | 33 => ⟨S_, .i32⟩
  | 34 => ⟨S1200000, .i32⟩
  | 35 => ⟨S1200000, .i32⟩
  | 36 => ⟨S1200000, .i32⟩
  | 37 => ⟨S1200000x1, .i32⟩
  | 38 => ⟨S1200000x64, .f32⟩
  | 39 => ⟨S1200000x1, .f32⟩
  | 40 => ⟨S1200000x64, .f32⟩
  | 41 => ⟨S1200000x64, .f32⟩
  | 42 => ⟨S_, .f32⟩
  | 43 => ⟨S170000x64, .f32⟩
  | 44 => ⟨S1200000x1, .i32⟩
  | 45 => ⟨S170000x64, .f32⟩
  | 46 => ⟨S1x64x64, .f32⟩
  | 47 => ⟨S64x64, .f32⟩
  | 48 => ⟨S170000x64, .f32⟩
  | 49 => ⟨S_, .i32⟩
  | 50 => ⟨S1200000, .i32⟩
  | 51 => ⟨S1200000, .i1⟩
  | 52 => ⟨S_, .i32⟩
  | 53 => ⟨S1200000, .i32⟩
  | 54 => ⟨S1200000, .i32⟩
  | 55 => ⟨S1200000, .i32⟩
  | 56 => ⟨S1200000x1, .i32⟩
  | 57 => ⟨S1200000x64, .f32⟩
  | 58 => ⟨S1200000x1, .f32⟩
  | 59 => ⟨S1200000x64, .f32⟩
  | 60 => ⟨S1200000x64, .f32⟩
  | 61 => ⟨S_, .f32⟩
  | 62 => ⟨S170000x64, .f32⟩
  | 63 => ⟨S1200000x1, .i32⟩
  | 64 => ⟨S170000x64, .f32⟩
  | 65 => ⟨S1x64x64, .f32⟩
  | 66 => ⟨S64x64, .f32⟩
  | 67 => ⟨S170000x64, .f32⟩
  | 68 => ⟨S_, .i32⟩
  | 69 => ⟨S1200000, .i32⟩
  | 70 => ⟨S1200000, .i1⟩
  | 71 => ⟨S_, .i32⟩
  | 72 => ⟨S1200000, .i32⟩
  | 73 => ⟨S1200000, .i32⟩
  | 74 => ⟨S1200000, .i32⟩
  | 75 => ⟨S1200000x1, .i32⟩
  | 76 => ⟨S1200000x64, .f32⟩
  | 77 => ⟨S1200000x1, .f32⟩
  | 78 => ⟨S1200000x64, .f32⟩
  | 79 => ⟨S1200000x64, .f32⟩
  | 80 => ⟨S_, .f32⟩
  | 81 => ⟨S170000x64, .f32⟩
  | 82 => ⟨S1200000x1, .i32⟩
  | 83 => ⟨S170000x64, .f32⟩
  | 84 => ⟨S1x64x64, .f32⟩
  | 85 => ⟨S64x64, .f32⟩
  | 86 => ⟨S170000x64, .f32⟩
  | 87 => ⟨S_, .i32⟩
  | 88 => ⟨S1200000, .i32⟩
  | 89 => ⟨S1200000, .i1⟩
  | 90 => ⟨S_, .i32⟩
  | 91 => ⟨S1200000, .i32⟩
  | 92 => ⟨S1200000, .i32⟩
  | 93 => ⟨S1200000, .i32⟩
  | 94 => ⟨S1200000x1, .i32⟩
  | 95 => ⟨S1200000x64, .f32⟩
  | 96 => ⟨S1200000x1, .f32⟩
  | 97 => ⟨S1200000x64, .f32⟩
  | 98 => ⟨S1200000x64, .f32⟩
  | 99 => ⟨S_, .f32⟩
  | 100 => ⟨S170000x64, .f32⟩
  | 101 => ⟨S1200000x1, .i32⟩
  | 102 => ⟨S170000x64, .f32⟩
  | 103 => ⟨S1x64x64, .f32⟩
  | 104 => ⟨S64x64, .f32⟩
  | 105 => ⟨S170000x64, .f32⟩
  | 106 => ⟨S_, .i32⟩
  | 107 => ⟨S1200000, .i32⟩
  | 108 => ⟨S1200000, .i1⟩
  | 109 => ⟨S_, .i32⟩
  | 110 => ⟨S1200000, .i32⟩
  | 111 => ⟨S1200000, .i32⟩
  | 112 => ⟨S1200000, .i32⟩
  | 113 => ⟨S1200000x1, .i32⟩
  | 114 => ⟨S1200000x64, .f32⟩
  | 115 => ⟨S1200000x1, .f32⟩
  | 116 => ⟨S1200000x64, .f32⟩
  | 117 => ⟨S1200000x64, .f32⟩
  | 118 => ⟨S_, .f32⟩
  | 119 => ⟨S170000x64, .f32⟩
  | 120 => ⟨S1200000x1, .i32⟩
  | 121 => ⟨S170000x64, .f32⟩
  | 122 => ⟨S1x64x64, .f32⟩
  | 123 => ⟨S64x64, .f32⟩
  | 124 => ⟨S170000x64, .f32⟩
  | 125 => ⟨S_, .i32⟩
  | 126 => ⟨S1200000, .i32⟩
  | 127 => ⟨S1200000, .i1⟩
  | _ => ⟨S170000x128, .f32⟩

abbrev hbmTy0_1 (i : Nat) : BufTy := match i % 128 with
  | 0 => ⟨S_, .i32⟩
  | 1 => ⟨S1200000, .i32⟩
  | 2 => ⟨S1200000, .i32⟩
  | 3 => ⟨S1200000, .i32⟩
  | 4 => ⟨S1200000x1, .i32⟩
  | 5 => ⟨S1200000x64, .f32⟩
  | 6 => ⟨S1200000x1, .f32⟩
  | 7 => ⟨S1200000x64, .f32⟩
  | 8 => ⟨S1200000x64, .f32⟩
  | 9 => ⟨S_, .f32⟩
  | 10 => ⟨S170000x64, .f32⟩
  | 11 => ⟨S1200000x1, .i32⟩
  | 12 => ⟨S170000x64, .f32⟩
  | 13 => ⟨S1x64x64, .f32⟩
  | 14 => ⟨S64x64, .f32⟩
  | 15 => ⟨S170000x64, .f32⟩
  | 16 => ⟨S1x40, .f32⟩
  | 17 => ⟨S170000x40, .f32⟩
  | _ => ⟨S170000x128, .f32⟩

abbrev hbmTy (i : Nat) : BufTy := match i / 128 with
  | 0 => hbmTy0_0 i
  | 1 => hbmTy0_1 i
  | _ => ⟨S170000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S64x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S64x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S64x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S64x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S64x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S64x64, .f32⟩
  | .local _ .vmem, ⟨46, _⟩ => ⟨S5000x64, .f32⟩
  | .local _ .vmem, ⟨47, _⟩ => ⟨S5000x64, .f32⟩
  | .local _ .vmem, ⟨48, _⟩ => ⟨S5000x64, .f32⟩
  | .local _ .vmem, ⟨49, _⟩ => ⟨S5000x64, .f32⟩
  | .local _ .vmem, ⟨50, _⟩ => ⟨S5000x64, .f32⟩
  | .local _ .vmem, ⟨51, _⟩ => ⟨S5000x64, .f32⟩
  | .local _ .vmem, ⟨52, _⟩ => ⟨S64x64, .f32⟩
  | .local _ .vmem, ⟨53, _⟩ => ⟨S5000x64, .f32⟩
  | .local _ .vmem, ⟨54, _⟩ => ⟨S5000x64, .f32⟩
  | .local _ .vmem, ⟨55, _⟩ => ⟨S5000x64, .f32⟩
  | .local _ .vmem, ⟨56, _⟩ => ⟨S5000x64, .f32⟩
  | .local _ .vmem, ⟨57, _⟩ => ⟨S64x40, .f32⟩
  | .local _ .vmem, ⟨58, _⟩ => ⟨S1x40, .f32⟩
  | .local _ .vmem, ⟨59, _⟩ => ⟨S5000x40, .f32⟩
  | .local _ .vmem, ⟨60, _⟩ => ⟨S5000x40, .f32⟩
  | _, _ => ⟨S170000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | _, _ => false

abbrev semScoped : Fin 0 → Bool
  | ⟨_, h⟩ => absurd h (Nat.not_lt_zero _)

abbrev dmaSemScoped : Fin 61 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | _ => false

abbrev sig : RefSig :=
  ofTc nBuf bufTy 0 61 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_1 : Ref sig .tc := ⟨.hbm, 30, rfl⟩
abbrev main_v18 : Ref sig .tc := ⟨.hbm, 31, rfl⟩
abbrev main_v19 : Ref sig .tc := ⟨.hbm, 32, rfl⟩
abbrev main_c_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_4 : Ref sig .tc := ⟨.hbm, 49, rfl⟩
abbrev main_v34 : Ref sig .tc := ⟨.hbm, 50, rfl⟩
abbrev main_v35 : Ref sig .tc := ⟨.hbm, 51, rfl⟩
abbrev main_c_5 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_6 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_c_7 : Ref sig .tc := ⟨.hbm, 68, rfl⟩
abbrev main_v50 : Ref sig .tc := ⟨.hbm, 69, rfl⟩
abbrev main_v51 : Ref sig .tc := ⟨.hbm, 70, rfl⟩
abbrev main_c_8 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_9 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_c_10 : Ref sig .tc := ⟨.hbm, 87, rfl⟩
abbrev main_v66 : Ref sig .tc := ⟨.hbm, 88, rfl⟩
abbrev main_v67 : Ref sig .tc := ⟨.hbm, 89, rfl⟩
abbrev main_c_11 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_12 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_c_13 : Ref sig .tc := ⟨.hbm, 106, rfl⟩
abbrev main_v82 : Ref sig .tc := ⟨.hbm, 107, rfl⟩
abbrev main_v83 : Ref sig .tc := ⟨.hbm, 108, rfl⟩
abbrev main_c_14 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_cst_15 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_c_16 : Ref sig .tc := ⟨.hbm, 125, rfl⟩
abbrev main_v98 : Ref sig .tc := ⟨.hbm, 126, rfl⟩
abbrev main_v99 : Ref sig .tc := ⟨.hbm, 127, rfl⟩
abbrev main_c_17 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_cst_18 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg3_0 : Ref sig .tc := ⟨.vmem, 39, rfl⟩
abbrev cc5_stg3_1 : Ref sig .tc := ⟨.vmem, 40, rfl⟩
abbrev cc6_stg0_0 : Ref sig .tc := ⟨.vmem, 41, rfl⟩
abbrev cc6_stg0_1 : Ref sig .tc := ⟨.vmem, 42, rfl⟩
abbrev cc6_stg1_0 : Ref sig .tc := ⟨.vmem, 43, rfl⟩
abbrev cc6_stg1_1 : Ref sig .tc := ⟨.vmem, 44, rfl⟩
abbrev cc6_stg2_0 : Ref sig .tc := ⟨.vmem, 45, rfl⟩
abbrev cc6_stg3_0 : Ref sig .tc := ⟨.vmem, 46, rfl⟩
abbrev cc6_stg3_1 : Ref sig .tc := ⟨.vmem, 47, rfl⟩
abbrev cc7_stg0_0 : Ref sig .tc := ⟨.vmem, 48, rfl⟩
abbrev cc7_stg0_1 : Ref sig .tc := ⟨.vmem, 49, rfl⟩
abbrev cc7_stg1_0 : Ref sig .tc := ⟨.vmem, 50, rfl⟩
abbrev cc7_stg1_1 : Ref sig .tc := ⟨.vmem, 51, rfl⟩
abbrev cc7_stg2_0 : Ref sig .tc := ⟨.vmem, 52, rfl⟩
abbrev cc7_stg3_0 : Ref sig .tc := ⟨.vmem, 53, rfl⟩
abbrev cc7_stg3_1 : Ref sig .tc := ⟨.vmem, 54, rfl⟩
abbrev cc8_stg0_0 : Ref sig .tc := ⟨.vmem, 55, rfl⟩
abbrev cc8_stg0_1 : Ref sig .tc := ⟨.vmem, 56, rfl⟩
abbrev cc8_stg1_0 : Ref sig .tc := ⟨.vmem, 57, rfl⟩
abbrev cc8_stg2_0 : Ref sig .tc := ⟨.vmem, 58, rfl⟩
abbrev cc8_stg3_0 : Ref sig .tc := ⟨.vmem, 59, rfl⟩
abbrev cc8_stg3_1 : Ref sig .tc := ⟨.vmem, 60, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem3_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem3_0 : DmaSem sig := 32
abbrev cc4_sem3_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem3_0 : DmaSem sig := 39
abbrev cc5_sem3_1 : DmaSem sig := 40
abbrev cc6_sem0_0 : DmaSem sig := 41
abbrev cc6_sem0_1 : DmaSem sig := 42
abbrev cc6_sem1_0 : DmaSem sig := 43
abbrev cc6_sem1_1 : DmaSem sig := 44
abbrev cc6_sem2_0 : DmaSem sig := 45
abbrev cc6_sem3_0 : DmaSem sig := 46
abbrev cc6_sem3_1 : DmaSem sig := 47
abbrev cc7_sem0_0 : DmaSem sig := 48
abbrev cc7_sem0_1 : DmaSem sig := 49
abbrev cc7_sem1_0 : DmaSem sig := 50
abbrev cc7_sem1_1 : DmaSem sig := 51
abbrev cc7_sem2_0 : DmaSem sig := 52
abbrev cc7_sem3_0 : DmaSem sig := 53
abbrev cc7_sem3_1 : DmaSem sig := 54
abbrev cc8_sem0_0 : DmaSem sig := 55
abbrev cc8_sem0_1 : DmaSem sig := 56
abbrev cc8_sem1_0 : DmaSem sig := 57
abbrev cc8_sem2_0 : DmaSem sig := 58
abbrev cc8_sem3_0 : DmaSem sig := 59
abbrev cc8_sem3_1 : DmaSem sig := 60

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![34], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![34], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![34], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![34], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![34], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![34], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![34], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S64x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![34], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S64x40 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x40 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S5000x40 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

class Facts₀ : Prop where
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S1200000x1_S1200000x64_0_1 : S1200000x1.BroadcastsInDim S1200000x64 (![0, 1] : Fin 2 → Fin S1200000x64.rank)
  bcast_S_S170000x64 : S_.BroadcastsInDim S170000x64 (![] : Fin 0 → Fin S170000x64.rank)
  slices_S7x64x64_S1x64x64_0_0_0 : S7x64x64.Slices ![0, 0, 0] S1x64x64
  shapeCasts_S1x64x64_S64x64 : S1x64x64.ShapeCasts S64x64
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S7x64x64_S1x64x64_1_0_0 : S7x64x64.Slices ![1, 0, 0] S1x64x64
  slices_S7x64x64_S1x64x64_2_0_0 : S7x64x64.Slices ![2, 0, 0] S1x64x64
  slices_S7x64x64_S1x64x64_3_0_0 : S7x64x64.Slices ![3, 0, 0] S1x64x64
  slices_S7x64x64_S1x64x64_4_0_0 : S7x64x64.Slices ![4, 0, 0] S1x64x64
  slices_S7x64x64_S1x64x64_5_0_0 : S7x64x64.Slices ![5, 0, 0] S1x64x64
  slices_S7x64x64_S1x64x64_6_0_0 : S7x64x64.Slices ![6, 0, 0] S1x64x64
  shapeCasts_S40_S1x40 : S40.ShapeCasts S1x40
  inb_S64x40_S64x40_0_0 : ∀ a, (![0, 0] : Fin 2 → Nat) a + S64x40.size a ≤ S64x40.size a
  h_S64x40 : 0 < S64x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  dot_S5000x128_S128x64_S5000x64_1_0_0_1_n_n_wf : DotDims.WF S5000x128 S128x64 S5000x64 [1] [0] [0] [1] [] []
  gather_S170000x64_S1200000x1_S1200000x64_1_0_n_n_0_1_164_wf : GatherDims.WF S170000x64 S1200000x1 S1200000x64 [1] [0] [] [0] [] 1 ![1, 64]
  scatter_S170000x64_S1200000x1_S1200000x64_1_0_0_1_wf : ScatterDims.WF S170000x64 S1200000x1 S1200000x64 [1] [0] [0] 1
  dot_S5000x64_S64x64_S5000x64_1_0_0_1_n_n_wf : DotDims.WF S5000x64 S64x64 S5000x64 [1] [0] [0] [1] [] []
  dot_S5000x64_S64x40_S5000x40_1_0_0_1_n_n_wf : DotDims.WF S5000x64 S64x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S170000x128.size a
  hwx0_0 : ∀ i : grid0.Coords, EltTy.bits .f32 = 32 ∨ (Rect.block (s := S170000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S170000x64.size a
  hwx0_3 : ∀ i : grid0.Coords, EltTy.bits .f32 = 32 ∨ (Rect.block (s := S170000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S170000x64.size a
  hwx1_0 : ∀ i : grid1.Coords, EltTy.bits .f32 = 32 ∨ (Rect.block (s := S170000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S170000x64.size a
  hwx1_1 : ∀ i : grid1.Coords, EltTy.bits .f32 = 32 ∨ (Rect.block (s := S170000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S170000x64.size a
  hwx1_3 : ∀ i : grid1.Coords, EltTy.bits .f32 = 32 ∨ (Rect.block (s := S170000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S170000x64.size a
  hwx2_0 : ∀ i : grid2.Coords, EltTy.bits .f32 = 32 ∨ (Rect.block (s := S170000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S170000x64.size a
  hwx2_1 : ∀ i : grid2.Coords, EltTy.bits .f32 = 32 ∨ (Rect.block (s := S170000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S170000x64.size a
  hwx2_3 : ∀ i : grid2.Coords, EltTy.bits .f32 = 32 ∨ (Rect.block (s := S170000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S170000x64.size a
  hwx3_0 : ∀ i : grid3.Coords, EltTy.bits .f32 = 32 ∨ (Rect.block (s := S170000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S170000x64.size a
  hwx3_1 : ∀ i : grid3.Coords, EltTy.bits .f32 = 32 ∨ (Rect.block (s := S170000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S170000x64.size a
  hwx3_3 : ∀ i : grid3.Coords, EltTy.bits .f32 = 32 ∨ (Rect.block (s := S170000x64) S5000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S170000x64.size a
  hwx4_0 : ∀ i : grid4.Coords, EltTy.bits .f32 = 32 ∨ (Rect.block (s := S170000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S170000x64.size a
  hwx4_1 : ∀ i : grid4.Coords, EltTy.bits .f32 = 32 ∨ (Rect.block (s := S170000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S170000x64.size a
  hwx4_3 : ∀ i : grid4.Coords, EltTy.bits .f32 = 32 ∨ (Rect.block (s := S170000x64) S5000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S170000x64.size a
  hwx5_0 : ∀ i : grid5.Coords, EltTy.bits .f32 = 32 ∨ (Rect.block (s := S170000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S170000x64.size a
  hwx5_1 : ∀ i : grid5.Coords, EltTy.bits .f32 = 32 ∨ (Rect.block (s := S170000x64) S5000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x64.size a ≤ S170000x64.size a
  hwx5_3 : ∀ i : grid5.Coords, EltTy.bits .f32 = 32 ∨ (Rect.block (s := S170000x64) S5000x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S170000x64.size a
  hwx6_0 : ∀ i : grid6.Coords, EltTy.bits .f32 = 32 ∨ (Rect.block (s := S170000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x64.size a ≤ S170000x64.size a
  hwx6_1 : ∀ i : grid6.Coords, EltTy.bits .f32 = 32 ∨ (Rect.block (s := S170000x64) S5000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x64.size a ≤ S64x64.size a
  hwx6_2 : ∀ i : grid6.Coords, EltTy.bits .f32 = 32 ∨ (Rect.block (s := S64x64) S64x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x64.size a ≤ S170000x64.size a
  hwx6_3 : ∀ i : grid6.Coords, EltTy.bits .f32 = 32 ∨ (Rect.block (s := S170000x64) S5000x64.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S170000x64.size a
  hwx7_0 : ∀ i : grid7.Coords, EltTy.bits .f32 = 32 ∨ (Rect.block (s := S170000x64) S5000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x64.size a ≤ S170000x64.size a
  hwx7_1 : ∀ i : grid7.Coords, EltTy.bits .f32 = 32 ∨ (Rect.block (s := S170000x64) S5000x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S64x64.size a ≤ S64x64.size a
  hwx7_2 : ∀ i : grid7.Coords, EltTy.bits .f32 = 32 ∨ (Rect.block (s := S64x64) S64x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x64.size a ≤ S170000x64.size a
  hwx7_3 : ∀ i : grid7.Coords, EltTy.bits .f32 = 32 ∨ (Rect.block (s := S170000x64) S5000x64.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S170000x64.size a
  hwx8_0 : ∀ i : grid8.Coords, EltTy.bits .f32 = 32 ∨ (Rect.block (s := S170000x64) S5000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S64x40.size a ≤ S64x40.size a
  hwx8_1 : ∀ i : grid8.Coords, EltTy.bits .f32 = 32 ∨ (Rect.block (s := S64x40) S64x40.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x40.size a ≤ S1x40.size a
  hwx8_2 : ∀ i : grid8.Coords, EltTy.bits .f32 = 32 ∨ (Rect.block (s := S1x40) S1x40.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S5000x40.size a ≤ S170000x40.size a
  hwx8_3 : ∀ i : grid8.Coords, EltTy.bits .f32 = 32 ∨ (Rect.block (s := S170000x40) S5000x40.size (cc8_transform_3 i) (hinb8_3 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S170000x64_S1200000x1_S1200000x64_1_0_n_n_0_1_164 : GatherDims S170000x64 S1200000x1 S1200000x64 where
  offsetDims := [1]
  collapsedSliceDims := [0]
  operandBatchingDims := []
  startIndicesBatchingDims := []
  startIndexMap := [0]
  indexVectorDim := 1
  sliceSizes := ![1, 64]
  wf := gather_S170000x64_S1200000x1_S1200000x64_1_0_n_n_0_1_164_wf
def scatter_S170000x64_S1200000x1_S1200000x64_1_0_0_1 : ScatterDims S170000x64 S1200000x1 S1200000x64 where
  updateWindowDims := [1]
  insertedWindowDims := [0]
  scatterDimsToOperandDims := [0]
  indexVectorDim := 1
  wf := scatter_S170000x64_S1200000x1_S1200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v14) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v30) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v32) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v33) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v46) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v1) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v48) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v49) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v62) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v1) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v64) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v65) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v78) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v1) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v80) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v81) S5000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v94) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v1) S5000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v96) S64x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v97) S5000x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v110) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v1) S5000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v112) S64x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v113) S5000x64.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v113) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg7) S64x40.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v114) S1x40.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v115) S5000x40.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

class Facts : Prop extends Facts₀ where

variable [Facts]
-- ==== ReferenceIdeal.lean ====
abbrev S170000x128 : Shape := ⟨2, ![170000, 128]⟩
abbrev S1200000 : Shape := ⟨1, ![1200000]⟩
abbrev S128x64 : Shape := ⟨2, ![128, 64]⟩
abbrev S64 : Shape := ⟨1, ![64]⟩
abbrev S7x64x64 : Shape := ⟨3, ![7, 64, 64]⟩
abbrev S64x40 : Shape := ⟨2, ![64, 40]⟩
abbrev S40 : Shape := ⟨1, ![40]⟩
abbrev S170000x64 : Shape := ⟨2, ![170000, 64]⟩
abbrev S1x64 : Shape := ⟨2, ![1, 64]⟩
abbrev S_ : Shape := ⟨0, ![]⟩
abbrev S1200000x1 : Shape := ⟨2, ![1200000, 1]⟩
abbrev S1200000x64 : Shape := ⟨2, ![1200000, 64]⟩
abbrev S1x64x64 : Shape := ⟨3, ![1, 64, 64]⟩
abbrev S64x64 : Shape := ⟨2, ![64, 64]⟩
abbrev S170000x40 : Shape := ⟨2, ![170000, 40]⟩
abbrev S1x40 : Shape := ⟨2, ![1, 40]⟩
abbrev S170000 : Shape := ⟨1, ![170000]⟩
abbrev S170000x1 : Shape := ⟨2, ![170000, 1]⟩

abbrev nBuf : Space → Nat
  | .hbm => 287
  | .vmem => 0
  | .smem => 0
  | _ => 0

abbrev hbmTy0_0 (i : Nat) : BufTy := match i % 128 with
  | 0 => ⟨S170000x128, .f32⟩
  | 1 => ⟨S1200000, .i32⟩
  | 2 => ⟨S1200000, .i32⟩
  | 3 => ⟨S1200000, .f32⟩
  | 4 => ⟨S128x64, .f32⟩
  | 5 => ⟨S64, .f32⟩
  | 6 => ⟨S7x64x64, .f32⟩
  | 7 => ⟨S64x40, .f32⟩
  | 8 => ⟨S40, .f32⟩
  | 9 => ⟨S170000x64, .f32⟩
  | 10 => ⟨S1x64, .f32⟩
  | 11 => ⟨S170000x64, .f32⟩
  | 12 => ⟨S170000x64, .f32⟩
  | 13 => ⟨S_, .f32⟩
  | 14 => ⟨S170000x64, .f32⟩
  | 15 => ⟨S170000x64, .f32⟩
  | 16 => ⟨S_, .i32⟩
  | 17 => ⟨S1200000, .i32⟩
  | 18 => ⟨S1200000, .i1⟩
  | 19 => ⟨S_, .i32⟩
  | 20 => ⟨S1200000, .i32⟩
  | 21 => ⟨S1200000, .i32⟩
  | 22 => ⟨S1200000, .i32⟩
  | 23 => ⟨S1200000x1, .i32⟩
  | 24 => ⟨S1200000x64, .f32⟩
  | 25 => ⟨S1200000x1, .f32⟩
  | 26 => ⟨S1200000x64, .f32⟩
  | 27 => ⟨S1200000x64, .f32⟩
  | 28 => ⟨S_, .f32⟩
  | 29 => ⟨S170000x64, .f32⟩
  | 30 => ⟨S1200000x1, .i32⟩
  | 31 => ⟨S170000x64, .f32⟩
  | 32 => ⟨S_, .f32⟩
  | 33 => ⟨S170000x64, .f32⟩
  | 34 => ⟨S170000x64, .f32⟩
  | 35 => ⟨S_, .f32⟩
  | 36 => ⟨S170000x64, .f32⟩
  | 37 => ⟨S170000x64, .f32⟩
  | 38 => ⟨S170000x64, .f32⟩
  | 39 => ⟨S_, .f32⟩
  | 40 => ⟨S170000x64, .f32⟩
  | 41 => ⟨S170000x64, .f32⟩
  | 42 => ⟨S1x64x64, .f32⟩
  | 43 => ⟨S64x64, .f32⟩
  | 44 => ⟨S170000x64, .f32⟩
  | 45 => ⟨S_, .f32⟩
  | 46 => ⟨S170000x64, .f32⟩
  | 47 => ⟨S170000x64, .f32⟩
  | 48 => ⟨S170000x64, .f32⟩
  | 49 => ⟨S_, .f32⟩
  | 50 => ⟨S170000x64, .f32⟩
  | 51 => ⟨S170000x64, .f32⟩
  | 52 => ⟨S_, .i32⟩
  | 53 => ⟨S1200000, .i32⟩
  | 54 => ⟨S1200000, .i1⟩
  | 55 => ⟨S_, .i32⟩
  | 56 => ⟨S1200000, .i32⟩
  | 57 => ⟨S1200000, .i32⟩
  | 58 => ⟨S1200000, .i32⟩
  | 59 => ⟨S1200000x1, .i32⟩
  | 60 => ⟨S1200000x64, .f32⟩
  | 61 => ⟨S1200000x1, .f32⟩
  | 62 => ⟨S1200000x64, .f32⟩
  | 63 => ⟨S1200000x64, .f32⟩
  | 64 => ⟨S_, .f32⟩
  | 65 => ⟨S170000x64, .f32⟩
  | 66 => ⟨S1200000x1, .i32⟩
  | 67 => ⟨S170000x64, .f32⟩
  | 68 => ⟨S_, .f32⟩
  | 69 => ⟨S170000x64, .f32⟩
  | 70 => ⟨S170000x64, .f32⟩
  | 71 => ⟨S_, .f32⟩
  | 72 => ⟨S170000x64, .f32⟩
  | 73 => ⟨S170000x64, .f32⟩
  | 74 => ⟨S170000x64, .f32⟩
  | 75 => ⟨S_, .f32⟩
  | 76 => ⟨S170000x64, .f32⟩
  | 77 => ⟨S170000x64, .f32⟩
  | 78 => ⟨S1x64x64, .f32⟩
  | 79 => ⟨S64x64, .f32⟩
  | 80 => ⟨S170000x64, .f32⟩
  | 81 => ⟨S_, .f32⟩
  | 82 => ⟨S170000x64, .f32⟩
  | 83 => ⟨S170000x64, .f32⟩
  | 84 => ⟨S170000x64, .f32⟩
  | 85 => ⟨S_, .f32⟩
  | 86 => ⟨S170000x64, .f32⟩
  | 87 => ⟨S170000x64, .f32⟩
  | 88 => ⟨S_, .i32⟩
  | 89 => ⟨S1200000, .i32⟩
  | 90 => ⟨S1200000, .i1⟩
  | 91 => ⟨S_, .i32⟩
  | 92 => ⟨S1200000, .i32⟩
  | 93 => ⟨S1200000, .i32⟩
  | 94 => ⟨S1200000, .i32⟩
  | 95 => ⟨S1200000x1, .i32⟩
  | 96 => ⟨S1200000x64, .f32⟩
  | 97 => ⟨S1200000x1, .f32⟩
  | 98 => ⟨S1200000x64, .f32⟩
  | 99 => ⟨S1200000x64, .f32⟩
  | 100 => ⟨S_, .f32⟩
  | 101 => ⟨S170000x64, .f32⟩
  | 102 => ⟨S1200000x1, .i32⟩
  | 103 => ⟨S170000x64, .f32⟩
  | 104 => ⟨S_, .f32⟩
  | 105 => ⟨S170000x64, .f32⟩
  | 106 => ⟨S170000x64, .f32⟩
  | 107 => ⟨S_, .f32⟩
  | 108 => ⟨S170000x64, .f32⟩
  | 109 => ⟨S170000x64, .f32⟩
  | 110 => ⟨S170000x64, .f32⟩
  | 111 => ⟨S_, .f32⟩
  | 112 => ⟨S170000x64, .f32⟩
  | 113 => ⟨S170000x64, .f32⟩
  | 114 => ⟨S1x64x64, .f32⟩
  | 115 => ⟨S64x64, .f32⟩
  | 116 => ⟨S170000x64, .f32⟩
  | 117 => ⟨S_, .f32⟩
  | 118 => ⟨S170000x64, .f32⟩
  | 119 => ⟨S170000x64, .f32⟩
  | 120 => ⟨S170000x64, .f32⟩
  | 121 => ⟨S_, .f32⟩
  | 122 => ⟨S170000x64, .f32⟩
  | 123 => ⟨S170000x64, .f32⟩
  | 124 => ⟨S_, .i32⟩
  | 125 => ⟨S1200000, .i32⟩
  | 126 => ⟨S1200000, .i1⟩
  | 127 => ⟨S_, .i32⟩
  | _ => ⟨S170000x128, .f32⟩

abbrev hbmTy0_1 (i : Nat) : BufTy := match i % 128 with
  | 0 => ⟨S1200000, .i32⟩
  | 1 => ⟨S1200000, .i32⟩
  | 2 => ⟨S1200000, .i32⟩
  | 3 => ⟨S1200000x1, .i32⟩
  | 4 => ⟨S1200000x64, .f32⟩
  | 5 => ⟨S1200000x1, .f32⟩
  | 6 => ⟨S1200000x64, .f32⟩
  | 7 => ⟨S1200000x64, .f32⟩
  | 8 => ⟨S_, .f32⟩
  | 9 => ⟨S170000x64, .f32⟩
  | 10 => ⟨S1200000x1, .i32⟩
  | 11 => ⟨S170000x64, .f32⟩
  | 12 => ⟨S_, .f32⟩
  | 13 => ⟨S170000x64, .f32⟩
  | 14 => ⟨S170000x64, .f32⟩
  | 15 => ⟨S_, .f32⟩
  | 16 => ⟨S170000x64, .f32⟩
  | 17 => ⟨S170000x64, .f32⟩
  | 18 => ⟨S170000x64, .f32⟩
  | 19 => ⟨S_, .f32⟩
  | 20 => ⟨S170000x64, .f32⟩
  | 21 => ⟨S170000x64, .f32⟩
  | 22 => ⟨S1x64x64, .f32⟩
  | 23 => ⟨S64x64, .f32⟩
  | 24 => ⟨S170000x64, .f32⟩
  | 25 => ⟨S_, .f32⟩
  | 26 => ⟨S170000x64, .f32⟩
  | 27 => ⟨S170000x64, .f32⟩
  | 28 => ⟨S170000x64, .f32⟩
  | 29 => ⟨S_, .f32⟩
  | 30 => ⟨S170000x64, .f32⟩
  | 31 => ⟨S170000x64, .f32⟩
  | 32 => ⟨S_, .i32⟩
  | 33 => ⟨S1200000, .i32⟩
  | 34 => ⟨S1200000, .i1⟩
  | 35 => ⟨S_, .i32⟩
  | 36 => ⟨S1200000, .i32⟩
  | 37 => ⟨S1200000, .i32⟩
  | 38 => ⟨S1200000, .i32⟩
  | 39 => ⟨S1200000x1, .i32⟩
  | 40 => ⟨S1200000x64, .f32⟩
  | 41 => ⟨S1200000x1, .f32⟩
  | 42 => ⟨S1200000x64, .f32⟩
  | 43 => ⟨S1200000x64, .f32⟩
  | 44 => ⟨S_, .f32⟩
  | 45 => ⟨S170000x64, .f32⟩
  | 46 => ⟨S1200000x1, .i32⟩
  | 47 => ⟨S170000x64, .f32⟩
  | 48 => ⟨S_, .f32⟩
  | 49 => ⟨S170000x64, .f32⟩
  | 50 => ⟨S170000x64, .f32⟩
  | 51 => ⟨S_, .f32⟩
  | 52 => ⟨S170000x64, .f32⟩
  | 53 => ⟨S170000x64, .f32⟩
  | 54 => ⟨S170000x64, .f32⟩
  | 55 => ⟨S_, .f32⟩
  | 56 => ⟨S170000x64, .f32⟩
  | 57 => ⟨S170000x64, .f32⟩
  | 58 => ⟨S1x64x64, .f32⟩
  | 59 => ⟨S64x64, .f32⟩
  | 60 => ⟨S170000x64, .f32⟩
  | 61 => ⟨S_, .f32⟩
  | 62 => ⟨S170000x64, .f32⟩
  | 63 => ⟨S170000x64, .f32⟩
  | 64 => ⟨S170000x64, .f32⟩
  | 65 => ⟨S_, .f32⟩
  | 66 => ⟨S170000x64, .f32⟩
  | 67 => ⟨S170000x64, .f32⟩
  | 68 => ⟨S_, .i32⟩
  | 69 => ⟨S1200000, .i32⟩
  | 70 => ⟨S1200000, .i1⟩
  | 71 => ⟨S_, .i32⟩
  | 72 => ⟨S1200000, .i32⟩
  | 73 => ⟨S1200000, .i32⟩
  | 74 => ⟨S1200000, .i32⟩
  | 75 => ⟨S1200000x1, .i32⟩
  | 76 => ⟨S1200000x64, .f32⟩
  | 77 => ⟨S1200000x1, .f32⟩
  | 78 => ⟨S1200000x64, .f32⟩
  | 79 => ⟨S1200000x64, .f32⟩
  | 80 => ⟨S_, .f32⟩
  | 81 => ⟨S170000x64, .f32⟩
  | 82 => ⟨S1200000x1, .i32⟩
  | 83 => ⟨S170000x64, .f32⟩
  | 84 => ⟨S_, .f32⟩
  | 85 => ⟨S170000x64, .f32⟩
  | 86 => ⟨S170000x64, .f32⟩
  | 87 => ⟨S_, .f32⟩
  | 88 => ⟨S170000x64, .f32⟩
  | 89 => ⟨S170000x64, .f32⟩
  | 90 => ⟨S170000x64, .f32⟩
  | 91 => ⟨S_, .f32⟩
  | 92 => ⟨S170000x64, .f32⟩
  | 93 => ⟨S170000x64, .f32⟩
  | 94 => ⟨S1x64x64, .f32⟩
  | 95 => ⟨S64x64, .f32⟩
  | 96 => ⟨S170000x64, .f32⟩
  | 97 => ⟨S_, .f32⟩
  | 98 => ⟨S170000x64, .f32⟩
  | 99 => ⟨S170000x64, .f32⟩
  | 100 => ⟨S170000x64, .f32⟩
  | 101 => ⟨S_, .f32⟩
  | 102 => ⟨S170000x64, .f32⟩
  | 103 => ⟨S170000x64, .f32⟩
  | 104 => ⟨S_, .i32⟩
  | 105 => ⟨S1200000, .i32⟩
  | 106 => ⟨S1200000, .i1⟩
  | 107 => ⟨S_, .i32⟩
  | 108 => ⟨S1200000, .i32⟩
  | 109 => ⟨S1200000, .i32⟩
  | 110 => ⟨S1200000, .i32⟩
  | 111 => ⟨S1200000x1, .i32⟩
  | 112 => ⟨S1200000x64, .f32⟩
  | 113 => ⟨S1200000x1, .f32⟩
  | 114 => ⟨S1200000x64, .f32⟩
  | 115 => ⟨S1200000x64, .f32⟩
  | 116 => ⟨S_, .f32⟩
  | 117 => ⟨S170000x64, .f32⟩
  | 118 => ⟨S1200000x1, .i32⟩
  | 119 => ⟨S170000x64, .f32⟩
  | 120 => ⟨S_, .f32⟩
  | 121 => ⟨S170000x64, .f32⟩
  | 122 => ⟨S170000x64, .f32⟩
  | 123 => ⟨S_, .f32⟩
  | 124 => ⟨S170000x64, .f32⟩
  | 125 => ⟨S170000x64, .f32⟩
  | 126 => ⟨S170000x64, .f32⟩
  | 127 => ⟨S_, .f32⟩
  | _ => ⟨S170000x128, .f32⟩

abbrev hbmTy0_2 (i : Nat) : BufTy := match i % 128 with
  | 0 => ⟨S170000x64, .f32⟩
  | 1 => ⟨S170000x64, .f32⟩
  | 2 => ⟨S1x64x64, .f32⟩
  | 3 => ⟨S64x64, .f32⟩
  | 4 => ⟨S170000x64, .f32⟩
  | 5 => ⟨S_, .f32⟩
  | 6 => ⟨S170000x64, .f32⟩
  | 7 => ⟨S170000x64, .f32⟩
  | 8 => ⟨S170000x64, .f32⟩
  | 9 => ⟨S_, .f32⟩
  | 10 => ⟨S170000x64, .f32⟩
  | 11 => ⟨S170000x64, .f32⟩
  | 12 => ⟨S170000x40, .f32⟩
  | 13 => ⟨S1x40, .f32⟩
  | 14 => ⟨S170000x40, .f32⟩
  | 15 => ⟨S170000x40, .f32⟩
  | 16 => ⟨S_, .f32⟩
  | 17 => ⟨S170000, .f32⟩
  | 18 => ⟨S_, .f32⟩
  | 19 => ⟨S170000, .f32⟩
  | 20 => ⟨S170000, .f32⟩
  | 21 => ⟨S170000x1, .f32⟩
  | 22 => ⟨S170000x40, .f32⟩
  | 23 => ⟨S170000x40, .f32⟩
  | 24 => ⟨S170000x40, .f32⟩
  | 25 => ⟨S_, .f32⟩
  | 26 => ⟨S170000, .f32⟩
  | 27 => ⟨S170000x1, .f32⟩
  | 28 => ⟨S170000x1, .f32⟩
  | 29 => ⟨S170000x40, .f32⟩
  | 30 => ⟨S170000x40, .f32⟩
  | _ => ⟨S170000x128, .f32⟩

abbrev hbmTy (i : Nat) : BufTy := match i / 128 with
  | 0 => hbmTy0_0 i
  | 1 => hbmTy0_1 i
  | 2 => hbmTy0_2 i
  | _ => ⟨S170000x128, .f32⟩

abbrev bufTy : (tb : Table) → Fin (tcTables nBuf tb) → BufTy
  | .hbm, ⟨i, _⟩ => hbmTy i
  | _, _ => ⟨S170000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_1 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_call1_cst : Ref sig .tc := ⟨.hbm, 49, rfl⟩
abbrev main_call1_v0 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_c_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_8 : Ref sig .tc := ⟨.hbm, 68, rfl⟩
abbrev main_v45 : Ref sig .tc := ⟨.hbm, 69, rfl⟩
abbrev main_v46 : Ref sig .tc := ⟨.hbm, 70, rfl⟩
abbrev main_cst_9 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_10 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_11 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_call2_cst : Ref sig .tc := ⟨.hbm, 85, rfl⟩
abbrev main_call2_v0 : Ref sig .tc := ⟨.hbm, 86, rfl⟩
abbrev main_v58 : Ref sig .tc := ⟨.hbm, 87, rfl⟩
abbrev main_c_12 : Ref sig .tc := ⟨.hbm, 88, rfl⟩
abbrev main_v59 : Ref sig .tc := ⟨.hbm, 89, rfl⟩
abbrev main_v60 : Ref sig .tc := ⟨.hbm, 90, rfl⟩
abbrev main_c_13 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_14 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_15 : Ref sig .tc := ⟨.hbm, 104, rfl⟩
abbrev main_v72 : Ref sig .tc := ⟨.hbm, 105, rfl⟩
abbrev main_v73 : Ref sig .tc := ⟨.hbm, 106, rfl⟩
abbrev main_cst_16 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_17 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_18 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_call3_cst : Ref sig .tc := ⟨.hbm, 121, rfl⟩
abbrev main_call3_v0 : Ref sig .tc := ⟨.hbm, 122, rfl⟩
abbrev main_v85 : Ref sig .tc := ⟨.hbm, 123, rfl⟩
abbrev main_c_19 : Ref sig .tc := ⟨.hbm, 124, rfl⟩
abbrev main_v86 : Ref sig .tc := ⟨.hbm, 125, rfl⟩
abbrev main_v87 : Ref sig .tc := ⟨.hbm, 126, rfl⟩
abbrev main_c_20 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_cst_21 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_cst_22 : Ref sig .tc := ⟨.hbm, 140, rfl⟩
abbrev main_v99 : Ref sig .tc := ⟨.hbm, 141, rfl⟩
abbrev main_v100 : Ref sig .tc := ⟨.hbm, 142, rfl⟩
abbrev main_cst_23 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_cst_24 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_cst_25 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_call4_cst : Ref sig .tc := ⟨.hbm, 157, rfl⟩
abbrev main_call4_v0 : Ref sig .tc := ⟨.hbm, 158, rfl⟩
abbrev main_v112 : Ref sig .tc := ⟨.hbm, 159, rfl⟩
abbrev main_c_26 : Ref sig .tc := ⟨.hbm, 160, rfl⟩
abbrev main_v113 : Ref sig .tc := ⟨.hbm, 161, rfl⟩
abbrev main_v114 : Ref sig .tc := ⟨.hbm, 162, rfl⟩
abbrev main_c_27 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_cst_28 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_cst_29 : Ref sig .tc := ⟨.hbm, 176, rfl⟩
abbrev main_v126 : Ref sig .tc := ⟨.hbm, 177, rfl⟩
abbrev main_v127 : Ref sig .tc := ⟨.hbm, 178, rfl⟩
abbrev main_cst_30 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_cst_31 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_cst_32 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_call5_cst : Ref sig .tc := ⟨.hbm, 193, rfl⟩
abbrev main_call5_v0 : Ref sig .tc := ⟨.hbm, 194, rfl⟩
abbrev main_v139 : Ref sig .tc := ⟨.hbm, 195, rfl⟩
abbrev main_c_33 : Ref sig .tc := ⟨.hbm, 196, rfl⟩
abbrev main_v140 : Ref sig .tc := ⟨.hbm, 197, rfl⟩
abbrev main_v141 : Ref sig .tc := ⟨.hbm, 198, rfl⟩
abbrev main_c_34 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_cst_35 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_cst_36 : Ref sig .tc := ⟨.hbm, 212, rfl⟩
abbrev main_v153 : Ref sig .tc := ⟨.hbm, 213, rfl⟩
abbrev main_v154 : Ref sig .tc := ⟨.hbm, 214, rfl⟩
abbrev main_cst_37 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_cst_38 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩
abbrev main_v161 : Ref sig .tc := ⟨.hbm, 223, rfl⟩
abbrev main_v162 : Ref sig .tc := ⟨.hbm, 224, rfl⟩
abbrev main_cst_39 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_call6_cst : Ref sig .tc := ⟨.hbm, 229, rfl⟩
abbrev main_call6_v0 : Ref sig .tc := ⟨.hbm, 230, rfl⟩
abbrev main_v166 : Ref sig .tc := ⟨.hbm, 231, rfl⟩
abbrev main_c_40 : Ref sig .tc := ⟨.hbm, 232, rfl⟩
abbrev main_v167 : Ref sig .tc := ⟨.hbm, 233, rfl⟩
abbrev main_v168 : Ref sig .tc := ⟨.hbm, 234, rfl⟩
abbrev main_c_41 : Ref sig .tc := ⟨.hbm, 235, rfl⟩
abbrev main_v169 : Ref sig .tc := ⟨.hbm, 236, rfl⟩
abbrev main_v170 : Ref sig .tc := ⟨.hbm, 237, rfl⟩
abbrev main_v171 : Ref sig .tc := ⟨.hbm, 238, rfl⟩
abbrev main_v172 : Ref sig .tc := ⟨.hbm, 239, rfl⟩
abbrev main_v173 : Ref sig .tc := ⟨.hbm, 240, rfl⟩
abbrev main_v174 : Ref sig .tc := ⟨.hbm, 241, rfl⟩
abbrev main_v175 : Ref sig .tc := ⟨.hbm, 242, rfl⟩
abbrev main_v176 : Ref sig .tc := ⟨.hbm, 243, rfl⟩
abbrev main_cst_42 : Ref sig .tc := ⟨.hbm, 244, rfl⟩
abbrev main_v177 : Ref sig .tc := ⟨.hbm, 245, rfl⟩
abbrev main_v178 : Ref sig .tc := ⟨.hbm, 246, rfl⟩
abbrev main_v179 : Ref sig .tc := ⟨.hbm, 247, rfl⟩
abbrev main_cst_43 : Ref sig .tc := ⟨.hbm, 248, rfl⟩
abbrev main_v180 : Ref sig .tc := ⟨.hbm, 249, rfl⟩
abbrev main_v181 : Ref sig .tc := ⟨.hbm, 250, rfl⟩
abbrev main_cst_44 : Ref sig .tc := ⟨.hbm, 251, rfl⟩
abbrev main_v182 : Ref sig .tc := ⟨.hbm, 252, rfl⟩
abbrev main_v183 : Ref sig .tc := ⟨.hbm, 253, rfl⟩
abbrev main_v184 : Ref sig .tc := ⟨.hbm, 254, rfl⟩
abbrev main_cst_45 : Ref sig .tc := ⟨.hbm, 255, rfl⟩
abbrev main_v185 : Ref sig .tc := ⟨.hbm, 256, rfl⟩
abbrev main_v186 : Ref sig .tc := ⟨.hbm, 257, rfl⟩
abbrev main_v187 : Ref sig .tc := ⟨.hbm, 258, rfl⟩
abbrev main_v188 : Ref sig .tc := ⟨.hbm, 259, rfl⟩
abbrev main_v189 : Ref sig .tc := ⟨.hbm, 260, rfl⟩
abbrev main_cst_46 : Ref sig .tc := ⟨.hbm, 261, rfl⟩
abbrev main_v190 : Ref sig .tc := ⟨.hbm, 262, rfl⟩
abbrev main_v191 : Ref sig .tc := ⟨.hbm, 263, rfl⟩
abbrev main_v192 : Ref sig .tc := ⟨.hbm, 264, rfl⟩
abbrev main_call7_cst : Ref sig .tc := ⟨.hbm, 265, rfl⟩
abbrev main_call7_v0 : Ref sig .tc := ⟨.hbm, 266, rfl⟩
abbrev main_v193 : Ref sig .tc := ⟨.hbm, 267, rfl⟩
abbrev main_v194 : Ref sig .tc := ⟨.hbm, 268, rfl⟩
abbrev main_v195 : Ref sig .tc := ⟨.hbm, 269, rfl⟩
abbrev main_v196 : Ref sig .tc := ⟨.hbm, 270, rfl⟩
abbrev main_v197 : Ref sig .tc := ⟨.hbm, 271, rfl⟩
abbrev main_call8_cst : Ref sig .tc := ⟨.hbm, 272, rfl⟩
abbrev main_call8_v0 : Ref sig .tc := ⟨.hbm, 273, rfl⟩
abbrev main_call8_cst_0 : Ref sig .tc := ⟨.hbm, 274, rfl⟩
abbrev main_call8_v1 : Ref sig .tc := ⟨.hbm, 275, rfl⟩
abbrev main_call8_v2 : Ref sig .tc := ⟨.hbm, 276, rfl⟩
abbrev main_call8_v3 : Ref sig .tc := ⟨.hbm, 277, rfl⟩
abbrev main_call8_v4 : Ref sig .tc := ⟨.hbm, 278, rfl⟩
abbrev main_call8_v5 : Ref sig .tc := ⟨.hbm, 279, rfl⟩
abbrev main_call8_v6 : Ref sig .tc := ⟨.hbm, 280, rfl⟩
abbrev main_call8_cst_1 : Ref sig .tc := ⟨.hbm, 281, rfl⟩
abbrev main_call8_v7 : Ref sig .tc := ⟨.hbm, 282, rfl⟩
abbrev main_call8_v8 : Ref sig .tc := ⟨.hbm, 283, rfl⟩
abbrev main_call8_v9 : Ref sig .tc := ⟨.hbm, 284, rfl⟩
abbrev main_call8_v10 : Ref sig .tc := ⟨.hbm, 285, rfl⟩
abbrev main_v198 : Ref sig .tc := ⟨.hbm, 286, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S170000x64_0_1 : S1x64.BroadcastsInDim S170000x64 (![0, 1] : Fin 2 → Fin S170000x64.rank)
  bcast_S_S170000x64 : S_.BroadcastsInDim S170000x64 (![] : Fin 0 → Fin S170000x64.rank)
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S1200000x1_S1200000x64_0_1 : S1200000x1.BroadcastsInDim S1200000x64 (![0, 1] : Fin 2 → Fin S1200000x64.rank)
  slices_S7x64x64_S1x64x64_0_0_0 : S7x64x64.Slices ![0, 0, 0] S1x64x64
  shapeCasts_S1x64x64_S64x64 : S1x64x64.ShapeCasts S64x64
  slices_S7x64x64_S1x64x64_1_0_0 : S7x64x64.Slices ![1, 0, 0] S1x64x64
  slices_S7x64x64_S1x64x64_2_0_0 : S7x64x64.Slices ![2, 0, 0] S1x64x64
  slices_S7x64x64_S1x64x64_3_0_0 : S7x64x64.Slices ![3, 0, 0] S1x64x64
  slices_S7x64x64_S1x64x64_4_0_0 : S7x64x64.Slices ![4, 0, 0] S1x64x64
  slices_S7x64x64_S1x64x64_5_0_0 : S7x64x64.Slices ![5, 0, 0] S1x64x64
  slices_S7x64x64_S1x64x64_6_0_0 : S7x64x64.Slices ![6, 0, 0] S1x64x64
  bcast_S40_S1x40_1 : S40.BroadcastsInDim S1x40 (![1] : Fin 1 → Fin S1x40.rank)
  bcast_S1x40_S170000x40_0_1 : S1x40.BroadcastsInDim S170000x40 (![0, 1] : Fin 2 → Fin S170000x40.rank)
  reducesTo_S170000x40_S170000_d1 : S170000x40.ReducesTo [1] S170000
  h_S_ : 0 < S_.numel
  bcast_S_S170000 : S_.BroadcastsInDim S170000 (![] : Fin 0 → Fin S170000.rank)
  bcast_S170000_S170000x1_0 : S170000.BroadcastsInDim S170000x1 (![0] : Fin 1 → Fin S170000x1.rank)
  bcast_S170000x1_S170000x40_0_1 : S170000x1.BroadcastsInDim S170000x40 (![0, 1] : Fin 2 → Fin S170000x40.rank)
  dot_S170000x128_S128x64_S170000x64_1_0_0_1_n_n_wf : DotDims.WF S170000x128 S128x64 S170000x64 [1] [0] [0] [1] [] []
  gather_S170000x64_S1200000x1_S1200000x64_1_0_n_n_0_1_164_wf : GatherDims.WF S170000x64 S1200000x1 S1200000x64 [1] [0] [] [0] [] 1 ![1, 64]
  scatter_S170000x64_S1200000x1_S1200000x64_1_0_0_1_wf : ScatterDims.WF S170000x64 S1200000x1 S1200000x64 [1] [0] [0] 1
  dot_S170000x64_S64x64_S170000x64_1_0_0_1_n_n_wf : DotDims.WF S170000x64 S64x64 S170000x64 [1] [0] [0] [1] [] []
  dot_S170000x64_S64x40_S170000x40_1_0_0_1_n_n_wf : DotDims.WF S170000x64 S64x40 S170000x40 [1] [0] [0] [1] [] []

variable [Facts₀]

def dot_S170000x128_S128x64_S170000x64_1_0_0_1_n_n : DotDims S170000x128 S128x64 S170000x64 where
  lhsContracting := [1]
  rhsContracting := [0]
  lhsNonContracting := [0]
  rhsNonContracting := [1]
  lhsBatch := []
  rhsBatch := []
  wf := dot_S170000x128_S128x64_S170000x64_1_0_0_1_n_n_wf
def gather_S170000x64_S1200000x1_S1200000x64_1_0_n_n_0_1_164 : GatherDims S170000x64 S1200000x1 S1200000x64 where
  offsetDims := [1]
  collapsedSliceDims := [0]
  operandBatchingDims := []
  startIndicesBatchingDims := []
  startIndexMap := [0]
  indexVectorDim := 1
  sliceSizes := ![1, 64]
  wf := gather_S170000x64_S1200000x1_S1200000x64_1_0_n_n_0_1_164_wf
def scatter_S170000x64_S1200000x1_S1200000x64_1_0_0_1 : ScatterDims S170000x64 S1200000x1 S1200000x64 where
  updateWindowDims := [1]
  insertedWindowDims := [0]
  scatterDimsToOperandDims := [0]
  indexVectorDim := 1
  wf := scatter_S170000x64_S1200000x1_S1200000x64_1_0_0_1_wf
def dot_S170000x64_S64x64_S170000x64_1_0_0_1_n_n : DotDims S170000x64 S64x64 S170000x64 where
  lhsContracting := [1]
  rhsContracting := [0]
  lhsNonContracting := [0]
  rhsNonContracting := [1]
  lhsBatch := []
  rhsBatch := []
  wf := dot_S170000x64_S64x64_S170000x64_1_0_0_1_n_n_wf
def dot_S170000x64_S64x40_S170000x40_1_0_0_1_n_n : DotDims S170000x64 S64x40 S170000x40 where
  lhsContracting := [1]
  rhsContracting := [0]
  lhsNonContracting := [0]
  rhsNonContracting := [1]
  lhsBatch := []
  rhsBatch := []
  wf := dot_S170000x64_S64x40_S170000x40_1_0_0_1_n_n_wf

class Facts : Prop extends Facts₀ where

variable [Facts]
-- ==== Proof.RefValueSeg0.lean ====
import proofs.«148744_j91096256348434_1_alg».proof.Proof.RefRead
import Idealize.ShloMosaic.Lib.StableHlo.Run

/-!
The reference's first 7 host operations (the input projection `relu (x · W + b)`) as one line of operations, the buffers they
write, and what the line leaves in its result buffer `main_v4` from any contents of the buffers it reads.
-/

noncomputable section

namespace Cert.ReferenceIdeal.RunValue

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The line's operations, in order. -/
abbrev seg0 : List (HloOp τ sig (Elt F)) :=
  [ binary main_arg0 main_arg4 main_v0 ((fun l r => Host.dotGeneral dot_S170000x128_S128x64_S170000x64_1_0_0_1_n_n none l r) : (⟨S170000x128, .f32⟩ : BufTy).Contents (Elt F) → (⟨S128x64, .f32⟩ : BufTy).Contents (Elt F) → (⟨S170000x64, .f32⟩ : BufTy).Contents (Elt F)),
    unary main_arg5 main_v1 (broadcastInDim S1x64 ![1] bcast_S64_S1x64_1 : (⟨S64, .f32⟩ : BufTy).Contents (Elt F) → (⟨S1x64, .f32⟩ : BufTy).Contents (Elt F)),
    unary main_v1 main_v2 (broadcastInDim S170000x64 ![0, 1] bcast_S1x64_S170000x64_0_1 : (⟨S1x64, .f32⟩ : BufTy).Contents (Elt F) → (⟨S170000x64, .f32⟩ : BufTy).Contents (Elt F)),
    binary main_v0 main_v2 main_v3 (addf : (⟨S170000x64, .f32⟩ : BufTy).Contents (Elt F) → (⟨S170000x64, .f32⟩ : BufTy).Contents (Elt F) → (⟨S170000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S170000x64, .f32⟩) main_call0_v0) (broadcastInDim S170000x64 ![] bcast_S_S170000x64),
    TRef.binary (TRef.of (T := ⟨S170000x64, .f32⟩) main_v3) (TRef.of (T := ⟨S170000x64, .f32⟩) main_call0_v0) (TRef.of (T := ⟨S170000x64, .f32⟩) main_v4) maximumf ]

/-- The buffers the line writes, in order. -/
abbrev seg0_W : List (Ref sig .tc) := [main_v0, main_v1, main_v2, main_v3, main_call0_cst, main_call0_v0, main_v4]

theorem seg0_writes : (seg0 : List (HloOp τ sig (Elt F))).Forall fun op => op.writes ⊆ (seg0_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the line does not write keeps its contents through it. -/
theorem seg0_keep (W : Valuation τ sig (Elt F)) (r : Ref sig .tc) (h : r ∉ seg0_W) :
    after seg0 W (Proc.devRef .tc r) = W (Proc.devRef .tc r) :=
  after_of_writes_sub seg0 _ seg0_writes h

/-- The line's result: the input projection of the three arguments it reads. -/
theorem seg0_value (W : Valuation τ sig (Elt F)) (x0 : (⟨S170000x128, .f32⟩ : BufTy).Contents (Elt F)) (x4 : (⟨S128x64, .f32⟩ : BufTy).Contents (Elt F)) (x5 : (⟨S64, .f32⟩ : BufTy).Contents (Elt F))
    (h0 : W (Proc.devRef .tc main_arg0) = x0) (h4 : W (Proc.devRef .tc main_arg4) = x4) (h5 : W (Proc.devRef .tc main_arg5) = x5) :
    after seg0 W (Proc.devRef .tc main_v4) = val_main_v4 (F := F) x0 x4 x5 := by
  simp only [seg0]
  after_results_simp
  rw [h0, h4, h5]
  rfl

end Cert.ReferenceIdeal.RunValue

end
-- ==== Proof.RefValueSeg1.lean ====
import proofs.«148744_j91096256348434_1_alg».proof.Proof.RefRead
import Idealize.ShloMosaic.Lib.StableHlo.Run

/-!
The reference's host operations 7 to 42 (graph-convolution layer 1: gather the neighbours' rows, weight and scatter-add them,
mix with the first stage's value, apply the layer's weight, relu) as one line of operations, the buffers they write, and what the
line leaves in its result buffer `main_v31` from any contents of the buffers it reads.
-/

noncomputable section

namespace Cert.ReferenceIdeal.RunValue

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The line's operations, in order. -/
abbrev seg1 : List (HloOp τ sig (Elt F)) :=
  [ nullary main_c (constantI S_ 32 0#32),
    unary main_c main_v5 (broadcastInDim S1200000 ![] bcast_S_S1200000 : (⟨S_, .i32⟩ : BufTy).Contents (Elt F) → (⟨S1200000, .i32⟩ : BufTy).Contents (Elt F)),
    binary main_arg1 main_v5 main_v6 (cmpi .slt : (⟨S1200000, .i32⟩ : BufTy).Contents (Elt F) → (⟨S1200000, .i32⟩ : BufTy).Contents (Elt F) → (⟨S1200000, .i1⟩ : BufTy).Contents (Elt F)),
    nullary main_c_0 (constantI S_ 32 170000#32),
    unary main_c_0 main_v7 (broadcastInDim S1200000 ![] bcast_S_S1200000 : (⟨S_, .i32⟩ : BufTy).Contents (Elt F) → (⟨S1200000, .i32⟩ : BufTy).Contents (Elt F)),
    binary main_arg1 main_v7 main_v8 (addi : (⟨S1200000, .i32⟩ : BufTy).Contents (Elt F) → (⟨S1200000, .i32⟩ : BufTy).Contents (Elt F) → (⟨S1200000, .i32⟩ : BufTy).Contents (Elt F)),
    ternary main_v6 main_v8 main_arg1 main_v9 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v9 main_v10 (broadcastInDim S1200000x1 ![0] bcast_S1200000_S1200000x1_0 : (⟨S1200000, .i32⟩ : BufTy).Contents (Elt F) → (⟨S1200000x1, .i32⟩ : BufTy).Contents (Elt F)),
    binary main_v4 main_v10 main_v11 ((fun x i => Host.gather gather_S170000x64_S1200000x1_S1200000x64_1_0_n_n_0_1_164 x i) : (⟨S170000x64, .f32⟩ : BufTy).Contents (Elt F) → (⟨S1200000x1, .i32⟩ : BufTy).Contents (Elt F) → (⟨S1200000x64, .f32⟩ : BufTy).Contents (Elt F)),
    unary main_arg3 main_v12 (broadcastInDim S1200000x1 ![0] bcast_S1200000_S1200000x1_0 : (⟨S1200000, .f32⟩ : BufTy).Contents (Elt F) → (⟨S1200000x1, .f32⟩ : BufTy).Contents (Elt F)),
    unary main_v12 main_v13 (broadcastInDim S1200000x64 ![0, 1] bcast_S1200000x1_S1200000x64_0_1 : (⟨S1200000x1, .f32⟩ : BufTy).Contents (Elt F) → (⟨S1200000x64, .f32⟩ : BufTy).Contents (Elt F)),
    binary main_v11 main_v13 main_v14 (mulf : (⟨S1200000x64, .f32⟩ : BufTy).Contents (Elt F) → (⟨S1200000x64, .f32⟩ : BufTy).Contents (Elt F) → (⟨S1200000x64, .f32⟩ : BufTy).Contents (Elt F)),
    nullary main_cst (constant S_ .f32 0x00000000#32),
    unary main_cst main_v15 (broadcastInDim S170000x64 ![] bcast_S_S170000x64 : (⟨S_, .f32⟩ : BufTy).Contents (Elt F) → (⟨S170000x64, .f32⟩ : BufTy).Contents (Elt F)),
    unary main_arg2 main_v16 (broadcastInDim S1200000x1 ![0] bcast_S1200000_S1200000x1_0 : (⟨S1200000, .i32⟩ : BufTy).Contents (Elt F) → (⟨S1200000x1, .i32⟩ : BufTy).Contents (Elt F)),
    ternary main_v15 main_v16 main_v14 main_v17 ((fun x i u => Host.scatterAdd scatter_S170000x64_S1200000x1_S1200000x64_1_0_0_1 x i u) : (⟨S170000x64, .f32⟩ : BufTy).Contents (Elt F) → (⟨S1200000x1, .i32⟩ : BufTy).Contents (Elt F) → (⟨S1200000x64, .f32⟩ : BufTy).Contents (Elt F) → (⟨S170000x64, .f32⟩ : BufTy).Contents (Elt F)),
    nullary main_cst_1 (constant S_ .f32 0x3F666666#32),
    unary main_cst_1 main_v18 (broadcastInDim S170000x64 ![] bcast_S_S170000x64 : (⟨S_, .f32⟩ : BufTy).Contents (Elt F) → (⟨S170000x64, .f32⟩ : BufTy).Contents (Elt F)),
    binary main_v18 main_v17 main_v19 (mulf : (⟨S170000x64, .f32⟩ : BufTy).Contents (Elt F) → (⟨S170000x64, .f32⟩ : BufTy).Contents (Elt F) → (⟨S170000x64, .f32⟩ : BufTy).Contents (Elt F)),
    nullary main_cst_2 (constant S_ .f32 0x3DCCCCCD#32),
    unary main_cst_2 main_v20 (broadcastInDim S170000x64 ![] bcast_S_S170000x64 : (⟨S_, .f32⟩ : BufTy).Contents (Elt F) → (⟨S170000x64, .f32⟩ : BufTy).Contents (Elt F)),
    binary main_v20 main_v4 main_v21 (mulf : (⟨S170000x64, .f32⟩ : BufTy).Contents (Elt F) → (⟨S170000x64, .f32⟩ : BufTy).Contents (Elt F) → (⟨S170000x64, .f32⟩ : BufTy).Contents (Elt F)),
    binary main_v19 main_v21 main_v22 (addf : (⟨S170000x64, .f32⟩ : BufTy).Contents (Elt F) → (⟨S170000x64, .f32⟩ : BufTy).Contents (Elt F) → (⟨S170000x64, .f32⟩ : BufTy).Contents (Elt F)),
    nullary main_cst_3 (constant S_ .f32 0x3F183370#32),
    unary main_cst_3 main_v23 (broadcastInDim S170000x64 ![] bcast_S_S170000x64 : (⟨S_, .f32⟩ : BufTy).Contents (Elt F) → (⟨S170000x64, .f32⟩ : BufTy).Contents (Elt F)),
    binary main_v23 main_v22 main_v24 (mulf : (⟨S170000x64, .f32⟩ : BufTy).Contents (Elt F) → (⟨S170000x64, .f32⟩ : BufTy).Contents (Elt F) → (⟨S170000x64, .f32⟩ : BufTy).Contents (Elt F)),
    unary main_arg6 main_v25 ((extractStridedSlice S1x64x64 ![0, 0, 0] · slices_S7x64x64_S1x64x64_0_0_0) : (⟨S7x64x64, .f32⟩ : BufTy).Contents (Elt F) → (⟨S1x64x64, .f32⟩ : BufTy).Contents (Elt F)),
    reshape main_v25 main_v26 rfl shapeCasts_S1x64x64_S64x64,
    binary main_v22 main_v26 main_v27 ((fun l r => Host.dotGeneral dot_S170000x64_S64x64_S170000x64_1_0_0_1_n_n none l r) : (⟨S170000x64, .f32⟩ : BufTy).Contents (Elt F) → (⟨S64x64, .f32⟩ : BufTy).Contents (Elt F) → (⟨S170000x64, .f32⟩ : BufTy).Contents (Elt F)),
    nullary main_cst_4 (constant S_ .f32 0x3ECF991F#32),
    unary main_cst_4 main_v28 (broadcastInDim S170000x64 ![] bcast_S_S170000x64 : (⟨S_, .f32⟩ : BufTy).Contents (Elt F) → (⟨S170000x64, .f32⟩ : BufTy).Contents (Elt F)),
    binary main_v28 main_v27 main_v29 (mulf : (⟨S170000x64, .f32⟩ : BufTy).Contents (Elt F) → (⟨S170000x64, .f32⟩ : BufTy).Contents (Elt F) → (⟨S170000x64, .f32⟩ : BufTy).Contents (Elt F)),
    binary main_v24 main_v29 main_v30 (addf : (⟨S170000x64, .f32⟩ : BufTy).Contents (Elt F) → (⟨S170000x64, .f32⟩ : BufTy).Contents (Elt F) → (⟨S170000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S170000x64, .f32⟩) main_call1_v0) (broadcastInDim S170000x64 ![] bcast_S_S170000x64),
    TRef.binary (TRef.of (T := ⟨S170000x64, .f32⟩) main_v30) (TRef.of (T := ⟨S170000x64, .f32⟩) main_call1_v0) (TRef.of (T := ⟨S170000x64, .f32⟩) main_v31) maximumf ]

/-- The buffers the line writes, in order. -/
abbrev seg1_W : List (Ref sig .tc) := [main_c, main_v5, main_v6, main_c_0, main_v7, main_v8, main_v9, main_v10, main_v11, main_v12, main_v13, main_v14, main_cst, main_v15, main_v16, main_v17, main_cst_1, main_v18, main_v19, main_cst_2, main_v20, main_v21, main_v22, main_cst_3, main_v23, main_v24, main_v25, main_v26, main_v27, main_cst_4, main_v28, main_v29, main_v30, main_call1_cst, main_call1_v0, main_v31]

set_option maxRecDepth 8192 in
theorem seg1_writes : (seg1 : List (HloOp τ sig (Elt F))).Forall fun op => op.writes ⊆ (seg1_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the line does not write keeps its contents through it. -/
theorem seg1_keep (W : Valuation τ sig (Elt F)) (r : Ref sig .tc) (h : r ∉ seg1_W) :
    after seg1 W (Proc.devRef .tc r) = W (Proc.devRef .tc r) :=
  after_of_writes_sub seg1 _ seg1_writes h

set_option maxRecDepth 8192 in
/-- The line's result: the layer's value, from the previous layer's value, the first stage's value and the four arguments it reads. -/
theorem seg1_value (W : Valuation τ sig (Elt F)) (x0 : (⟨S170000x128, .f32⟩ : BufTy).Contents (Elt F)) (x1 : (⟨S1200000, .i32⟩ : BufTy).Contents (Elt F)) (x2 : (⟨S1200000, .i32⟩ : BufTy).Contents (Elt F)) (x3 : (⟨S1200000, .f32⟩ : BufTy).Contents (Elt F)) (x4 : (⟨S128x64, .f32⟩ : BufTy).Contents (Elt F)) (x5 : (⟨S64, .f32⟩ : BufTy).Contents (Elt F)) (x6 : (⟨S7x64x64, .f32⟩ : BufTy).Contents (Elt F))
    (h4 : W (Proc.devRef .tc main_v4) = val_main_v4 (F := F) x0 x4 x5)
    (h1 : W (Proc.devRef .tc main_arg1) = x1) (h2 : W (Proc.devRef .tc main_arg2) = x2) (h3 : W (Proc.devRef .tc main_arg3) = x3) (h6 : W (Proc.devRef .tc main_arg6) = x6) :
    after seg1 W (Proc.devRef .tc main_v31) = val_main_v31 (F := F) x0 x1 x2 x3 x4 x5 x6 := by
  simp only [seg1]
  after_results_simp
  rw [h4, h1, h2, h3, h6]
  rfl

end Cert.ReferenceIdeal.RunValue

end
-- ==== Proof.RefValueSeg2.lean ====
import proofs.«148744_j91096256348434_1_alg».proof.Proof.RefRead
import Idealize.ShloMosaic.Lib.StableHlo.Run

/-!
The reference's host operations 43 to 78 (graph-convolution layer 2: gather the neighbours' rows, weight and scatter-add them,
mix with the first stage's value, apply the layer's weight, relu) as one line of operations, the buffers they write, and what the
line leaves in its result buffer `main_v58` from any contents of the buffers it reads.
-/

noncomputable section

namespace Cert.ReferenceIdeal.RunValue

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The line's operations, in order. -/
abbrev seg2 : List (HloOp τ sig (Elt F)) :=
  [ nullary main_c_5 (constantI S_ 32 0#32),
    unary main_c_5 main_v32 (broadcastInDim S1200000 ![] bcast_S_S1200000 : (⟨S_, .i32⟩ : BufTy).Contents (Elt F) → (⟨S1200000, .i32⟩ : BufTy).Contents (Elt F)),
    binary main_arg1 main_v32 main_v33 (cmpi .slt : (⟨S1200000, .i32⟩ : BufTy).Contents (Elt F) → (⟨S1200000, .i32⟩ : BufTy).Contents (Elt F) → (⟨S1200000, .i1⟩ : BufTy).Contents (Elt F)),
    nullary main_c_6 (constantI S_ 32 170000#32),
    unary main_c_6 main_v34 (broadcastInDim S1200000 ![] bcast_S_S1200000 : (⟨S_, .i32⟩ : BufTy).Contents (Elt F) → (⟨S1200000, .i32⟩ : BufTy).Contents (Elt F)),
    binary main_arg1 main_v34 main_v35 (addi : (⟨S1200000, .i32⟩ : BufTy).Contents (Elt F) → (⟨S1200000, .i32⟩ : BufTy).Contents (Elt F) → (⟨S1200000, .i32⟩ : BufTy).Contents (Elt F)),
    ternary main_v33 main_v35 main_arg1 main_v36 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v36 main_v37 (broadcastInDim S1200000x1 ![0] bcast_S1200000_S1200000x1_0 : (⟨S1200000, .i32⟩ : BufTy).Contents (Elt F) → (⟨S1200000x1, .i32⟩ : BufTy).Contents (Elt F)),
    binary main_v31 main_v37 main_v38 ((fun x i => Host.gather gather_S170000x64_S1200000x1_S1200000x64_1_0_n_n_0_1_164 x i) : (⟨S170000x64, .f32⟩ : BufTy).Contents (Elt F) → (⟨S1200000x1, .i32⟩ : BufTy).Contents (Elt F) → (⟨S1200000x64, .f32⟩ : BufTy).Contents (Elt F)),
    unary main_arg3 main_v39 (broadcastInDim S1200000x1 ![0] bcast_S1200000_S1200000x1_0 : (⟨S1200000, .f32⟩ : BufTy).Contents (Elt F) → (⟨S1200000x1, .f32⟩ : BufTy).Contents (Elt F)),
    unary main_v39 main_v40 (broadcastInDim S1200000x64 ![0, 1] bcast_S1200000x1_S1200000x64_0_1 : (⟨S1200000x1, .f32⟩ : BufTy).Contents (Elt F) → (⟨S1200000x64, .f32⟩ : BufTy).Contents (Elt F)),
    binary main_v38 main_v40 main_v41 (mulf : (⟨S1200000x64, .f32⟩ : BufTy).Contents (Elt F) → (⟨S1200000x64, .f32⟩ : BufTy).Contents (Elt F) → (⟨S1200000x64, .f32⟩ : BufTy).Contents (Elt F)),
    nullary main_cst_7 (constant S_ .f32 0x00000000#32),
    unary main_cst_7 main_v42 (broadcastInDim S170000x64 ![] bcast_S_S170000x64 : (⟨S_, .f32⟩ : BufTy).Contents (Elt F) → (⟨S170000x64, .f32⟩ : BufTy).Contents (Elt F)),
    unary main_arg2 main_v43 (broadcastInDim S1200000x1 ![0] bcast_S1200000_S1200000x1_0 : (⟨S1200000, .i32⟩ : BufTy).Contents (Elt F) → (⟨S1200000x1, .i32⟩ : BufTy).Contents (Elt F)),
    ternary main_v42 main_v43 main_v41 main_v44 ((fun x i u => Host.scatterAdd scatter_S170000x64_S1200000x1_S1200000x64_1_0_0_1 x i u) : (⟨S170000x64, .f32⟩ : BufTy).Contents (Elt F) → (⟨S1200000x1, .i32⟩ : BufTy).Contents (Elt F) → (⟨S1200000x64, .f32⟩ : BufTy).Contents (Elt F) → (⟨S170000x64, .f32⟩ : BufTy).Contents (Elt F)),
    nullary main_cst_8 (constant S_ .f32 0x3F666666#32),
    unary main_cst_8 main_v45 (broadcastInDim S170000x64 ![] bcast_S_S170000x64 : (⟨S_, .f32⟩ : BufTy).Contents (Elt F) → (⟨S170000x64, .f32⟩ : BufTy).Contents (Elt F)),
    binary main_v45 main_v44 main_v46 (mulf : (⟨S170000x64, .f32⟩ : BufTy).Contents (Elt F) → (⟨S170000x64, .f32⟩ : BufTy).Contents (Elt F) → (⟨S170000x64, .f32⟩ : BufTy).Contents (Elt F)),
    nullary main_cst_9 (constant S_ .f32 0x3DCCCCCD#32),
    unary main_cst_9 main_v47 (broadcastInDim S170000x64 ![] bcast_S_S170000x64 : (⟨S_, .f32⟩ : BufTy).Contents (Elt F) → (⟨S170000x64, .f32⟩ : BufTy).Contents (Elt F)),
    binary main_v47 main_v4 main_v48 (mulf : (⟨S170000x64, .f32⟩ : BufTy).Contents (Elt F) → (⟨S170000x64, .f32⟩ : BufTy).Contents (Elt F) → (⟨S170000x64, .f32⟩ : BufTy).Contents (Elt F)),
    binary main_v46 main_v48 main_v49 (addf : (⟨S170000x64, .f32⟩ : BufTy).Contents (Elt F) → (⟨S170000x64, .f32⟩ : BufTy).Contents (Elt F) → (⟨S170000x64, .f32⟩ : BufTy).Contents (Elt F)),
    nullary main_cst_10 (constant S_ .f32 0x3F46E010#32),
    unary main_cst_10 main_v50 (broadcastInDim S170000x64 ![] bcast_S_S170000x64 : (⟨S_, .f32⟩ : BufTy).Contents (Elt F) → (⟨S170000x64, .f32⟩ : BufTy).Contents (Elt F)),
    binary main_v50 main_v49 main_v51 (mulf : (⟨S170000x64, .f32⟩ : BufTy).Contents (Elt F) → (⟨S170000x64, .f32⟩ : BufTy).Contents (Elt F) → (⟨S170000x64, .f32⟩ : BufTy).Contents (Elt F)),
    unary main_arg6 main_v52 ((extractStridedSlice S1x64x64 ![1, 0, 0] · slices_S7x64x64_S1x64x64_1_0_0) : (⟨S7x64x64, .f32⟩ : BufTy).Contents (Elt F) → (⟨S1x64x64, .f32⟩ : BufTy).Contents (Elt F)),
    reshape main_v52 main_v53 rfl shapeCasts_S1x64x64_S64x64,
    binary main_v49 main_v53 main_v54 ((fun l r => Host.dotGeneral dot_S170000x64_S64x64_S170000x64_1_0_0_1_n_n none l r) : (⟨S170000x64, .f32⟩ : BufTy).Contents (Elt F) → (⟨S64x64, .f32⟩ : BufTy).Contents (Elt F) → (⟨S170000x64, .f32⟩ : BufTy).Contents (Elt F)),
    nullary main_cst_11 (constant S_ .f32 0x3E647FBE#32),
    unary main_cst_11 main_v55 (broadcastInDim S170000x64 ![] bcast_S_S170000x64 : (⟨S_, .f32⟩ : BufTy).Contents (Elt F) → (⟨S170000x64, .f32⟩ : BufTy).Contents (Elt F)),
    binary main_v55 main_v54 main_v56 (mulf : (⟨S170000x64, .f32⟩ : BufTy).Contents (Elt F) → (⟨S170000x64, .f32⟩ : BufTy).Contents (Elt F) → (⟨S170000x64, .f32⟩ : BufTy).Contents (Elt F)),
    binary main_v51 main_v56 main_v57 (addf : (⟨S170000x64, .f32⟩ : BufTy).Contents (Elt F) → (⟨S170000x64, .f32⟩ : BufTy).Contents (Elt F) → (⟨S170000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S170000x64, .f32⟩) main_call2_v0) (broadcastInDim S170000x64 ![] bcast_S_S170000x64),
    TRef.binary (TRef.of (T := ⟨S170000x64, .f32⟩) main_v57) (TRef.of (T := ⟨S170000x64, .f32⟩) main_call2_v0) (TRef.of (T := ⟨S170000x64, .f32⟩) main_v58) maximumf ]

/-- The buffers the line writes, in order. -/
abbrev seg2_W : List (Ref sig .tc) := [main_c_5, main_v32, main_v33, main_c_6, main_v34, main_v35, main_v36, main_v37, main_v38, main_v39, main_v40, main_v41, main_cst_7, main_v42, main_v43, main_v44, main_cst_8, main_v45, main_v46, main_cst_9, main_v47, main_v48, main_v49, main_cst_10, main_v50, main_v51, main_v52, main_v53, main_v54, main_cst_11, main_v55, main_v56, main_v57, main_call2_cst, main_call2_v0, main_v58]

set_option maxRecDepth 8192 in
theorem seg2_writes : (seg2 : List (HloOp τ sig (Elt F))).Forall fun op => op.writes ⊆ (seg2_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the line does not write keeps its contents through it. -/
theorem seg2_keep (W : Valuation τ sig (Elt F)) (r : Ref sig .tc) (h : r ∉ seg2_W) :
    after seg2 W (Proc.devRef .tc r) = W (Proc.devRef .tc r) :=
  after_of_writes_sub seg2 _ seg2_writes h

set_option maxRecDepth 8192 in
/-- The line's result: the layer's value, from the previous layer's value, the first stage's value and the four arguments it reads. -/
theorem seg2_value (W : Valuation τ sig (Elt F)) (x0 : (⟨S170000x128, .f32⟩ : BufTy).Contents (Elt F)) (x1 : (⟨S1200000, .i32⟩ : BufTy).Contents (Elt F)) (x2 : (⟨S1200000, .i32⟩ : BufTy).Contents (Elt F)) (x3 : (⟨S1200000, .f32⟩ : BufTy).Contents (Elt F)) (x4 : (⟨S128x64, .f32⟩ : BufTy).Contents (Elt F)) (x5 : (⟨S64, .f32⟩ : BufTy).Contents (Elt F)) (x6 : (⟨S7x64x64, .f32⟩ : BufTy).Contents (Elt F))
    (hp : W (Proc.devRef .tc main_v31) = val_main_v31 (F := F) x0 x1 x2 x3 x4 x5 x6)
    (h4 : W (Proc.devRef .tc main_v4) = val_main_v4 (F := F) x0 x4 x5)
    (h1 : W (Proc.devRef .tc main_arg1) = x1) (h2 : W (Proc.devRef .tc main_arg2) = x2) (h3 : W (Proc.devRef .tc main_arg3) = x3) (h6 : W (Proc.devRef .tc main_arg6) = x6) :
    after seg2 W (Proc.devRef .tc main_v58) = val_main_v58 (F := F) x0 x1 x2 x3 x4 x5 x6 := by
  simp only [seg2]
  after_results_simp
  rw [hp, h4, h1, h2, h3, h6]
  rfl

end Cert.ReferenceIdeal.RunValue

end
-- ==== Proof.RefValueSeg3.lean ====
import proofs.«148744_j91096256348434_1_alg».proof.Proof.RefRead
import Idealize.ShloMosaic.Lib.StableHlo.Run

/-!
The reference's host operations 79 to 114 (graph-convolution layer 3: gather the neighbours' rows, weight and scatter-add them,
mix with the first stage's value, apply the layer's weight, relu) as one line of operations, the buffers they write, and what the
line leaves in its result buffer `main_v85` from any contents of the buffers it reads.
-/

noncomputable section

namespace Cert.ReferenceIdeal.RunValue

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The line's operations, in order. -/
abbrev seg3 : List (HloOp τ sig (Elt F)) :=
  [ nullary main_c_12 (constantI S_ 32 0#32),
    unary main_c_12 main_v59 (broadcastInDim S1200000 ![] bcast_S_S1200000 : (⟨S_, .i32⟩ : BufTy).Contents (Elt F) → (⟨S1200000, .i32⟩ : BufTy).Contents (Elt F)),
    binary main_arg1 main_v59 main_v60 (cmpi .slt : (⟨S1200000, .i32⟩ : BufTy).Contents (Elt F) → (⟨S1200000, .i32⟩ : BufTy).Contents (Elt F) → (⟨S1200000, .i1⟩ : BufTy).Contents (Elt F)),
    nullary main_c_13 (constantI S_ 32 170000#32),
    unary main_c_13 main_v61 (broadcastInDim S1200000 ![] bcast_S_S1200000 : (⟨S_, .i32⟩ : BufTy).Contents (Elt F) → (⟨S1200000, .i32⟩ : BufTy).Contents (Elt F)),
    binary main_arg1 main_v61 main_v62 (addi : (⟨S1200000, .i32⟩ : BufTy).Contents (Elt F) → (⟨S1200000, .i32⟩ : BufTy).Contents (Elt F) → (⟨S1200000, .i32⟩ : BufTy).Contents (Elt F)),
    ternary main_v60 main_v62 main_arg1 main_v63 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v63 main_v64 (broadcastInDim S1200000x1 ![0] bcast_S1200000_S1200000x1_0 : (⟨S1200000, .i32⟩ : BufTy).Contents (Elt F) → (⟨S1200000x1, .i32⟩ : BufTy).Contents (Elt F)),
    binary main_v58 main_v64 main_v65 ((fun x i => Host.gather gather_S170000x64_S1200000x1_S1200000x64_1_0_n_n_0_1_164 x i) : (⟨S170000x64, .f32⟩ : BufTy).Contents (Elt F) → (⟨S1200000x1, .i32⟩ : BufTy).Contents (Elt F) → (⟨S1200000x64, .f32⟩ : BufTy).Contents (Elt F)),
    unary main_arg3 main_v66 (broadcastInDim S1200000x1 ![0] bcast_S1200000_S1200000x1_0 : (⟨S1200000, .f32⟩ : BufTy).Contents (Elt F) → (⟨S1200000x1, .f32⟩ : BufTy).Contents (Elt F)),
    unary main_v66 main_v67 (broadcastInDim S1200000x64 ![0, 1] bcast_S1200000x1_S1200000x64_0_1 : (⟨S1200000x1, .f32⟩ : BufTy).Contents (Elt F) → (⟨S1200000x64, .f32⟩ : BufTy).Contents (Elt F)),
    binary main_v65 main_v67 main_v68 (mulf : (⟨S1200000x64, .f32⟩ : BufTy).Contents (Elt F) → (⟨S1200000x64, .f32⟩ : BufTy).Contents (Elt F) → (⟨S1200000x64, .f32⟩ : BufTy).Contents (Elt F)),
    nullary main_cst_14 (constant S_ .f32 0x00000000#32),
    unary main_cst_14 main_v69 (broadcastInDim S170000x64 ![] bcast_S_S170000x64 : (⟨S_, .f32⟩ : BufTy).Contents (Elt F) → (⟨S170000x64, .f32⟩ : BufTy).Contents (Elt F)),
    unary main_arg2 main_v70 (broadcastInDim S1200000x1 ![0] bcast_S1200000_S1200000x1_0 : (⟨S1200000, .i32⟩ : BufTy).Contents (Elt F) → (⟨S1200000x1, .i32⟩ : BufTy).Contents (Elt F)),
    ternary main_v69 main_v70 main_v68 main_v71 ((fun x i u => Host.scatterAdd scatter_S170000x64_S1200000x1_S1200000x64_1_0_0_1 x i u) : (⟨S170000x64, .f32⟩ : BufTy).Contents (Elt F) → (⟨S1200000x1, .i32⟩ : BufTy).Contents (Elt F) → (⟨S1200000x64, .f32⟩ : BufTy).Contents (Elt F) → (⟨S170000x64, .f32⟩ : BufTy).Contents (Elt F)),
    nullary main_cst_15 (constant S_ .f32 0x3F666666#32),
    unary main_cst_15 main_v72 (broadcastInDim S170000x64 ![] bcast_S_S170000x64 : (⟨S_, .f32⟩ : BufTy).Contents (Elt F) → (⟨S170000x64, .f32⟩ : BufTy).Contents (Elt F)),
    binary main_v72 main_v71 main_v73 (mulf : (⟨S170000x64, .f32⟩ : BufTy).Contents (Elt F) → (⟨S170000x64, .f32⟩ : BufTy).Contents (Elt F) → (⟨S170000x64, .f32⟩ : BufTy).Contents (Elt F)),
    nullary main_cst_16 (constant S_ .f32 0x3DCCCCCD#32),
    unary main_cst_16 main_v74 (broadcastInDim S170000x64 ![] bcast_S_S170000x64 : (⟨S_, .f32⟩ : BufTy).Contents (Elt F) → (⟨S170000x64, .f32⟩ : BufTy).Contents (Elt F)),
    binary main_v74 main_v4 main_v75 (mulf : (⟨S170000x64, .f32⟩ : BufTy).Contents (Elt F) → (⟨S170000x64, .f32⟩ : BufTy).Contents (Elt F) → (⟨S170000x64, .f32⟩ : BufTy).Contents (Elt F)),
    binary main_v73 main_v75 main_v76 (addf : (⟨S170000x64, .f32⟩ : BufTy).Contents (Elt F) → (⟨S170000x64, .f32⟩ : BufTy).Contents (Elt F) → (⟨S170000x64, .f32⟩ : BufTy).Contents (Elt F)),
    nullary main_cst_17 (constant S_ .f32 0x3F588995#32),
    unary main_cst_17 main_v77 (broadcastInDim S170000x64 ![] bcast_S_S170000x64 : (⟨S_, .f32⟩ : BufTy).Contents (Elt F) → (⟨S170000x64, .f32⟩ : BufTy).Contents (Elt F)),
    binary main_v77 main_v76 main_v78 (mulf : (⟨S170000x64, .f32⟩ : BufTy).Contents (Elt F) → (⟨S170000x64, .f32⟩ : BufTy).Contents (Elt F) → (⟨S170000x64, .f32⟩ : BufTy).Contents (Elt F)),
    unary main_arg6 main_v79 ((extractStridedSlice S1x64x64 ![2, 0, 0] · slices_S7x64x64_S1x64x64_2_0_0) : (⟨S7x64x64, .f32⟩ : BufTy).Contents (Elt F) → (⟨S1x64x64, .f32⟩ : BufTy).Contents (Elt F)),
    reshape main_v79 main_v80 rfl shapeCasts_S1x64x64_S64x64,
    binary main_v76 main_v80 main_v81 ((fun l r => Host.dotGeneral dot_S170000x64_S64x64_S170000x64_1_0_0_1_n_n none l r) : (⟨S170000x64, .f32⟩ : BufTy).Contents (Elt F) → (⟨S64x64, .f32⟩ : BufTy).Contents (Elt F) → (⟨S170000x64, .f32⟩ : BufTy).Contents (Elt F)),
    nullary main_cst_18 (constant S_ .f32 0x3E1DD9AD#32),
    unary main_cst_18 main_v82 (broadcastInDim S170000x64 ![] bcast_S_S170000x64 : (⟨S_, .f32⟩ : BufTy).Contents (Elt F) → (⟨S170000x64, .f32⟩ : BufTy).Contents (Elt F)),
    binary main_v82 main_v81 main_v83 (mulf : (⟨S170000x64, .f32⟩ : BufTy).Contents (Elt F) → (⟨S170000x64, .f32⟩ : BufTy).Contents (Elt F) → (⟨S170000x64, .f32⟩ : BufTy).Contents (Elt F)),
    binary main_v78 main_v83 main_v84 (addf : (⟨S170000x64, .f32⟩ : BufTy).Contents (Elt F) → (⟨S170000x64, .f32⟩ : BufTy).Contents (Elt F) → (⟨S170000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S170000x64, .f32⟩) main_call3_v0) (broadcastInDim S170000x64 ![] bcast_S_S170000x64),
    TRef.binary (TRef.of (T := ⟨S170000x64, .f32⟩) main_v84) (TRef.of (T := ⟨S170000x64, .f32⟩) main_call3_v0) (TRef.of (T := ⟨S170000x64, .f32⟩) main_v85) maximumf ]

/-- The buffers the line writes, in order. -/
abbrev seg3_W : List (Ref sig .tc) := [main_c_12, main_v59, main_v60, main_c_13, main_v61, main_v62, main_v63, main_v64, main_v65, main_v66, main_v67, main_v68, main_cst_14, main_v69, main_v70, main_v71, main_cst_15, main_v72, main_v73, main_cst_16, main_v74, main_v75, main_v76, main_cst_17, main_v77, main_v78, main_v79, main_v80, main_v81, main_cst_18, main_v82, main_v83, main_v84, main_call3_cst, main_call3_v0, main_v85]

set_option maxRecDepth 8192 in
theorem seg3_writes : (seg3 : List (HloOp τ sig (Elt F))).Forall fun op => op.writes ⊆ (seg3_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the line does not write keeps its contents through it. -/
theorem seg3_keep (W : Valuation τ sig (Elt F)) (r : Ref sig .tc) (h : r ∉ seg3_W) :
    after seg3 W (Proc.devRef .tc r) = W (Proc.devRef .tc r) :=
  after_of_writes_sub seg3 _ seg3_writes h

set_option maxRecDepth 8192 in
/-- The line's result: the layer's value, from the previous layer's value, the first stage's value and the four arguments it reads. -/
theorem seg3_value (W : Valuation τ sig (Elt F)) (x0 : (⟨S170000x128, .f32⟩ : BufTy).Contents (Elt F)) (x1 : (⟨S1200000, .i32⟩ : BufTy).Contents (Elt F)) (x2 : (⟨S1200000, .i32⟩ : BufTy).Contents (Elt F)) (x3 : (⟨S1200000, .f32⟩ : BufTy).Contents (Elt F)) (x4 : (⟨S128x64, .f32⟩ : BufTy).Contents (Elt F)) (x5 : (⟨S64, .f32⟩ : BufTy).Contents (Elt F)) (x6 : (⟨S7x64x64, .f32⟩ : BufTy).Contents (Elt F))
    (hp : W (Proc.devRef .tc main_v58) = val_main_v58 (F := F) x0 x1 x2 x3 x4 x5 x6)
    (h4 : W (Proc.devRef .tc main_v4) = val_main_v4 (F := F) x0 x4 x5)
    (h1 : W (Proc.devRef .tc main_arg1) = x1) (h2 : W (Proc.devRef .tc main_arg2) = x2) (h3 : W (Proc.devRef .tc main_arg3) = x3) (h6 : W (Proc.devRef .tc main_arg6) = x6) :
    after seg3 W (Proc.devRef .tc main_v85) = val_main_v85 (F := F) x0 x1 x2 x3 x4 x5 x6 := by
  simp only [seg3]
  after_results_simp
  rw [hp, h4, h1, h2, h3, h6]
  rfl

end Cert.ReferenceIdeal.RunValue

end
-- ==== Proof.RefValueSeg4.lean ====
import proofs.«148744_j91096256348434_1_alg».proof.Proof.RefRead
import Idealize.ShloMosaic.Lib.StableHlo.Run

/-!
The reference's host operations 115 to 150 (graph-convolution layer 4: gather the neighbours' rows, weight and scatter-add them,
mix with the first stage's value, apply the layer's weight, relu) as one line of operations, the buffers they write, and what the
line leaves in its result buffer `main_v112` from any contents of the buffers it reads.
-/

noncomputable section

namespace Cert.ReferenceIdeal.RunValue

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The line's operations, in order. -/
abbrev seg4 : List (HloOp τ sig (Elt F)) :=
  [ nullary main_c_19 (constantI S_ 32 0#32),
    unary main_c_19 main_v86 (broadcastInDim S1200000 ![] bcast_S_S1200000 : (⟨S_, .i32⟩ : BufTy).Contents (Elt F) → (⟨S1200000, .i32⟩ : BufTy).Contents (Elt F)),
    binary main_arg1 main_v86 main_v87 (cmpi .slt : (⟨S1200000, .i32⟩ : BufTy).Contents (Elt F) → (⟨S1200000, .i32⟩ : BufTy).Contents (Elt F) → (⟨S1200000, .i1⟩ : BufTy).Contents (Elt F)),
    nullary main_c_20 (constantI S_ 32 170000#32),
    unary main_c_20 main_v88 (broadcastInDim S1200000 ![] bcast_S_S1200000 : (⟨S_, .i32⟩ : BufTy).Contents (Elt F) → (⟨S1200000, .i32⟩ : BufTy).Contents (Elt F)),
    binary main_arg1 main_v88 main_v89 (addi : (⟨S1200000, .i32⟩ : BufTy).Contents (Elt F) → (⟨S1200000, .i32⟩ : BufTy).Contents (Elt F) → (⟨S1200000, .i32⟩ : BufTy).Contents (Elt F)),
    ternary main_v87 main_v89 main_arg1 main_v90 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v90 main_v91 (broadcastInDim S1200000x1 ![0] bcast_S1200000_S1200000x1_0 : (⟨S1200000, .i32⟩ : BufTy).Contents (Elt F) → (⟨S1200000x1, .i32⟩ : BufTy).Contents (Elt F)),
    binary main_v85 main_v91 main_v92 ((fun x i => Host.gather gather_S170000x64_S1200000x1_S1200000x64_1_0_n_n_0_1_164 x i) : (⟨S170000x64, .f32⟩ : BufTy).Contents (Elt F) → (⟨S1200000x1, .i32⟩ : BufTy).Contents (Elt F) → (⟨S1200000x64, .f32⟩ : BufTy).Contents (Elt F)),
    unary main_arg3 main_v93 (broadcastInDim S1200000x1 ![0] bcast_S1200000_S1200000x1_0 : (⟨S1200000, .f32⟩ : BufTy).Contents (Elt F) → (⟨S1200000x1, .f32⟩ : BufTy).Contents (Elt F)),
    unary main_v93 main_v94 (broadcastInDim S1200000x64 ![0, 1] bcast_S1200000x1_S1200000x64_0_1 : (⟨S1200000x1, .f32⟩ : BufTy).Contents (Elt F) → (⟨S1200000x64, .f32⟩ : BufTy).Contents (Elt F)),
    binary main_v92 main_v94 main_v95 (mulf : (⟨S1200000x64, .f32⟩ : BufTy).Contents (Elt F) → (⟨S1200000x64, .f32⟩ : BufTy).Contents (Elt F) → (⟨S1200000x64, .f32⟩ : BufTy).Contents (Elt F)),
    nullary main_cst_21 (constant S_ .f32 0x00000000#32),
    unary main_cst_21 main_v96 (broadcastInDim S170000x64 ![] bcast_S_S170000x64 : (⟨S_, .f32⟩ : BufTy).Contents (Elt F) → (⟨S170000x64, .f32⟩ : BufTy).Contents (Elt F)),
    unary main_arg2 main_v97 (broadcastInDim S1200000x1 ![0] bcast_S1200000_S1200000x1_0 : (⟨S1200000, .i32⟩ : BufTy).Contents (Elt F) → (⟨S1200000x1, .i32⟩ : BufTy).Contents (Elt F)),
    ternary main_v96 main_v97 main_v95 main_v98 ((fun x i u => Host.scatterAdd scatter_S170000x64_S1200000x1_S1200000x64_1_0_0_1 x i u) : (⟨S170000x64, .f32⟩ : BufTy).Contents (Elt F) → (⟨S1200000x1, .i32⟩ : BufTy).Contents (Elt F) → (⟨S1200000x64, .f32⟩ : BufTy).Contents (Elt F) → (⟨S170000x64, .f32⟩ : BufTy).Contents (Elt F)),
    nullary main_cst_22 (constant S_ .f32 0x3F666666#32),
    unary main_cst_22 main_v99 (broadcastInDim S170000x64 ![] bcast_S_S170000x64 : (⟨S_, .f32⟩ : BufTy).Contents (Elt F) → (⟨S170000x64, .f32⟩ : BufTy).Contents (Elt F)),
    binary main_v99 main_v98 main_v100 (mulf : (⟨S170000x64, .f32⟩ : BufTy).Contents (Elt F) → (⟨S170000x64, .f32⟩ : BufTy).Contents (Elt F) → (⟨S170000x64, .f32⟩ : BufTy).Contents (Elt F)),
    nullary main_cst_23 (constant S_ .f32 0x3DCCCCCD#32),
    unary main_cst_23 main_v101 (broadcastInDim S170000x64 ![] bcast_S_S170000x64 : (⟨S_, .f32⟩ : BufTy).Contents (Elt F) → (⟨S170000x64, .f32⟩ : BufTy).Contents (Elt F)),
    binary main_v101 main_v4 main_v102 (mulf : (⟨S170000x64, .f32⟩ : BufTy).Contents (Elt F) → (⟨S170000x64, .f32⟩ : BufTy).Contents (Elt F) → (⟨S170000x64, .f32⟩ : BufTy).Contents (Elt F)),
    binary main_v100 main_v102 main_v103 (addf : (⟨S170000x64, .f32⟩ : BufTy).Contents (Elt F) → (⟨S170000x64, .f32⟩ : BufTy).Contents (Elt F) → (⟨S170000x64, .f32⟩ : BufTy).Contents (Elt F)),
    nullary main_cst_24 (constant S_ .f32 0x3F61D8F9#32),
    unary main_cst_24 main_v104 (broadcastInDim S170000x64 ![] bcast_S_S170000x64 : (⟨S_, .f32⟩ : BufTy).Contents (Elt F) → (⟨S170000x64, .f32⟩ : BufTy).Contents (Elt F)),
    binary main_v104 main_v103 main_v105 (mulf : (⟨S170000x64, .f32⟩ : BufTy).Contents (Elt F) → (⟨S170000x64, .f32⟩ : BufTy).Contents (Elt F) → (⟨S170000x64, .f32⟩ : BufTy).Contents (Elt F)),
    unary main_arg6 main_v106 ((extractStridedSlice S1x64x64 ![3, 0, 0] · slices_S7x64x64_S1x64x64_3_0_0) : (⟨S7x64x64, .f32⟩ : BufTy).Contents (Elt F) → (⟨S1x64x64, .f32⟩ : BufTy).Contents (Elt F)),
    reshape main_v106 main_v107 rfl shapeCasts_S1x64x64_S64x64,
    binary main_v103 main_v107 main_v108 ((fun l r => Host.dotGeneral dot_S170000x64_S64x64_S170000x64_1_0_0_1_n_n none l r) : (⟨S170000x64, .f32⟩ : BufTy).Contents (Elt F) → (⟨S64x64, .f32⟩ : BufTy).Contents (Elt F) → (⟨S170000x64, .f32⟩ : BufTy).Contents (Elt F)),
    nullary main_cst_25 (constant S_ .f32 0x3DF1383B#32),
    unary main_cst_25 main_v109 (broadcastInDim S170000x64 ![] bcast_S_S170000x64 : (⟨S_, .f32⟩ : BufTy).Contents (Elt F) → (⟨S170000x64, .f32⟩ : BufTy).Contents (Elt F)),
    binary main_v109 main_v108 main_v110 (mulf : (⟨S170000x64, .f32⟩ : BufTy).Contents (Elt F) → (⟨S170000x64, .f32⟩ : BufTy).Contents (Elt F) → (⟨S170000x64, .f32⟩ : BufTy).Contents (Elt F)),
    binary main_v105 main_v110 main_v111 (addf : (⟨S170000x64, .f32⟩ : BufTy).Contents (Elt F) → (⟨S170000x64, .f32⟩ : BufTy).Contents (Elt F) → (⟨S170000x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S170000x64, .f32⟩) main_call4_v0) (broadcastInDim S170000x64 ![] bcast_S_S170000x64),
    TRef.binary (TRef.of (T := ⟨S170000x64, .f32⟩) main_v111) (TRef.of (T := ⟨S170000x64, .f32⟩) main_call4_v0) (TRef.of (T := ⟨S170000x64, .f32⟩) main_v112) maximumf ]

/-- The buffers the line writes, in order. -/
abbrev seg4_W : List (Ref sig .tc) := [main_c_19, main_v86, main_v87, main_c_20, main_v88, main_v89, main_v90, main_v91, main_v92, main_v93, main_v94, main_v95, main_cst_21, main_v96, main_v97, main_v98, main_cst_22, main_v99, main_v100, main_cst_23, main_v101, main_v102, main_v103, main_cst_24, main_v104, main_v105, main_v106, main_v107, main_v108, main_cst_25, main_v109, main_v110, main_v111, main_call4_cst, main_call4_v0, main_v112]

set_option maxRecDepth 8192 in
theorem seg4_writes : (seg4 : List (HloOp τ sig (Elt F))).Forall fun op => op.writes ⊆ (seg4_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the line does not write keeps its contents through it. -/
theorem seg4_keep (W : Valuation τ sig (Elt F)) (r : Ref sig .tc) (h : r ∉ seg4_W) :
    after seg4 W (Proc.devRef .tc r) = W (Proc.devRef .tc r) :=
  after_of_writes_sub seg4 _ seg4_writes h

set_option maxRecDepth 8192 in
/-- The line's result: the layer's value, from the previous layer's value, the first stage's value and the four arguments it reads. -/
theorem seg4_value (W : Valuation τ sig (Elt F)) (x0 : (⟨S170000x128, .f32⟩ : BufTy).Contents (Elt F)) (x1 : (⟨S1200000, .i32⟩ : BufTy).Contents (Elt F)) (x2 : (⟨S1200000, .i32⟩ : BufTy).Contents (Elt F)) (x3 : (⟨S1200000, .f32⟩ : BufTy).Contents (Elt F)) (x4 : (⟨S128x64, .f32⟩ : BufTy).Contents (Elt F)) (x5 : (⟨S64, .f32⟩ : BufTy).Contents (Elt F)) (x6 : (⟨S7x64x64, .f32⟩ : BufTy).Contents (Elt F))
    (hp : W (Proc.devRef .tc main_v85) = val_main_v85 (F := F) x0 x1 x2 x3 x4 x5 x6)
    (h4 : W (Proc.devRef .tc main_v4) = val_main_v4 (F := F) x0 x4 x5)
    (h1 : W (Proc.devRef .tc main_arg1) = x1) (h2 : W (Proc.devRef .tc main_arg2) = x2) (h3 : W (Proc.devRef .tc main_arg3) = x3) (h6 : W (Proc.devRef .tc main_arg6) = x6) :
    after seg4 W (Proc.devRef .tc main_v112) = val_main_v112 (F := F) x0 x1 x2 x3 x4 x5 x6 := by
  simp only [seg4]
  after_results_simp
  rw [hp, h4, h1, h2, h3, h6]
  rfl

end Cert.ReferenceIdeal.RunValue

end
-- ==== Proof.RefValueSeg5.lean ====
import proofs.«148744_j91096256348434_1_alg».proof.Proof.RefRead
import Idealize.ShloMosaic.Lib.StableHlo.Run

/-!
The reference's host operations 151 to 186 (graph-convolution layer 5: gather the neighbours' rows, weight and scatter-add them,
mix with the first stage's value, apply the layer's weight, relu) as one line of operations, the buffers they write, and what the
line leaves in its result buffer `main_v139` from any contents of the buffers it reads.
-/

noncomputable section

namespace Cert.ReferenceIdeal.RunValue

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The line's operations, in order. -/
abbrev seg5 : List (HloOp τ sig (Elt F)) :=
  [ nullary main_c_26 (constantI S_ 32 0#32),
    unary main_c_26 main_v113 (broadcastInDim S1200000 ![] bcast_S_S1200000 : (⟨S_, .i32⟩ : BufTy).Contents (Elt F) → (⟨S1200000, .i32⟩ : BufTy).Contents (Elt F)),
    binary main_arg1 main_v113 main_v114 (cmpi .slt : (⟨S1200000, .i32⟩ : BufTy).Contents (Elt F) → (⟨S1200000, .i32⟩ : BufTy).Contents (Elt F) → (⟨S1200000, .i1⟩ : BufTy).Contents (Elt F)),
    nullary main_c_27 (constantI S_ 32 170000#32),
    unary main_c_27 main_v115 (broadcastInDim S1200000 ![] bcast_S_S1200000 : (⟨S_, .i32⟩ : BufTy).Contents (Elt F) → (⟨S1200000, .i32⟩ : BufTy).Contents (Elt F)),
    binary main_arg1 main_v115 main_v116 (addi : (⟨S1200000, .i32⟩ : BufTy).Contents (Elt F) → (⟨S1200000, .i32⟩ : BufTy).Contents (Elt F) → (⟨S1200000, .i32⟩ : BufTy).Contents (Elt F)),
    ternary main_v114 main_v116 main_arg1 main_v117 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v117 main_v118 (broadcastInDim S1200000x1 ![0] bcast_S1200000_S1200000x1_0 : (⟨S1200000, .i32⟩ : BufTy).Contents (Elt F) → (⟨S1200000x1, .i32⟩ : BufTy).Contents (Elt F)),
    binary main_v112 main_v118 main_v119 ((fun x i => Host.gather gather_S170000x64_S1200000x1_S1200000x64_1_0_n_n_0_1_164 x i) : (⟨S170000x64, .f32⟩ : BufTy).Contents (Elt F) → (⟨S1200000x1, .i32⟩ : BufTy).Contents (Elt F) → (⟨S1200000x64, .f32⟩ : BufTy).Contents (Elt F)),
    unary main_arg3 main_v120 (broadcastInDim S1200000x1 ![0] bcast_S1200000_S1200000x1_0 : (⟨S1200000, .f32⟩ : BufTy).Contents (Elt F) → (⟨S1200000x1, .f32⟩ : BufTy).Contents (Elt F)),
    unary main_v120 main_v121 (broadcastInDim S1200000x64 ![0, 1] bcast_S1200000x1_S1200000x64_0_1 : (⟨S1200000x1, .f32⟩ : BufTy).Contents (Elt F) → (⟨S1200000x64, .f32⟩ : BufTy).Contents (Elt F)),
    binary main_v119 main_v121 main_v122 (mulf : (⟨S1200000x64, .f32⟩ : BufTy).Contents (Elt F) → (⟨S1200000x64, .f32⟩ : BufTy).Contents (Elt F) → (⟨S1200000x64, .f32⟩ : BufTy).Contents (Elt F)),
    nullary main_cst_28 (constant S_ .f32 0x00000000#32),
    unary main_cst_28 main_v123 (broadcastInDim S170000x64 ![] bcast_S_S170000x64 : (⟨S_, .f32⟩ : BufTy).Contents (Elt F) → (⟨S170000x64, .f32⟩ : BufTy).Contents (Elt F)),
    unary main_arg2 main_v124 (broadcastInDim S1200000x1 ![0] bcast_S1200000_S1200000x1_0 : (⟨S1200000, .i32⟩ : BufTy).Contents (Elt F) → (⟨S1200000x1, .i32⟩ : BufTy).Contents (Elt F)),
    ternary main_v123 main_v124 main_v122 main_v125 ((fun x i u => Host.scatterAdd scatter_S170000x64_S1200000x1_S1200000x64_1_0_0_1 x i u) : (⟨S170000x64, .f32⟩ : BufTy).Contents (Elt F) → (⟨S1200000x1, .i32⟩ : BufTy).Contents (Elt F) → (⟨S1200000x64, .f32⟩ : BufTy).Contents (Elt F) → (⟨S170000x64, .f32⟩ : BufTy).Contents (Elt F)),
    nullary main_cst_29 (constant S_ .f32 0x3F666666#32),
    unary main_cst_29 main_v126 (broadcastInDim S170000x64 ![] bcast_S_S170000x64 : (⟨S_, .f32⟩ : BufTy).Contents (Elt F) → (⟨S170000x64, .f32⟩ : BufTy).Contents (Elt F)),
    binary main_v126 main_v125 main_v127 (mulf : (⟨S170000x64, .f32⟩ : BufTy).Contents (Elt F) → (⟨S170000x64, .f32⟩ : BufTy).Contents (Elt F) → (⟨S170000x64, .f32⟩ : BufTy).Contents (Elt F)),
    nullary main_cst_30 (constant S_ .f32 0x3DCCCCCD#32),
    unary main_cst_30 main_v128 (broadcastInDim S170000x64 ![] bcast_S_S170000x64 : (⟨S_, .f32⟩ : BufTy).Contents (Elt F) → (⟨S170000x64, .f32⟩ : BufTy).Contents (Elt F)),
    binary main_v128 main_v4 main_v129 (mulf : (⟨S170000x64, .f32⟩ : BufTy).Contents (Elt F) → (⟨S170000x64, .f32⟩ : BufTy).Contents (Elt F) → (⟨S170000x64, .f32⟩ : BufTy).Contents (Elt F)),
    binary main_v127 main_v129 main_v130 (addf : (⟨S170000x64, .f32⟩ : BufTy).Contents (Elt F) → (⟨S170000x64, .f32⟩ : BufTy).Contents (Elt F) → (⟨S170000x64, .f32⟩ : BufTy).Contents (Elt F)),
    nullary main_cst_31 (constant S_ .f32 0x3F6799C1#32),
    unary main_cst_31 main_v131 (broadcastInDim S170000x64 ![] bcast_S_S170000x64 : (⟨S_, .f32⟩ : BufTy).Contents (Elt F) → (⟨S170000x64, .f32⟩ : BufTy).Contents (Elt F)),
    binary main_v131 main_v130 main_v132 (mulf : (⟨S170000x64, .f32⟩ : BufTy).Contents (Elt F) → (⟨S170000x64, .f32⟩ : BufTy).Contents (Elt F) → (⟨S170000x64, .f32⟩ : BufTy).Contents (Elt F)),
    unary main_arg6 main_v133 ((extractStridedSlice S1x64x64 ![4, 0, 0] · slices_S7x64x64_S1x64x64_4_0_0) : (⟨S7x64x64, .f32⟩ : BufTy).Contents (Elt F) → (⟨S1x64x64, .f32⟩ : BufTy).Contents (Elt F)),
    reshape main_v133 main_v134 rfl shapeCasts_S1x64x64_S64x64,
    binary main_v130 main_v134 main_v135 ((fun l r => Host.dotGeneral dot_S170000x64_S64x64_S170000x64_1_0_0_1_n_n none l r) : (⟨S170000x64, .f32⟩ : BufTy).Contents (Elt F) → (⟨S64x64, .f32⟩ : BufTy).Contents (Elt F) → (⟨S170000x64, .f32⟩ : BufTy).Contents (Elt F)),
    nullary main_cst_32 (constant S_ .f32 0x3DC331FC#32),
    unary main_cst_32 main_v136 (broadcastInDim S170000x64 ![] bcast_S_S170000x64 : (⟨S_, .f32⟩ : BufTy).Contents (Elt F) → (⟨S170000x64, .f32⟩ : BufTy).Contents (Elt F)),
    binary main_v136 main_v135 main_v137 (mulf : (⟨S170000x64, .f32⟩ : BufTy).Contents (Elt F) → (⟨S170000x64, .f32⟩ : BufTy).Contents (Elt F) → (⟨S170000x64, .f32⟩ : BufTy).Contents (Elt F)),
    binary main_v132 main_v137 main_v138 (addf : (⟨S170000x64, .f32⟩ : BufTy).Contents (Elt F) → (⟨S170000x64, .f32⟩ : BufTy).Contents (Elt F) → (⟨S170000x64, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S170000x64, .f32⟩) main_call5_v0) (broadcastInDim S170000x64 ![] bcast_S_S170000x64),
    TRef.binary (TRef.of (T := ⟨S170000x64, .f32⟩) main_v138) (TRef.of (T := ⟨S170000x64, .f32⟩) main_call5_v0) (TRef.of (T := ⟨S170000x64, .f32⟩) main_v139) maximumf ]

/-- The buffers the line writes, in order. -/
abbrev seg5_W : List (Ref sig .tc) := [main_c_26, main_v113, main_v114, main_c_27, main_v115, main_v116, main_v117, main_v118, main_v119, main_v120, main_v121, main_v122, main_cst_28, main_v123, main_v124, main_v125, main_cst_29, main_v126, main_v127, main_cst_30, main_v128, main_v129, main_v130, main_cst_31, main_v131, main_v132, main_v133, main_v134, main_v135, main_cst_32, main_v136, main_v137, main_v138, main_call5_cst, main_call5_v0, main_v139]

set_option maxRecDepth 8192 in
theorem seg5_writes : (seg5 : List (HloOp τ sig (Elt F))).Forall fun op => op.writes ⊆ (seg5_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the line does not write keeps its contents through it. -/
theorem seg5_keep (W : Valuation τ sig (Elt F)) (r : Ref sig .tc) (h : r ∉ seg5_W) :
    after seg5 W (Proc.devRef .tc r) = W (Proc.devRef .tc r) :=
  after_of_writes_sub seg5 _ seg5_writes h

set_option maxRecDepth 8192 in
/-- The line's result: the layer's value, from the previous layer's value, the first stage's value and the four arguments it reads. -/
theorem seg5_value (W : Valuation τ sig (Elt F)) (x0 : (⟨S170000x128, .f32⟩ : BufTy).Contents (Elt F)) (x1 : (⟨S1200000, .i32⟩ : BufTy).Contents (Elt F)) (x2 : (⟨S1200000, .i32⟩ : BufTy).Contents (Elt F)) (x3 : (⟨S1200000, .f32⟩ : BufTy).Contents (Elt F)) (x4 : (⟨S128x64, .f32⟩ : BufTy).Contents (Elt F)) (x5 : (⟨S64, .f32⟩ : BufTy).Contents (Elt F)) (x6 : (⟨S7x64x64, .f32⟩ : BufTy).Contents (Elt F))
    (hp : W (Proc.devRef .tc main_v112) = val_main_v112 (F := F) x0 x1 x2 x3 x4 x5 x6)
    (h4 : W (Proc.devRef .tc main_v4) = val_main_v4 (F := F) x0 x4 x5)
    (h1 : W (Proc.devRef .tc main_arg1) = x1) (h2 : W (Proc.devRef .tc main_arg2) = x2) (h3 : W (Proc.devRef .tc main_arg3) = x3) (h6 : W (Proc.devRef .tc main_arg6) = x6) :
    after seg5 W (Proc.devRef .tc main_v139) = val_main_v139 (F := F) x0 x1 x2 x3 x4 x5 x6 := by
  simp only [seg5]
  after_results_simp
  rw [hp, h4, h1, h2, h3, h6]
  rfl

end Cert.ReferenceIdeal.RunValue

end
-- ==== Proof.RefValueSeg6.lean ====
import proofs.«148744_j91096256348434_1_alg».proof.Proof.RefRead
import Idealize.ShloMosaic.Lib.StableHlo.Run

/-!
The reference's host operations 187 to 222 (graph-convolution layer 6: gather the neighbours' rows, weight and scatter-add them,
mix with the first stage's value, apply the layer's weight, relu) as one line of operations, the buffers they write, and what the
line leaves in its result buffer `main_v166` from any contents of the buffers it reads.
-/

noncomputable section

namespace Cert.ReferenceIdeal.RunValue

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The line's operations, in order. -/
abbrev seg6 : List (HloOp τ sig (Elt F)) :=
  [ nullary main_c_33 (constantI S_ 32 0#32),
    unary main_c_33 main_v140 (broadcastInDim S1200000 ![] bcast_S_S1200000 : (⟨S_, .i32⟩ : BufTy).Contents (Elt F) → (⟨S1200000, .i32⟩ : BufTy).Contents (Elt F)),
    binary main_arg1 main_v140 main_v141 (cmpi .slt : (⟨S1200000, .i32⟩ : BufTy).Contents (Elt F) → (⟨S1200000, .i32⟩ : BufTy).Contents (Elt F) → (⟨S1200000, .i1⟩ : BufTy).Contents (Elt F)),
    nullary main_c_34 (constantI S_ 32 170000#32),
    unary main_c_34 main_v142 (broadcastInDim S1200000 ![] bcast_S_S1200000 : (⟨S_, .i32⟩ : BufTy).Contents (Elt F) → (⟨S1200000, .i32⟩ : BufTy).Contents (Elt F)),
    binary main_arg1 main_v142 main_v143 (addi : (⟨S1200000, .i32⟩ : BufTy).Contents (Elt F) → (⟨S1200000, .i32⟩ : BufTy).Contents (Elt F) → (⟨S1200000, .i32⟩ : BufTy).Contents (Elt F)),
    ternary main_v141 main_v143 main_arg1 main_v144 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v144 main_v145 (broadcastInDim S1200000x1 ![0] bcast_S1200000_S1200000x1_0 : (⟨S1200000, .i32⟩ : BufTy).Contents (Elt F) → (⟨S1200000x1, .i32⟩ : BufTy).Contents (Elt F)),
    binary main_v139 main_v145 main_v146 ((fun x i => Host.gather gather_S170000x64_S1200000x1_S1200000x64_1_0_n_n_0_1_164 x i) : (⟨S170000x64, .f32⟩ : BufTy).Contents (Elt F) → (⟨S1200000x1, .i32⟩ : BufTy).Contents (Elt F) → (⟨S1200000x64, .f32⟩ : BufTy).Contents (Elt F)),
    unary main_arg3 main_v147 (broadcastInDim S1200000x1 ![0] bcast_S1200000_S1200000x1_0 : (⟨S1200000, .f32⟩ : BufTy).Contents (Elt F) → (⟨S1200000x1, .f32⟩ : BufTy).Contents (Elt F)),
    unary main_v147 main_v148 (broadcastInDim S1200000x64 ![0, 1] bcast_S1200000x1_S1200000x64_0_1 : (⟨S1200000x1, .f32⟩ : BufTy).Contents (Elt F) → (⟨S1200000x64, .f32⟩ : BufTy).Contents (Elt F)),
    binary main_v146 main_v148 main_v149 (mulf : (⟨S1200000x64, .f32⟩ : BufTy).Contents (Elt F) → (⟨S1200000x64, .f32⟩ : BufTy).Contents (Elt F) → (⟨S1200000x64, .f32⟩ : BufTy).Contents (Elt F)),
    nullary main_cst_35 (constant S_ .f32 0x00000000#32),
    unary main_cst_35 main_v150 (broadcastInDim S170000x64 ![] bcast_S_S170000x64 : (⟨S_, .f32⟩ : BufTy).Contents (Elt F) → (⟨S170000x64, .f32⟩ : BufTy).Contents (Elt F)),
    unary main_arg2 main_v151 (broadcastInDim S1200000x1 ![0] bcast_S1200000_S1200000x1_0 : (⟨S1200000, .i32⟩ : BufTy).Contents (Elt F) → (⟨S1200000x1, .i32⟩ : BufTy).Contents (Elt F)),
    ternary main_v150 main_v151 main_v149 main_v152 ((fun x i u => Host.scatterAdd scatter_S170000x64_S1200000x1_S1200000x64_1_0_0_1 x i u) : (⟨S170000x64, .f32⟩ : BufTy).Contents (Elt F) → (⟨S1200000x1, .i32⟩ : BufTy).Contents (Elt F) → (⟨S1200000x64, .f32⟩ : BufTy).Contents (Elt F) → (⟨S170000x64, .f32⟩ : BufTy).Contents (Elt F)),
    nullary main_cst_36 (constant S_ .f32 0x3F666666#32),
    unary main_cst_36 main_v153 (broadcastInDim S170000x64 ![] bcast_S_S170000x64 : (⟨S_, .f32⟩ : BufTy).Contents (Elt F) → (⟨S170000x64, .f32⟩ : BufTy).Contents (Elt F)),
    binary main_v153 main_v152 main_v154 (mulf : (⟨S170000x64, .f32⟩ : BufTy).Contents (Elt F) → (⟨S170000x64, .f32⟩ : BufTy).Contents (Elt F) → (⟨S170000x64, .f32⟩ : BufTy).Contents (Elt F)),
    nullary main_cst_37 (constant S_ .f32 0x3DCCCCCD#32),
    unary main_cst_37 main_v155 (broadcastInDim S170000x64 ![] bcast_S_S170000x64 : (⟨S_, .f32⟩ : BufTy).Contents (Elt F) → (⟨S170000x64, .f32⟩ : BufTy).Contents (Elt F)),
    binary main_v155 main_v4 main_v156 (mulf : (⟨S170000x64, .f32⟩ : BufTy).Contents (Elt F) → (⟨S170000x64, .f32⟩ : BufTy).Contents (Elt F) → (⟨S170000x64, .f32⟩ : BufTy).Contents (Elt F)),
    binary main_v154 main_v156 main_v157 (addf : (⟨S170000x64, .f32⟩ : BufTy).Contents (Elt F) → (⟨S170000x64, .f32⟩ : BufTy).Contents (Elt F) → (⟨S170000x64, .f32⟩ : BufTy).Contents (Elt F)),
    nullary main_cst_38 (constant S_ .f32 0x3F6B8252#32),
    unary main_cst_38 main_v158 (broadcastInDim S170000x64 ![] bcast_S_S170000x64 : (⟨S_, .f32⟩ : BufTy).Contents (Elt F) → (⟨S170000x64, .f32⟩ : BufTy).Contents (Elt F)),
    binary main_v158 main_v157 main_v159 (mulf : (⟨S170000x64, .f32⟩ : BufTy).Contents (Elt F) → (⟨S170000x64, .f32⟩ : BufTy).Contents (Elt F) → (⟨S170000x64, .f32⟩ : BufTy).Contents (Elt F)),
    unary main_arg6 main_v160 ((extractStridedSlice S1x64x64 ![5, 0, 0] · slices_S7x64x64_S1x64x64_5_0_0) : (⟨S7x64x64, .f32⟩ : BufTy).Contents (Elt F) → (⟨S1x64x64, .f32⟩ : BufTy).Contents (Elt F)),
    reshape main_v160 main_v161 rfl shapeCasts_S1x64x64_S64x64,
    binary main_v157 main_v161 main_v162 ((fun l r => Host.dotGeneral dot_S170000x64_S64x64_S170000x64_1_0_0_1_n_n none l r) : (⟨S170000x64, .f32⟩ : BufTy).Contents (Elt F) → (⟨S64x64, .f32⟩ : BufTy).Contents (Elt F) → (⟨S170000x64, .f32⟩ : BufTy).Contents (Elt F)),
    nullary main_cst_39 (constant S_ .f32 0x3DA3ED6E#32),
    unary main_cst_39 main_v163 (broadcastInDim S170000x64 ![] bcast_S_S170000x64 : (⟨S_, .f32⟩ : BufTy).Contents (Elt F) → (⟨S170000x64, .f32⟩ : BufTy).Contents (Elt F)),
    binary main_v163 main_v162 main_v164 (mulf : (⟨S170000x64, .f32⟩ : BufTy).Contents (Elt F) → (⟨S170000x64, .f32⟩ : BufTy).Contents (Elt F) → (⟨S170000x64, .f32⟩ : BufTy).Contents (Elt F)),
    binary main_v159 main_v164 main_v165 (addf : (⟨S170000x64, .f32⟩ : BufTy).Contents (Elt F) → (⟨S170000x64, .f32⟩ : BufTy).Contents (Elt F) → (⟨S170000x64, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S170000x64, .f32⟩) main_call6_v0) (broadcastInDim S170000x64 ![] bcast_S_S170000x64),
    TRef.binary (TRef.of (T := ⟨S170000x64, .f32⟩) main_v165) (TRef.of (T := ⟨S170000x64, .f32⟩) main_call6_v0) (TRef.of (T := ⟨S170000x64, .f32⟩) main_v166) maximumf ]

/-- The buffers the line writes, in order. -/
abbrev seg6_W : List (Ref sig .tc) := [main_c_33, main_v140, main_v141, main_c_34, main_v142, main_v143, main_v144, main_v145, main_v146, main_v147, main_v148, main_v149, main_cst_35, main_v150, main_v151, main_v152, main_cst_36, main_v153, main_v154, main_cst_37, main_v155, main_v156, main_v157, main_cst_38, main_v158, main_v159, main_v160, main_v161, main_v162, main_cst_39, main_v163, main_v164, main_v165, main_call6_cst, main_call6_v0, main_v166]

set_option maxRecDepth 8192 in
theorem seg6_writes : (seg6 : List (HloOp τ sig (Elt F))).Forall fun op => op.writes ⊆ (seg6_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the line does not write keeps its contents through it. -/
theorem seg6_keep (W : Valuation τ sig (Elt F)) (r : Ref sig .tc) (h : r ∉ seg6_W) :
    after seg6 W (Proc.devRef .tc r) = W (Proc.devRef .tc r) :=
  after_of_writes_sub seg6 _ seg6_writes h

set_option maxRecDepth 8192 in
/-- The line's result: the layer's value, from the previous layer's value, the first stage's value and the four arguments it reads. -/
theorem seg6_value (W : Valuation τ sig (Elt F)) (x0 : (⟨S170000x128, .f32⟩ : BufTy).Contents (Elt F)) (x1 : (⟨S1200000, .i32⟩ : BufTy).Contents (Elt F)) (x2 : (⟨S1200000, .i32⟩ : BufTy).Contents (Elt F)) (x3 : (⟨S1200000, .f32⟩ : BufTy).Contents (Elt F)) (x4 : (⟨S128x64, .f32⟩ : BufTy).Contents (Elt F)) (x5 : (⟨S64, .f32⟩ : BufTy).Contents (Elt F)) (x6 : (⟨S7x64x64, .f32⟩ : BufTy).Contents (Elt F))
    (hp : W (Proc.devRef .tc main_v139) = val_main_v139 (F := F) x0 x1 x2 x3 x4 x5 x6)
    (h4 : W (Proc.devRef .tc main_v4) = val_main_v4 (F := F) x0 x4 x5)
    (h1 : W (Proc.devRef .tc main_arg1) = x1) (h2 : W (Proc.devRef .tc main_arg2) = x2) (h3 : W (Proc.devRef .tc main_arg3) = x3) (h6 : W (Proc.devRef .tc main_arg6) = x6) :
    after seg6 W (Proc.devRef .tc main_v166) = val_main_v166 (F := F) x0 x1 x2 x3 x4 x5 x6 := by
  simp only [seg6]
  after_results_simp
  rw [hp, h4, h1, h2, h3, h6]
  rfl

end Cert.ReferenceIdeal.RunValue

end
-- ==== Proof.RefValueSeg7.lean ====
import proofs.«148744_j91096256348434_1_alg».proof.Proof.RefRead
import Idealize.ShloMosaic.Lib.StableHlo.Run

/-!
The reference's host operations 223 to 258 (graph-convolution layer 7: gather the neighbours' rows, weight and scatter-add them,
mix with the first stage's value, apply the layer's weight, relu) as one line of operations, the buffers they write, and what the
line leaves in its result buffer `main_v193` from any contents of the buffers it reads.
-/

noncomputable section

namespace Cert.ReferenceIdeal.RunValue

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The line's operations, in order. -/
abbrev seg7 : List (HloOp τ sig (Elt F)) :=
  [ nullary main_c_40 (constantI S_ 32 0#32),
    unary main_c_40 main_v167 (broadcastInDim S1200000 ![] bcast_S_S1200000 : (⟨S_, .i32⟩ : BufTy).Contents (Elt F) → (⟨S1200000, .i32⟩ : BufTy).Contents (Elt F)),
    binary main_arg1 main_v167 main_v168 (cmpi .slt : (⟨S1200000, .i32⟩ : BufTy).Contents (Elt F) → (⟨S1200000, .i32⟩ : BufTy).Contents (Elt F) → (⟨S1200000, .i1⟩ : BufTy).Contents (Elt F)),
    nullary main_c_41 (constantI S_ 32 170000#32),
    unary main_c_41 main_v169 (broadcastInDim S1200000 ![] bcast_S_S1200000 : (⟨S_, .i32⟩ : BufTy).Contents (Elt F) → (⟨S1200000, .i32⟩ : BufTy).Contents (Elt F)),
    binary main_arg1 main_v169 main_v170 (addi : (⟨S1200000, .i32⟩ : BufTy).Contents (Elt F) → (⟨S1200000, .i32⟩ : BufTy).Contents (Elt F) → (⟨S1200000, .i32⟩ : BufTy).Contents (Elt F)),
    ternary main_v168 main_v170 main_arg1 main_v171 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v171 main_v172 (broadcastInDim S1200000x1 ![0] bcast_S1200000_S1200000x1_0 : (⟨S1200000, .i32⟩ : BufTy).Contents (Elt F) → (⟨S1200000x1, .i32⟩ : BufTy).Contents (Elt F)),
    binary main_v166 main_v172 main_v173 ((fun x i => Host.gather gather_S170000x64_S1200000x1_S1200000x64_1_0_n_n_0_1_164 x i) : (⟨S170000x64, .f32⟩ : BufTy).Contents (Elt F) → (⟨S1200000x1, .i32⟩ : BufTy).Contents (Elt F) → (⟨S1200000x64, .f32⟩ : BufTy).Contents (Elt F)),
    unary main_arg3 main_v174 (broadcastInDim S1200000x1 ![0] bcast_S1200000_S1200000x1_0 : (⟨S1200000, .f32⟩ : BufTy).Contents (Elt F) → (⟨S1200000x1, .f32⟩ : BufTy).Contents (Elt F)),
    unary main_v174 main_v175 (broadcastInDim S1200000x64 ![0, 1] bcast_S1200000x1_S1200000x64_0_1 : (⟨S1200000x1, .f32⟩ : BufTy).Contents (Elt F) → (⟨S1200000x64, .f32⟩ : BufTy).Contents (Elt F)),
    binary main_v173 main_v175 main_v176 (mulf : (⟨S1200000x64, .f32⟩ : BufTy).Contents (Elt F) → (⟨S1200000x64, .f32⟩ : BufTy).Contents (Elt F) → (⟨S1200000x64, .f32⟩ : BufTy).Contents (Elt F)),
    nullary main_cst_42 (constant S_ .f32 0x00000000#32),
    unary main_cst_42 main_v177 (broadcastInDim S170000x64 ![] bcast_S_S170000x64 : (⟨S_, .f32⟩ : BufTy).Contents (Elt F) → (⟨S170000x64, .f32⟩ : BufTy).Contents (Elt F)),
    unary main_arg2 main_v178 (broadcastInDim S1200000x1 ![0] bcast_S1200000_S1200000x1_0 : (⟨S1200000, .i32⟩ : BufTy).Contents (Elt F) → (⟨S1200000x1, .i32⟩ : BufTy).Contents (Elt F)),
    ternary main_v177 main_v178 main_v176 main_v179 ((fun x i u => Host.scatterAdd scatter_S170000x64_S1200000x1_S1200000x64_1_0_0_1 x i u) : (⟨S170000x64, .f32⟩ : BufTy).Contents (Elt F) → (⟨S1200000x1, .i32⟩ : BufTy).Contents (Elt F) → (⟨S1200000x64, .f32⟩ : BufTy).Contents (Elt F) → (⟨S170000x64, .f32⟩ : BufTy).Contents (Elt F)),
    nullary main_cst_43 (constant S_ .f32 0x3F666666#32),
    unary main_cst_43 main_v180 (broadcastInDim S170000x64 ![] bcast_S_S170000x64 : (⟨S_, .f32⟩ : BufTy).Contents (Elt F) → (⟨S170000x64, .f32⟩ : BufTy).Contents (Elt F)),
    binary main_v180 main_v179 main_v181 (mulf : (⟨S170000x64, .f32⟩ : BufTy).Contents (Elt F) → (⟨S170000x64, .f32⟩ : BufTy).Contents (Elt F) → (⟨S170000x64, .f32⟩ : BufTy).Contents (Elt F)),
    nullary main_cst_44 (constant S_ .f32 0x3DCCCCCD#32),
    unary main_cst_44 main_v182 (broadcastInDim S170000x64 ![] bcast_S_S170000x64 : (⟨S_, .f32⟩ : BufTy).Contents (Elt F) → (⟨S170000x64, .f32⟩ : BufTy).Contents (Elt F)),
    binary main_v182 main_v4 main_v183 (mulf : (⟨S170000x64, .f32⟩ : BufTy).Contents (Elt F) → (⟨S170000x64, .f32⟩ : BufTy).Contents (Elt F) → (⟨S170000x64, .f32⟩ : BufTy).Contents (Elt F)),
    binary main_v181 main_v183 main_v184 (addf : (⟨S170000x64, .f32⟩ : BufTy).Contents (Elt F) → (⟨S170000x64, .f32⟩ : BufTy).Contents (Elt F) → (⟨S170000x64, .f32⟩ : BufTy).Contents (Elt F)),
    nullary main_cst_45 (constant S_ .f32 0x3F6E567C#32),
    unary main_cst_45 main_v185 (broadcastInDim S170000x64 ![] bcast_S_S170000x64 : (⟨S_, .f32⟩ : BufTy).Contents (Elt F) → (⟨S170000x64, .f32⟩ : BufTy).Contents (Elt F)),
    binary main_v185 main_v184 main_v186 (mulf : (⟨S170000x64, .f32⟩ : BufTy).Contents (Elt F) → (⟨S170000x64, .f32⟩ : BufTy).Contents (Elt F) → (⟨S170000x64, .f32⟩ : BufTy).Contents (Elt F)),
    unary main_arg6 main_v187 ((extractStridedSlice S1x64x64 ![6, 0, 0] · slices_S7x64x64_S1x64x64_6_0_0) : (⟨S7x64x64, .f32⟩ : BufTy).Contents (Elt F) → (⟨S1x64x64, .f32⟩ : BufTy).Contents (Elt F)),
    reshape main_v187 main_v188 rfl shapeCasts_S1x64x64_S64x64,
    binary main_v184 main_v188 main_v189 ((fun l r => Host.dotGeneral dot_S170000x64_S64x64_S170000x64_1_0_0_1_n_n none l r) : (⟨S170000x64, .f32⟩ : BufTy).Contents (Elt F) → (⟨S64x64, .f32⟩ : BufTy).Contents (Elt F) → (⟨S170000x64, .f32⟩ : BufTy).Contents (Elt F)),
    nullary main_cst_46 (constant S_ .f32 0x3D8D4C22#32),
    unary main_cst_46 main_v190 (broadcastInDim S170000x64 ![] bcast_S_S170000x64 : (⟨S_, .f32⟩ : BufTy).Contents (Elt F) → (⟨S170000x64, .f32⟩ : BufTy).Contents (Elt F)),
    binary main_v190 main_v189 main_v191 (mulf : (⟨S170000x64, .f32⟩ : BufTy).Contents (Elt F) → (⟨S170000x64, .f32⟩ : BufTy).Contents (Elt F) → (⟨S170000x64, .f32⟩ : BufTy).Contents (Elt F)),
    binary main_v186 main_v191 main_v192 (addf : (⟨S170000x64, .f32⟩ : BufTy).Contents (Elt F) → (⟨S170000x64, .f32⟩ : BufTy).Contents (Elt F) → (⟨S170000x64, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S170000x64, .f32⟩) main_call7_v0) (broadcastInDim S170000x64 ![] bcast_S_S170000x64),
    TRef.binary (TRef.of (T := ⟨S170000x64, .f32⟩) main_v192) (TRef.of (T := ⟨S170000x64, .f32⟩) main_call7_v0) (TRef.of (T := ⟨S170000x64, .f32⟩) main_v193) maximumf ]

/-- The buffers the line writes, in order. -/
abbrev seg7_W : List (Ref sig .tc) := [main_c_40, main_v167, main_v168, main_c_41, main_v169, main_v170, main_v171, main_v172, main_v173, main_v174, main_v175, main_v176, main_cst_42, main_v177, main_v178, main_v179, main_cst_43, main_v180, main_v181, main_cst_44, main_v182, main_v183, main_v184, main_cst_45, main_v185, main_v186, main_v187, main_v188, main_v189, main_cst_46, main_v190, main_v191, main_v192, main_call7_cst, main_call7_v0, main_v193]

set_option maxRecDepth 8192 in
theorem seg7_writes : (seg7 : List (HloOp τ sig (Elt F))).Forall fun op => op.writes ⊆ (seg7_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the line does not write keeps its contents through it. -/
theorem seg7_keep (W : Valuation τ sig (Elt F)) (r : Ref sig .tc) (h : r ∉ seg7_W) :
    after seg7 W (Proc.devRef .tc r) = W (Proc.devRef .tc r) :=
  after_of_writes_sub seg7 _ seg7_writes h

set_option maxRecDepth 8192 in
/-- The line's result: the layer's value, from the previous layer's value, the first stage's value and the four arguments it reads. -/
theorem seg7_value (W : Valuation τ sig (Elt F)) (x0 : (⟨S170000x128, .f32⟩ : BufTy).Contents (Elt F)) (x1 : (⟨S1200000, .i32⟩ : BufTy).Contents (Elt F)) (x2 : (⟨S1200000, .i32⟩ : BufTy).Contents (Elt F)) (x3 : (⟨S1200000, .f32⟩ : BufTy).Contents (Elt F)) (x4 : (⟨S128x64, .f32⟩ : BufTy).Contents (Elt F)) (x5 : (⟨S64, .f32⟩ : BufTy).Contents (Elt F)) (x6 : (⟨S7x64x64, .f32⟩ : BufTy).Contents (Elt F))
    (hp : W (Proc.devRef .tc main_v166) = val_main_v166 (F := F) x0 x1 x2 x3 x4 x5 x6)
    (h4 : W (Proc.devRef .tc main_v4) = val_main_v4 (F := F) x0 x4 x5)
    (h1 : W (Proc.devRef .tc main_arg1) = x1) (h2 : W (Proc.devRef .tc main_arg2) = x2) (h3 : W (Proc.devRef .tc main_arg3) = x3) (h6 : W (Proc.devRef .tc main_arg6) = x6) :
    after seg7 W (Proc.devRef .tc main_v193) = val_main_v193 (F := F) x0 x1 x2 x3 x4 x5 x6 := by
  simp only [seg7]
  after_results_simp
  rw [hp, h4, h1, h2, h3, h6]
  rfl

end Cert.ReferenceIdeal.RunValue

end
-- ==== Proof.RefValueSeg8.lean ====
import proofs.«148744_j91096256348434_1_alg».proof.Proof.RefRead
import Idealize.ShloMosaic.Lib.StableHlo.Run

/-!
The reference's last 19 host operations (the output projection `h · W + b` and the log-softmax of each row) as one line of
operations, the buffers they write, and what the line leaves in its result buffer `main_v198` from any contents of the buffers it reads.
-/

noncomputable section

namespace Cert.ReferenceIdeal.RunValue

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Contents carried to a typed reference's buffer type and back are the contents. -/
theorem ofBuf_toBuf {T : BufTy} {Val : EltTy → Type} (x : TRef sig T) (v : T.Contents Val) : x.ofBuf (x.toBuf v) = v := by
  obtain ⟨r, h, _, _⟩ := x
  subst h
  rfl

/-- The line's operations, in order. -/
abbrev seg8 : List (HloOp τ sig (Elt F)) :=
  [ binary main_v193 main_arg7 main_v194 ((fun l r => Host.dotGeneral dot_S170000x64_S64x40_S170000x40_1_0_0_1_n_n none l r) : (⟨S170000x64, .f32⟩ : BufTy).Contents (Elt F) → (⟨S64x40, .f32⟩ : BufTy).Contents (Elt F) → (⟨S170000x40, .f32⟩ : BufTy).Contents (Elt F)),
    unary main_arg8 main_v195 (broadcastInDim S1x40 ![1] bcast_S40_S1x40_1 : (⟨S40, .f32⟩ : BufTy).Contents (Elt F) → (⟨S1x40, .f32⟩ : BufTy).Contents (Elt F)),
    unary main_v195 main_v196 (broadcastInDim S170000x40 ![0, 1] bcast_S1x40_S170000x40_0_1 : (⟨S1x40, .f32⟩ : BufTy).Contents (Elt F) → (⟨S170000x40, .f32⟩ : BufTy).Contents (Elt F)),
    binary main_v194 main_v196 main_v197 (addf : (⟨S170000x40, .f32⟩ : BufTy).Contents (Elt F) → (⟨S170000x40, .f32⟩ : BufTy).Contents (Elt F) → (⟨S170000x40, .f32⟩ : BufTy).Contents (Elt F)),
    TRef.nullary (TRef.of (T := ⟨S_, .f32⟩) main_call8_cst) (constant S_ .f32 0xFF800000#32),
    TRef.binary (TRef.of (T := ⟨S170000x40, .f32⟩) main_v197) (TRef.of (T := ⟨S_, .f32⟩) main_call8_cst) (TRef.of (T := ⟨S170000, .f32⟩) main_call8_v0) (fun x v => Host.reduce FloatOps.maximumf x v reducesTo_S170000x40_S170000_d1 h_S_),
    TRef.nullary (TRef.of (T := ⟨S_, .f32⟩) main_call8_cst_0) (constant S_ .f32 0xFF800000#32),
    TRef.unary (TRef.of (T := ⟨S_, .f32⟩) main_call8_cst_0) (TRef.of (T := ⟨S170000, .f32⟩) main_call8_v1) (broadcastInDim S170000 ![] bcast_S_S170000),
    TRef.binary (TRef.of (T := ⟨S170000, .f32⟩) main_call8_v1) (TRef.of (T := ⟨S170000, .f32⟩) main_call8_v0) (TRef.of (T := ⟨S170000, .f32⟩) main_call8_v2) maximumf,
    TRef.unary (TRef.of (T := ⟨S170000, .f32⟩) main_call8_v2) (TRef.of (T := ⟨S170000x1, .f32⟩) main_call8_v3) (broadcastInDim S170000x1 ![0] bcast_S170000_S170000x1_0),
    TRef.unary (TRef.of (T := ⟨S170000x1, .f32⟩) main_call8_v3) (TRef.of (T := ⟨S170000x40, .f32⟩) main_call8_v4) (broadcastInDim S170000x40 ![0, 1] bcast_S170000x1_S170000x40_0_1),
    TRef.binary (TRef.of (T := ⟨S170000x40, .f32⟩) main_v197) (TRef.of (T := ⟨S170000x40, .f32⟩) main_call8_v4) (TRef.of (T := ⟨S170000x40, .f32⟩) main_call8_v5) subf,
    TRef.unary (TRef.of (T := ⟨S170000x40, .f32⟩) main_call8_v5) (TRef.of (T := ⟨S170000x40, .f32⟩) main_call8_v6) Host.exp,
    TRef.nullary (TRef.of (T := ⟨S_, .f32⟩) main_call8_cst_1) (constant S_ .f32 0x00000000#32),
    TRef.binary (TRef.of (T := ⟨S170000x40, .f32⟩) main_call8_v6) (TRef.of (T := ⟨S_, .f32⟩) main_call8_cst_1) (TRef.of (T := ⟨S170000, .f32⟩) main_call8_v7) (fun x v => Host.reduceAdd x v reducesTo_S170000x40_S170000_d1 h_S_),
    TRef.unary (TRef.of (T := ⟨S170000, .f32⟩) main_call8_v7) (TRef.of (T := ⟨S170000x1, .f32⟩) main_call8_v8) (broadcastInDim S170000x1 ![0] bcast_S170000_S170000x1_0),
    TRef.unary (TRef.of (T := ⟨S170000x1, .f32⟩) main_call8_v8) (TRef.of (T := ⟨S170000x1, .f32⟩) main_call8_v9) Host.log,
    TRef.unary (TRef.of (T := ⟨S170000x1, .f32⟩) main_call8_v9) (TRef.of (T := ⟨S170000x40, .f32⟩) main_call8_v10) (broadcastInDim S170000x40 ![0, 1] bcast_S170000x1_S170000x40_0_1),
    TRef.binary (TRef.of (T := ⟨S170000x40, .f32⟩) main_call8_v5) (TRef.of (T := ⟨S170000x40, .f32⟩) main_call8_v10) (TRef.of (T := ⟨S170000x40, .f32⟩) main_v198) subf ]

/-- The buffers the line writes, in order. -/
abbrev seg8_W : List (Ref sig .tc) := [main_v194, main_v195, main_v196, main_v197, main_call8_cst, main_call8_v0, main_call8_cst_0, main_call8_v1, main_call8_v2, main_call8_v3, main_call8_v4, main_call8_v5, main_call8_v6, main_call8_cst_1, main_call8_v7, main_call8_v8, main_call8_v9, main_call8_v10, main_v198]

theorem seg8_writes : (seg8 : List (HloOp τ sig (Elt F))).Forall fun op => op.writes ⊆ (seg8_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the line does not write keeps its contents through it. -/
theorem seg8_keep (W : Valuation τ sig (Elt F)) (r : Ref sig .tc) (h : r ∉ seg8_W) :
    after seg8 W (Proc.devRef .tc r) = W (Proc.devRef .tc r) :=
  after_of_writes_sub seg8 _ seg8_writes h

/-- The line's result: the reference's output, from the last layer's value and the two arguments it reads. -/
theorem seg8_value (W : Valuation τ sig (Elt F)) (x0 : (⟨S170000x128, .f32⟩ : BufTy).Contents (Elt F)) (x1 : (⟨S1200000, .i32⟩ : BufTy).Contents (Elt F)) (x2 : (⟨S1200000, .i32⟩ : BufTy).Contents (Elt F)) (x3 : (⟨S1200000, .f32⟩ : BufTy).Contents (Elt F)) (x4 : (⟨S128x64, .f32⟩ : BufTy).Contents (Elt F)) (x5 : (⟨S64, .f32⟩ : BufTy).Contents (Elt F)) (x6 : (⟨S7x64x64, .f32⟩ : BufTy).Contents (Elt F)) (x7 : (⟨S64x40, .f32⟩ : BufTy).Contents (Elt F)) (x8 : (⟨S40, .f32⟩ : BufTy).Contents (Elt F))
    (hp : W (Proc.devRef .tc main_v193) = val_main_v193 (F := F) x0 x1 x2 x3 x4 x5 x6)
    (h7 : W (Proc.devRef .tc main_arg7) = x7) (h8 : W (Proc.devRef .tc main_arg8) = x8) :
    after seg8 W (Proc.devRef .tc main_v198) = val_main_v198 (F := F) x0 x1 x2 x3 x4 x5 x6 x7 x8 := by
  simp only [seg8]
  after_results_simp
  simp only [ofBuf_toBuf]
  rw [hp, h7, h8]
  rfl

end Cert.ReferenceIdeal.RunValue

end
-- ==== Proof.RefValue.lean ====
import proofs.«148744_j91096256348434_1_alg».proof.Proof.RefOps
import proofs.«148744_j91096256348434_1_alg».proof.Proof.RefRead
import proofs.«148744_j91096256348434_1_alg».proof.Proof.RefValueSeg0
import proofs.«148744_j91096256348434_1_alg».proof.Proof.RefValueSeg1
import proofs.«148744_j91096256348434_1_alg».proof.Proof.RefValueSeg2
import proofs.«148744_j91096256348434_1_alg».proof.Proof.RefValueSeg3
import proofs.«148744_j91096256348434_1_alg».proof.Proof.RefValueSeg4
import proofs.«148744_j91096256348434_1_alg».proof.Proof.RefValueSeg5
import proofs.«148744_j91096256348434_1_alg».proof.Proof.RefValueSeg6
import proofs.«148744_j91096256348434_1_alg».proof.Proof.RefValueSeg7
import proofs.«148744_j91096256348434_1_alg».proof.Proof.RefValueSeg8

/-!
The reference's run, stated at the stage functions. The reference's 278 host operations are nine lines run one after the
other: the input projection, seven graph-convolution layers, the output projection with its log-softmax. The contents of
the device's buffers after each line are carried as one valuation; of it only the line's result, the first stage's value
and the arguments are ever read, and each is the corresponding stage function of the arguments' launch contents, or the
launch contents themselves. So every weakly fair execution ends with the result buffer at the reference's output as a
function of the nine arguments, and the arguments unchanged.
-/

noncomputable section

namespace Cert.ReferenceIdeal.RunValue

open Cert.ReferenceIdeal Cert.ReferenceIdeal.Gen Cert.ReferenceIdeal.Read Cert.ReferenceIdeal.Value Idealize.ShloMosaic Idealize.ShloMosaic.TcCoe Idealize.SL.Sem Idealize.ShloMosaic.StableHlo

variable {F : FTy → Type} [FloatOps F]

/-- Two lines run one after the other: the second from the contents the first leaves. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

set_option maxRecDepth 8192 in
/-- The reference's operations are the nine lines in order. -/
theorem ops_eq : (ops : List (HloOp τ sig (Elt F))) = seg0 ++ (seg1 ++ (seg2 ++ (seg3 ++ (seg4 ++ (seg5 ++ (seg6 ++ (seg7 ++ seg8))))))) := rfl

/-! ## The contents after each line -/

/-- The device's buffer contents after the first 1 line. -/
def st1 (V0 : Valuation τ sig (Elt F)) : Valuation τ sig (Elt F) := after seg0 V0
/-- The device's buffer contents after the first 2 lines. -/
def st2 (V0 : Valuation τ sig (Elt F)) : Valuation τ sig (Elt F) := after seg1 (st1 V0)
/-- The device's buffer contents after the first 3 lines. -/
def st3 (V0 : Valuation τ sig (Elt F)) : Valuation τ sig (Elt F) := after seg2 (st2 V0)
/-- The device's buffer contents after the first 4 lines. -/
def st4 (V0 : Valuation τ sig (Elt F)) : Valuation τ sig (Elt F) := after seg3 (st3 V0)
/-- The device's buffer contents after the first 5 lines. -/
def st5 (V0 : Valuation τ sig (Elt F)) : Valuation τ sig (Elt F) := after seg4 (st4 V0)
/-- The device's buffer contents after the first 6 lines. -/
def st6 (V0 : Valuation τ sig (Elt F)) : Valuation τ sig (Elt F) := after seg5 (st5 V0)
/-- The device's buffer contents after the first 7 lines. -/
def st7 (V0 : Valuation τ sig (Elt F)) : Valuation τ sig (Elt F) := after seg6 (st6 V0)
/-- The device's buffer contents after the first 8 lines. -/
def st8 (V0 : Valuation τ sig (Elt F)) : Valuation τ sig (Elt F) := after seg7 (st7 V0)
/-- The device's buffer contents after the first 9 lines. -/
def st9 (V0 : Valuation τ sig (Elt F)) : Valuation τ sig (Elt F) := after seg8 (st8 V0)

/-- After all the operations: after the nine lines. -/
theorem after_ops (V0 : Valuation τ sig (Elt F)) (b : DevRef τ sig) : after (ops : List (HloOp τ sig (Elt F))) V0 b = st9 V0 b := by
  rw [ops_eq]
  simp only [after_append]
  rfl

/-! ## The arguments are never written -/

theorem st1_arg0 (V0 : Valuation τ sig (Elt F)) : st1 V0 (Proc.devRef .tc main_arg0) = V0 (Proc.devRef .tc main_arg0) :=
  seg0_keep _ main_arg0 (by decide)
theorem st1_arg1 (V0 : Valuation τ sig (Elt F)) : st1 V0 (Proc.devRef .tc main_arg1) = V0 (Proc.devRef .tc main_arg1) :=
  seg0_keep _ main_arg1 (by decide)
theorem st1_arg2 (V0 : Valuation τ sig (Elt F)) : st1 V0 (Proc.devRef .tc main_arg2) = V0 (Proc.devRef .tc main_arg2) :=
  seg0_keep _ main_arg2 (by decide)
theorem st1_arg3 (V0 : Valuation τ sig (Elt F)) : st1 V0 (Proc.devRef .tc main_arg3) = V0 (Proc.devRef .tc main_arg3) :=
  seg0_keep _ main_arg3 (by decide)
theorem st1_arg4 (V0 : Valuation τ sig (Elt F)) : st1 V0 (Proc.devRef .tc main_arg4) = V0 (Proc.devRef .tc main_arg4) :=
  seg0_keep _ main_arg4 (by decide)
theorem st1_arg5 (V0 : Valuation τ sig (Elt F)) : st1 V0 (Proc.devRef .tc main_arg5) = V0 (Proc.devRef .tc main_arg5) :=
  seg0_keep _ main_arg5 (by decide)
theorem st1_arg6 (V0 : Valuation τ sig (Elt F)) : st1 V0 (Proc.devRef .tc main_arg6) = V0 (Proc.devRef .tc main_arg6) :=
  seg0_keep _ main_arg6 (by decide)
theorem st1_arg7 (V0 : Valuation τ sig (Elt F)) : st1 V0 (Proc.devRef .tc main_arg7) = V0 (Proc.devRef .tc main_arg7) :=
  seg0_keep _ main_arg7 (by decide)
theorem st1_arg8 (V0 : Valuation τ sig (Elt F)) : st1 V0 (Proc.devRef .tc main_arg8) = V0 (Proc.devRef .tc main_arg8) :=
  seg0_keep _ main_arg8 (by decide)
theorem st2_arg0 (V0 : Valuation τ sig (Elt F)) : st2 V0 (Proc.devRef .tc main_arg0) = V0 (Proc.devRef .tc main_arg0) :=
  (seg1_keep _ main_arg0 (by decide)).trans (st1_arg0 V0)
theorem st2_arg1 (V0 : Valuation τ sig (Elt F)) : st2 V0 (Proc.devRef .tc main_arg1) = V0 (Proc.devRef .tc main_arg1) :=
  (seg1_keep _ main_arg1 (by decide)).trans (st1_arg1 V0)
theorem st2_arg2 (V0 : Valuation τ sig (Elt F)) : st2 V0 (Proc.devRef .tc main_arg2) = V0 (Proc.devRef .tc main_arg2) :=
  (seg1_keep _ main_arg2 (by decide)).trans (st1_arg2 V0)
theorem st2_arg3 (V0 : Valuation τ sig (Elt F)) : st2 V0 (Proc.devRef .tc main_arg3) = V0 (Proc.devRef .tc main_arg3) :=
  (seg1_keep _ main_arg3 (by decide)).trans (st1_arg3 V0)
theorem st2_arg4 (V0 : Valuation τ sig (Elt F)) : st2 V0 (Proc.devRef .tc main_arg4) = V0 (Proc.devRef .tc main_arg4) :=
  (seg1_keep _ main_arg4 (by decide)).trans (st1_arg4 V0)
theorem st2_arg5 (V0 : Valuation τ sig (Elt F)) : st2 V0 (Proc.devRef .tc main_arg5) = V0 (Proc.devRef .tc main_arg5) :=
  (seg1_keep _ main_arg5 (by decide)).trans (st1_arg5 V0)
theorem st2_arg6 (V0 : Valuation τ sig (Elt F)) : st2 V0 (Proc.devRef .tc main_arg6) = V0 (Proc.devRef .tc main_arg6) :=
  (seg1_keep _ main_arg6 (by decide)).trans (st1_arg6 V0)
theorem st2_arg7 (V0 : Valuation τ sig (Elt F)) : st2 V0 (Proc.devRef .tc main_arg7) = V0 (Proc.devRef .tc main_arg7) :=
  (seg1_keep _ main_arg7 (by decide)).trans (st1_arg7 V0)
theorem st2_arg8 (V0 : Valuation τ sig (Elt F)) : st2 V0 (Proc.devRef .tc main_arg8) = V0 (Proc.devRef .tc main_arg8) :=
  (seg1_keep _ main_arg8 (by decide)).trans (st1_arg8 V0)
theorem st3_arg0 (V0 : Valuation τ sig (Elt F)) : st3 V0 (Proc.devRef .tc main_arg0) = V0 (Proc.devRef .tc main_arg0) :=
  (seg2_keep _ main_arg0 (by decide)).trans (st2_arg0 V0)
theorem st3_arg1 (V0 : Valuation τ sig (Elt F)) : st3 V0 (Proc.devRef .tc main_arg1) = V0 (Proc.devRef .tc main_arg1) :=
  (seg2_keep _ main_arg1 (by decide)).trans (st2_arg1 V0)
theorem st3_arg2 (V0 : Valuation τ sig (Elt F)) : st3 V0 (Proc.devRef .tc main_arg2) = V0 (Proc.devRef .tc main_arg2) :=
  (seg2_keep _ main_arg2 (by decide)).trans (st2_arg2 V0)
theorem st3_arg3 (V0 : Valuation τ sig (Elt F)) : st3 V0 (Proc.devRef .tc main_arg3) = V0 (Proc.devRef .tc main_arg3) :=
  (seg2_keep _ main_arg3 (by decide)).trans (st2_arg3 V0)
theorem st3_arg4 (V0 : Valuation τ sig (Elt F)) : st3 V0 (Proc.devRef .tc main_arg4) = V0 (Proc.devRef .tc main_arg4) :=
  (seg2_keep _ main_arg4 (by decide)).trans (st2_arg4 V0)
theorem st3_arg5 (V0 : Valuation τ sig (Elt F)) : st3 V0 (Proc.devRef .tc main_arg5) = V0 (Proc.devRef .tc main_arg5) :=
  (seg2_keep _ main_arg5 (by decide)).trans (st2_arg5 V0)
theorem st3_arg6 (V0 : Valuation τ sig (Elt F)) : st3 V0 (Proc.devRef .tc main_arg6) = V0 (Proc.devRef .tc main_arg6) :=
  (seg2_keep _ main_arg6 (by decide)).trans (st2_arg6 V0)
theorem st3_arg7 (V0 : Valuation τ sig (Elt F)) : st3 V0 (Proc.devRef .tc main_arg7) = V0 (Proc.devRef .tc main_arg7) :=
  (seg2_keep _ main_arg7 (by decide)).trans (st2_arg7 V0)
theorem st3_arg8 (V0 : Valuation τ sig (Elt F)) : st3 V0 (Proc.devRef .tc main_arg8) = V0 (Proc.devRef .tc main_arg8) :=
  (seg2_keep _ main_arg8 (by decide)).trans (st2_arg8 V0)
theorem st4_arg0 (V0 : Valuation τ sig (Elt F)) : st4 V0 (Proc.devRef .tc main_arg0) = V0 (Proc.devRef .tc main_arg0) :=
  (seg3_keep _ main_arg0 (by decide)).trans (st3_arg0 V0)
theorem st4_arg1 (V0 : Valuation τ sig (Elt F)) : st4 V0 (Proc.devRef .tc main_arg1) = V0 (Proc.devRef .tc main_arg1) :=
  (seg3_keep _ main_arg1 (by decide)).trans (st3_arg1 V0)
theorem st4_arg2 (V0 : Valuation τ sig (Elt F)) : st4 V0 (Proc.devRef .tc main_arg2) = V0 (Proc.devRef .tc main_arg2) :=
  (seg3_keep _ main_arg2 (by decide)).trans (st3_arg2 V0)
theorem st4_arg3 (V0 : Valuation τ sig (Elt F)) : st4 V0 (Proc.devRef .tc main_arg3) = V0 (Proc.devRef .tc main_arg3) :=
  (seg3_keep _ main_arg3 (by decide)).trans (st3_arg3 V0)
theorem st4_arg4 (V0 : Valuation τ sig (Elt F)) : st4 V0 (Proc.devRef .tc main_arg4) = V0 (Proc.devRef .tc main_arg4) :=
  (seg3_keep _ main_arg4 (by decide)).trans (st3_arg4 V0)
theorem st4_arg5 (V0 : Valuation τ sig (Elt F)) : st4 V0 (Proc.devRef .tc main_arg5) = V0 (Proc.devRef .tc main_arg5) :=
  (seg3_keep _ main_arg5 (by decide)).trans (st3_arg5 V0)
theorem st4_arg6 (V0 : Valuation τ sig (Elt F)) : st4 V0 (Proc.devRef .tc main_arg6) = V0 (Proc.devRef .tc main_arg6) :=
  (seg3_keep _ main_arg6 (by decide)).trans (st3_arg6 V0)
theorem st4_arg7 (V0 : Valuation τ sig (Elt F)) : st4 V0 (Proc.devRef .tc main_arg7) = V0 (Proc.devRef .tc main_arg7) :=
  (seg3_keep _ main_arg7 (by decide)).trans (st3_arg7 V0)
theorem st4_arg8 (V0 : Valuation τ sig (Elt F)) : st4 V0 (Proc.devRef .tc main_arg8) = V0 (Proc.devRef .tc main_arg8) :=
  (seg3_keep _ main_arg8 (by decide)).trans (st3_arg8 V0)
theorem st5_arg0 (V0 : Valuation τ sig (Elt F)) : st5 V0 (Proc.devRef .tc main_arg0) = V0 (Proc.devRef .tc main_arg0) :=
  (seg4_keep _ main_arg0 (by decide)).trans (st4_arg0 V0)
theorem st5_arg1 (V0 : Valuation τ sig (Elt F)) : st5 V0 (Proc.devRef .tc main_arg1) = V0 (Proc.devRef .tc main_arg1) :=
  (seg4_keep _ main_arg1 (by decide)).trans (st4_arg1 V0)
theorem st5_arg2 (V0 : Valuation τ sig (Elt F)) : st5 V0 (Proc.devRef .tc main_arg2) = V0 (Proc.devRef .tc main_arg2) :=
  (seg4_keep _ main_arg2 (by decide)).trans (st4_arg2 V0)
theorem st5_arg3 (V0 : Valuation τ sig (Elt F)) : st5 V0 (Proc.devRef .tc main_arg3) = V0 (Proc.devRef .tc main_arg3) :=
  (seg4_keep _ main_arg3 (by decide)).trans (st4_arg3 V0)
theorem st5_arg4 (V0 : Valuation τ sig (Elt F)) : st5 V0 (Proc.devRef .tc main_arg4) = V0 (Proc.devRef .tc main_arg4) :=
  (seg4_keep _ main_arg4 (by decide)).trans (st4_arg4 V0)
theorem st5_arg5 (V0 : Valuation τ sig (Elt F)) : st5 V0 (Proc.devRef .tc main_arg5) = V0 (Proc.devRef .tc main_arg5) :=
  (seg4_keep _ main_arg5 (by decide)).trans (st4_arg5 V0)
theorem st5_arg6 (V0 : Valuation τ sig (Elt F)) : st5 V0 (Proc.devRef .tc main_arg6) = V0 (Proc.devRef .tc main_arg6) :=
  (seg4_keep _ main_arg6 (by decide)).trans (st4_arg6 V0)
theorem st5_arg7 (V0 : Valuation τ sig (Elt F)) : st5 V0 (Proc.devRef .tc main_arg7) = V0 (Proc.devRef .tc main_arg7) :=
  (seg4_keep _ main_arg7 (by decide)).trans (st4_arg7 V0)
theorem st5_arg8 (V0 : Valuation τ sig (Elt F)) : st5 V0 (Proc.devRef .tc main_arg8) = V0 (Proc.devRef .tc main_arg8) :=
  (seg4_keep _ main_arg8 (by decide)).trans (st4_arg8 V0)
theorem st6_arg0 (V0 : Valuation τ sig (Elt F)) : st6 V0 (Proc.devRef .tc main_arg0) = V0 (Proc.devRef .tc main_arg0) :=
  (seg5_keep _ main_arg0 (by decide)).trans (st5_arg0 V0)
theorem st6_arg1 (V0 : Valuation τ sig (Elt F)) : st6 V0 (Proc.devRef .tc main_arg1) = V0 (Proc.devRef .tc main_arg1) :=
  (seg5_keep _ main_arg1 (by decide)).trans (st5_arg1 V0)
theorem st6_arg2 (V0 : Valuation τ sig (Elt F)) : st6 V0 (Proc.devRef .tc main_arg2) = V0 (Proc.devRef .tc main_arg2) :=
  (seg5_keep _ main_arg2 (by decide)).trans (st5_arg2 V0)
theorem st6_arg3 (V0 : Valuation τ sig (Elt F)) : st6 V0 (Proc.devRef .tc main_arg3) = V0 (Proc.devRef .tc main_arg3) :=
  (seg5_keep _ main_arg3 (by decide)).trans (st5_arg3 V0)
theorem st6_arg4 (V0 : Valuation τ sig (Elt F)) : st6 V0 (Proc.devRef .tc main_arg4) = V0 (Proc.devRef .tc main_arg4) :=
  (seg5_keep _ main_arg4 (by decide)).trans (st5_arg4 V0)
theorem st6_arg5 (V0 : Valuation τ sig (Elt F)) : st6 V0 (Proc.devRef .tc main_arg5) = V0 (Proc.devRef .tc main_arg5) :=
  (seg5_keep _ main_arg5 (by decide)).trans (st5_arg5 V0)
theorem st6_arg6 (V0 : Valuation τ sig (Elt F)) : st6 V0 (Proc.devRef .tc main_arg6) = V0 (Proc.devRef .tc main_arg6) :=
  (seg5_keep _ main_arg6 (by decide)).trans (st5_arg6 V0)
theorem st6_arg7 (V0 : Valuation τ sig (Elt F)) : st6 V0 (Proc.devRef .tc main_arg7) = V0 (Proc.devRef .tc main_arg7) :=
  (seg5_keep _ main_arg7 (by decide)).trans (st5_arg7 V0)
theorem st6_arg8 (V0 : Valuation τ sig (Elt F)) : st6 V0 (Proc.devRef .tc main_arg8) = V0 (Proc.devRef .tc main_arg8) :=
  (seg5_keep _ main_arg8 (by decide)).trans (st5_arg8 V0)
theorem st7_arg0 (V0 : Valuation τ sig (Elt F)) : st7 V0 (Proc.devRef .tc main_arg0) = V0 (Proc.devRef .tc main_arg0) :=
  (seg6_keep _ main_arg0 (by decide)).trans (st6_arg0 V0)
theorem st7_arg1 (V0 : Valuation τ sig (Elt F)) : st7 V0 (Proc.devRef .tc main_arg1) = V0 (Proc.devRef .tc main_arg1) :=
  (seg6_keep _ main_arg1 (by decide)).trans (st6_arg1 V0)
theorem st7_arg2 (V0 : Valuation τ sig (Elt F)) : st7 V0 (Proc.devRef .tc main_arg2) = V0 (Proc.devRef .tc main_arg2) :=
  (seg6_keep _ main_arg2 (by decide)).trans (st6_arg2 V0)
theorem st7_arg3 (V0 : Valuation τ sig (Elt F)) : st7 V0 (Proc.devRef .tc main_arg3) = V0 (Proc.devRef .tc main_arg3) :=
  (seg6_keep _ main_arg3 (by decide)).trans (st6_arg3 V0)
theorem st7_arg4 (V0 : Valuation τ sig (Elt F)) : st7 V0 (Proc.devRef .tc main_arg4) = V0 (Proc.devRef .tc main_arg4) :=
  (seg6_keep _ main_arg4 (by decide)).trans (st6_arg4 V0)
theorem st7_arg5 (V0 : Valuation τ sig (Elt F)) : st7 V0 (Proc.devRef .tc main_arg5) = V0 (Proc.devRef .tc main_arg5) :=
  (seg6_keep _ main_arg5 (by decide)).trans (st6_arg5 V0)
theorem st7_arg6 (V0 : Valuation τ sig (Elt F)) : st7 V0 (Proc.devRef .tc main_arg6) = V0 (Proc.devRef .tc main_arg6) :=
  (seg6_keep _ main_arg6 (by decide)).trans (st6_arg6 V0)
theorem st7_arg7 (V0 : Valuation τ sig (Elt F)) : st7 V0 (Proc.devRef .tc main_arg7) = V0 (Proc.devRef .tc main_arg7) :=
  (seg6_keep _ main_arg7 (by decide)).trans (st6_arg7 V0)
theorem st7_arg8 (V0 : Valuation τ sig (Elt F)) : st7 V0 (Proc.devRef .tc main_arg8) = V0 (Proc.devRef .tc main_arg8) :=
  (seg6_keep _ main_arg8 (by decide)).trans (st6_arg8 V0)
theorem st8_arg0 (V0 : Valuation τ sig (Elt F)) : st8 V0 (Proc.devRef .tc main_arg0) = V0 (Proc.devRef .tc main_arg0) :=
  (seg7_keep _ main_arg0 (by decide)).trans (st7_arg0 V0)
theorem st8_arg1 (V0 : Valuation τ sig (Elt F)) : st8 V0 (Proc.devRef .tc main_arg1) = V0 (Proc.devRef .tc main_arg1) :=
  (seg7_keep _ main_arg1 (by decide)).trans (st7_arg1 V0)
theorem st8_arg2 (V0 : Valuation τ sig (Elt F)) : st8 V0 (Proc.devRef .tc main_arg2) = V0 (Proc.devRef .tc main_arg2) :=
  (seg7_keep _ main_arg2 (by decide)).trans (st7_arg2 V0)
theorem st8_arg3 (V0 : Valuation τ sig (Elt F)) : st8 V0 (Proc.devRef .tc main_arg3) = V0 (Proc.devRef .tc main_arg3) :=
  (seg7_keep _ main_arg3 (by decide)).trans (st7_arg3 V0)
theorem st8_arg4 (V0 : Valuation τ sig (Elt F)) : st8 V0 (Proc.devRef .tc main_arg4) = V0 (Proc.devRef .tc main_arg4) :=
  (seg7_keep _ main_arg4 (by decide)).trans (st7_arg4 V0)
theorem st8_arg5 (V0 : Valuation τ sig (Elt F)) : st8 V0 (Proc.devRef .tc main_arg5) = V0 (Proc.devRef .tc main_arg5) :=
  (seg7_keep _ main_arg5 (by decide)).trans (st7_arg5 V0)
theorem st8_arg6 (V0 : Valuation τ sig (Elt F)) : st8 V0 (Proc.devRef .tc main_arg6) = V0 (Proc.devRef .tc main_arg6) :=
  (seg7_keep _ main_arg6 (by decide)).trans (st7_arg6 V0)
theorem st8_arg7 (V0 : Valuation τ sig (Elt F)) : st8 V0 (Proc.devRef .tc main_arg7) = V0 (Proc.devRef .tc main_arg7) :=
  (seg7_keep _ main_arg7 (by decide)).trans (st7_arg7 V0)
theorem st8_arg8 (V0 : Valuation τ sig (Elt F)) : st8 V0 (Proc.devRef .tc main_arg8) = V0 (Proc.devRef .tc main_arg8) :=
  (seg7_keep _ main_arg8 (by decide)).trans (st7_arg8 V0)
theorem st9_arg0 (V0 : Valuation τ sig (Elt F)) : st9 V0 (Proc.devRef .tc main_arg0) = V0 (Proc.devRef .tc main_arg0) :=
  (seg8_keep _ main_arg0 (by decide)).trans (st8_arg0 V0)
theorem st9_arg1 (V0 : Valuation τ sig (Elt F)) : st9 V0 (Proc.devRef .tc main_arg1) = V0 (Proc.devRef .tc main_arg1) :=
  (seg8_keep _ main_arg1 (by decide)).trans (st8_arg1 V0)
theorem st9_arg2 (V0 : Valuation τ sig (Elt F)) : st9 V0 (Proc.devRef .tc main_arg2) = V0 (Proc.devRef .tc main_arg2) :=
  (seg8_keep _ main_arg2 (by decide)).trans (st8_arg2 V0)
theorem st9_arg3 (V0 : Valuation τ sig (Elt F)) : st9 V0 (Proc.devRef .tc main_arg3) = V0 (Proc.devRef .tc main_arg3) :=
  (seg8_keep _ main_arg3 (by decide)).trans (st8_arg3 V0)
theorem st9_arg4 (V0 : Valuation τ sig (Elt F)) : st9 V0 (Proc.devRef .tc main_arg4) = V0 (Proc.devRef .tc main_arg4) :=
  (seg8_keep _ main_arg4 (by decide)).trans (st8_arg4 V0)
theorem st9_arg5 (V0 : Valuation τ sig (Elt F)) : st9 V0 (Proc.devRef .tc main_arg5) = V0 (Proc.devRef .tc main_arg5) :=
  (seg8_keep _ main_arg5 (by decide)).trans (st8_arg5 V0)
theorem st9_arg6 (V0 : Valuation τ sig (Elt F)) : st9 V0 (Proc.devRef .tc main_arg6) = V0 (Proc.devRef .tc main_arg6) :=
  (seg8_keep _ main_arg6 (by decide)).trans (st8_arg6 V0)
theorem st9_arg7 (V0 : Valuation τ sig (Elt F)) : st9 V0 (Proc.devRef .tc main_arg7) = V0 (Proc.devRef .tc main_arg7) :=
  (seg8_keep _ main_arg7 (by decide)).trans (st8_arg7 V0)
theorem st9_arg8 (V0 : Valuation τ sig (Elt F)) : st9 V0 (Proc.devRef .tc main_arg8) = V0 (Proc.devRef .tc main_arg8) :=
  (seg8_keep _ main_arg8 (by decide)).trans (st8_arg8 V0)

/-! ## The first stage's value, read by every layer -/

theorem st1_v4 (V0 : Valuation τ sig (Elt F)) : st1 V0 (Proc.devRef .tc main_v4) = val_main_v4 (F := F) (V0 (Proc.devRef .tc main_arg0)) (V0 (Proc.devRef .tc main_arg4)) (V0 (Proc.devRef .tc main_arg5)) :=
  seg0_value V0 _ _ _ rfl rfl rfl
theorem st2_v4 (V0 : Valuation τ sig (Elt F)) : st2 V0 (Proc.devRef .tc main_v4) = val_main_v4 (F := F) (V0 (Proc.devRef .tc main_arg0)) (V0 (Proc.devRef .tc main_arg4)) (V0 (Proc.devRef .tc main_arg5)) :=
  (seg1_keep _ main_v4 (by decide)).trans (st1_v4 V0)
theorem st3_v4 (V0 : Valuation τ sig (Elt F)) : st3 V0 (Proc.devRef .tc main_v4) = val_main_v4 (F := F) (V0 (Proc.devRef .tc main_arg0)) (V0 (Proc.devRef .tc main_arg4)) (V0 (Proc.devRef .tc main_arg5)) :=
  (seg2_keep _ main_v4 (by decide)).trans (st2_v4 V0)
theorem st4_v4 (V0 : Valuation τ sig (Elt F)) : st4 V0 (Proc.devRef .tc main_v4) = val_main_v4 (F := F) (V0 (Proc.devRef .tc main_arg0)) (V0 (Proc.devRef .tc main_arg4)) (V0 (Proc.devRef .tc main_arg5)) :=
  (seg3_keep _ main_v4 (by decide)).trans (st3_v4 V0)
theorem st5_v4 (V0 : Valuation τ sig (Elt F)) : st5 V0 (Proc.devRef .tc main_v4) = val_main_v4 (F := F) (V0 (Proc.devRef .tc main_arg0)) (V0 (Proc.devRef .tc main_arg4)) (V0 (Proc.devRef .tc main_arg5)) :=
  (seg4_keep _ main_v4 (by decide)).trans (st4_v4 V0)
theorem st6_v4 (V0 : Valuation τ sig (Elt F)) : st6 V0 (Proc.devRef .tc main_v4) = val_main_v4 (F := F) (V0 (Proc.devRef .tc main_arg0)) (V0 (Proc.devRef .tc main_arg4)) (V0 (Proc.devRef .tc main_arg5)) :=
  (seg5_keep _ main_v4 (by decide)).trans (st5_v4 V0)
theorem st7_v4 (V0 : Valuation τ sig (Elt F)) : st7 V0 (Proc.devRef .tc main_v4) = val_main_v4 (F := F) (V0 (Proc.devRef .tc main_arg0)) (V0 (Proc.devRef .tc main_arg4)) (V0 (Proc.devRef .tc main_arg5)) :=
  (seg6_keep _ main_v4 (by decide)).trans (st6_v4 V0)
theorem st8_v4 (V0 : Valuation τ sig (Elt F)) : st8 V0 (Proc.devRef .tc main_v4) = val_main_v4 (F := F) (V0 (Proc.devRef .tc main_arg0)) (V0 (Proc.devRef .tc main_arg4)) (V0 (Proc.devRef .tc main_arg5)) :=
  (seg7_keep _ main_v4 (by decide)).trans (st7_v4 V0)

/-! ## Each layer's value, and the output -/

theorem st2_out (V0 : Valuation τ sig (Elt F)) : st2 V0 (Proc.devRef .tc main_v31) = val_main_v31 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) :=
  seg1_value (st1 V0) _ _ _ _ _ _ _ (st1_v4 V0) (st1_arg1 V0) (st1_arg2 V0) (st1_arg3 V0) (st1_arg6 V0)
theorem st3_out (V0 : Valuation τ sig (Elt F)) : st3 V0 (Proc.devRef .tc main_v58) = val_main_v58 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) :=
  seg2_value (st2 V0) _ _ _ _ _ _ _ (st2_out V0) (st2_v4 V0) (st2_arg1 V0) (st2_arg2 V0) (st2_arg3 V0) (st2_arg6 V0)
theorem st4_out (V0 : Valuation τ sig (Elt F)) : st4 V0 (Proc.devRef .tc main_v85) = val_main_v85 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) :=
  seg3_value (st3 V0) _ _ _ _ _ _ _ (st3_out V0) (st3_v4 V0) (st3_arg1 V0) (st3_arg2 V0) (st3_arg3 V0) (st3_arg6 V0)
theorem st5_out (V0 : Valuation τ sig (Elt F)) : st5 V0 (Proc.devRef .tc main_v112) = val_main_v112 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) :=
  seg4_value (st4 V0) _ _ _ _ _ _ _ (st4_out V0) (st4_v4 V0) (st4_arg1 V0) (st4_arg2 V0) (st4_arg3 V0) (st4_arg6 V0)
theorem st6_out (V0 : Valuation τ sig (Elt F)) : st6 V0 (Proc.devRef .tc main_v139) = val_main_v139 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) :=
  seg5_value (st5 V0) _ _ _ _ _ _ _ (st5_out V0) (st5_v4 V0) (st5_arg1 V0) (st5_arg2 V0) (st5_arg3 V0) (st5_arg6 V0)
theorem st7_out (V0 : Valuation τ sig (Elt F)) : st7 V0 (Proc.devRef .tc main_v166) = val_main_v166 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) :=
  seg6_value (st6 V0) _ _ _ _ _ _ _ (st6_out V0) (st6_v4 V0) (st6_arg1 V0) (st6_arg2 V0) (st6_arg3 V0) (st6_arg6 V0)
theorem st8_out (V0 : Valuation τ sig (Elt F)) : st8 V0 (Proc.devRef .tc main_v193) = val_main_v193 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) :=
  seg7_value (st7 V0) _ _ _ _ _ _ _ (st7_out V0) (st7_v4 V0) (st7_arg1 V0) (st7_arg2 V0) (st7_arg3 V0) (st7_arg6 V0)
theorem st9_out (V0 : Valuation τ sig (Elt F)) : st9 V0 (Proc.devRef .tc main_v198) = val_main_v198 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) :=
  seg8_value (st8 V0) _ _ _ _ _ _ _ _ _ (st8_out V0) (st8_arg7 V0) (st8_arg8 V0)

/-! ## The run -/

/-- On every device, from any memory with zero counters: every weakly fair execution of the reference terminates with
    its result buffer at the reference's output as a function of the nine arguments' launch contents, and the arguments
    unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v198) = Cert.ReferenceIdeal.Read.val_main_v198 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v198).trans ((after_ops _ _).trans (st9_out _)),
      (h c main_arg0).trans ((after_ops _ _).trans (st9_arg0 _)),
      (h c main_arg1).trans ((after_ops _ _).trans (st9_arg1 _)),
      (h c main_arg2).trans ((after_ops _ _).trans (st9_arg2 _)),
      (h c main_arg3).trans ((after_ops _ _).trans (st9_arg3 _)),
      (h c main_arg4).trans ((after_ops _ _).trans (st9_arg4 _)),
      (h c main_arg5).trans ((after_ops _ _).trans (st9_arg5 _)),
      (h c main_arg6).trans ((after_ops _ _).trans (st9_arg6 _)),
      (h c main_arg7).trans ((after_ops _ _).trans (st9_arg7 _)),
      (h c main_arg8).trans ((after_ops _ _).trans (st9_arg8 _))⟩)
    (run_seq scopedRefs_eq scopedSems_eq defs main (fun _ => ops) main_eq (fun _ => ops_sub) m ρ)

end Cert.ReferenceIdeal.RunValue

end
-- ==== Proof.KernelRun.lean ====
/-
  The idealized kernel's run with its result named. @main is nine kernel regions among stretches of host operations; the
  contents of every unscoped buffer at each boundary are a fold from the launch memory (`Gen.W0` … `Gen.W18`), and the last
  thread state holds every such buffer at `Gen.W18`. Reading the final state against that thread state gives, beside the
  argument arrays as launched, the result array `main_v115` at `Gen.W18`'s contents: the value the rest of the proof computes.
-/
import proofs.«148744_j91096256348434_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result array ends at the last boundary's contents
    and the nine argument arrays end as launched. -/
theorem run_result : θ_run defs (onTc (τ := τ) (main (F := F))) ⟨m, fun _ => 0, ρ⟩ (fun r => ∀ c : Dev nD,
      r.2.mem ((c.tc : Thread nD τ).loc main_v115) = W18 m ρ c (Proc.devRef .tc main_v115)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v115 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c)⟩)

end Cert.KernelIdeal.RunValue

end
-- ==== Proof.Walk.lean ====
/-
  The walk of a buffer through @main's boundaries. No host stretch and no region writes an argument array, so at every
  boundary it holds its launch contents; and the first region's output, the initial residual every later layer mixes in,
  is read by each layer's region through an input window and written by nothing after, so at every later boundary it is
  still what the first region left. Each fact is two steps from the previous boundary: across the region (the buffer is
  none of its arrays, or is one of its input arrays, which a pipeline leaves as it found it) and across the host stretch
  (no operation of the stretch writes it).
-/
import proofs.«148744_j91096256348434_1_alg».proof.Proof.Gen.KernelIdeal.Frame

set_option maxRecDepth 16384

noncomputable section

namespace Cert.KernelIdeal.Gen

open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := W2_main_arg1 m ρ c

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := W4_main_arg1 m ρ c

theorem W8_main_arg1 (c : Dev nD) : W8 m ρ c (Proc.devRef .tc main_arg1) = m ((c : Thread nD τ).loc main_arg1) :=
  calc W8 m ρ c (Proc.devRef .tc main_arg1)
    _ = W7 m ρ c (Proc.devRef .tc main_arg1) := W8_of_ne m ρ c main_arg1 (by decide)
    _ = W6 m ρ c (Proc.devRef .tc main_arg1) := StableHlo.after_of_forall_not_mem (b := Proc.devRef .tc main_arg1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := W6_main_arg1 m ρ c

theorem W10_main_arg1 (c : Dev nD) : W10 m ρ c (Proc.devRef .tc main_arg1) = m ((c : Thread nD τ).loc main_arg1) :=
  calc W10 m ρ c (Proc.devRef .tc main_arg1)
    _ = W9 m ρ c (Proc.devRef .tc main_arg1) := W10_of_ne m ρ c main_arg1 (by decide)
    _ = W8 m ρ c (Proc.devRef .tc main_arg1) := StableHlo.after_of_forall_not_mem (b := Proc.devRef .tc main_arg1) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := W8_main_arg1 m ρ c

theorem W12_main_arg1 (c : Dev nD) : W12 m ρ c (Proc.devRef .tc main_arg1) = m ((c : Thread nD τ).loc main_arg1) :=
  calc W12 m ρ c (Proc.devRef .tc main_arg1)
    _ = W11 m ρ c (Proc.devRef .tc main_arg1) := W12_of_ne m ρ c main_arg1 (by decide)
    _ = W10 m ρ c (Proc.devRef .tc main_arg1) := StableHlo.after_of_forall_not_mem (b := Proc.devRef .tc main_arg1) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := W10_main_arg1 m ρ c

theorem W14_main_arg1 (c : Dev nD) : W14 m ρ c (Proc.devRef .tc main_arg1) = m ((c : Thread nD τ).loc main_arg1) :=
  calc W14 m ρ c (Proc.devRef .tc main_arg1)
    _ = W13 m ρ c (Proc.devRef .tc main_arg1) := W14_of_ne m ρ c main_arg1 (by decide)
    _ = W12 m ρ c (Proc.devRef .tc main_arg1) := StableHlo.after_of_forall_not_mem (b := Proc.devRef .tc main_arg1) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := W12_main_arg1 m ρ c

theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := W2_main_arg2 m ρ c

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := W4_main_arg2 m ρ c

theorem W8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := W6_main_arg2 m ρ c

theorem W10_main_arg2 (c : Dev nD) : W10 m ρ c (Proc.devRef .tc main_arg2) = m ((c : Thread nD τ).loc main_arg2) :=
  calc W10 m ρ c (Proc.devRef .tc main_arg2)
    _ = W9 m ρ c (Proc.devRef .tc main_arg2) := W10_of_ne m ρ c main_arg2 (by decide)
    _ = W8 m ρ c (Proc.devRef .tc main_arg2) := StableHlo.after_of_forall_not_mem (b := Proc.devRef .tc main_arg2) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := W8_main_arg2 m ρ c

theorem W12_main_arg2 (c : Dev nD) : W12 m ρ c (Proc.devRef .tc main_arg2) = m ((c : Thread nD τ).loc main_arg2) :=
  calc W12 m ρ c (Proc.devRef .tc main_arg2)
    _ = W11 m ρ c (Proc.devRef .tc main_arg2) := W12_of_ne m ρ c main_arg2 (by decide)
    _ = W10 m ρ c (Proc.devRef .tc main_arg2) := StableHlo.after_of_forall_not_mem (b := Proc.devRef .tc main_arg2) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := W10_main_arg2 m ρ c

theorem W14_main_arg2 (c : Dev nD) : W14 m ρ c (Proc.devRef .tc main_arg2) = m ((c : Thread nD τ).loc main_arg2) :=
  calc W14 m ρ c (Proc.devRef .tc main_arg2)
    _ = W13 m ρ c (Proc.devRef .tc main_arg2) := W14_of_ne m ρ c main_arg2 (by decide)
    _ = W12 m ρ c (Proc.devRef .tc main_arg2) := StableHlo.after_of_forall_not_mem (b := Proc.devRef .tc main_arg2) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := W12_main_arg2 m ρ c

theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := W2_main_arg3 m ρ c

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := W4_main_arg3 m ρ c

theorem W8_main_arg3 (c : Dev nD) : W8 m ρ c (Proc.devRef .tc main_arg3) = m ((c : Thread nD τ).loc main_arg3) :=
  calc W8 m ρ c (Proc.devRef .tc main_arg3)
    _ = W7 m ρ c (Proc.devRef .tc main_arg3) := W8_of_ne m ρ c main_arg3 (by decide)
    _ = W6 m ρ c (Proc.devRef .tc main_arg3) := StableHlo.after_of_forall_not_mem (b := Proc.devRef .tc main_arg3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := W6_main_arg3 m ρ c

theorem W10_main_arg3 (c : Dev nD) : W10 m ρ c (Proc.devRef .tc main_arg3) = m ((c : Thread nD τ).loc main_arg3) :=
  calc W10 m ρ c (Proc.devRef .tc main_arg3)
    _ = W9 m ρ c (Proc.devRef .tc main_arg3) := W10_of_ne m ρ c main_arg3 (by decide)
    _ = W8 m ρ c (Proc.devRef .tc main_arg3) := StableHlo.after_of_forall_not_mem (b := Proc.devRef .tc main_arg3) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := W8_main_arg3 m ρ c

theorem W12_main_arg3 (c : Dev nD) : W12 m ρ c (Proc.devRef .tc main_arg3) = m ((c : Thread nD τ).loc main_arg3) :=
  calc W12 m ρ c (Proc.devRef .tc main_arg3)
    _ = W11 m ρ c (Proc.devRef .tc main_arg3) := W12_of_ne m ρ c main_arg3 (by decide)
    _ = W10 m ρ c (Proc.devRef .tc main_arg3) := StableHlo.after_of_forall_not_mem (b := Proc.devRef .tc main_arg3) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := W10_main_arg3 m ρ c

theorem W14_main_arg3 (c : Dev nD) : W14 m ρ c (Proc.devRef .tc main_arg3) = m ((c : Thread nD τ).loc main_arg3) :=
  calc W14 m ρ c (Proc.devRef .tc main_arg3)
    _ = W13 m ρ c (Proc.devRef .tc main_arg3) := W14_of_ne m ρ c main_arg3 (by decide)
    _ = W12 m ρ c (Proc.devRef .tc main_arg3) := StableHlo.after_of_forall_not_mem (b := Proc.devRef .tc main_arg3) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := W12_main_arg3 m ρ c

theorem W2_main_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := W2_main_arg6 m ρ c

theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := W4_main_arg6 m ρ c

theorem W8_main_arg6 (c : Dev nD) : W8 m ρ c (Proc.devRef .tc main_arg6) = m ((c : Thread nD τ).loc main_arg6) :=
  calc W8 m ρ c (Proc.devRef .tc main_arg6)
    _ = W7 m ρ c (Proc.devRef .tc main_arg6) := W8_of_ne m ρ c main_arg6 (by decide)
    _ = W6 m ρ c (Proc.devRef .tc main_arg6) := StableHlo.after_of_forall_not_mem (b := Proc.devRef .tc main_arg6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := W6_main_arg6 m ρ c

theorem W10_main_arg6 (c : Dev nD) : W10 m ρ c (Proc.devRef .tc main_arg6) = m ((c : Thread nD τ).loc main_arg6) :=
  calc W10 m ρ c (Proc.devRef .tc main_arg6)
    _ = W9 m ρ c (Proc.devRef .tc main_arg6) := W10_of_ne m ρ c main_arg6 (by decide)
    _ = W8 m ρ c (Proc.devRef .tc main_arg6) := StableHlo.after_of_forall_not_mem (b := Proc.devRef .tc main_arg6) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := W8_main_arg6 m ρ c

theorem W12_main_arg6 (c : Dev nD) : W12 m ρ c (Proc.devRef .tc main_arg6) = m ((c : Thread nD τ).loc main_arg6) :=
  calc W12 m ρ c (Proc.devRef .tc main_arg6)
    _ = W11 m ρ c (Proc.devRef .tc main_arg6) := W12_of_ne m ρ c main_arg6 (by decide)
    _ = W10 m ρ c (Proc.devRef .tc main_arg6) := StableHlo.after_of_forall_not_mem (b := Proc.devRef .tc main_arg6) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := W10_main_arg6 m ρ c

theorem W14_main_arg6 (c : Dev nD) : W14 m ρ c (Proc.devRef .tc main_arg6) = m ((c : Thread nD τ).loc main_arg6) :=
  calc W14 m ρ c (Proc.devRef .tc main_arg6)
    _ = W13 m ρ c (Proc.devRef .tc main_arg6) := W14_of_ne m ρ c main_arg6 (by decide)
    _ = W12 m ρ c (Proc.devRef .tc main_arg6) := StableHlo.after_of_forall_not_mem (b := Proc.devRef .tc main_arg6) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := W12_main_arg6 m ρ c

theorem W2_main_arg7 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := W2_main_arg7 m ρ c

theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := W4_main_arg7 m ρ c

theorem W8_main_arg7 (c : Dev nD) : W8 m ρ c (Proc.devRef .tc main_arg7) = m ((c : Thread nD τ).loc main_arg7) :=
  calc W8 m ρ c (Proc.devRef .tc main_arg7)
    _ = W7 m ρ c (Proc.devRef .tc main_arg7) := W8_of_ne m ρ c main_arg7 (by decide)
    _ = W6 m ρ c (Proc.devRef .tc main_arg7) := StableHlo.after_of_forall_not_mem (b := Proc.devRef .tc main_arg7) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := W6_main_arg7 m ρ c

theorem W10_main_arg7 (c : Dev nD) : W10 m ρ c (Proc.devRef .tc main_arg7) = m ((c : Thread nD τ).loc main_arg7) :=
  calc W10 m ρ c (Proc.devRef .tc main_arg7)
    _ = W9 m ρ c (Proc.devRef .tc main_arg7) := W10_of_ne m ρ c main_arg7 (by decide)
    _ = W8 m ρ c (Proc.devRef .tc main_arg7) := StableHlo.after_of_forall_not_mem (b := Proc.devRef .tc main_arg7) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := W8_main_arg7 m ρ c

theorem W12_main_arg7 (c : Dev nD) : W12 m ρ c (Proc.devRef .tc main_arg7) = m ((c : Thread nD τ).loc main_arg7) :=
  calc W12 m ρ c (Proc.devRef .tc main_arg7)
    _ = W11 m ρ c (Proc.devRef .tc main_arg7) := W12_of_ne m ρ c main_arg7 (by decide)
    _ = W10 m ρ c (Proc.devRef .tc main_arg7) := StableHlo.after_of_forall_not_mem (b := Proc.devRef .tc main_arg7) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := W10_main_arg7 m ρ c

theorem W14_main_arg7 (c : Dev nD) : W14 m ρ c (Proc.devRef .tc main_arg7) = m ((c : Thread nD τ).loc main_arg7) :=
  calc W14 m ρ c (Proc.devRef .tc main_arg7)
    _ = W13 m ρ c (Proc.devRef .tc main_arg7) := W14_of_ne m ρ c main_arg7 (by decide)
    _ = W12 m ρ c (Proc.devRef .tc main_arg7) := StableHlo.after_of_forall_not_mem (b := Proc.devRef .tc main_arg7) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := W12_main_arg7 m ρ c

theorem W16_main_arg7 (c : Dev nD) : W16 m ρ c (Proc.devRef .tc main_arg7) = m ((c : Thread nD τ).loc main_arg7) :=
  calc W16 m ρ c (Proc.devRef .tc main_arg7)
    _ = W15 m ρ c (Proc.devRef .tc main_arg7) := W16_of_ne m ρ c main_arg7 (by decide)
    _ = W14 m ρ c (Proc.devRef .tc main_arg7) := StableHlo.after_of_forall_not_mem (b := Proc.devRef .tc main_arg7) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := W14_main_arg7 m ρ c

theorem W2_main_arg8 (c : Dev nD) : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := W2_main_arg8 m ρ c

theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := W4_main_arg8 m ρ c

theorem W8_main_arg8 (c : Dev nD) : W8 m ρ c (Proc.devRef .tc main_arg8) = m ((c : Thread nD τ).loc main_arg8) :=
  calc W8 m ρ c (Proc.devRef .tc main_arg8)
    _ = W7 m ρ c (Proc.devRef .tc main_arg8) := W8_of_ne m ρ c main_arg8 (by decide)
    _ = W6 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := W6_main_arg8 m ρ c

theorem W10_main_arg8 (c : Dev nD) : W10 m ρ c (Proc.devRef .tc main_arg8) = m ((c : Thread nD τ).loc main_arg8) :=
  calc W10 m ρ c (Proc.devRef .tc main_arg8)
    _ = W9 m ρ c (Proc.devRef .tc main_arg8) := W10_of_ne m ρ c main_arg8 (by decide)
    _ = W8 m ρ c (Proc.devRef .tc main_arg8) := StableHlo.after_of_forall_not_mem (b := Proc.devRef .tc main_arg8) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := W8_main_arg8 m ρ c

theorem W12_main_arg8 (c : Dev nD) : W12 m ρ c (Proc.devRef .tc main_arg8) = m ((c : Thread nD τ).loc main_arg8) :=
  calc W12 m ρ c (Proc.devRef .tc main_arg8)
    _ = W11 m ρ c (Proc.devRef .tc main_arg8) := W12_of_ne m ρ c main_arg8 (by decide)
    _ = W10 m ρ c (Proc.devRef .tc main_arg8) := StableHlo.after_of_forall_not_mem (b := Proc.devRef .tc main_arg8) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := W10_main_arg8 m ρ c

theorem W14_main_arg8 (c : Dev nD) : W14 m ρ c (Proc.devRef .tc main_arg8) = m ((c : Thread nD τ).loc main_arg8) :=
  calc W14 m ρ c (Proc.devRef .tc main_arg8)
    _ = W13 m ρ c (Proc.devRef .tc main_arg8) := W14_of_ne m ρ c main_arg8 (by decide)
    _ = W12 m ρ c (Proc.devRef .tc main_arg8) := StableHlo.after_of_forall_not_mem (b := Proc.devRef .tc main_arg8) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := W12_main_arg8 m ρ c

theorem W16_main_arg8 (c : Dev nD) : W16 m ρ c (Proc.devRef .tc main_arg8) = m ((c : Thread nD τ).loc main_arg8) :=
  calc W16 m ρ c (Proc.devRef .tc main_arg8)
    _ = W15 m ρ c (Proc.devRef .tc main_arg8) := W16_of_ne m ρ c main_arg8 (by decide)
    _ = W14 m ρ c (Proc.devRef .tc main_arg8) := StableHlo.after_of_forall_not_mem (b := Proc.devRef .tc main_arg8) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := W14_main_arg8 m ρ c

theorem W4_main_v1 (c : Dev nD) : W4 m ρ c (Proc.devRef .tc main_v1) = W2 m ρ c (Proc.devRef .tc main_v1) :=
  calc W4 m ρ c (Proc.devRef .tc main_v1)
    _ = W3 m ρ c (Proc.devRef .tc main_v1) := (W4_arr m ρ c 1).trans (((dat1 (V3 m ρ) c).arrAt_in 1 rfl _).trans (A_eq1 (V3 m ρ) c 1))
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W6_main_v1 (c : Dev nD) : W6 m ρ c (Proc.devRef .tc main_v1) = W2 m ρ c (Proc.devRef .tc main_v1) :=
  calc W6 m ρ c (Proc.devRef .tc main_v1)
    _ = W5 m ρ c (Proc.devRef .tc main_v1) := (W6_arr m ρ c 1).trans (((dat2 (V5 m ρ) c).arrAt_in 1 rfl _).trans (A_eq2 (V5 m ρ) c 1))
    _ = W4 m ρ c (Proc.devRef .tc main_v1) := StableHlo.after_of_forall_not_mem (b := Proc.devRef .tc main_v1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v1) := W4_main_v1 m ρ c

theorem W8_main_v1 (c : Dev nD) : W8 m ρ c (Proc.devRef .tc main_v1) = W2 m ρ c (Proc.devRef .tc main_v1) :=
  calc W8 m ρ c (Proc.devRef .tc main_v1)
    _ = W7 m ρ c (Proc.devRef .tc main_v1) := (W8_arr m ρ c 1).trans (((dat3 (V7 m ρ) c).arrAt_in 1 rfl _).trans (A_eq3 (V7 m ρ) c 1))
    _ = W6 m ρ c (Proc.devRef .tc main_v1) := StableHlo.after_of_forall_not_mem (b := Proc.devRef .tc main_v1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v1) := W6_main_v1 m ρ c

theorem W10_main_v1 (c : Dev nD) : W10 m ρ c (Proc.devRef .tc main_v1) = W2 m ρ c (Proc.devRef .tc main_v1) :=
  calc W10 m ρ c (Proc.devRef .tc main_v1)
    _ = W9 m ρ c (Proc.devRef .tc main_v1) := (W10_arr m ρ c 1).trans (((dat4 (V9 m ρ) c).arrAt_in 1 rfl _).trans (A_eq4 (V9 m ρ) c 1))
    _ = W8 m ρ c (Proc.devRef .tc main_v1) := StableHlo.after_of_forall_not_mem (b := Proc.devRef .tc main_v1) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v1) := W8_main_v1 m ρ c

theorem W12_main_v1 (c : Dev nD) : W12 m ρ c (Proc.devRef .tc main_v1) = W2 m ρ c (Proc.devRef .tc main_v1) :=
  calc W12 m ρ c (Proc.devRef .tc main_v1)
    _ = W11 m ρ c (Proc.devRef .tc main_v1) := (W12_arr m ρ c 1).trans (((dat5 (V11 m ρ) c).arrAt_in 1 rfl _).trans (A_eq5 (V11 m ρ) c 1))
    _ = W10 m ρ c (Proc.devRef .tc main_v1) := StableHlo.after_of_forall_not_mem (b := Proc.devRef .tc main_v1) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v1) := W10_main_v1 m ρ c

theorem W14_main_v1 (c : Dev nD) : W14 m ρ c (Proc.devRef .tc main_v1) = W2 m ρ c (Proc.devRef .tc main_v1) :=
  calc W14 m ρ c (Proc.devRef .tc main_v1)
    _ = W13 m ρ c (Proc.devRef .tc main_v1) := (W14_arr m ρ c 1).trans (((dat6 (V13 m ρ) c).arrAt_in 1 rfl _).trans (A_eq6 (V13 m ρ) c 1))
    _ = W12 m ρ c (Proc.devRef .tc main_v1) := StableHlo.after_of_forall_not_mem (b := Proc.devRef .tc main_v1) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v1) := W12_main_v1 m ρ c

end Cert.KernelIdeal.Gen

end
-- ==== Proof.Blocks0.lean ====
/-
  Region 0 of the idealized kernel, as layout only. Its grid has 34 points; at point `t` the output window's block is rows
  5000·t … 5000·t + 4999 of a 170000 × 64 array, one input window moves with it and the others hold their whole
  array at every point. The body stores its one payload over the whole output block. So if the payload at block `t`, position
  (p, q), is `G` at row 5000·t + p and column q, the 34 write-backs leave the output array equal to `G`: the blocks are
  disjoint and every row lies in the block of the point `row / 5000`.
-/
import proofs.«148744_j91096256348434_1_alg».proof.Proof.Gen.KernelIdeal.Frame
import Idealize.ShloMosaic.Lib.Pipeline.Value
import Idealize.ShloMosaic.Lib.ValueIdx

set_option maxRecDepth 16384

noncomputable section

namespace Cert.Bridge.Region0

open Cert.KernelIdeal Cert.KernelIdeal.Gen
open Idealize.ShloMosaic Idealize.ShloMosaic.TcCoe Idealize.SL.Sem
open Idealize.ShloMosaic.Pipeline (Dat Cfg Window)
open Idealize.ShloMosaic.ValueIdx (ix1 ix2 eq_ix2)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- The printed index maps over the 34 grid points: a moving window's block index is the point on the row axis, every
    other block index is zero. -/
theorem idx_facts : ∀ t : Fin cfg0.N,
    win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

/-- Input window 0's block at point `t`, read at (p, k): row 5000·t + p of its array. -/
theorem iblk_0 (c : Dev nD) (t : Fin cfg0.N) (p : Fin 5000) (k : Fin 128) :
    iblk0 V c 0 t (ix2 p k) = V c main_arg0 (ix2 (⟨5000 * t.val + p.val, by have := t.isLt; have := p.isLt; have h34 : cfg0.N = 34 := N_0; omega⟩ : Fin 170000) k) := by
  obtain ⟨e0, e1, e2, e3, e4, e5, e6, e7⟩ := idx_facts t
  show V c main_arg0 (((cfg0.win 0).blk t).view.emb (ix2 p k)) = V c main_arg0 _
  refine congrArg (V c main_arg0) ?_
  funext a; apply Fin.ext
  match a with
  | ⟨0, _⟩ => show win0_0.index t (0 : Fin 2) * 5000 + 1 * p.val = _; rw [e0]; show t.val * 5000 + 1 * p.val = 5000 * t.val + p.val; omega
  | ⟨1, _⟩ => show win0_0.index t (1 : Fin 2) * 128 + 1 * k.val = _; rw [e1]; show 0 * 128 + 1 * k.val = k.val; omega

/-- Input window 1's block at point `t`, read at (p, k): the array itself (the block is the whole array at every point). -/
theorem iblk_1 (c : Dev nD) (t : Fin cfg0.N) (p : Fin 128) (k : Fin 64) :
    iblk0 V c 1 t (ix2 p k) = V c main_arg4 (ix2 p k) := by
  obtain ⟨e0, e1, e2, e3, e4, e5, e6, e7⟩ := idx_facts t
  show V c main_arg4 (((cfg0.win 1).blk t).view.emb (ix2 p k)) = V c main_arg4 _
  refine congrArg (V c main_arg4) ?_
  funext a; apply Fin.ext
  match a with
  | ⟨0, _⟩ => show win0_1.index t (0 : Fin 2) * 128 + 1 * p.val = _; rw [e2]; show 0 * 128 + 1 * p.val = p.val; omega
  | ⟨1, _⟩ => show win0_1.index t (1 : Fin 2) * 64 + 1 * k.val = _; rw [e3]; show 0 * 64 + 1 * k.val = k.val; omega

/-- Input window 2's block at point `t`, read at (p, k): the array itself (the block is the whole array at every point). -/
theorem iblk_2 (c : Dev nD) (t : Fin cfg0.N) (p : Fin 1) (k : Fin 64) :
    iblk0 V c 2 t (ix2 p k) = V c main_v0 (ix2 p k) := by
  obtain ⟨e0, e1, e2, e3, e4, e5, e6, e7⟩ := idx_facts t
  show V c main_v0 (((cfg0.win 2).blk t).view.emb (ix2 p k)) = V c main_v0 _
  refine congrArg (V c main_v0) ?_
  funext a; apply Fin.ext
  match a with
  | ⟨0, _⟩ => show win0_2.index t (0 : Fin 2) * 1 + 1 * p.val = _; rw [e4]; show 0 * 1 + 1 * p.val = p.val; omega
  | ⟨1, _⟩ => show win0_2.index t (1 : Fin 2) * 64 + 1 * k.val = _; rw [e5]; show 0 * 64 + 1 * k.val = k.val; omega

/-- An index of the output array is in point `t`'s block iff its row is one of the block's 5000 rows. -/
theorem mem_blk (t : Fin cfg0.N) (i : S170000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v1).slice (win0_3.rect t)).set ↔ _
  rw [View.set_slice_whole, Rect.mem_set_unit]
  exact Iff.rfl

/-- Every index of the output array lies in the block of the point `row / 5000`. -/
theorem cover (i : S170000x64.Idx) :
    ∃ t : Fin cfg0.N, (cfg0.win 3).flush t = true ∧ i ∈ ((cfg0.win 3).blk t).view.set := by
  have hi0 : (i 0).val < 170000 := (i 0).isLt
  have hi1 : (i 1).val < 64 := (i 1).isLt
  refine ⟨⟨(i 0).val / 5000, by rw [show cfg0.N = 34 from N_0]; omega⟩, flush0_3 _, ?_⟩
  rw [mem_blk]
  obtain ⟨e0, e1, e2, e3, e4, e5, e6, e7⟩ := idx_facts ⟨(i 0).val / 5000, by rw [show cfg0.N = 34 from N_0]; omega⟩
  intro a
  match a with
  | ⟨0, _⟩ => show win0_3.index _ (0 : Fin 2) * 5000 ≤ (i 0).val ∧ (i 0).val < win0_3.index _ (0 : Fin 2) * 5000 + 5000; rw [e6]; show (i 0).val / 5000 * 5000 ≤ (i 0).val ∧ (i 0).val < (i 0).val / 5000 * 5000 + 5000; omega
  | ⟨1, _⟩ => show win0_3.index _ (1 : Fin 2) * 64 ≤ (i 1).val ∧ (i 1).val < win0_3.index _ (1 : Fin 2) * 64 + 64; rw [e7]; omega

/-- What point `t` writes back is block `t` of `G`, when the payload of the point's input blocks is `G` on the block's rows. -/
theorem flushed_eq (c : Dev nD) (G : S170000x64.Idx → Elt F .f32)
    (hG : ∀ (t : Fin cfg0.N) (p : Fin 5000) (q : Fin 64),
      k0_pay1 (iblk0 V c 0 t) (iblk0 V c 1 t) (iblk0 V c 2 t) (ix2 p q)
        = G (ix2 (⟨5000 * t.val + p.val, by have := t.isLt; have := p.isLt; have h34 : cfg0.N = 34 := N_0; omega⟩ : Fin 170000) q))
    (t : Fin cfg0.N) :
    (dat0 V c).flushed 3 t = ((cfg0.win 3).blk t).view.read (Elt F) G := by
  show (cfg0.win 3).cut (grid0.coords t) ((dat0 V c).after 3 t) = _
  rw [after0_3]
  unfold out0_3
  rw [View.canon_unit_zero hz]
  simp only [View.ld_unit_zero (S := S5000x128) hz, View.ld_unit_zero (S := S128x64) hz, View.ld_unit_zero (S := S1x64) hz]
  obtain ⟨e0, e1, e2, e3, e4, e5, e6, e7⟩ := idx_facts t
  funext y
  obtain ⟨p, q, rfl⟩ : ∃ (p : Fin 5000) (q : Fin 64), y = ix2 p q := ⟨y 0, y 1, eq_ix2 y⟩
  refine (hG t p q).trans ?_
  show G _ = G (((cfg0.win 3).blk t).view.emb (ix2 p q))
  refine congrArg G ?_
  funext a; apply Fin.ext
  match a with
  | ⟨0, _⟩ => show 5000 * t.val + p.val = win0_3.index t (0 : Fin 2) * 5000 + 1 * p.val; rw [e6]; omega
  | ⟨1, _⟩ => show q.val = win0_3.index t (1 : Fin 2) * 64 + 1 * q.val; rw [e7]; omega

/-- The output array after the region's 34 points is `G`. -/
theorem final (c : Dev nD) (G : S170000x64.Idx → Elt F .f32)
    (hG : ∀ (t : Fin cfg0.N) (p : Fin 5000) (q : Fin 64),
      k0_pay1 (iblk0 V c 0 t) (iblk0 V c 1 t) (iblk0 V c 2 t) (ix2 p q)
        = G (ix2 (⟨5000 * t.val + p.val, by have := t.isLt; have := p.isLt; have h34 : cfg0.N = 34 := N_0; omega⟩ : Fin 170000) q)) :
    (dat0 V c).arrAt 3 cfg0.N = G :=
  (dat0 V c).arrAt_eq_of_cover 3 G (fun t _ => flushed_eq V c G hG t) cover

end Cert.Bridge.Region0

end
-- ==== Proof.StageProps.lean ====
/-
  The three statements that join a kernel body's arithmetic to the reference's stages, as propositions. A body works on a
  block of 5000 rows that starts at row `r0` of the 170000-row arrays. Each proposition says: if the body's input blocks
  hold those rows of the reference's stage values (and the weight and bias blocks hold the whole weight and bias), the
  body's stored value at (p, q) is the reference's next stage value at (r0 + p, q). The layout half of the proof (which
  block a grid point reads and writes) uses them as hypotheses; the arithmetic half proves them.
-/
import proofs.«148744_j91096256348434_1_alg».proof.Proof.Gen.KernelIdeal.Skeleton
import proofs.«148744_j91096256348434_1_alg».proof.Proof.RefRead
import Idealize.ShloMosaic.Lib.ValueIdx

noncomputable section

namespace Cert.Bridge

open Idealize.ShloMosaic
open Idealize.ShloMosaic.ValueIdx (ix1 ix2)
open Cert.ReferenceIdeal.Read

/-- The input projection: relu (x · W_in + b_in) on a block of rows. -/
def InStageProp : Prop :=
  ∀ (x0 : (⟨Cert.ReferenceIdeal.S170000x128, .f32⟩ : BufTy).Contents (Elt Ideal)) (x4 : (⟨Cert.ReferenceIdeal.S128x64, .f32⟩ : BufTy).Contents (Elt Ideal)) (x5 : (⟨Cert.ReferenceIdeal.S64, .f32⟩ : BufTy).Contents (Elt Ideal))
    (xblk : Vec Ideal Cert.KernelIdeal.S5000x128 .f32) (wblk : Vec Ideal Cert.KernelIdeal.S128x64 .f32) (bblk : Vec Ideal Cert.KernelIdeal.S1x64 .f32)
    (r0 : ℕ) (hr0 : r0 + 5000 ≤ 170000),
    (∀ (p : Fin 5000) (k : Fin 128), xblk (ix2 p k) = x0 (ix2 (⟨r0 + p.val, by have := p.isLt; omega⟩ : Fin 170000) k)) →
    (∀ (k : Fin 128) (q : Fin 64), wblk (ix2 k q) = x4 (ix2 k q)) →
    (∀ q : Fin 64, bblk (ix2 (0 : Fin 1) q) = x5 (ix1 q)) →
    ∀ (p : Fin 5000) (q : Fin 64),
      Cert.KernelIdeal.Gen.k0_pay1 (F := Ideal) xblk wblk bblk (ix2 p q) = val_main_v4 (F := Ideal) x0 x4 x5 (ix2 (⟨r0 + p.val, by have := p.isLt; omega⟩ : Fin 170000) q)

/-- Layer 1's combine: the mixed value c₁·agg + c₂·x₀, then relu of its affine combination with its product by the
    layer's weight, on a block of rows. -/
def CombStageProp1 : Prop :=
  ∀ (x0 : (⟨Cert.ReferenceIdeal.S170000x128, .f32⟩ : BufTy).Contents (Elt Ideal)) (x1 x2 : (⟨Cert.ReferenceIdeal.S1200000, .i32⟩ : BufTy).Contents (Elt Ideal)) (x3 : (⟨Cert.ReferenceIdeal.S1200000, .f32⟩ : BufTy).Contents (Elt Ideal)) (x4 : (⟨Cert.ReferenceIdeal.S128x64, .f32⟩ : BufTy).Contents (Elt Ideal)) (x5 : (⟨Cert.ReferenceIdeal.S64, .f32⟩ : BufTy).Contents (Elt Ideal)) (x6 : (⟨Cert.ReferenceIdeal.S7x64x64, .f32⟩ : BufTy).Contents (Elt Ideal))
    (aggblk x0blk : Vec Ideal Cert.KernelIdeal.S5000x64 .f32) (wblk : Vec Ideal Cert.KernelIdeal.S64x64 .f32)
    (r0 : ℕ) (hr0 : r0 + 5000 ≤ 170000),
    (∀ (p : Fin 5000) (k : Fin 64), aggblk (ix2 p k) = val_main_v17 (F := Ideal) x0 x1 x2 x3 x4 x5 (ix2 (⟨r0 + p.val, by have := p.isLt; omega⟩ : Fin 170000) k)) →
    (∀ (p : Fin 5000) (k : Fin 64), x0blk (ix2 p k) = val_main_v4 (F := Ideal) x0 x4 x5 (ix2 (⟨r0 + p.val, by have := p.isLt; omega⟩ : Fin 170000) k)) →
    (∀ (k q : Fin 64), wblk (ix2 k q) = val_main_v26 (F := Ideal) x6 (ix2 k q)) →
    ∀ (p : Fin 5000) (q : Fin 64),
      Cert.KernelIdeal.Gen.k1_pay1 (F := Ideal) aggblk x0blk wblk (ix2 p q) = val_main_v31 (F := Ideal) x0 x1 x2 x3 x4 x5 x6 (ix2 (⟨r0 + p.val, by have := p.isLt; omega⟩ : Fin 170000) q)

/-- Layer 2's combine: the mixed value c₁·agg + c₂·x₀, then relu of its affine combination with its product by the
    layer's weight, on a block of rows. -/
def CombStageProp2 : Prop :=
  ∀ (x0 : (⟨Cert.ReferenceIdeal.S170000x128, .f32⟩ : BufTy).Contents (Elt Ideal)) (x1 x2 : (⟨Cert.ReferenceIdeal.S1200000, .i32⟩ : BufTy).Contents (Elt Ideal)) (x3 : (⟨Cert.ReferenceIdeal.S1200000, .f32⟩ : BufTy).Contents (Elt Ideal)) (x4 : (⟨Cert.ReferenceIdeal.S128x64, .f32⟩ : BufTy).Contents (Elt Ideal)) (x5 : (⟨Cert.ReferenceIdeal.S64, .f32⟩ : BufTy).Contents (Elt Ideal)) (x6 : (⟨Cert.ReferenceIdeal.S7x64x64, .f32⟩ : BufTy).Contents (Elt Ideal))
    (aggblk x0blk : Vec Ideal Cert.KernelIdeal.S5000x64 .f32) (wblk : Vec Ideal Cert.KernelIdeal.S64x64 .f32)
    (r0 : ℕ) (hr0 : r0 + 5000 ≤ 170000),
    (∀ (p : Fin 5000) (k : Fin 64), aggblk (ix2 p k) = val_main_v44 (F := Ideal) x0 x1 x2 x3 x4 x5 x6 (ix2 (⟨r0 + p.val, by have := p.isLt; omega⟩ : Fin 170000) k)) →
    (∀ (p : Fin 5000) (k : Fin 64), x0blk (ix2 p k) = val_main_v4 (F := Ideal) x0 x4 x5 (ix2 (⟨r0 + p.val, by have := p.isLt; omega⟩ : Fin 170000) k)) →
    (∀ (k q : Fin 64), wblk (ix2 k q) = val_main_v53 (F := Ideal) x6 (ix2 k q)) →
    ∀ (p : Fin 5000) (q : Fin 64),
      Cert.KernelIdeal.Gen.k2_pay1 (F := Ideal) aggblk x0blk wblk (ix2 p q) = val_main_v58 (F := Ideal) x0 x1 x2 x3 x4 x5 x6 (ix2 (⟨r0 + p.val, by have := p.isLt; omega⟩ : Fin 170000) q)

/-- Layer 3's combine: the mixed value c₁·agg + c₂·x₀, then relu of its affine combination with its product by the
    layer's weight, on a block of rows. -/
def CombStageProp3 : Prop :=
  ∀ (x0 : (⟨Cert.ReferenceIdeal.S170000x128, .f32⟩ : BufTy).Contents (Elt Ideal)) (x1 x2 : (⟨Cert.ReferenceIdeal.S1200000, .i32⟩ : BufTy).Contents (Elt Ideal)) (x3 : (⟨Cert.ReferenceIdeal.S1200000, .f32⟩ : BufTy).Contents (Elt Ideal)) (x4 : (⟨Cert.ReferenceIdeal.S128x64, .f32⟩ : BufTy).Contents (Elt Ideal)) (x5 : (⟨Cert.ReferenceIdeal.S64, .f32⟩ : BufTy).Contents (Elt Ideal)) (x6 : (⟨Cert.ReferenceIdeal.S7x64x64, .f32⟩ : BufTy).Contents (Elt Ideal))
    (aggblk x0blk : Vec Ideal Cert.KernelIdeal.S5000x64 .f32) (wblk : Vec Ideal Cert.KernelIdeal.S64x64 .f32)
    (r0 : ℕ) (hr0 : r0 + 5000 ≤ 170000),
    (∀ (p : Fin 5000) (k : Fin 64), aggblk (ix2 p k) = val_main_v71 (F := Ideal) x0 x1 x2 x3 x4 x5 x6 (ix2 (⟨r0 + p.val, by have := p.isLt; omega⟩ : Fin 170000) k)) →
    (∀ (p : Fin 5000) (k : Fin 64), x0blk (ix2 p k) = val_main_v4 (F := Ideal) x0 x4 x5 (ix2 (⟨r0 + p.val, by have := p.isLt; omega⟩ : Fin 170000) k)) →
    (∀ (k q : Fin 64), wblk (ix2 k q) = val_main_v80 (F := Ideal) x6 (ix2 k q)) →
    ∀ (p : Fin 5000) (q : Fin 64),
      Cert.KernelIdeal.Gen.k3_pay1 (F := Ideal) aggblk x0blk wblk (ix2 p q) = val_main_v85 (F := Ideal) x0 x1 x2 x3 x4 x5 x6 (ix2 (⟨r0 + p.val, by have := p.isLt; omega⟩ : Fin 170000) q)

/-- Layer 4's combine: the mixed value c₁·agg + c₂·x₀, then relu of its affine combination with its product by the
    layer's weight, on a block of rows. -/
def CombStageProp4 : Prop :=
  ∀ (x0 : (⟨Cert.ReferenceIdeal.S170000x128, .f32⟩ : BufTy).Contents (Elt Ideal)) (x1 x2 : (⟨Cert.ReferenceIdeal.S1200000, .i32⟩ : BufTy).Contents (Elt Ideal)) (x3 : (⟨Cert.ReferenceIdeal.S1200000, .f32⟩ : BufTy).Contents (Elt Ideal)) (x4 : (⟨Cert.ReferenceIdeal.S128x64, .f32⟩ : BufTy).Contents (Elt Ideal)) (x5 : (⟨Cert.ReferenceIdeal.S64, .f32⟩ : BufTy).Contents (Elt Ideal)) (x6 : (⟨Cert.ReferenceIdeal.S7x64x64, .f32⟩ : BufTy).Contents (Elt Ideal))
    (aggblk x0blk : Vec Ideal Cert.KernelIdeal.S5000x64 .f32) (wblk : Vec Ideal Cert.KernelIdeal.S64x64 .f32)
    (r0 : ℕ) (hr0 : r0 + 5000 ≤ 170000),
    (∀ (p : Fin 5000) (k : Fin 64), aggblk (ix2 p k) = val_main_v98 (F := Ideal) x0 x1 x2 x3 x4 x5 x6 (ix2 (⟨r0 + p.val, by have := p.isLt; omega⟩ : Fin 170000) k)) →
    (∀ (p : Fin 5000) (k : Fin 64), x0blk (ix2 p k) = val_main_v4 (F := Ideal) x0 x4 x5 (ix2 (⟨r0 + p.val, by have := p.isLt; omega⟩ : Fin 170000) k)) →
    (∀ (k q : Fin 64), wblk (ix2 k q) = val_main_v107 (F := Ideal) x6 (ix2 k q)) →
    ∀ (p : Fin 5000) (q : Fin 64),
      Cert.KernelIdeal.Gen.k4_pay1 (F := Ideal) aggblk x0blk wblk (ix2 p q) = val_main_v112 (F := Ideal) x0 x1 x2 x3 x4 x5 x6 (ix2 (⟨r0 + p.val, by have := p.isLt; omega⟩ : Fin 170000) q)

/-- Layer 5's combine: the mixed value c₁·agg + c₂·x₀, then relu of its affine combination with its product by the
    layer's weight, on a block of rows. -/
def CombStageProp5 : Prop :=
  ∀ (x0 : (⟨Cert.ReferenceIdeal.S170000x128, .f32⟩ : BufTy).Contents (Elt Ideal)) (x1 x2 : (⟨Cert.ReferenceIdeal.S1200000, .i32⟩ : BufTy).Contents (Elt Ideal)) (x3 : (⟨Cert.ReferenceIdeal.S1200000, .f32⟩ : BufTy).Contents (Elt Ideal)) (x4 : (⟨Cert.ReferenceIdeal.S128x64, .f32⟩ : BufTy).Contents (Elt Ideal)) (x5 : (⟨Cert.ReferenceIdeal.S64, .f32⟩ : BufTy).Contents (Elt Ideal)) (x6 : (⟨Cert.ReferenceIdeal.S7x64x64, .f32⟩ : BufTy).Contents (Elt Ideal))
    (aggblk x0blk : Vec Ideal Cert.KernelIdeal.S5000x64 .f32) (wblk : Vec Ideal Cert.KernelIdeal.S64x64 .f32)
    (r0 : ℕ) (hr0 : r0 + 5000 ≤ 170000),
    (∀ (p : Fin 5000) (k : Fin 64), aggblk (ix2 p k) = val_main_v125 (F := Ideal) x0 x1 x2 x3 x4 x5 x6 (ix2 (⟨r0 + p.val, by have := p.isLt; omega⟩ : Fin 170000) k)) →
    (∀ (p : Fin 5000) (k : Fin 64), x0blk (ix2 p k) = val_main_v4 (F := Ideal) x0 x4 x5 (ix2 (⟨r0 + p.val, by have := p.isLt; omega⟩ : Fin 170000) k)) →
    (∀ (k q : Fin 64), wblk (ix2 k q) = val_main_v134 (F := Ideal) x6 (ix2 k q)) →
    ∀ (p : Fin 5000) (q : Fin 64),
      Cert.KernelIdeal.Gen.k5_pay1 (F := Ideal) aggblk x0blk wblk (ix2 p q) = val_main_v139 (F := Ideal) x0 x1 x2 x3 x4 x5 x6 (ix2 (⟨r0 + p.val, by have := p.isLt; omega⟩ : Fin 170000) q)

/-- Layer 6's combine: the mixed value c₁·agg + c₂·x₀, then relu of its affine combination with its product by the
    layer's weight, on a block of rows. -/
def CombStageProp6 : Prop :=
  ∀ (x0 : (⟨Cert.ReferenceIdeal.S170000x128, .f32⟩ : BufTy).Contents (Elt Ideal)) (x1 x2 : (⟨Cert.ReferenceIdeal.S1200000, .i32⟩ : BufTy).Contents (Elt Ideal)) (x3 : (⟨Cert.ReferenceIdeal.S1200000, .f32⟩ : BufTy).Contents (Elt Ideal)) (x4 : (⟨Cert.ReferenceIdeal.S128x64, .f32⟩ : BufTy).Contents (Elt Ideal)) (x5 : (⟨Cert.ReferenceIdeal.S64, .f32⟩ : BufTy).Contents (Elt Ideal)) (x6 : (⟨Cert.ReferenceIdeal.S7x64x64, .f32⟩ : BufTy).Contents (Elt Ideal))
    (aggblk x0blk : Vec Ideal Cert.KernelIdeal.S5000x64 .f32) (wblk : Vec Ideal Cert.KernelIdeal.S64x64 .f32)
    (r0 : ℕ) (hr0 : r0 + 5000 ≤ 170000),
    (∀ (p : Fin 5000) (k : Fin 64), aggblk (ix2 p k) = val_main_v152 (F := Ideal) x0 x1 x2 x3 x4 x5 x6 (ix2 (⟨r0 + p.val, by have := p.isLt; omega⟩ : Fin 170000) k)) →
    (∀ (p : Fin 5000) (k : Fin 64), x0blk (ix2 p k) = val_main_v4 (F := Ideal) x0 x4 x5 (ix2 (⟨r0 + p.val, by have := p.isLt; omega⟩ : Fin 170000) k)) →
    (∀ (k q : Fin 64), wblk (ix2 k q) = val_main_v161 (F := Ideal) x6 (ix2 k q)) →
    ∀ (p : Fin 5000) (q : Fin 64),
      Cert.KernelIdeal.Gen.k6_pay1 (F := Ideal) aggblk x0blk wblk (ix2 p q) = val_main_v166 (F := Ideal) x0 x1 x2 x3 x4 x5 x6 (ix2 (⟨r0 + p.val, by have := p.isLt; omega⟩ : Fin 170000) q)

/-- Layer 7's combine: the mixed value c₁·agg + c₂·x₀, then relu of its affine combination with its product by the
    layer's weight, on a block of rows. -/
def CombStageProp7 : Prop :=
  ∀ (x0 : (⟨Cert.ReferenceIdeal.S170000x128, .f32⟩ : BufTy).Contents (Elt Ideal)) (x1 x2 : (⟨Cert.ReferenceIdeal.S1200000, .i32⟩ : BufTy).Contents (Elt Ideal)) (x3 : (⟨Cert.ReferenceIdeal.S1200000, .f32⟩ : BufTy).Contents (Elt Ideal)) (x4 : (⟨Cert.ReferenceIdeal.S128x64, .f32⟩ : BufTy).Contents (Elt Ideal)) (x5 : (⟨Cert.ReferenceIdeal.S64, .f32⟩ : BufTy).Contents (Elt Ideal)) (x6 : (⟨Cert.ReferenceIdeal.S7x64x64, .f32⟩ : BufTy).Contents (Elt Ideal))
    (aggblk x0blk : Vec Ideal Cert.KernelIdeal.S5000x64 .f32) (wblk : Vec Ideal Cert.KernelIdeal.S64x64 .f32)
    (r0 : ℕ) (hr0 : r0 + 5000 ≤ 170000),
    (∀ (p : Fin 5000) (k : Fin 64), aggblk (ix2 p k) = val_main_v179 (F := Ideal) x0 x1 x2 x3 x4 x5 x6 (ix2 (⟨r0 + p.val, by have := p.isLt; omega⟩ : Fin 170000) k)) →
    (∀ (p : Fin 5000) (k : Fin 64), x0blk (ix2 p k) = val_main_v4 (F := Ideal) x0 x4 x5 (ix2 (⟨r0 + p.val, by have := p.isLt; omega⟩ : Fin 170000) k)) →
    (∀ (k q : Fin 64), wblk (ix2 k q) = val_main_v188 (F := Ideal) x6 (ix2 k q)) →
    ∀ (p : Fin 5000) (q : Fin 64),
      Cert.KernelIdeal.Gen.k7_pay1 (F := Ideal) aggblk x0blk wblk (ix2 p q) = val_main_v193 (F := Ideal) x0 x1 x2 x3 x4 x5 x6 (ix2 (⟨r0 + p.val, by have := p.isLt; omega⟩ : Fin 170000) q)

/-- The output projection and the log-softmax over the 40 classes, on a block of rows. -/
def OutStageProp : Prop :=
  ∀ (x0 : (⟨Cert.ReferenceIdeal.S170000x128, .f32⟩ : BufTy).Contents (Elt Ideal)) (x1 x2 : (⟨Cert.ReferenceIdeal.S1200000, .i32⟩ : BufTy).Contents (Elt Ideal)) (x3 : (⟨Cert.ReferenceIdeal.S1200000, .f32⟩ : BufTy).Contents (Elt Ideal)) (x4 : (⟨Cert.ReferenceIdeal.S128x64, .f32⟩ : BufTy).Contents (Elt Ideal)) (x5 : (⟨Cert.ReferenceIdeal.S64, .f32⟩ : BufTy).Contents (Elt Ideal)) (x6 : (⟨Cert.ReferenceIdeal.S7x64x64, .f32⟩ : BufTy).Contents (Elt Ideal)) (x7 : (⟨Cert.ReferenceIdeal.S64x40, .f32⟩ : BufTy).Contents (Elt Ideal)) (x8 : (⟨Cert.ReferenceIdeal.S40, .f32⟩ : BufTy).Contents (Elt Ideal))
    (hblk : Vec Ideal Cert.KernelIdeal.S5000x64 .f32) (wblk : Vec Ideal Cert.KernelIdeal.S64x40 .f32) (bblk : Vec Ideal Cert.KernelIdeal.S1x40 .f32)
    (r0 : ℕ) (hr0 : r0 + 5000 ≤ 170000),
    (∀ (p : Fin 5000) (k : Fin 64), hblk (ix2 p k) = val_main_v193 (F := Ideal) x0 x1 x2 x3 x4 x5 x6 (ix2 (⟨r0 + p.val, by have := p.isLt; omega⟩ : Fin 170000) k)) →
    (∀ (k : Fin 64) (q : Fin 40), wblk (ix2 k q) = x7 (ix2 k q)) →
    (∀ q : Fin 40, bblk (ix2 (0 : Fin 1) q) = x8 (ix1 q)) →
    ∀ (p : Fin 5000) (q : Fin 40),
      Cert.KernelIdeal.Gen.k8_pay1 (F := Ideal) hblk wblk bblk (ix2 p q) = val_main_v198 (F := Ideal) x0 x1 x2 x3 x4 x5 x6 x7 x8 (ix2 (⟨r0 + p.val, by have := p.isLt; omega⟩ : Fin 170000) q)

end Cert.Bridge

end
-- ==== Proof.Chain0.lean ====
/-
  Region 0: the input projection. The region is entered after one host operation (the reshape of the 64 bias entries to
  one row), so its three input arrays hold the node features, the input weight and that bias row; its output array, the
  initial residual, ends at the reference's first stage, relu (x · W_in + b_in), as a function of the arguments.
-/
import proofs.«148744_j91096256348434_1_alg».proof.Proof.Gen.KernelIdeal.Frame
import proofs.«148744_j91096256348434_1_alg».proof.Proof.Walk
import proofs.«148744_j91096256348434_1_alg».proof.Proof.Blocks0
import proofs.«148744_j91096256348434_1_alg».proof.Proof.StageProps
import Idealize.ShloMosaic.Lib.Pipeline.Value
import Idealize.ShloMosaic.Lib.StableHlo.Run

set_option maxRecDepth 16384

noncomputable section

namespace Cert.Bridge.Chain0

open Cert.KernelIdeal Cert.KernelIdeal.Gen
open Idealize.ShloMosaic Idealize.ShloMosaic.TcCoe Idealize.SL.Sem Idealize.ShloMosaic.StableHlo
open Idealize.ShloMosaic.Pipeline (Dat Cfg Window)
open Idealize.ShloMosaic.ValueIdx (ix1 ix2)
open Cert.ReferenceIdeal.Read

variable (m : (ℓ : Loc nD τ sig) → Buf (Elt Ideal) ℓ) (ρ : Dev nD → PrngReg)

/-- The node features as the region finds them are the argument array. -/
theorem entry_x (c : Dev nD) : V1 m ρ c main_arg0 = (m ((c : Thread nD τ).loc main_arg0)) :=
  calc V1 m ρ c main_arg0
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (m ((c : Thread nD τ).loc main_arg0)) := rfl

/-- The input weight as the region finds it is the argument array. -/
theorem entry_w (c : Dev nD) : V1 m ρ c main_arg4 = (m ((c : Thread nD τ).loc main_arg4)) :=
  calc V1 m ρ c main_arg4
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (m ((c : Thread nD τ).loc main_arg4)) := rfl

/-- The bias row the region reads is the bias argument: the host stretch reshapes the 64 entries to one row of 64. -/
theorem entry_b (c : Dev nD) (q : Fin 64) : V1 m ρ c main_v0 (ix2 (0 : Fin 1) q) = (m ((c : Thread nD τ).loc main_arg5)) (ix1 q) := by
  have e : V1 m ρ c main_v0 = shapeCast S1x64 (W0 m ρ c (Proc.devRef .tc main_arg5)) shapeCasts_S64_S1x64 := by
    show StableHlo.after hostOps0 (W0 m ρ c) (Proc.devRef .tc main_v0) = _
    after_results
    rfl
  rw [e]
  refine (shapeCast_addUnit_apply ![64] _ shapeCasts_S64_S1x64 (ix2 (0 : Fin 1) q)).trans ?_
  refine (congrArg (W0 m ρ c (Proc.devRef .tc main_arg5)) (?_ : _ = ix1 q)).trans (congrFun (rfl : W0 m ρ c (Proc.devRef .tc main_arg5) = (m ((c : Thread nD τ).loc main_arg5))) _)
  funext a
  match a with
  | ⟨0, _⟩ => rfl

/-- The initial residual: after region 0 its output array is the reference's first stage of the arguments. -/
theorem result (hin : InStageProp) (c : Dev nD) :
    W2 m ρ c (Proc.devRef .tc main_v1) = val_main_v4 (F := Ideal) (m ((c : Thread nD τ).loc main_arg0)) (m ((c : Thread nD τ).loc main_arg4)) (m ((c : Thread nD τ).loc main_arg5)) :=
  (W2_arr m ρ c 3).trans (Region0.final (V1 m ρ) c _ (fun t p q =>
    hin (m ((c : Thread nD τ).loc main_arg0)) (m ((c : Thread nD τ).loc main_arg4)) (m ((c : Thread nD τ).loc main_arg5)) (iblk0 (V1 m ρ) c 0 t) (iblk0 (V1 m ρ) c 1 t) (iblk0 (V1 m ρ) c 2 t) (5000 * t.val) (by have := t.isLt; have h34 : cfg0.N = 34 := N_0; omega)
      (fun p k => (Region0.iblk_0 (V1 m ρ) c t p k).trans (congrFun (entry_x m ρ c) _))
      (fun k q => (Region0.iblk_1 (V1 m ρ) c t k q).trans (congrFun (entry_w m ρ c) _))
      (fun q => (Region0.iblk_2 (V1 m ρ) c t 0 q).trans (entry_b m ρ c q))
      p q))

end Cert.Bridge.Chain0

end
-- ==== Proof.Blocks1.lean ====
/-
  Region 1 of the idealized kernel, as layout only. Its grid has 34 points; at point `t` the output window's block is rows
  5000·t … 5000·t + 4999 of a 170000 × 64 array, two input windows move with it and the other holds its whole
  array at every point. The body stores its one payload over the whole output block. So if the payload at block `t`, position
  (p, q), is `G` at row 5000·t + p and column q, the 34 write-backs leave the output array equal to `G`: the blocks are
  disjoint and every row lies in the block of the point `row / 5000`.
-/
import proofs.«148744_j91096256348434_1_alg».proof.Proof.Gen.KernelIdeal.Frame
import Idealize.ShloMosaic.Lib.Pipeline.Value
import Idealize.ShloMosaic.Lib.ValueIdx

set_option maxRecDepth 16384

noncomputable section

namespace Cert.Bridge.Region1

open Cert.KernelIdeal Cert.KernelIdeal.Gen
open Idealize.ShloMosaic Idealize.ShloMosaic.TcCoe Idealize.SL.Sem
open Idealize.ShloMosaic.Pipeline (Dat Cfg Window)
open Idealize.ShloMosaic.ValueIdx (ix1 ix2 eq_ix2)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- The printed index maps over the 34 grid points: a moving window's block index is the point on the row axis, every
    other block index is zero. -/
theorem idx_facts : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0 :=
  (by decide +kernel : ∀ t : Fin grid1.N, _)

/-- Input window 0's block at point `t`, read at (p, k): row 5000·t + p of its array. -/
theorem iblk_0 (c : Dev nD) (t : Fin cfg1.N) (p : Fin 5000) (k : Fin 64) :
    iblk1 V c 0 t (ix2 p k) = V c main_v14 (ix2 (⟨5000 * t.val + p.val, by have := t.isLt; have := p.isLt; have h34 : cfg1.N = 34 := N_1; omega⟩ : Fin 170000) k) := by
  obtain ⟨e0, e1, e2, e3, e4, e5, e6, e7⟩ := idx_facts t
  show V c main_v14 (((cfg1.win 0).blk t).view.emb (ix2 p k)) = V c main_v14 _
  refine congrArg (V c main_v14) ?_
  funext a; apply Fin.ext
  match a with
  | ⟨0, _⟩ => show win1_0.index t (0 : Fin 2) * 5000 + 1 * p.val = _; rw [e0]; show t.val * 5000 + 1 * p.val = 5000 * t.val + p.val; omega
  | ⟨1, _⟩ => show win1_0.index t (1 : Fin 2) * 64 + 1 * k.val = _; rw [e1]; show 0 * 64 + 1 * k.val = k.val; omega

/-- Input window 1's block at point `t`, read at (p, k): row 5000·t + p of its array. -/
theorem iblk_1 (c : Dev nD) (t : Fin cfg1.N) (p : Fin 5000) (k : Fin 64) :
    iblk1 V c 1 t (ix2 p k) = V c main_v1 (ix2 (⟨5000 * t.val + p.val, by have := t.isLt; have := p.isLt; have h34 : cfg1.N = 34 := N_1; omega⟩ : Fin 170000) k) := by
  obtain ⟨e0, e1, e2, e3, e4, e5, e6, e7⟩ := idx_facts t
  show V c main_v1 (((cfg1.win 1).blk t).view.emb (ix2 p k)) = V c main_v1 _
  refine congrArg (V c main_v1) ?_
  funext a; apply Fin.ext
  match a with
  | ⟨0, _⟩ => show win1_1.index t (0 : Fin 2) * 5000 + 1 * p.val = _; rw [e2]; show t.val * 5000 + 1 * p.val = 5000 * t.val + p.val; omega
  | ⟨1, _⟩ => show win1_1.index t (1 : Fin 2) * 64 + 1 * k.val = _; rw [e3]; show 0 * 64 + 1 * k.val = k.val; omega

/-- Input window 2's block at point `t`, read at (p, k): the array itself (the block is the whole array at every point). -/
theorem iblk_2 (c : Dev nD) (t : Fin cfg1.N) (p : Fin 64) (k : Fin 64) :
    iblk1 V c 2 t (ix2 p k) = V c main_v16 (ix2 p k) := by
  obtain ⟨e0, e1, e2, e3, e4, e5, e6, e7⟩ := idx_facts t
  show V c main_v16 (((cfg1.win 2).blk t).view.emb (ix2 p k)) = V c main_v16 _
  refine congrArg (V c main_v16) ?_
  funext a; apply Fin.ext
  match a with
  | ⟨0, _⟩ => show win1_2.index t (0 : Fin 2) * 64 + 1 * p.val = _; rw [e4]; show 0 * 64 + 1 * p.val = p.val; omega
  | ⟨1, _⟩ => show win1_2.index t (1 : Fin 2) * 64 + 1 * k.val = _; rw [e5]; show 0 * 64 + 1 * k.val = k.val; omega

/-- An index of the output array is in point `t`'s block iff its row is one of the block's 5000 rows. -/
theorem mem_blk (t : Fin cfg1.N) (i : S170000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v17).slice (win1_3.rect t)).set ↔ _
  rw [View.set_slice_whole, Rect.mem_set_unit]
  exact Iff.rfl

/-- Every index of the output array lies in the block of the point `row / 5000`. -/
theorem cover (i : S170000x64.Idx) :
    ∃ t : Fin cfg1.N, (cfg1.win 3).flush t = true ∧ i ∈ ((cfg1.win 3).blk t).view.set := by
  have hi0 : (i 0).val < 170000 := (i 0).isLt
  have hi1 : (i 1).val < 64 := (i 1).isLt
  refine ⟨⟨(i 0).val / 5000, by rw [show cfg1.N = 34 from N_1]; omega⟩, flush1_3 _, ?_⟩
  rw [mem_blk]
  obtain ⟨e0, e1, e2, e3, e4, e5, e6, e7⟩ := idx_facts ⟨(i 0).val / 5000, by rw [show cfg1.N = 34 from N_1]; omega⟩
  intro a
  match a with
  | ⟨0, _⟩ => show win1_3.index _ (0 : Fin 2) * 5000 ≤ (i 0).val ∧ (i 0).val < win1_3.index _ (0 : Fin 2) * 5000 + 5000; rw [e6]; show (i 0).val / 5000 * 5000 ≤ (i 0).val ∧ (i 0).val < (i 0).val / 5000 * 5000 + 5000; omega
  | ⟨1, _⟩ => show win1_3.index _ (1 : Fin 2) * 64 ≤ (i 1).val ∧ (i 1).val < win1_3.index _ (1 : Fin 2) * 64 + 64; rw [e7]; omega

/-- What point `t` writes back is block `t` of `G`, when the payload of the point's input blocks is `G` on the block's rows. -/
theorem flushed_eq (c : Dev nD) (G : S170000x64.Idx → Elt F .f32)
    (hG : ∀ (t : Fin cfg1.N) (p : Fin 5000) (q : Fin 64),
      k1_pay1 (iblk1 V c 0 t) (iblk1 V c 1 t) (iblk1 V c 2 t) (ix2 p q)
        = G (ix2 (⟨5000 * t.val + p.val, by have := t.isLt; have := p.isLt; have h34 : cfg1.N = 34 := N_1; omega⟩ : Fin 170000) q))
    (t : Fin cfg1.N) :
    (dat1 V c).flushed 3 t = ((cfg1.win 3).blk t).view.read (Elt F) G := by
  show (cfg1.win 3).cut (grid1.coords t) ((dat1 V c).after 3 t) = _
  rw [after1_3]
  unfold out1_3
  rw [View.canon_unit_zero hz]
  simp only [View.ld_unit_zero (S := S5000x64) hz, View.ld_unit_zero (S := S5000x64) hz, View.ld_unit_zero (S := S64x64) hz]
  obtain ⟨e0, e1, e2, e3, e4, e5, e6, e7⟩ := idx_facts t
  funext y
  obtain ⟨p, q, rfl⟩ : ∃ (p : Fin 5000) (q : Fin 64), y = ix2 p q := ⟨y 0, y 1, eq_ix2 y⟩
  refine (hG t p q).trans ?_
  show G _ = G (((cfg1.win 3).blk t).view.emb (ix2 p q))
  refine congrArg G ?_
  funext a; apply Fin.ext
  match a with
  | ⟨0, _⟩ => show 5000 * t.val + p.val = win1_3.index t (0 : Fin 2) * 5000 + 1 * p.val; rw [e6]; omega
  | ⟨1, _⟩ => show q.val = win1_3.index t (1 : Fin 2) * 64 + 1 * q.val; rw [e7]; omega

/-- The output array after the region's 34 points is `G`. -/
theorem final (c : Dev nD) (G : S170000x64.Idx → Elt F .f32)
    (hG : ∀ (t : Fin cfg1.N) (p : Fin 5000) (q : Fin 64),
      k1_pay1 (iblk1 V c 0 t) (iblk1 V c 1 t) (iblk1 V c 2 t) (ix2 p q)
        = G (ix2 (⟨5000 * t.val + p.val, by have := t.isLt; have := p.isLt; have h34 : cfg1.N = 34 := N_1; omega⟩ : Fin 170000) q)) :
    (dat1 V c).arrAt 3 cfg1.N = G :=
  (dat1 V c).arrAt_eq_of_cover 3 G (fun t _ => flushed_eq V c G hG t) cover

end Cert.Bridge.Region1

end
-- ==== Proof.Chain1.lean ====
/-
  Layer 1. Between the previous region and this one the host gathers the previous layer's rows along the edges' sources,
  scales each by its edge weight and sums them into the edges' targets, and cuts the layer's 64 × 64 weight out of the
  stacked weights. Those operations are the reference's own, applied to the same values, so the aggregate the region reads
  is the reference's aggregate: the chain is never opened, only recognised. The region then mixes the aggregate with the
  initial residual and combines the mixed value with its product by the weight; its output is the reference's layer-1 value.
-/
import proofs.«148744_j91096256348434_1_alg».proof.Proof.Gen.KernelIdeal.Frame
import proofs.«148744_j91096256348434_1_alg».proof.Proof.Walk
import proofs.«148744_j91096256348434_1_alg».proof.Proof.Blocks1
import proofs.«148744_j91096256348434_1_alg».proof.Proof.StageProps
import Idealize.ShloMosaic.Lib.Pipeline.Value
import Idealize.ShloMosaic.Lib.StableHlo.Run

set_option maxRecDepth 16384

noncomputable section

namespace Cert.Bridge.Chain1

open Cert.KernelIdeal Cert.KernelIdeal.Gen
open Idealize.ShloMosaic Idealize.ShloMosaic.TcCoe Idealize.SL.Sem Idealize.ShloMosaic.StableHlo
open Idealize.ShloMosaic.Pipeline (Dat Cfg Window)
open Idealize.ShloMosaic.ValueIdx (ix1 ix2)
open Cert.ReferenceIdeal.Read

variable (m : (ℓ : Loc nD τ sig) → Buf (Elt Ideal) ℓ) (ρ : Dev nD → PrngReg)

/-- The initial residual as the region finds it is still what the first region left. -/
theorem entry_x0 (c : Dev nD) (H0 : (⟨Cert.ReferenceIdeal.S170000x64, .f32⟩ : BufTy).Contents (Elt Ideal))
    (h0 : W2 m ρ c (Proc.devRef .tc main_v1) = H0) : V3 m ρ c main_v1 = H0 :=
  calc V3 m ρ c main_v1
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = H0 := h0

/-- The layer's weight as the region finds it: slice 0 of the stacked weights, as a 64 × 64 matrix. -/
theorem entry_w (c : Dev nD) : V3 m ρ c main_v16 = val_main_v26 (F := Ideal) (m ((c : Thread nD τ).loc main_arg6)) := by
  show StableHlo.after hostOps1 (W2 m ρ c) (Proc.devRef .tc main_v16) = _
  after_results
  rw [W2_main_arg6 m ρ c]
  rfl

/-- The aggregate as the region finds it is the reference's: the same gather, scaling and scatter-add of the same values. -/
theorem entry_agg (c : Dev nD)
    (hprev : W2 m ρ c (Proc.devRef .tc main_v1) = val_main_v4 (F := Ideal) (m ((c : Thread nD τ).loc main_arg0)) (m ((c : Thread nD τ).loc main_arg4)) (m ((c : Thread nD τ).loc main_arg5))) :
    V3 m ρ c main_v14 = val_main_v17 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps1 (W2 m ρ c) (Proc.devRef .tc main_v14) = _
  after_results_simp
  rw [hprev, W2_main_arg1 m ρ c, W2_main_arg2 m ρ c, W2_main_arg3 m ρ c]
  rfl

/-- After region 1 its output array is the reference's layer-1 value of the arguments. -/
theorem result (hstage : CombStageProp1) (c : Dev nD)
    (h0 : W2 m ρ c (Proc.devRef .tc main_v1) = val_main_v4 (F := Ideal) (m ((c : Thread nD τ).loc main_arg0)) (m ((c : Thread nD τ).loc main_arg4)) (m ((c : Thread nD τ).loc main_arg5)))
    (hprev : W2 m ρ c (Proc.devRef .tc main_v1) = val_main_v4 (F := Ideal) (m ((c : Thread nD τ).loc main_arg0)) (m ((c : Thread nD τ).loc main_arg4)) (m ((c : Thread nD τ).loc main_arg5))) :
    W4 m ρ c (Proc.devRef .tc main_v17) = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W4_arr m ρ c 3).trans (Region1.final (V3 m ρ) c _ (fun t p q =>
    hstage (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (iblk1 (V3 m ρ) c 0 t) (iblk1 (V3 m ρ) c 1 t) (iblk1 (V3 m ρ) c 2 t) (5000 * t.val) (by have := t.isLt; have h34 : cfg1.N = 34 := N_1; omega)
      (fun p k => (Region1.iblk_0 (V3 m ρ) c t p k).trans (congrFun (entry_agg m ρ c hprev) _))
      (fun p k => (Region1.iblk_1 (V3 m ρ) c t p k).trans (congrFun (entry_x0 m ρ c _ h0) _))
      (fun k q => (Region1.iblk_2 (V3 m ρ) c t k q).trans (congrFun (entry_w m ρ c) _))
      p q))

end Cert.Bridge.Chain1

end
-- ==== Proof.Blocks2.lean ====
/-
  Region 2 of the idealized kernel, as layout only. Its grid has 34 points; at point `t` the output window's block is rows
  5000·t … 5000·t + 4999 of a 170000 × 64 array, two input windows move with it and the other holds its whole
  array at every point. The body stores its one payload over the whole output block. So if the payload at block `t`, position
  (p, q), is `G` at row 5000·t + p and column q, the 34 write-backs leave the output array equal to `G`: the blocks are
  disjoint and every row lies in the block of the point `row / 5000`.
-/
import proofs.«148744_j91096256348434_1_alg».proof.Proof.Gen.KernelIdeal.Frame
import Idealize.ShloMosaic.Lib.Pipeline.Value
import Idealize.ShloMosaic.Lib.ValueIdx

set_option maxRecDepth 16384

noncomputable section

namespace Cert.Bridge.Region2

open Cert.KernelIdeal Cert.KernelIdeal.Gen
open Idealize.ShloMosaic Idealize.ShloMosaic.TcCoe Idealize.SL.Sem
open Idealize.ShloMosaic.Pipeline (Dat Cfg Window)
open Idealize.ShloMosaic.ValueIdx (ix1 ix2 eq_ix2)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- The printed index maps over the 34 grid points: a moving window's block index is the point on the row axis, every
    other block index is zero. -/
theorem idx_facts : ∀ t : Fin cfg2.N,
    win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = t.val
    ∧ win2_3.index t (1 : Fin 2) = 0 :=
  (by decide +kernel : ∀ t : Fin grid2.N, _)

/-- Input window 0's block at point `t`, read at (p, k): row 5000·t + p of its array. -/
theorem iblk_0 (c : Dev nD) (t : Fin cfg2.N) (p : Fin 5000) (k : Fin 64) :
    iblk2 V c 0 t (ix2 p k) = V c main_v30 (ix2 (⟨5000 * t.val + p.val, by have := t.isLt; have := p.isLt; have h34 : cfg2.N = 34 := N_2; omega⟩ : Fin 170000) k) := by
  obtain ⟨e0, e1, e2, e3, e4, e5, e6, e7⟩ := idx_facts t
  show V c main_v30 (((cfg2.win 0).blk t).view.emb (ix2 p k)) = V c main_v30 _
  refine congrArg (V c main_v30) ?_
  funext a; apply Fin.ext
  match a with
  | ⟨0, _⟩ => show win2_0.index t (0 : Fin 2) * 5000 + 1 * p.val = _; rw [e0]; show t.val * 5000 + 1 * p.val = 5000 * t.val + p.val; omega
  | ⟨1, _⟩ => show win2_0.index t (1 : Fin 2) * 64 + 1 * k.val = _; rw [e1]; show 0 * 64 + 1 * k.val = k.val; omega

/-- Input window 1's block at point `t`, read at (p, k): row 5000·t + p of its array. -/
theorem iblk_1 (c : Dev nD) (t : Fin cfg2.N) (p : Fin 5000) (k : Fin 64) :
    iblk2 V c 1 t (ix2 p k) = V c main_v1 (ix2 (⟨5000 * t.val + p.val, by have := t.isLt; have := p.isLt; have h34 : cfg2.N = 34 := N_2; omega⟩ : Fin 170000) k) := by
  obtain ⟨e0, e1, e2, e3, e4, e5, e6, e7⟩ := idx_facts t
  show V c main_v1 (((cfg2.win 1).blk t).view.emb (ix2 p k)) = V c main_v1 _
  refine congrArg (V c main_v1) ?_
  funext a; apply Fin.ext
  match a with
  | ⟨0, _⟩ => show win2_1.index t (0 : Fin 2) * 5000 + 1 * p.val = _; rw [e2]; show t.val * 5000 + 1 * p.val = 5000 * t.val + p.val; omega
  | ⟨1, _⟩ => show win2_1.index t (1 : Fin 2) * 64 + 1 * k.val = _; rw [e3]; show 0 * 64 + 1 * k.val = k.val; omega

/-- Input window 2's block at point `t`, read at (p, k): the array itself (the block is the whole array at every point). -/
theorem iblk_2 (c : Dev nD) (t : Fin cfg2.N) (p : Fin 64) (k : Fin 64) :
    iblk2 V c 2 t (ix2 p k) = V c main_v32 (ix2 p k) := by
  obtain ⟨e0, e1, e2, e3, e4, e5, e6, e7⟩ := idx_facts t
  show V c main_v32 (((cfg2.win 2).blk t).view.emb (ix2 p k)) = V c main_v32 _
  refine congrArg (V c main_v32) ?_
  funext a; apply Fin.ext
  match a with
  | ⟨0, _⟩ => show win2_2.index t (0 : Fin 2) * 64 + 1 * p.val = _; rw [e4]; show 0 * 64 + 1 * p.val = p.val; omega
  | ⟨1, _⟩ => show win2_2.index t (1 : Fin 2) * 64 + 1 * k.val = _; rw [e5]; show 0 * 64 + 1 * k.val = k.val; omega

/-- An index of the output array is in point `t`'s block iff its row is one of the block's 5000 rows. -/
theorem mem_blk (t : Fin cfg2.N) (i : S170000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v33).slice (win2_3.rect t)).set ↔ _
  rw [View.set_slice_whole, Rect.mem_set_unit]
  exact Iff.rfl

/-- Every index of the output array lies in the block of the point `row / 5000`. -/
theorem cover (i : S170000x64.Idx) :
    ∃ t : Fin cfg2.N, (cfg2.win 3).flush t = true ∧ i ∈ ((cfg2.win 3).blk t).view.set := by
  have hi0 : (i 0).val < 170000 := (i 0).isLt
  have hi1 : (i 1).val < 64 := (i 1).isLt
  refine ⟨⟨(i 0).val / 5000, by rw [show cfg2.N = 34 from N_2]; omega⟩, flush2_3 _, ?_⟩
  rw [mem_blk]
  obtain ⟨e0, e1, e2, e3, e4, e5, e6, e7⟩ := idx_facts ⟨(i 0).val / 5000, by rw [show cfg2.N = 34 from N_2]; omega⟩
  intro a
  match a with
  | ⟨0, _⟩ => show win2_3.index _ (0 : Fin 2) * 5000 ≤ (i 0).val ∧ (i 0).val < win2_3.index _ (0 : Fin 2) * 5000 + 5000; rw [e6]; show (i 0).val / 5000 * 5000 ≤ (i 0).val ∧ (i 0).val < (i 0).val / 5000 * 5000 + 5000; omega
  | ⟨1, _⟩ => show win2_3.index _ (1 : Fin 2) * 64 ≤ (i 1).val ∧ (i 1).val < win2_3.index _ (1 : Fin 2) * 64 + 64; rw [e7]; omega

/-- What point `t` writes back is block `t` of `G`, when the payload of the point's input blocks is `G` on the block's rows. -/
theorem flushed_eq (c : Dev nD) (G : S170000x64.Idx → Elt F .f32)
    (hG : ∀ (t : Fin cfg2.N) (p : Fin 5000) (q : Fin 64),
      k2_pay1 (iblk2 V c 0 t) (iblk2 V c 1 t) (iblk2 V c 2 t) (ix2 p q)
        = G (ix2 (⟨5000 * t.val + p.val, by have := t.isLt; have := p.isLt; have h34 : cfg2.N = 34 := N_2; omega⟩ : Fin 170000) q))
    (t : Fin cfg2.N) :
    (dat2 V c).flushed 3 t = ((cfg2.win 3).blk t).view.read (Elt F) G := by
  show (cfg2.win 3).cut (grid2.coords t) ((dat2 V c).after 3 t) = _
  rw [after2_3]
  unfold out2_3
  rw [View.canon_unit_zero hz]
  simp only [View.ld_unit_zero (S := S5000x64) hz, View.ld_unit_zero (S := S5000x64) hz, View.ld_unit_zero (S := S64x64) hz]
  obtain ⟨e0, e1, e2, e3, e4, e5, e6, e7⟩ := idx_facts t
  funext y
  obtain ⟨p, q, rfl⟩ : ∃ (p : Fin 5000) (q : Fin 64), y = ix2 p q := ⟨y 0, y 1, eq_ix2 y⟩
  refine (hG t p q).trans ?_
  show G _ = G (((cfg2.win 3).blk t).view.emb (ix2 p q))
  refine congrArg G ?_
  funext a; apply Fin.ext
  match a with
  | ⟨0, _⟩ => show 5000 * t.val + p.val = win2_3.index t (0 : Fin 2) * 5000 + 1 * p.val; rw [e6]; omega
  | ⟨1, _⟩ => show q.val = win2_3.index t (1 : Fin 2) * 64 + 1 * q.val; rw [e7]; omega

/-- The output array after the region's 34 points is `G`. -/
theorem final (c : Dev nD) (G : S170000x64.Idx → Elt F .f32)
    (hG : ∀ (t : Fin cfg2.N) (p : Fin 5000) (q : Fin 64),
      k2_pay1 (iblk2 V c 0 t) (iblk2 V c 1 t) (iblk2 V c 2 t) (ix2 p q)
        = G (ix2 (⟨5000 * t.val + p.val, by have := t.isLt; have := p.isLt; have h34 : cfg2.N = 34 := N_2; omega⟩ : Fin 170000) q)) :
    (dat2 V c).arrAt 3 cfg2.N = G :=
  (dat2 V c).arrAt_eq_of_cover 3 G (fun t _ => flushed_eq V c G hG t) cover

end Cert.Bridge.Region2

end
-- ==== Proof.Chain2.lean ====
/-
  Layer 2. Between the previous region and this one the host gathers the previous layer's rows along the edges' sources,
  scales each by its edge weight and sums them into the edges' targets, and cuts the layer's 64 × 64 weight out of the
  stacked weights. Those operations are the reference's own, applied to the same values, so the aggregate the region reads
  is the reference's aggregate: the chain is never opened, only recognised. The region then mixes the aggregate with the
  initial residual and combines the mixed value with its product by the weight; its output is the reference's layer-2 value.
-/
import proofs.«148744_j91096256348434_1_alg».proof.Proof.Gen.KernelIdeal.Frame
import proofs.«148744_j91096256348434_1_alg».proof.Proof.Walk
import proofs.«148744_j91096256348434_1_alg».proof.Proof.Blocks2
import proofs.«148744_j91096256348434_1_alg».proof.Proof.StageProps
import Idealize.ShloMosaic.Lib.Pipeline.Value
import Idealize.ShloMosaic.Lib.StableHlo.Run

set_option maxRecDepth 16384

noncomputable section

namespace Cert.Bridge.Chain2

open Cert.KernelIdeal Cert.KernelIdeal.Gen
open Idealize.ShloMosaic Idealize.ShloMosaic.TcCoe Idealize.SL.Sem Idealize.ShloMosaic.StableHlo
open Idealize.ShloMosaic.Pipeline (Dat Cfg Window)
open Idealize.ShloMosaic.ValueIdx (ix1 ix2)
open Cert.ReferenceIdeal.Read

variable (m : (ℓ : Loc nD τ sig) → Buf (Elt Ideal) ℓ) (ρ : Dev nD → PrngReg)

/-- The initial residual as the region finds it is still what the first region left. -/
theorem entry_x0 (c : Dev nD) (H0 : (⟨Cert.ReferenceIdeal.S170000x64, .f32⟩ : BufTy).Contents (Elt Ideal))
    (h0 : W2 m ρ c (Proc.devRef .tc main_v1) = H0) : V5 m ρ c main_v1 = H0 :=
  calc V5 m ρ c main_v1
    _ = W4 m ρ c (Proc.devRef .tc main_v1) := StableHlo.after_of_forall_not_mem (b := Proc.devRef .tc main_v1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = H0 := (W4_main_v1 m ρ c).trans h0

/-- The layer's weight as the region finds it: slice 1 of the stacked weights, as a 64 × 64 matrix. -/
theorem entry_w (c : Dev nD) : V5 m ρ c main_v32 = val_main_v53 (F := Ideal) (m ((c : Thread nD τ).loc main_arg6)) := by
  show StableHlo.after hostOps2 (W4 m ρ c) (Proc.devRef .tc main_v32) = _
  after_results
  rw [W4_main_arg6 m ρ c]
  rfl

/-- The aggregate as the region finds it is the reference's: the same gather, scaling and scatter-add of the same values. -/
theorem entry_agg (c : Dev nD)
    (hprev : W4 m ρ c (Proc.devRef .tc main_v17) = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :
    V5 m ρ c main_v30 = val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps2 (W4 m ρ c) (Proc.devRef .tc main_v30) = _
  after_results_simp
  rw [hprev, W4_main_arg1 m ρ c, W4_main_arg2 m ρ c, W4_main_arg3 m ρ c]
  rfl

/-- After region 2 its output array is the reference's layer-2 value of the arguments. -/
theorem result (hstage : CombStageProp2) (c : Dev nD)
    (h0 : W2 m ρ c (Proc.devRef .tc main_v1) = val_main_v4 (F := Ideal) (m ((c : Thread nD τ).loc main_arg0)) (m ((c : Thread nD τ).loc main_arg4)) (m ((c : Thread nD τ).loc main_arg5)))
    (hprev : W4 m ρ c (Proc.devRef .tc main_v17) = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :
    W6 m ρ c (Proc.devRef .tc main_v33) = val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W6_arr m ρ c 3).trans (Region2.final (V5 m ρ) c _ (fun t p q =>
    hstage (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (iblk2 (V5 m ρ) c 0 t) (iblk2 (V5 m ρ) c 1 t) (iblk2 (V5 m ρ) c 2 t) (5000 * t.val) (by have := t.isLt; have h34 : cfg2.N = 34 := N_2; omega)
      (fun p k => (Region2.iblk_0 (V5 m ρ) c t p k).trans (congrFun (entry_agg m ρ c hprev) _))
      (fun p k => (Region2.iblk_1 (V5 m ρ) c t p k).trans (congrFun (entry_x0 m ρ c _ h0) _))
      (fun k q => (Region2.iblk_2 (V5 m ρ) c t k q).trans (congrFun (entry_w m ρ c) _))
      p q))

end Cert.Bridge.Chain2

end
-- ==== Proof.Blocks3.lean ====
/-
  Region 3 of the idealized kernel, as layout only. Its grid has 34 points; at point `t` the output window's block is rows
  5000·t … 5000·t + 4999 of a 170000 × 64 array, two input windows move with it and the other holds its whole
  array at every point. The body stores its one payload over the whole output block. So if the payload at block `t`, position
  (p, q), is `G` at row 5000·t + p and column q, the 34 write-backs leave the output array equal to `G`: the blocks are
  disjoint and every row lies in the block of the point `row / 5000`.
-/
import proofs.«148744_j91096256348434_1_alg».proof.Proof.Gen.KernelIdeal.Frame
import Idealize.ShloMosaic.Lib.Pipeline.Value
import Idealize.ShloMosaic.Lib.ValueIdx

set_option maxRecDepth 16384

noncomputable section

namespace Cert.Bridge.Region3

open Cert.KernelIdeal Cert.KernelIdeal.Gen
open Idealize.ShloMosaic Idealize.ShloMosaic.TcCoe Idealize.SL.Sem
open Idealize.ShloMosaic.Pipeline (Dat Cfg Window)
open Idealize.ShloMosaic.ValueIdx (ix1 ix2 eq_ix2)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- The printed index maps over the 34 grid points: a moving window's block index is the point on the row axis, every
    other block index is zero. -/
theorem idx_facts : ∀ t : Fin cfg3.N,
    win3_0.index t (0 : Fin 2) = t.val
    ∧ win3_0.index t (1 : Fin 2) = 0
    ∧ win3_1.index t (0 : Fin 2) = t.val
    ∧ win3_1.index t (1 : Fin 2) = 0
    ∧ win3_2.index t (0 : Fin 2) = 0
    ∧ win3_2.index t (1 : Fin 2) = 0
    ∧ win3_3.index t (0 : Fin 2) = t.val
    ∧ win3_3.index t (1 : Fin 2) = 0 :=
  (by decide +kernel : ∀ t : Fin grid3.N, _)

/-- Input window 0's block at point `t`, read at (p, k): row 5000·t + p of its array. -/
theorem iblk_0 (c : Dev nD) (t : Fin cfg3.N) (p : Fin 5000) (k : Fin 64) :
    iblk3 V c 0 t (ix2 p k) = V c main_v46 (ix2 (⟨5000 * t.val + p.val, by have := t.isLt; have := p.isLt; have h34 : cfg3.N = 34 := N_3; omega⟩ : Fin 170000) k) := by
  obtain ⟨e0, e1, e2, e3, e4, e5, e6, e7⟩ := idx_facts t
  show V c main_v46 (((cfg3.win 0).blk t).view.emb (ix2 p k)) = V c main_v46 _
  refine congrArg (V c main_v46) ?_
  funext a; apply Fin.ext
  match a with
  | ⟨0, _⟩ => show win3_0.index t (0 : Fin 2) * 5000 + 1 * p.val = _; rw [e0]; show t.val * 5000 + 1 * p.val = 5000 * t.val + p.val; omega
  | ⟨1, _⟩ => show win3_0.index t (1 : Fin 2) * 64 + 1 * k.val = _; rw [e1]; show 0 * 64 + 1 * k.val = k.val; omega

/-- Input window 1's block at point `t`, read at (p, k): row 5000·t + p of its array. -/
theorem iblk_1 (c : Dev nD) (t : Fin cfg3.N) (p : Fin 5000) (k : Fin 64) :
    iblk3 V c 1 t (ix2 p k) = V c main_v1 (ix2 (⟨5000 * t.val + p.val, by have := t.isLt; have := p.isLt; have h34 : cfg3.N = 34 := N_3; omega⟩ : Fin 170000) k) := by
  obtain ⟨e0, e1, e2, e3, e4, e5, e6, e7⟩ := idx_facts t
  show V c main_v1 (((cfg3.win 1).blk t).view.emb (ix2 p k)) = V c main_v1 _
  refine congrArg (V c main_v1) ?_
  funext a; apply Fin.ext
  match a with
  | ⟨0, _⟩ => show win3_1.index t (0 : Fin 2) * 5000 + 1 * p.val = _; rw [e2]; show t.val * 5000 + 1 * p.val = 5000 * t.val + p.val; omega
  | ⟨1, _⟩ => show win3_1.index t (1 : Fin 2) * 64 + 1 * k.val = _; rw [e3]; show 0 * 64 + 1 * k.val = k.val; omega

/-- Input window 2's block at point `t`, read at (p, k): the array itself (the block is the whole array at every point). -/
theorem iblk_2 (c : Dev nD) (t : Fin cfg3.N) (p : Fin 64) (k : Fin 64) :
    iblk3 V c 2 t (ix2 p k) = V c main_v48 (ix2 p k) := by
  obtain ⟨e0, e1, e2, e3, e4, e5, e6, e7⟩ := idx_facts t
  show V c main_v48 (((cfg3.win 2).blk t).view.emb (ix2 p k)) = V c main_v48 _
  refine congrArg (V c main_v48) ?_
  funext a; apply Fin.ext
  match a with
  | ⟨0, _⟩ => show win3_2.index t (0 : Fin 2) * 64 + 1 * p.val = _; rw [e4]; show 0 * 64 + 1 * p.val = p.val; omega
  | ⟨1, _⟩ => show win3_2.index t (1 : Fin 2) * 64 + 1 * k.val = _; rw [e5]; show 0 * 64 + 1 * k.val = k.val; omega

/-- An index of the output array is in point `t`'s block iff its row is one of the block's 5000 rows. -/
theorem mem_blk (t : Fin cfg3.N) (i : S170000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v49).slice (win3_3.rect t)).set ↔ _
  rw [View.set_slice_whole, Rect.mem_set_unit]
  exact Iff.rfl

/-- Every index of the output array lies in the block of the point `row / 5000`. -/
theorem cover (i : S170000x64.Idx) :
    ∃ t : Fin cfg3.N, (cfg3.win 3).flush t = true ∧ i ∈ ((cfg3.win 3).blk t).view.set := by
  have hi0 : (i 0).val < 170000 := (i 0).isLt
  have hi1 : (i 1).val < 64 := (i 1).isLt
  refine ⟨⟨(i 0).val / 5000, by rw [show cfg3.N = 34 from N_3]; omega⟩, flush3_3 _, ?_⟩
  rw [mem_blk]
  obtain ⟨e0, e1, e2, e3, e4, e5, e6, e7⟩ := idx_facts ⟨(i 0).val / 5000, by rw [show cfg3.N = 34 from N_3]; omega⟩
  intro a
  match a with
  | ⟨0, _⟩ => show win3_3.index _ (0 : Fin 2) * 5000 ≤ (i 0).val ∧ (i 0).val < win3_3.index _ (0 : Fin 2) * 5000 + 5000; rw [e6]; show (i 0).val / 5000 * 5000 ≤ (i 0).val ∧ (i 0).val < (i 0).val / 5000 * 5000 + 5000; omega
  | ⟨1, _⟩ => show win3_3.index _ (1 : Fin 2) * 64 ≤ (i 1).val ∧ (i 1).val < win3_3.index _ (1 : Fin 2) * 64 + 64; rw [e7]; omega

/-- What point `t` writes back is block `t` of `G`, when the payload of the point's input blocks is `G` on the block's rows. -/
theorem flushed_eq (c : Dev nD) (G : S170000x64.Idx → Elt F .f32)
    (hG : ∀ (t : Fin cfg3.N) (p : Fin 5000) (q : Fin 64),
      k3_pay1 (iblk3 V c 0 t) (iblk3 V c 1 t) (iblk3 V c 2 t) (ix2 p q)
        = G (ix2 (⟨5000 * t.val + p.val, by have := t.isLt; have := p.isLt; have h34 : cfg3.N = 34 := N_3; omega⟩ : Fin 170000) q))
    (t : Fin cfg3.N) :
    (dat3 V c).flushed 3 t = ((cfg3.win 3).blk t).view.read (Elt F) G := by
  show (cfg3.win 3).cut (grid3.coords t) ((dat3 V c).after 3 t) = _
  rw [after3_3]
  unfold out3_3
  rw [View.canon_unit_zero hz]
  simp only [View.ld_unit_zero (S := S5000x64) hz, View.ld_unit_zero (S := S5000x64) hz, View.ld_unit_zero (S := S64x64) hz]
  obtain ⟨e0, e1, e2, e3, e4, e5, e6, e7⟩ := idx_facts t
  funext y
  obtain ⟨p, q, rfl⟩ : ∃ (p : Fin 5000) (q : Fin 64), y = ix2 p q := ⟨y 0, y 1, eq_ix2 y⟩
  refine (hG t p q).trans ?_
  show G _ = G (((cfg3.win 3).blk t).view.emb (ix2 p q))
  refine congrArg G ?_
  funext a; apply Fin.ext
  match a with
  | ⟨0, _⟩ => show 5000 * t.val + p.val = win3_3.index t (0 : Fin 2) * 5000 + 1 * p.val; rw [e6]; omega
  | ⟨1, _⟩ => show q.val = win3_3.index t (1 : Fin 2) * 64 + 1 * q.val; rw [e7]; omega

/-- The output array after the region's 34 points is `G`. -/
theorem final (c : Dev nD) (G : S170000x64.Idx → Elt F .f32)
    (hG : ∀ (t : Fin cfg3.N) (p : Fin 5000) (q : Fin 64),
      k3_pay1 (iblk3 V c 0 t) (iblk3 V c 1 t) (iblk3 V c 2 t) (ix2 p q)
        = G (ix2 (⟨5000 * t.val + p.val, by have := t.isLt; have := p.isLt; have h34 : cfg3.N = 34 := N_3; omega⟩ : Fin 170000) q)) :
    (dat3 V c).arrAt 3 cfg3.N = G :=
  (dat3 V c).arrAt_eq_of_cover 3 G (fun t _ => flushed_eq V c G hG t) cover

end Cert.Bridge.Region3

end
-- ==== Proof.Chain3.lean ====
/-
  Layer 3. Between the previous region and this one the host gathers the previous layer's rows along the edges' sources,
  scales each by its edge weight and sums them into the edges' targets, and cuts the layer's 64 × 64 weight out of the
  stacked weights. Those operations are the reference's own, applied to the same values, so the aggregate the region reads
  is the reference's aggregate: the chain is never opened, only recognised. The region then mixes the aggregate with the
  initial residual and combines the mixed value with its product by the weight; its output is the reference's layer-3 value.
-/
import proofs.«148744_j91096256348434_1_alg».proof.Proof.Gen.KernelIdeal.Frame
import proofs.«148744_j91096256348434_1_alg».proof.Proof.Walk
import proofs.«148744_j91096256348434_1_alg».proof.Proof.Blocks3
import proofs.«148744_j91096256348434_1_alg».proof.Proof.StageProps
import Idealize.ShloMosaic.Lib.Pipeline.Value
import Idealize.ShloMosaic.Lib.StableHlo.Run

set_option maxRecDepth 16384

noncomputable section

namespace Cert.Bridge.Chain3

open Cert.KernelIdeal Cert.KernelIdeal.Gen
open Idealize.ShloMosaic Idealize.ShloMosaic.TcCoe Idealize.SL.Sem Idealize.ShloMosaic.StableHlo
open Idealize.ShloMosaic.Pipeline (Dat Cfg Window)
open Idealize.ShloMosaic.ValueIdx (ix1 ix2)
open Cert.ReferenceIdeal.Read

variable (m : (ℓ : Loc nD τ sig) → Buf (Elt Ideal) ℓ) (ρ : Dev nD → PrngReg)

/-- The initial residual as the region finds it is still what the first region left. -/
theorem entry_x0 (c : Dev nD) (H0 : (⟨Cert.ReferenceIdeal.S170000x64, .f32⟩ : BufTy).Contents (Elt Ideal))
    (h0 : W2 m ρ c (Proc.devRef .tc main_v1) = H0) : V7 m ρ c main_v1 = H0 :=
  calc V7 m ρ c main_v1
    _ = W6 m ρ c (Proc.devRef .tc main_v1) := StableHlo.after_of_forall_not_mem (b := Proc.devRef .tc main_v1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = H0 := (W6_main_v1 m ρ c).trans h0

/-- The layer's weight as the region finds it: slice 2 of the stacked weights, as a 64 × 64 matrix. -/
theorem entry_w (c : Dev nD) : V7 m ρ c main_v48 = val_main_v80 (F := Ideal) (m ((c : Thread nD τ).loc main_arg6)) := by
  show StableHlo.after hostOps3 (W6 m ρ c) (Proc.devRef .tc main_v48) = _
  after_results
  rw [W6_main_arg6 m ρ c]
  rfl

/-- The aggregate as the region finds it is the reference's: the same gather, scaling and scatter-add of the same values. -/
theorem entry_agg (c : Dev nD)
    (hprev : W6 m ρ c (Proc.devRef .tc main_v33) = val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :
    V7 m ρ c main_v46 = val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps3 (W6 m ρ c) (Proc.devRef .tc main_v46) = _
  after_results_simp
  rw [hprev, W6_main_arg1 m ρ c, W6_main_arg2 m ρ c, W6_main_arg3 m ρ c]
  rfl

/-- After region 3 its output array is the reference's layer-3 value of the arguments. -/
theorem result (hstage : CombStageProp3) (c : Dev nD)
    (h0 : W2 m ρ c (Proc.devRef .tc main_v1) = val_main_v4 (F := Ideal) (m ((c : Thread nD τ).loc main_arg0)) (m ((c : Thread nD τ).loc main_arg4)) (m ((c : Thread nD τ).loc main_arg5)))
    (hprev : W6 m ρ c (Proc.devRef .tc main_v33) = val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :
    W8 m ρ c (Proc.devRef .tc main_v49) = val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W8_arr m ρ c 3).trans (Region3.final (V7 m ρ) c _ (fun t p q =>
    hstage (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (iblk3 (V7 m ρ) c 0 t) (iblk3 (V7 m ρ) c 1 t) (iblk3 (V7 m ρ) c 2 t) (5000 * t.val) (by have := t.isLt; have h34 : cfg3.N = 34 := N_3; omega)
      (fun p k => (Region3.iblk_0 (V7 m ρ) c t p k).trans (congrFun (entry_agg m ρ c hprev) _))
      (fun p k => (Region3.iblk_1 (V7 m ρ) c t p k).trans (congrFun (entry_x0 m ρ c _ h0) _))
      (fun k q => (Region3.iblk_2 (V7 m ρ) c t k q).trans (congrFun (entry_w m ρ c) _))
      p q))

end Cert.Bridge.Chain3

end
-- ==== Proof.Blocks4.lean ====
/-
  Region 4 of the idealized kernel, as layout only. Its grid has 34 points; at point `t` the output window's block is rows
  5000·t … 5000·t + 4999 of a 170000 × 64 array, two input windows move with it and the other holds its whole
  array at every point. The body stores its one payload over the whole output block. So if the payload at block `t`, position
  (p, q), is `G` at row 5000·t + p and column q, the 34 write-backs leave the output array equal to `G`: the blocks are
  disjoint and every row lies in the block of the point `row / 5000`.
-/
import proofs.«148744_j91096256348434_1_alg».proof.Proof.Gen.KernelIdeal.Frame
import Idealize.ShloMosaic.Lib.Pipeline.Value
import Idealize.ShloMosaic.Lib.ValueIdx

set_option maxRecDepth 16384

noncomputable section

namespace Cert.Bridge.Region4

open Cert.KernelIdeal Cert.KernelIdeal.Gen
open Idealize.ShloMosaic Idealize.ShloMosaic.TcCoe Idealize.SL.Sem
open Idealize.ShloMosaic.Pipeline (Dat Cfg Window)
open Idealize.ShloMosaic.ValueIdx (ix1 ix2 eq_ix2)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- The printed index maps over the 34 grid points: a moving window's block index is the point on the row axis, every
    other block index is zero. -/
theorem idx_facts : ∀ t : Fin cfg4.N,
    win4_0.index t (0 : Fin 2) = t.val
    ∧ win4_0.index t (1 : Fin 2) = 0
    ∧ win4_1.index t (0 : Fin 2) = t.val
    ∧ win4_1.index t (1 : Fin 2) = 0
    ∧ win4_2.index t (0 : Fin 2) = 0
    ∧ win4_2.index t (1 : Fin 2) = 0
    ∧ win4_3.index t (0 : Fin 2) = t.val
    ∧ win4_3.index t (1 : Fin 2) = 0 :=
  (by decide +kernel : ∀ t : Fin grid4.N, _)

/-- Input window 0's block at point `t`, read at (p, k): row 5000·t + p of its array. -/
theorem iblk_0 (c : Dev nD) (t : Fin cfg4.N) (p : Fin 5000) (k : Fin 64) :
    iblk4 V c 0 t (ix2 p k) = V c main_v62 (ix2 (⟨5000 * t.val + p.val, by have := t.isLt; have := p.isLt; have h34 : cfg4.N = 34 := N_4; omega⟩ : Fin 170000) k) := by
  obtain ⟨e0, e1, e2, e3, e4, e5, e6, e7⟩ := idx_facts t
  show V c main_v62 (((cfg4.win 0).blk t).view.emb (ix2 p k)) = V c main_v62 _
  refine congrArg (V c main_v62) ?_
  funext a; apply Fin.ext
  match a with
  | ⟨0, _⟩ => show win4_0.index t (0 : Fin 2) * 5000 + 1 * p.val = _; rw [e0]; show t.val * 5000 + 1 * p.val = 5000 * t.val + p.val; omega
  | ⟨1, _⟩ => show win4_0.index t (1 : Fin 2) * 64 + 1 * k.val = _; rw [e1]; show 0 * 64 + 1 * k.val = k.val; omega

/-- Input window 1's block at point `t`, read at (p, k): row 5000·t + p of its array. -/
theorem iblk_1 (c : Dev nD) (t : Fin cfg4.N) (p : Fin 5000) (k : Fin 64) :
    iblk4 V c 1 t (ix2 p k) = V c main_v1 (ix2 (⟨5000 * t.val + p.val, by have := t.isLt; have := p.isLt; have h34 : cfg4.N = 34 := N_4; omega⟩ : Fin 170000) k) := by
  obtain ⟨e0, e1, e2, e3, e4, e5, e6, e7⟩ := idx_facts t
  show V c main_v1 (((cfg4.win 1).blk t).view.emb (ix2 p k)) = V c main_v1 _
  refine congrArg (V c main_v1) ?_
  funext a; apply Fin.ext
  match a with
  | ⟨0, _⟩ => show win4_1.index t (0 : Fin 2) * 5000 + 1 * p.val = _; rw [e2]; show t.val * 5000 + 1 * p.val = 5000 * t.val + p.val; omega
  | ⟨1, _⟩ => show win4_1.index t (1 : Fin 2) * 64 + 1 * k.val = _; rw [e3]; show 0 * 64 + 1 * k.val = k.val; omega

/-- Input window 2's block at point `t`, read at (p, k): the array itself (the block is the whole array at every point). -/
theorem iblk_2 (c : Dev nD) (t : Fin cfg4.N) (p : Fin 64) (k : Fin 64) :
    iblk4 V c 2 t (ix2 p k) = V c main_v64 (ix2 p k) := by
  obtain ⟨e0, e1, e2, e3, e4, e5, e6, e7⟩ := idx_facts t
  show V c main_v64 (((cfg4.win 2).blk t).view.emb (ix2 p k)) = V c main_v64 _
  refine congrArg (V c main_v64) ?_
  funext a; apply Fin.ext
  match a with
  | ⟨0, _⟩ => show win4_2.index t (0 : Fin 2) * 64 + 1 * p.val = _; rw [e4]; show 0 * 64 + 1 * p.val = p.val; omega
  | ⟨1, _⟩ => show win4_2.index t (1 : Fin 2) * 64 + 1 * k.val = _; rw [e5]; show 0 * 64 + 1 * k.val = k.val; omega

/-- An index of the output array is in point `t`'s block iff its row is one of the block's 5000 rows. -/
theorem mem_blk (t : Fin cfg4.N) (i : S170000x64.Idx) :
    i ∈ ((cfg4.win 3).blk t).view.set ↔ ∀ a : Fin 2, win4_3.index t a * S5000x64.size a ≤ (i a).val ∧ (i a).val < win4_3.index t a * S5000x64.size a + S5000x64.size a := by
  show i ∈ ((View.whole main_v65).slice (win4_3.rect t)).set ↔ _
  rw [View.set_slice_whole, Rect.mem_set_unit]
  exact Iff.rfl

/-- Every index of the output array lies in the block of the point `row / 5000`. -/
theorem cover (i : S170000x64.Idx) :
    ∃ t : Fin cfg4.N, (cfg4.win 3).flush t = true ∧ i ∈ ((cfg4.win 3).blk t).view.set := by
  have hi0 : (i 0).val < 170000 := (i 0).isLt
  have hi1 : (i 1).val < 64 := (i 1).isLt
  refine ⟨⟨(i 0).val / 5000, by rw [show cfg4.N = 34 from N_4]; omega⟩, flush4_3 _, ?_⟩
  rw [mem_blk]
  obtain ⟨e0, e1, e2, e3, e4, e5, e6, e7⟩ := idx_facts ⟨(i 0).val / 5000, by rw [show cfg4.N = 34 from N_4]; omega⟩
  intro a
  match a with
  | ⟨0, _⟩ => show win4_3.index _ (0 : Fin 2) * 5000 ≤ (i 0).val ∧ (i 0).val < win4_3.index _ (0 : Fin 2) * 5000 + 5000; rw [e6]; show (i 0).val / 5000 * 5000 ≤ (i 0).val ∧ (i 0).val < (i 0).val / 5000 * 5000 + 5000; omega
  | ⟨1, _⟩ => show win4_3.index _ (1 : Fin 2) * 64 ≤ (i 1).val ∧ (i 1).val < win4_3.index _ (1 : Fin 2) * 64 + 64; rw [e7]; omega

/-- What point `t` writes back is block `t` of `G`, when the payload of the point's input blocks is `G` on the block's rows. -/
theorem flushed_eq (c : Dev nD) (G : S170000x64.Idx → Elt F .f32)
    (hG : ∀ (t : Fin cfg4.N) (p : Fin 5000) (q : Fin 64),
      k4_pay1 (iblk4 V c 0 t) (iblk4 V c 1 t) (iblk4 V c 2 t) (ix2 p q)
        = G (ix2 (⟨5000 * t.val + p.val, by have := t.isLt; have := p.isLt; have h34 : cfg4.N = 34 := N_4; omega⟩ : Fin 170000) q))
    (t : Fin cfg4.N) :
    (dat4 V c).flushed 3 t = ((cfg4.win 3).blk t).view.read (Elt F) G := by
  show (cfg4.win 3).cut (grid4.coords t) ((dat4 V c).after 3 t) = _
  rw [after4_3]
  unfold out4_3
  rw [View.canon_unit_zero hz]
  simp only [View.ld_unit_zero (S := S5000x64) hz, View.ld_unit_zero (S := S5000x64) hz, View.ld_unit_zero (S := S64x64) hz]
  obtain ⟨e0, e1, e2, e3, e4, e5, e6, e7⟩ := idx_facts t
  funext y
  obtain ⟨p, q, rfl⟩ : ∃ (p : Fin 5000) (q : Fin 64), y = ix2 p q := ⟨y 0, y 1, eq_ix2 y⟩
  refine (hG t p q).trans ?_
  show G _ = G (((cfg4.win 3).blk t).view.emb (ix2 p q))
  refine congrArg G ?_
  funext a; apply Fin.ext
  match a with
  | ⟨0, _⟩ => show 5000 * t.val + p.val = win4_3.index t (0 : Fin 2) * 5000 + 1 * p.val; rw [e6]; omega
  | ⟨1, _⟩ => show q.val = win4_3.index t (1 : Fin 2) * 64 + 1 * q.val; rw [e7]; omega

/-- The output array after the region's 34 points is `G`. -/
theorem final (c : Dev nD) (G : S170000x64.Idx → Elt F .f32)
    (hG : ∀ (t : Fin cfg4.N) (p : Fin 5000) (q : Fin 64),
      k4_pay1 (iblk4 V c 0 t) (iblk4 V c 1 t) (iblk4 V c 2 t) (ix2 p q)
        = G (ix2 (⟨5000 * t.val + p.val, by have := t.isLt; have := p.isLt; have h34 : cfg4.N = 34 := N_4; omega⟩ : Fin 170000) q)) :
    (dat4 V c).arrAt 3 cfg4.N = G :=
  (dat4 V c).arrAt_eq_of_cover 3 G (fun t _ => flushed_eq V c G hG t) cover

end Cert.Bridge.Region4

end
-- ==== Proof.Chain4.lean ====
/-
  Layer 4. Between the previous region and this one the host gathers the previous layer's rows along the edges' sources,
  scales each by its edge weight and sums them into the edges' targets, and cuts the layer's 64 × 64 weight out of the
  stacked weights. Those operations are the reference's own, applied to the same values, so the aggregate the region reads
  is the reference's aggregate: the chain is never opened, only recognised. The region then mixes the aggregate with the
  initial residual and combines the mixed value with its product by the weight; its output is the reference's layer-4 value.
-/
import proofs.«148744_j91096256348434_1_alg».proof.Proof.Gen.KernelIdeal.Frame
import proofs.«148744_j91096256348434_1_alg».proof.Proof.Walk
import proofs.«148744_j91096256348434_1_alg».proof.Proof.Blocks4
import proofs.«148744_j91096256348434_1_alg».proof.Proof.StageProps
import Idealize.ShloMosaic.Lib.Pipeline.Value
import Idealize.ShloMosaic.Lib.StableHlo.Run

set_option maxRecDepth 16384

noncomputable section

namespace Cert.Bridge.Chain4

open Cert.KernelIdeal Cert.KernelIdeal.Gen
open Idealize.ShloMosaic Idealize.ShloMosaic.TcCoe Idealize.SL.Sem Idealize.ShloMosaic.StableHlo
open Idealize.ShloMosaic.Pipeline (Dat Cfg Window)
open Idealize.ShloMosaic.ValueIdx (ix1 ix2)
open Cert.ReferenceIdeal.Read

variable (m : (ℓ : Loc nD τ sig) → Buf (Elt Ideal) ℓ) (ρ : Dev nD → PrngReg)

/-- The initial residual as the region finds it is still what the first region left. -/
theorem entry_x0 (c : Dev nD) (H0 : (⟨Cert.ReferenceIdeal.S170000x64, .f32⟩ : BufTy).Contents (Elt Ideal))
    (h0 : W2 m ρ c (Proc.devRef .tc main_v1) = H0) : V9 m ρ c main_v1 = H0 :=
  calc V9 m ρ c main_v1
    _ = W8 m ρ c (Proc.devRef .tc main_v1) := StableHlo.after_of_forall_not_mem (b := Proc.devRef .tc main_v1) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = H0 := (W8_main_v1 m ρ c).trans h0

/-- The layer's weight as the region finds it: slice 3 of the stacked weights, as a 64 × 64 matrix. -/
theorem entry_w (c : Dev nD) : V9 m ρ c main_v64 = val_main_v107 (F := Ideal) (m ((c : Thread nD τ).loc main_arg6)) := by
  show StableHlo.after hostOps4 (W8 m ρ c) (Proc.devRef .tc main_v64) = _
  after_results
  rw [W8_main_arg6 m ρ c]
  rfl

/-- The aggregate as the region finds it is the reference's: the same gather, scaling and scatter-add of the same values. -/
theorem entry_agg (c : Dev nD)
    (hprev : W8 m ρ c (Proc.devRef .tc main_v49) = val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :
    V9 m ρ c main_v62 = val_main_v98 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps4 (W8 m ρ c) (Proc.devRef .tc main_v62) = _
  after_results_simp
  rw [hprev, W8_main_arg1 m ρ c, W8_main_arg2 m ρ c, W8_main_arg3 m ρ c]
  rfl

/-- After region 4 its output array is the reference's layer-4 value of the arguments. -/
theorem result (hstage : CombStageProp4) (c : Dev nD)
    (h0 : W2 m ρ c (Proc.devRef .tc main_v1) = val_main_v4 (F := Ideal) (m ((c : Thread nD τ).loc main_arg0)) (m ((c : Thread nD τ).loc main_arg4)) (m ((c : Thread nD τ).loc main_arg5)))
    (hprev : W8 m ρ c (Proc.devRef .tc main_v49) = val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :
    W10 m ρ c (Proc.devRef .tc main_v65) = val_main_v112 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W10_arr m ρ c 3).trans (Region4.final (V9 m ρ) c _ (fun t p q =>
    hstage (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (iblk4 (V9 m ρ) c 0 t) (iblk4 (V9 m ρ) c 1 t) (iblk4 (V9 m ρ) c 2 t) (5000 * t.val) (by have := t.isLt; have h34 : cfg4.N = 34 := N_4; omega)
      (fun p k => (Region4.iblk_0 (V9 m ρ) c t p k).trans (congrFun (entry_agg m ρ c hprev) _))
      (fun p k => (Region4.iblk_1 (V9 m ρ) c t p k).trans (congrFun (entry_x0 m ρ c _ h0) _))
      (fun k q => (Region4.iblk_2 (V9 m ρ) c t k q).trans (congrFun (entry_w m ρ c) _))
      p q))

end Cert.Bridge.Chain4

end
-- ==== Proof.Blocks5.lean ====
/-
  Region 5 of the idealized kernel, as layout only. Its grid has 34 points; at point `t` the output window's block is rows
  5000·t … 5000·t + 4999 of a 170000 × 64 array, two input windows move with it and the other holds its whole
  array at every point. The body stores its one payload over the whole output block. So if the payload at block `t`, position
  (p, q), is `G` at row 5000·t + p and column q, the 34 write-backs leave the output array equal to `G`: the blocks are
  disjoint and every row lies in the block of the point `row / 5000`.
-/
import proofs.«148744_j91096256348434_1_alg».proof.Proof.Gen.KernelIdeal.Frame
import Idealize.ShloMosaic.Lib.Pipeline.Value
import Idealize.ShloMosaic.Lib.ValueIdx

set_option maxRecDepth 16384

noncomputable section

namespace Cert.Bridge.Region5

open Cert.KernelIdeal Cert.KernelIdeal.Gen
open Idealize.ShloMosaic Idealize.ShloMosaic.TcCoe Idealize.SL.Sem
open Idealize.ShloMosaic.Pipeline (Dat Cfg Window)
open Idealize.ShloMosaic.ValueIdx (ix1 ix2 eq_ix2)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- The printed index maps over the 34 grid points: a moving window's block index is the point on the row axis, every
    other block index is zero. -/
theorem idx_facts : ∀ t : Fin cfg5.N,
    win5_0.index t (0 : Fin 2) = t.val
    ∧ win5_0.index t (1 : Fin 2) = 0
    ∧ win5_1.index t (0 : Fin 2) = t.val
    ∧ win5_1.index t (1 : Fin 2) = 0
    ∧ win5_2.index t (0 : Fin 2) = 0
    ∧ win5_2.index t (1 : Fin 2) = 0
    ∧ win5_3.index t (0 : Fin 2) = t.val
    ∧ win5_3.index t (1 : Fin 2) = 0 :=
  (by decide +kernel : ∀ t : Fin grid5.N, _)

/-- Input window 0's block at point `t`, read at (p, k): row 5000·t + p of its array. -/
theorem iblk_0 (c : Dev nD) (t : Fin cfg5.N) (p : Fin 5000) (k : Fin 64) :
    iblk5 V c 0 t (ix2 p k) = V c main_v78 (ix2 (⟨5000 * t.val + p.val, by have := t.isLt; have := p.isLt; have h34 : cfg5.N = 34 := N_5; omega⟩ : Fin 170000) k) := by
  obtain ⟨e0, e1, e2, e3, e4, e5, e6, e7⟩ := idx_facts t
  show V c main_v78 (((cfg5.win 0).blk t).view.emb (ix2 p k)) = V c main_v78 _
  refine congrArg (V c main_v78) ?_
  funext a; apply Fin.ext
  match a with
  | ⟨0, _⟩ => show win5_0.index t (0 : Fin 2) * 5000 + 1 * p.val = _; rw [e0]; show t.val * 5000 + 1 * p.val = 5000 * t.val + p.val; omega
  | ⟨1, _⟩ => show win5_0.index t (1 : Fin 2) * 64 + 1 * k.val = _; rw [e1]; show 0 * 64 + 1 * k.val = k.val; omega

/-- Input window 1's block at point `t`, read at (p, k): row 5000·t + p of its array. -/
theorem iblk_1 (c : Dev nD) (t : Fin cfg5.N) (p : Fin 5000) (k : Fin 64) :
    iblk5 V c 1 t (ix2 p k) = V c main_v1 (ix2 (⟨5000 * t.val + p.val, by have := t.isLt; have := p.isLt; have h34 : cfg5.N = 34 := N_5; omega⟩ : Fin 170000) k) := by
  obtain ⟨e0, e1, e2, e3, e4, e5, e6, e7⟩ := idx_facts t
  show V c main_v1 (((cfg5.win 1).blk t).view.emb (ix2 p k)) = V c main_v1 _
  refine congrArg (V c main_v1) ?_
  funext a; apply Fin.ext
  match a with
  | ⟨0, _⟩ => show win5_1.index t (0 : Fin 2) * 5000 + 1 * p.val = _; rw [e2]; show t.val * 5000 + 1 * p.val = 5000 * t.val + p.val; omega
  | ⟨1, _⟩ => show win5_1.index t (1 : Fin 2) * 64 + 1 * k.val = _; rw [e3]; show 0 * 64 + 1 * k.val = k.val; omega

/-- Input window 2's block at point `t`, read at (p, k): the array itself (the block is the whole array at every point). -/
theorem iblk_2 (c : Dev nD) (t : Fin cfg5.N) (p : Fin 64) (k : Fin 64) :
    iblk5 V c 2 t (ix2 p k) = V c main_v80 (ix2 p k) := by
  obtain ⟨e0, e1, e2, e3, e4, e5, e6, e7⟩ := idx_facts t
  show V c main_v80 (((cfg5.win 2).blk t).view.emb (ix2 p k)) = V c main_v80 _
  refine congrArg (V c main_v80) ?_
  funext a; apply Fin.ext
  match a with
  | ⟨0, _⟩ => show win5_2.index t (0 : Fin 2) * 64 + 1 * p.val = _; rw [e4]; show 0 * 64 + 1 * p.val = p.val; omega
  | ⟨1, _⟩ => show win5_2.index t (1 : Fin 2) * 64 + 1 * k.val = _; rw [e5]; show 0 * 64 + 1 * k.val = k.val; omega

/-- An index of the output array is in point `t`'s block iff its row is one of the block's 5000 rows. -/
theorem mem_blk (t : Fin cfg5.N) (i : S170000x64.Idx) :
    i ∈ ((cfg5.win 3).blk t).view.set ↔ ∀ a : Fin 2, win5_3.index t a * S5000x64.size a ≤ (i a).val ∧ (i a).val < win5_3.index t a * S5000x64.size a + S5000x64.size a := by
  show i ∈ ((View.whole main_v81).slice (win5_3.rect t)).set ↔ _
  rw [View.set_slice_whole, Rect.mem_set_unit]
  exact Iff.rfl

/-- Every index of the output array lies in the block of the point `row / 5000`. -/
theorem cover (i : S170000x64.Idx) :
    ∃ t : Fin cfg5.N, (cfg5.win 3).flush t = true ∧ i ∈ ((cfg5.win 3).blk t).view.set := by
  have hi0 : (i 0).val < 170000 := (i 0).isLt
  have hi1 : (i 1).val < 64 := (i 1).isLt
  refine ⟨⟨(i 0).val / 5000, by rw [show cfg5.N = 34 from N_5]; omega⟩, flush5_3 _, ?_⟩
  rw [mem_blk]
  obtain ⟨e0, e1, e2, e3, e4, e5, e6, e7⟩ := idx_facts ⟨(i 0).val / 5000, by rw [show cfg5.N = 34 from N_5]; omega⟩
  intro a
  match a with
  | ⟨0, _⟩ => show win5_3.index _ (0 : Fin 2) * 5000 ≤ (i 0).val ∧ (i 0).val < win5_3.index _ (0 : Fin 2) * 5000 + 5000; rw [e6]; show (i 0).val / 5000 * 5000 ≤ (i 0).val ∧ (i 0).val < (i 0).val / 5000 * 5000 + 5000; omega
  | ⟨1, _⟩ => show win5_3.index _ (1 : Fin 2) * 64 ≤ (i 1).val ∧ (i 1).val < win5_3.index _ (1 : Fin 2) * 64 + 64; rw [e7]; omega

/-- What point `t` writes back is block `t` of `G`, when the payload of the point's input blocks is `G` on the block's rows. -/
theorem flushed_eq (c : Dev nD) (G : S170000x64.Idx → Elt F .f32)
    (hG : ∀ (t : Fin cfg5.N) (p : Fin 5000) (q : Fin 64),
      k5_pay1 (iblk5 V c 0 t) (iblk5 V c 1 t) (iblk5 V c 2 t) (ix2 p q)
        = G (ix2 (⟨5000 * t.val + p.val, by have := t.isLt; have := p.isLt; have h34 : cfg5.N = 34 := N_5; omega⟩ : Fin 170000) q))
    (t : Fin cfg5.N) :
    (dat5 V c).flushed 3 t = ((cfg5.win 3).blk t).view.read (Elt F) G := by
  show (cfg5.win 3).cut (grid5.coords t) ((dat5 V c).after 3 t) = _
  rw [after5_3]
  unfold out5_3
  rw [View.canon_unit_zero hz]
  simp only [View.ld_unit_zero (S := S5000x64) hz, View.ld_unit_zero (S := S5000x64) hz, View.ld_unit_zero (S := S64x64) hz]
  obtain ⟨e0, e1, e2, e3, e4, e5, e6, e7⟩ := idx_facts t
  funext y
  obtain ⟨p, q, rfl⟩ : ∃ (p : Fin 5000) (q : Fin 64), y = ix2 p q := ⟨y 0, y 1, eq_ix2 y⟩
  refine (hG t p q).trans ?_
  show G _ = G (((cfg5.win 3).blk t).view.emb (ix2 p q))
  refine congrArg G ?_
  funext a; apply Fin.ext
  match a with
  | ⟨0, _⟩ => show 5000 * t.val + p.val = win5_3.index t (0 : Fin 2) * 5000 + 1 * p.val; rw [e6]; omega
  | ⟨1, _⟩ => show q.val = win5_3.index t (1 : Fin 2) * 64 + 1 * q.val; rw [e7]; omega

/-- The output array after the region's 34 points is `G`. -/
theorem final (c : Dev nD) (G : S170000x64.Idx → Elt F .f32)
    (hG : ∀ (t : Fin cfg5.N) (p : Fin 5000) (q : Fin 64),
      k5_pay1 (iblk5 V c 0 t) (iblk5 V c 1 t) (iblk5 V c 2 t) (ix2 p q)
        = G (ix2 (⟨5000 * t.val + p.val, by have := t.isLt; have := p.isLt; have h34 : cfg5.N = 34 := N_5; omega⟩ : Fin 170000) q)) :
    (dat5 V c).arrAt 3 cfg5.N = G :=
  (dat5 V c).arrAt_eq_of_cover 3 G (fun t _ => flushed_eq V c G hG t) cover

end Cert.Bridge.Region5

end
-- ==== Proof.Chain5.lean ====
/-
  Layer 5. Between the previous region and this one the host gathers the previous layer's rows along the edges' sources,
  scales each by its edge weight and sums them into the edges' targets, and cuts the layer's 64 × 64 weight out of the
  stacked weights. Those operations are the reference's own, applied to the same values, so the aggregate the region reads
  is the reference's aggregate: the chain is never opened, only recognised. The region then mixes the aggregate with the
  initial residual and combines the mixed value with its product by the weight; its output is the reference's layer-5 value.
-/
import proofs.«148744_j91096256348434_1_alg».proof.Proof.Gen.KernelIdeal.Frame
import proofs.«148744_j91096256348434_1_alg».proof.Proof.Walk
import proofs.«148744_j91096256348434_1_alg».proof.Proof.Blocks5
import proofs.«148744_j91096256348434_1_alg».proof.Proof.StageProps
import Idealize.ShloMosaic.Lib.Pipeline.Value
import Idealize.ShloMosaic.Lib.StableHlo.Run

set_option maxRecDepth 16384

noncomputable section

namespace Cert.Bridge.Chain5

open Cert.KernelIdeal Cert.KernelIdeal.Gen
open Idealize.ShloMosaic Idealize.ShloMosaic.TcCoe Idealize.SL.Sem Idealize.ShloMosaic.StableHlo
open Idealize.ShloMosaic.Pipeline (Dat Cfg Window)
open Idealize.ShloMosaic.ValueIdx (ix1 ix2)
open Cert.ReferenceIdeal.Read

variable (m : (ℓ : Loc nD τ sig) → Buf (Elt Ideal) ℓ) (ρ : Dev nD → PrngReg)

/-- The initial residual as the region finds it is still what the first region left. -/
theorem entry_x0 (c : Dev nD) (H0 : (⟨Cert.ReferenceIdeal.S170000x64, .f32⟩ : BufTy).Contents (Elt Ideal))
    (h0 : W2 m ρ c (Proc.devRef .tc main_v1) = H0) : V11 m ρ c main_v1 = H0 :=
  calc V11 m ρ c main_v1
    _ = W10 m ρ c (Proc.devRef .tc main_v1) := StableHlo.after_of_forall_not_mem (b := Proc.devRef .tc main_v1) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = H0 := (W10_main_v1 m ρ c).trans h0

/-- The layer's weight as the region finds it: slice 4 of the stacked weights, as a 64 × 64 matrix. -/
theorem entry_w (c : Dev nD) : V11 m ρ c main_v80 = val_main_v134 (F := Ideal) (m ((c : Thread nD τ).loc main_arg6)) := by
  show StableHlo.after hostOps5 (W10 m ρ c) (Proc.devRef .tc main_v80) = _
  after_results
  rw [W10_main_arg6 m ρ c]
  rfl

/-- The aggregate as the region finds it is the reference's: the same gather, scaling and scatter-add of the same values. -/
theorem entry_agg (c : Dev nD)
    (hprev : W10 m ρ c (Proc.devRef .tc main_v65) = val_main_v112 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :
    V11 m ρ c main_v78 = val_main_v125 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps5 (W10 m ρ c) (Proc.devRef .tc main_v78) = _
  after_results_simp
  rw [hprev, W10_main_arg1 m ρ c, W10_main_arg2 m ρ c, W10_main_arg3 m ρ c]
  rfl

/-- After region 5 its output array is the reference's layer-5 value of the arguments. -/
theorem result (hstage : CombStageProp5) (c : Dev nD)
    (h0 : W2 m ρ c (Proc.devRef .tc main_v1) = val_main_v4 (F := Ideal) (m ((c : Thread nD τ).loc main_arg0)) (m ((c : Thread nD τ).loc main_arg4)) (m ((c : Thread nD τ).loc main_arg5)))
    (hprev : W10 m ρ c (Proc.devRef .tc main_v65) = val_main_v112 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :
    W12 m ρ c (Proc.devRef .tc main_v81) = val_main_v139 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W12_arr m ρ c 3).trans (Region5.final (V11 m ρ) c _ (fun t p q =>
    hstage (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (iblk5 (V11 m ρ) c 0 t) (iblk5 (V11 m ρ) c 1 t) (iblk5 (V11 m ρ) c 2 t) (5000 * t.val) (by have := t.isLt; have h34 : cfg5.N = 34 := N_5; omega)
      (fun p k => (Region5.iblk_0 (V11 m ρ) c t p k).trans (congrFun (entry_agg m ρ c hprev) _))
      (fun p k => (Region5.iblk_1 (V11 m ρ) c t p k).trans (congrFun (entry_x0 m ρ c _ h0) _))
      (fun k q => (Region5.iblk_2 (V11 m ρ) c t k q).trans (congrFun (entry_w m ρ c) _))
      p q))

end Cert.Bridge.Chain5

end
-- ==== Proof.Blocks6.lean ====
/-
  Region 6 of the idealized kernel, as layout only. Its grid has 34 points; at point `t` the output window's block is rows
  5000·t … 5000·t + 4999 of a 170000 × 64 array, two input windows move with it and the other holds its whole
  array at every point. The body stores its one payload over the whole output block. So if the payload at block `t`, position
  (p, q), is `G` at row 5000·t + p and column q, the 34 write-backs leave the output array equal to `G`: the blocks are
  disjoint and every row lies in the block of the point `row / 5000`.
-/
import proofs.«148744_j91096256348434_1_alg».proof.Proof.Gen.KernelIdeal.Frame
import Idealize.ShloMosaic.Lib.Pipeline.Value
import Idealize.ShloMosaic.Lib.ValueIdx

set_option maxRecDepth 16384

noncomputable section

namespace Cert.Bridge.Region6

open Cert.KernelIdeal Cert.KernelIdeal.Gen
open Idealize.ShloMosaic Idealize.ShloMosaic.TcCoe Idealize.SL.Sem
open Idealize.ShloMosaic.Pipeline (Dat Cfg Window)
open Idealize.ShloMosaic.ValueIdx (ix1 ix2 eq_ix2)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- The printed index maps over the 34 grid points: a moving window's block index is the point on the row axis, every
    other block index is zero. -/
theorem idx_facts : ∀ t : Fin cfg6.N,
    win6_0.index t (0 : Fin 2) = t.val
    ∧ win6_0.index t (1 : Fin 2) = 0
    ∧ win6_1.index t (0 : Fin 2) = t.val
    ∧ win6_1.index t (1 : Fin 2) = 0
    ∧ win6_2.index t (0 : Fin 2) = 0
    ∧ win6_2.index t (1 : Fin 2) = 0
    ∧ win6_3.index t (0 : Fin 2) = t.val
    ∧ win6_3.index t (1 : Fin 2) = 0 :=
  (by decide +kernel : ∀ t : Fin grid6.N, _)

/-- Input window 0's block at point `t`, read at (p, k): row 5000·t + p of its array. -/
theorem iblk_0 (c : Dev nD) (t : Fin cfg6.N) (p : Fin 5000) (k : Fin 64) :
    iblk6 V c 0 t (ix2 p k) = V c main_v94 (ix2 (⟨5000 * t.val + p.val, by have := t.isLt; have := p.isLt; have h34 : cfg6.N = 34 := N_6; omega⟩ : Fin 170000) k) := by
  obtain ⟨e0, e1, e2, e3, e4, e5, e6, e7⟩ := idx_facts t
  show V c main_v94 (((cfg6.win 0).blk t).view.emb (ix2 p k)) = V c main_v94 _
  refine congrArg (V c main_v94) ?_
  funext a; apply Fin.ext
  match a with
  | ⟨0, _⟩ => show win6_0.index t (0 : Fin 2) * 5000 + 1 * p.val = _; rw [e0]; show t.val * 5000 + 1 * p.val = 5000 * t.val + p.val; omega
  | ⟨1, _⟩ => show win6_0.index t (1 : Fin 2) * 64 + 1 * k.val = _; rw [e1]; show 0 * 64 + 1 * k.val = k.val; omega

/-- Input window 1's block at point `t`, read at (p, k): row 5000·t + p of its array. -/
theorem iblk_1 (c : Dev nD) (t : Fin cfg6.N) (p : Fin 5000) (k : Fin 64) :
    iblk6 V c 1 t (ix2 p k) = V c main_v1 (ix2 (⟨5000 * t.val + p.val, by have := t.isLt; have := p.isLt; have h34 : cfg6.N = 34 := N_6; omega⟩ : Fin 170000) k) := by
  obtain ⟨e0, e1, e2, e3, e4, e5, e6, e7⟩ := idx_facts t
  show V c main_v1 (((cfg6.win 1).blk t).view.emb (ix2 p k)) = V c main_v1 _
  refine congrArg (V c main_v1) ?_
  funext a; apply Fin.ext
  match a with
  | ⟨0, _⟩ => show win6_1.index t (0 : Fin 2) * 5000 + 1 * p.val = _; rw [e2]; show t.val * 5000 + 1 * p.val = 5000 * t.val + p.val; omega
  | ⟨1, _⟩ => show win6_1.index t (1 : Fin 2) * 64 + 1 * k.val = _; rw [e3]; show 0 * 64 + 1 * k.val = k.val; omega

/-- Input window 2's block at point `t`, read at (p, k): the array itself (the block is the whole array at every point). -/
theorem iblk_2 (c : Dev nD) (t : Fin cfg6.N) (p : Fin 64) (k : Fin 64) :
    iblk6 V c 2 t (ix2 p k) = V c main_v96 (ix2 p k) := by
  obtain ⟨e0, e1, e2, e3, e4, e5, e6, e7⟩ := idx_facts t
  show V c main_v96 (((cfg6.win 2).blk t).view.emb (ix2 p k)) = V c main_v96 _
  refine congrArg (V c main_v96) ?_
  funext a; apply Fin.ext
  match a with
  | ⟨0, _⟩ => show win6_2.index t (0 : Fin 2) * 64 + 1 * p.val = _; rw [e4]; show 0 * 64 + 1 * p.val = p.val; omega
  | ⟨1, _⟩ => show win6_2.index t (1 : Fin 2) * 64 + 1 * k.val = _; rw [e5]; show 0 * 64 + 1 * k.val = k.val; omega

/-- An index of the output array is in point `t`'s block iff its row is one of the block's 5000 rows. -/
theorem mem_blk (t : Fin cfg6.N) (i : S170000x64.Idx) :
    i ∈ ((cfg6.win 3).blk t).view.set ↔ ∀ a : Fin 2, win6_3.index t a * S5000x64.size a ≤ (i a).val ∧ (i a).val < win6_3.index t a * S5000x64.size a + S5000x64.size a := by
  show i ∈ ((View.whole main_v97).slice (win6_3.rect t)).set ↔ _
  rw [View.set_slice_whole, Rect.mem_set_unit]
  exact Iff.rfl

/-- Every index of the output array lies in the block of the point `row / 5000`. -/
theorem cover (i : S170000x64.Idx) :
    ∃ t : Fin cfg6.N, (cfg6.win 3).flush t = true ∧ i ∈ ((cfg6.win 3).blk t).view.set := by
  have hi0 : (i 0).val < 170000 := (i 0).isLt
  have hi1 : (i 1).val < 64 := (i 1).isLt
  refine ⟨⟨(i 0).val / 5000, by rw [show cfg6.N = 34 from N_6]; omega⟩, flush6_3 _, ?_⟩
  rw [mem_blk]
  obtain ⟨e0, e1, e2, e3, e4, e5, e6, e7⟩ := idx_facts ⟨(i 0).val / 5000, by rw [show cfg6.N = 34 from N_6]; omega⟩
  intro a
  match a with
  | ⟨0, _⟩ => show win6_3.index _ (0 : Fin 2) * 5000 ≤ (i 0).val ∧ (i 0).val < win6_3.index _ (0 : Fin 2) * 5000 + 5000; rw [e6]; show (i 0).val / 5000 * 5000 ≤ (i 0).val ∧ (i 0).val < (i 0).val / 5000 * 5000 + 5000; omega
  | ⟨1, _⟩ => show win6_3.index _ (1 : Fin 2) * 64 ≤ (i 1).val ∧ (i 1).val < win6_3.index _ (1 : Fin 2) * 64 + 64; rw [e7]; omega

/-- What point `t` writes back is block `t` of `G`, when the payload of the point's input blocks is `G` on the block's rows. -/
theorem flushed_eq (c : Dev nD) (G : S170000x64.Idx → Elt F .f32)
    (hG : ∀ (t : Fin cfg6.N) (p : Fin 5000) (q : Fin 64),
      k6_pay1 (iblk6 V c 0 t) (iblk6 V c 1 t) (iblk6 V c 2 t) (ix2 p q)
        = G (ix2 (⟨5000 * t.val + p.val, by have := t.isLt; have := p.isLt; have h34 : cfg6.N = 34 := N_6; omega⟩ : Fin 170000) q))
    (t : Fin cfg6.N) :
    (dat6 V c).flushed 3 t = ((cfg6.win 3).blk t).view.read (Elt F) G := by
  show (cfg6.win 3).cut (grid6.coords t) ((dat6 V c).after 3 t) = _
  rw [after6_3]
  unfold out6_3
  rw [View.canon_unit_zero hz]
  simp only [View.ld_unit_zero (S := S5000x64) hz, View.ld_unit_zero (S := S5000x64) hz, View.ld_unit_zero (S := S64x64) hz]
  obtain ⟨e0, e1, e2, e3, e4, e5, e6, e7⟩ := idx_facts t
  funext y
  obtain ⟨p, q, rfl⟩ : ∃ (p : Fin 5000) (q : Fin 64), y = ix2 p q := ⟨y 0, y 1, eq_ix2 y⟩
  refine (hG t p q).trans ?_
  show G _ = G (((cfg6.win 3).blk t).view.emb (ix2 p q))
  refine congrArg G ?_
  funext a; apply Fin.ext
  match a with
  | ⟨0, _⟩ => show 5000 * t.val + p.val = win6_3.index t (0 : Fin 2) * 5000 + 1 * p.val; rw [e6]; omega
  | ⟨1, _⟩ => show q.val = win6_3.index t (1 : Fin 2) * 64 + 1 * q.val; rw [e7]; omega

/-- The output array after the region's 34 points is `G`. -/
theorem final (c : Dev nD) (G : S170000x64.Idx → Elt F .f32)
    (hG : ∀ (t : Fin cfg6.N) (p : Fin 5000) (q : Fin 64),
      k6_pay1 (iblk6 V c 0 t) (iblk6 V c 1 t) (iblk6 V c 2 t) (ix2 p q)
        = G (ix2 (⟨5000 * t.val + p.val, by have := t.isLt; have := p.isLt; have h34 : cfg6.N = 34 := N_6; omega⟩ : Fin 170000) q)) :
    (dat6 V c).arrAt 3 cfg6.N = G :=
  (dat6 V c).arrAt_eq_of_cover 3 G (fun t _ => flushed_eq V c G hG t) cover

end Cert.Bridge.Region6

end
-- ==== Proof.Chain6.lean ====
/-
  Layer 6. Between the previous region and this one the host gathers the previous layer's rows along the edges' sources,
  scales each by its edge weight and sums them into the edges' targets, and cuts the layer's 64 × 64 weight out of the
  stacked weights. Those operations are the reference's own, applied to the same values, so the aggregate the region reads
  is the reference's aggregate: the chain is never opened, only recognised. The region then mixes the aggregate with the
  initial residual and combines the mixed value with its product by the weight; its output is the reference's layer-6 value.
-/
import proofs.«148744_j91096256348434_1_alg».proof.Proof.Gen.KernelIdeal.Frame
import proofs.«148744_j91096256348434_1_alg».proof.Proof.Walk
import proofs.«148744_j91096256348434_1_alg».proof.Proof.Blocks6
import proofs.«148744_j91096256348434_1_alg».proof.Proof.StageProps
import Idealize.ShloMosaic.Lib.Pipeline.Value
import Idealize.ShloMosaic.Lib.StableHlo.Run

set_option maxRecDepth 16384

noncomputable section

namespace Cert.Bridge.Chain6

open Cert.KernelIdeal Cert.KernelIdeal.Gen
open Idealize.ShloMosaic Idealize.ShloMosaic.TcCoe Idealize.SL.Sem Idealize.ShloMosaic.StableHlo
open Idealize.ShloMosaic.Pipeline (Dat Cfg Window)
open Idealize.ShloMosaic.ValueIdx (ix1 ix2)
open Cert.ReferenceIdeal.Read

variable (m : (ℓ : Loc nD τ sig) → Buf (Elt Ideal) ℓ) (ρ : Dev nD → PrngReg)

/-- The initial residual as the region finds it is still what the first region left. -/
theorem entry_x0 (c : Dev nD) (H0 : (⟨Cert.ReferenceIdeal.S170000x64, .f32⟩ : BufTy).Contents (Elt Ideal))
    (h0 : W2 m ρ c (Proc.devRef .tc main_v1) = H0) : V13 m ρ c main_v1 = H0 :=
  calc V13 m ρ c main_v1
    _ = W12 m ρ c (Proc.devRef .tc main_v1) := StableHlo.after_of_forall_not_mem (b := Proc.devRef .tc main_v1) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = H0 := (W12_main_v1 m ρ c).trans h0

/-- The layer's weight as the region finds it: slice 5 of the stacked weights, as a 64 × 64 matrix. -/
theorem entry_w (c : Dev nD) : V13 m ρ c main_v96 = val_main_v161 (F := Ideal) (m ((c : Thread nD τ).loc main_arg6)) := by
  show StableHlo.after hostOps6 (W12 m ρ c) (Proc.devRef .tc main_v96) = _
  after_results
  rw [W12_main_arg6 m ρ c]
  rfl

/-- The aggregate as the region finds it is the reference's: the same gather, scaling and scatter-add of the same values. -/
theorem entry_agg (c : Dev nD)
    (hprev : W12 m ρ c (Proc.devRef .tc main_v81) = val_main_v139 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :
    V13 m ρ c main_v94 = val_main_v152 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps6 (W12 m ρ c) (Proc.devRef .tc main_v94) = _
  after_results_simp
  rw [hprev, W12_main_arg1 m ρ c, W12_main_arg2 m ρ c, W12_main_arg3 m ρ c]
  rfl

/-- After region 6 its output array is the reference's layer-6 value of the arguments. -/
theorem result (hstage : CombStageProp6) (c : Dev nD)
    (h0 : W2 m ρ c (Proc.devRef .tc main_v1) = val_main_v4 (F := Ideal) (m ((c : Thread nD τ).loc main_arg0)) (m ((c : Thread nD τ).loc main_arg4)) (m ((c : Thread nD τ).loc main_arg5)))
    (hprev : W12 m ρ c (Proc.devRef .tc main_v81) = val_main_v139 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :
    W14 m ρ c (Proc.devRef .tc main_v97) = val_main_v166 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W14_arr m ρ c 3).trans (Region6.final (V13 m ρ) c _ (fun t p q =>
    hstage (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (iblk6 (V13 m ρ) c 0 t) (iblk6 (V13 m ρ) c 1 t) (iblk6 (V13 m ρ) c 2 t) (5000 * t.val) (by have := t.isLt; have h34 : cfg6.N = 34 := N_6; omega)
      (fun p k => (Region6.iblk_0 (V13 m ρ) c t p k).trans (congrFun (entry_agg m ρ c hprev) _))
      (fun p k => (Region6.iblk_1 (V13 m ρ) c t p k).trans (congrFun (entry_x0 m ρ c _ h0) _))
      (fun k q => (Region6.iblk_2 (V13 m ρ) c t k q).trans (congrFun (entry_w m ρ c) _))
      p q))

end Cert.Bridge.Chain6

end
-- ==== Proof.Blocks7.lean ====
/-
  Region 7 of the idealized kernel, as layout only. Its grid has 34 points; at point `t` the output window's block is rows
  5000·t … 5000·t + 4999 of a 170000 × 64 array, two input windows move with it and the other holds its whole
  array at every point. The body stores its one payload over the whole output block. So if the payload at block `t`, position
  (p, q), is `G` at row 5000·t + p and column q, the 34 write-backs leave the output array equal to `G`: the blocks are
  disjoint and every row lies in the block of the point `row / 5000`.
-/
import proofs.«148744_j91096256348434_1_alg».proof.Proof.Gen.KernelIdeal.Frame
import Idealize.ShloMosaic.Lib.Pipeline.Value
import Idealize.ShloMosaic.Lib.ValueIdx

set_option maxRecDepth 16384

noncomputable section

namespace Cert.Bridge.Region7

open Cert.KernelIdeal Cert.KernelIdeal.Gen
open Idealize.ShloMosaic Idealize.ShloMosaic.TcCoe Idealize.SL.Sem
open Idealize.ShloMosaic.Pipeline (Dat Cfg Window)
open Idealize.ShloMosaic.ValueIdx (ix1 ix2 eq_ix2)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- The printed index maps over the 34 grid points: a moving window's block index is the point on the row axis, every
    other block index is zero. -/
theorem idx_facts : ∀ t : Fin cfg7.N,
    win7_0.index t (0 : Fin 2) = t.val
    ∧ win7_0.index t (1 : Fin 2) = 0
    ∧ win7_1.index t (0 : Fin 2) = t.val
    ∧ win7_1.index t (1 : Fin 2) = 0
    ∧ win7_2.index t (0 : Fin 2) = 0
    ∧ win7_2.index t (1 : Fin 2) = 0
    ∧ win7_3.index t (0 : Fin 2) = t.val
    ∧ win7_3.index t (1 : Fin 2) = 0 :=
  (by decide +kernel : ∀ t : Fin grid7.N, _)

/-- Input window 0's block at point `t`, read at (p, k): row 5000·t + p of its array. -/
theorem iblk_0 (c : Dev nD) (t : Fin cfg7.N) (p : Fin 5000) (k : Fin 64) :
    iblk7 V c 0 t (ix2 p k) = V c main_v110 (ix2 (⟨5000 * t.val + p.val, by have := t.isLt; have := p.isLt; have h34 : cfg7.N = 34 := N_7; omega⟩ : Fin 170000) k) := by
  obtain ⟨e0, e1, e2, e3, e4, e5, e6, e7⟩ := idx_facts t
  show V c main_v110 (((cfg7.win 0).blk t).view.emb (ix2 p k)) = V c main_v110 _
  refine congrArg (V c main_v110) ?_
  funext a; apply Fin.ext
  match a with
  | ⟨0, _⟩ => show win7_0.index t (0 : Fin 2) * 5000 + 1 * p.val = _; rw [e0]; show t.val * 5000 + 1 * p.val = 5000 * t.val + p.val; omega
  | ⟨1, _⟩ => show win7_0.index t (1 : Fin 2) * 64 + 1 * k.val = _; rw [e1]; show 0 * 64 + 1 * k.val = k.val; omega

/-- Input window 1's block at point `t`, read at (p, k): row 5000·t + p of its array. -/
theorem iblk_1 (c : Dev nD) (t : Fin cfg7.N) (p : Fin 5000) (k : Fin 64) :
    iblk7 V c 1 t (ix2 p k) = V c main_v1 (ix2 (⟨5000 * t.val + p.val, by have := t.isLt; have := p.isLt; have h34 : cfg7.N = 34 := N_7; omega⟩ : Fin 170000) k) := by
  obtain ⟨e0, e1, e2, e3, e4, e5, e6, e7⟩ := idx_facts t
  show V c main_v1 (((cfg7.win 1).blk t).view.emb (ix2 p k)) = V c main_v1 _
  refine congrArg (V c main_v1) ?_
  funext a; apply Fin.ext
  match a with
  | ⟨0, _⟩ => show win7_1.index t (0 : Fin 2) * 5000 + 1 * p.val = _; rw [e2]; show t.val * 5000 + 1 * p.val = 5000 * t.val + p.val; omega
  | ⟨1, _⟩ => show win7_1.index t (1 : Fin 2) * 64 + 1 * k.val = _; rw [e3]; show 0 * 64 + 1 * k.val = k.val; omega

/-- Input window 2's block at point `t`, read at (p, k): the array itself (the block is the whole array at every point). -/
theorem iblk_2 (c : Dev nD) (t : Fin cfg7.N) (p : Fin 64) (k : Fin 64) :
    iblk7 V c 2 t (ix2 p k) = V c main_v112 (ix2 p k) := by
  obtain ⟨e0, e1, e2, e3, e4, e5, e6, e7⟩ := idx_facts t
  show V c main_v112 (((cfg7.win 2).blk t).view.emb (ix2 p k)) = V c main_v112 _
  refine congrArg (V c main_v112) ?_
  funext a; apply Fin.ext
  match a with
  | ⟨0, _⟩ => show win7_2.index t (0 : Fin 2) * 64 + 1 * p.val = _; rw [e4]; show 0 * 64 + 1 * p.val = p.val; omega
  | ⟨1, _⟩ => show win7_2.index t (1 : Fin 2) * 64 + 1 * k.val = _; rw [e5]; show 0 * 64 + 1 * k.val = k.val; omega

/-- An index of the output array is in point `t`'s block iff its row is one of the block's 5000 rows. -/
theorem mem_blk (t : Fin cfg7.N) (i : S170000x64.Idx) :
    i ∈ ((cfg7.win 3).blk t).view.set ↔ ∀ a : Fin 2, win7_3.index t a * S5000x64.size a ≤ (i a).val ∧ (i a).val < win7_3.index t a * S5000x64.size a + S5000x64.size a := by
  show i ∈ ((View.whole main_v113).slice (win7_3.rect t)).set ↔ _
  rw [View.set_slice_whole, Rect.mem_set_unit]
  exact Iff.rfl

/-- Every index of the output array lies in the block of the point `row / 5000`. -/
theorem cover (i : S170000x64.Idx) :
    ∃ t : Fin cfg7.N, (cfg7.win 3).flush t = true ∧ i ∈ ((cfg7.win 3).blk t).view.set := by
  have hi0 : (i 0).val < 170000 := (i 0).isLt
  have hi1 : (i 1).val < 64 := (i 1).isLt
  refine ⟨⟨(i 0).val / 5000, by rw [show cfg7.N = 34 from N_7]; omega⟩, flush7_3 _, ?_⟩
  rw [mem_blk]
  obtain ⟨e0, e1, e2, e3, e4, e5, e6, e7⟩ := idx_facts ⟨(i 0).val / 5000, by rw [show cfg7.N = 34 from N_7]; omega⟩
  intro a
  match a with
  | ⟨0, _⟩ => show win7_3.index _ (0 : Fin 2) * 5000 ≤ (i 0).val ∧ (i 0).val < win7_3.index _ (0 : Fin 2) * 5000 + 5000; rw [e6]; show (i 0).val / 5000 * 5000 ≤ (i 0).val ∧ (i 0).val < (i 0).val / 5000 * 5000 + 5000; omega
  | ⟨1, _⟩ => show win7_3.index _ (1 : Fin 2) * 64 ≤ (i 1).val ∧ (i 1).val < win7_3.index _ (1 : Fin 2) * 64 + 64; rw [e7]; omega

/-- What point `t` writes back is block `t` of `G`, when the payload of the point's input blocks is `G` on the block's rows. -/
theorem flushed_eq (c : Dev nD) (G : S170000x64.Idx → Elt F .f32)
    (hG : ∀ (t : Fin cfg7.N) (p : Fin 5000) (q : Fin 64),
      k7_pay1 (iblk7 V c 0 t) (iblk7 V c 1 t) (iblk7 V c 2 t) (ix2 p q)
        = G (ix2 (⟨5000 * t.val + p.val, by have := t.isLt; have := p.isLt; have h34 : cfg7.N = 34 := N_7; omega⟩ : Fin 170000) q))
    (t : Fin cfg7.N) :
    (dat7 V c).flushed 3 t = ((cfg7.win 3).blk t).view.read (Elt F) G := by
  show (cfg7.win 3).cut (grid7.coords t) ((dat7 V c).after 3 t) = _
  rw [after7_3]
  unfold out7_3
  rw [View.canon_unit_zero hz]
  simp only [View.ld_unit_zero (S := S5000x64) hz, View.ld_unit_zero (S := S5000x64) hz, View.ld_unit_zero (S := S64x64) hz]
  obtain ⟨e0, e1, e2, e3, e4, e5, e6, e7⟩ := idx_facts t
  funext y
  obtain ⟨p, q, rfl⟩ : ∃ (p : Fin 5000) (q : Fin 64), y = ix2 p q := ⟨y 0, y 1, eq_ix2 y⟩
  refine (hG t p q).trans ?_
  show G _ = G (((cfg7.win 3).blk t).view.emb (ix2 p q))
  refine congrArg G ?_
  funext a; apply Fin.ext
  match a with
  | ⟨0, _⟩ => show 5000 * t.val + p.val = win7_3.index t (0 : Fin 2) * 5000 + 1 * p.val; rw [e6]; omega
  | ⟨1, _⟩ => show q.val = win7_3.index t (1 : Fin 2) * 64 + 1 * q.val; rw [e7]; omega

/-- The output array after the region's 34 points is `G`. -/
theorem final (c : Dev nD) (G : S170000x64.Idx → Elt F .f32)
    (hG : ∀ (t : Fin cfg7.N) (p : Fin 5000) (q : Fin 64),
      k7_pay1 (iblk7 V c 0 t) (iblk7 V c 1 t) (iblk7 V c 2 t) (ix2 p q)
        = G (ix2 (⟨5000 * t.val + p.val, by have := t.isLt; have := p.isLt; have h34 : cfg7.N = 34 := N_7; omega⟩ : Fin 170000) q)) :
    (dat7 V c).arrAt 3 cfg7.N = G :=
  (dat7 V c).arrAt_eq_of_cover 3 G (fun t _ => flushed_eq V c G hG t) cover

end Cert.Bridge.Region7

end
-- ==== Proof.Chain7.lean ====
/-
  Layer 7. Between the previous region and this one the host gathers the previous layer's rows along the edges' sources,
  scales each by its edge weight and sums them into the edges' targets, and cuts the layer's 64 × 64 weight out of the
  stacked weights. Those operations are the reference's own, applied to the same values, so the aggregate the region reads
  is the reference's aggregate: the chain is never opened, only recognised. The region then mixes the aggregate with the
  initial residual and combines the mixed value with its product by the weight; its output is the reference's layer-7 value.
-/
import proofs.«148744_j91096256348434_1_alg».proof.Proof.Gen.KernelIdeal.Frame
import proofs.«148744_j91096256348434_1_alg».proof.Proof.Walk
import proofs.«148744_j91096256348434_1_alg».proof.Proof.Blocks7
import proofs.«148744_j91096256348434_1_alg».proof.Proof.StageProps
import Idealize.ShloMosaic.Lib.Pipeline.Value
import Idealize.ShloMosaic.Lib.StableHlo.Run

set_option maxRecDepth 16384

noncomputable section

namespace Cert.Bridge.Chain7

open Cert.KernelIdeal Cert.KernelIdeal.Gen
open Idealize.ShloMosaic Idealize.ShloMosaic.TcCoe Idealize.SL.Sem Idealize.ShloMosaic.StableHlo
open Idealize.ShloMosaic.Pipeline (Dat Cfg Window)
open Idealize.ShloMosaic.ValueIdx (ix1 ix2)
open Cert.ReferenceIdeal.Read

variable (m : (ℓ : Loc nD τ sig) → Buf (Elt Ideal) ℓ) (ρ : Dev nD → PrngReg)

/-- The initial residual as the region finds it is still what the first region left. -/
theorem entry_x0 (c : Dev nD) (H0 : (⟨Cert.ReferenceIdeal.S170000x64, .f32⟩ : BufTy).Contents (Elt Ideal))
    (h0 : W2 m ρ c (Proc.devRef .tc main_v1) = H0) : V15 m ρ c main_v1 = H0 :=
  calc V15 m ρ c main_v1
    _ = W14 m ρ c (Proc.devRef .tc main_v1) := StableHlo.after_of_forall_not_mem (b := Proc.devRef .tc main_v1) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = H0 := (W14_main_v1 m ρ c).trans h0

/-- The layer's weight as the region finds it: slice 6 of the stacked weights, as a 64 × 64 matrix. -/
theorem entry_w (c : Dev nD) : V15 m ρ c main_v112 = val_main_v188 (F := Ideal) (m ((c : Thread nD τ).loc main_arg6)) := by
  show StableHlo.after hostOps7 (W14 m ρ c) (Proc.devRef .tc main_v112) = _
  after_results
  rw [W14_main_arg6 m ρ c]
  rfl

/-- The aggregate as the region finds it is the reference's: the same gather, scaling and scatter-add of the same values. -/
theorem entry_agg (c : Dev nD)
    (hprev : W14 m ρ c (Proc.devRef .tc main_v97) = val_main_v166 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :
    V15 m ρ c main_v110 = val_main_v179 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps7 (W14 m ρ c) (Proc.devRef .tc main_v110) = _
  after_results_simp
  rw [hprev, W14_main_arg1 m ρ c, W14_main_arg2 m ρ c, W14_main_arg3 m ρ c]
  rfl

/-- After region 7 its output array is the reference's layer-7 value of the arguments. -/
theorem result (hstage : CombStageProp7) (c : Dev nD)
    (h0 : W2 m ρ c (Proc.devRef .tc main_v1) = val_main_v4 (F := Ideal) (m ((c : Thread nD τ).loc main_arg0)) (m ((c : Thread nD τ).loc main_arg4)) (m ((c : Thread nD τ).loc main_arg5)))
    (hprev : W14 m ρ c (Proc.devRef .tc main_v97) = val_main_v166 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :
    W16 m ρ c (Proc.devRef .tc main_v113) = val_main_v193 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W16_arr m ρ c 3).trans (Region7.final (V15 m ρ) c _ (fun t p q =>
    hstage (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (iblk7 (V15 m ρ) c 0 t) (iblk7 (V15 m ρ) c 1 t) (iblk7 (V15 m ρ) c 2 t) (5000 * t.val) (by have := t.isLt; have h34 : cfg7.N = 34 := N_7; omega)
      (fun p k => (Region7.iblk_0 (V15 m ρ) c t p k).trans (congrFun (entry_agg m ρ c hprev) _))
      (fun p k => (Region7.iblk_1 (V15 m ρ) c t p k).trans (congrFun (entry_x0 m ρ c _ h0) _))
      (fun k q => (Region7.iblk_2 (V15 m ρ) c t k q).trans (congrFun (entry_w m ρ c) _))
      p q))

end Cert.Bridge.Chain7

end
-- ==== Proof.Blocks8.lean ====
/-
  Region 8 of the idealized kernel, as layout only. Its grid has 34 points; at point `t` the output window's block is rows
  5000·t … 5000·t + 4999 of a 170000 × 40 array, one input window moves with it and the others hold their whole
  array at every point. The body stores its one payload over the whole output block. So if the payload at block `t`, position
  (p, q), is `G` at row 5000·t + p and column q, the 34 write-backs leave the output array equal to `G`: the blocks are
  disjoint and every row lies in the block of the point `row / 5000`.
-/
import proofs.«148744_j91096256348434_1_alg».proof.Proof.Gen.KernelIdeal.Frame
import Idealize.ShloMosaic.Lib.Pipeline.Value
import Idealize.ShloMosaic.Lib.ValueIdx

set_option maxRecDepth 16384

noncomputable section

namespace Cert.Bridge.Region8

open Cert.KernelIdeal Cert.KernelIdeal.Gen
open Idealize.ShloMosaic Idealize.ShloMosaic.TcCoe Idealize.SL.Sem
open Idealize.ShloMosaic.Pipeline (Dat Cfg Window)
open Idealize.ShloMosaic.ValueIdx (ix1 ix2 eq_ix2)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- The printed index maps over the 34 grid points: a moving window's block index is the point on the row axis, every
    other block index is zero. -/
theorem idx_facts : ∀ t : Fin cfg8.N,
    win8_0.index t (0 : Fin 2) = t.val
    ∧ win8_0.index t (1 : Fin 2) = 0
    ∧ win8_1.index t (0 : Fin 2) = 0
    ∧ win8_1.index t (1 : Fin 2) = 0
    ∧ win8_2.index t (0 : Fin 2) = 0
    ∧ win8_2.index t (1 : Fin 2) = 0
    ∧ win8_3.index t (0 : Fin 2) = t.val
    ∧ win8_3.index t (1 : Fin 2) = 0 :=
  (by decide +kernel : ∀ t : Fin grid8.N, _)

/-- Input window 0's block at point `t`, read at (p, k): row 5000·t + p of its array. -/
theorem iblk_0 (c : Dev nD) (t : Fin cfg8.N) (p : Fin 5000) (k : Fin 64) :
    iblk8 V c 0 t (ix2 p k) = V c main_v113 (ix2 (⟨5000 * t.val + p.val, by have := t.isLt; have := p.isLt; have h34 : cfg8.N = 34 := N_8; omega⟩ : Fin 170000) k) := by
  obtain ⟨e0, e1, e2, e3, e4, e5, e6, e7⟩ := idx_facts t
  show V c main_v113 (((cfg8.win 0).blk t).view.emb (ix2 p k)) = V c main_v113 _
  refine congrArg (V c main_v113) ?_
  funext a; apply Fin.ext
  match a with
  | ⟨0, _⟩ => show win8_0.index t (0 : Fin 2) * 5000 + 1 * p.val = _; rw [e0]; show t.val * 5000 + 1 * p.val = 5000 * t.val + p.val; omega
  | ⟨1, _⟩ => show win8_0.index t (1 : Fin 2) * 64 + 1 * k.val = _; rw [e1]; show 0 * 64 + 1 * k.val = k.val; omega

/-- Input window 1's block at point `t`, read at (p, k): the array itself (the block is the whole array at every point). -/
theorem iblk_1 (c : Dev nD) (t : Fin cfg8.N) (p : Fin 64) (k : Fin 40) :
    iblk8 V c 1 t (ix2 p k) = V c main_arg7 (ix2 p k) := by
  obtain ⟨e0, e1, e2, e3, e4, e5, e6, e7⟩ := idx_facts t
  show V c main_arg7 (((cfg8.win 1).blk t).view.emb (ix2 p k)) = V c main_arg7 _
  refine congrArg (V c main_arg7) ?_
  funext a; apply Fin.ext
  match a with
  | ⟨0, _⟩ => show win8_1.index t (0 : Fin 2) * 64 + 1 * p.val = _; rw [e2]; show 0 * 64 + 1 * p.val = p.val; omega
  | ⟨1, _⟩ => show win8_1.index t (1 : Fin 2) * 40 + 1 * k.val = _; rw [e3]; show 0 * 40 + 1 * k.val = k.val; omega

/-- Input window 2's block at point `t`, read at (p, k): the array itself (the block is the whole array at every point). -/
theorem iblk_2 (c : Dev nD) (t : Fin cfg8.N) (p : Fin 1) (k : Fin 40) :
    iblk8 V c 2 t (ix2 p k) = V c main_v114 (ix2 p k) := by
  obtain ⟨e0, e1, e2, e3, e4, e5, e6, e7⟩ := idx_facts t
  show V c main_v114 (((cfg8.win 2).blk t).view.emb (ix2 p k)) = V c main_v114 _
  refine congrArg (V c main_v114) ?_
  funext a; apply Fin.ext
  match a with
  | ⟨0, _⟩ => show win8_2.index t (0 : Fin 2) * 1 + 1 * p.val = _; rw [e4]; show 0 * 1 + 1 * p.val = p.val; omega
  | ⟨1, _⟩ => show win8_2.index t (1 : Fin 2) * 40 + 1 * k.val = _; rw [e5]; show 0 * 40 + 1 * k.val = k.val; omega

/-- An index of the output array is in point `t`'s block iff its row is one of the block's 5000 rows. -/
theorem mem_blk (t : Fin cfg8.N) (i : S170000x40.Idx) :
    i ∈ ((cfg8.win 3).blk t).view.set ↔ ∀ a : Fin 2, win8_3.index t a * S5000x40.size a ≤ (i a).val ∧ (i a).val < win8_3.index t a * S5000x40.size a + S5000x40.size a := by
  show i ∈ ((View.whole main_v115).slice (win8_3.rect t)).set ↔ _
  rw [View.set_slice_whole, Rect.mem_set_unit]
  exact Iff.rfl

/-- Every index of the output array lies in the block of the point `row / 5000`. -/
theorem cover (i : S170000x40.Idx) :
    ∃ t : Fin cfg8.N, (cfg8.win 3).flush t = true ∧ i ∈ ((cfg8.win 3).blk t).view.set := by
  have hi0 : (i 0).val < 170000 := (i 0).isLt
  have hi1 : (i 1).val < 40 := (i 1).isLt
  refine ⟨⟨(i 0).val / 5000, by rw [show cfg8.N = 34 from N_8]; omega⟩, flush8_3 _, ?_⟩
  rw [mem_blk]
  obtain ⟨e0, e1, e2, e3, e4, e5, e6, e7⟩ := idx_facts ⟨(i 0).val / 5000, by rw [show cfg8.N = 34 from N_8]; omega⟩
  intro a
  match a with
  | ⟨0, _⟩ => show win8_3.index _ (0 : Fin 2) * 5000 ≤ (i 0).val ∧ (i 0).val < win8_3.index _ (0 : Fin 2) * 5000 + 5000; rw [e6]; show (i 0).val / 5000 * 5000 ≤ (i 0).val ∧ (i 0).val < (i 0).val / 5000 * 5000 + 5000; omega
  | ⟨1, _⟩ => show win8_3.index _ (1 : Fin 2) * 40 ≤ (i 1).val ∧ (i 1).val < win8_3.index _ (1 : Fin 2) * 40 + 40; rw [e7]; omega

/-- What point `t` writes back is block `t` of `G`, when the payload of the point's input blocks is `G` on the block's rows. -/
theorem flushed_eq (c : Dev nD) (G : S170000x40.Idx → Elt F .f32)
    (hG : ∀ (t : Fin cfg8.N) (p : Fin 5000) (q : Fin 40),
      k8_pay1 (iblk8 V c 0 t) (iblk8 V c 1 t) (iblk8 V c 2 t) (ix2 p q)
        = G (ix2 (⟨5000 * t.val + p.val, by have := t.isLt; have := p.isLt; have h34 : cfg8.N = 34 := N_8; omega⟩ : Fin 170000) q))
    (t : Fin cfg8.N) :
    (dat8 V c).flushed 3 t = ((cfg8.win 3).blk t).view.read (Elt F) G := by
  show (cfg8.win 3).cut (grid8.coords t) ((dat8 V c).after 3 t) = _
  rw [after8_3]
  unfold out8_3
  rw [View.canon_unit_zero hz]
  simp only [View.ld_unit_zero (S := S5000x64) hz, View.ld_unit_zero (S := S64x40) hz, View.ld_unit_zero (S := S1x40) hz]
  obtain ⟨e0, e1, e2, e3, e4, e5, e6, e7⟩ := idx_facts t
  funext y
  obtain ⟨p, q, rfl⟩ : ∃ (p : Fin 5000) (q : Fin 40), y = ix2 p q := ⟨y 0, y 1, eq_ix2 y⟩
  refine (hG t p q).trans ?_
  show G _ = G (((cfg8.win 3).blk t).view.emb (ix2 p q))
  refine congrArg G ?_
  funext a; apply Fin.ext
  match a with
  | ⟨0, _⟩ => show 5000 * t.val + p.val = win8_3.index t (0 : Fin 2) * 5000 + 1 * p.val; rw [e6]; omega
  | ⟨1, _⟩ => show q.val = win8_3.index t (1 : Fin 2) * 40 + 1 * q.val; rw [e7]; omega

/-- The output array after the region's 34 points is `G`. -/
theorem final (c : Dev nD) (G : S170000x40.Idx → Elt F .f32)
    (hG : ∀ (t : Fin cfg8.N) (p : Fin 5000) (q : Fin 40),
      k8_pay1 (iblk8 V c 0 t) (iblk8 V c 1 t) (iblk8 V c 2 t) (ix2 p q)
        = G (ix2 (⟨5000 * t.val + p.val, by have := t.isLt; have := p.isLt; have h34 : cfg8.N = 34 := N_8; omega⟩ : Fin 170000) q)) :
    (dat8 V c).arrAt 3 cfg8.N = G :=
  (dat8 V c).arrAt_eq_of_cover 3 G (fun t _ => flushed_eq V c G hG t) cover

end Cert.Bridge.Region8

end
-- ==== Proof.Chain8.lean ====
/-
  Region 8: the output projection and the log-softmax. The region is entered after one host operation (the reshape of the
  40 output-bias entries to one row); it reads the last layer's value, the output weight and that bias row, and its output
  array, @main's result, ends at the reference's result as a function of the arguments.
-/
import proofs.«148744_j91096256348434_1_alg».proof.Proof.Gen.KernelIdeal.Frame
import proofs.«148744_j91096256348434_1_alg».proof.Proof.Walk
import proofs.«148744_j91096256348434_1_alg».proof.Proof.Blocks8
import proofs.«148744_j91096256348434_1_alg».proof.Proof.StageProps
import Idealize.ShloMosaic.Lib.Pipeline.Value
import Idealize.ShloMosaic.Lib.StableHlo.Run

set_option maxRecDepth 16384

noncomputable section

namespace Cert.Bridge.Chain8

open Cert.KernelIdeal Cert.KernelIdeal.Gen
open Idealize.ShloMosaic Idealize.ShloMosaic.TcCoe Idealize.SL.Sem Idealize.ShloMosaic.StableHlo
open Idealize.ShloMosaic.Pipeline (Dat Cfg Window)
open Idealize.ShloMosaic.ValueIdx (ix1 ix2)
open Cert.ReferenceIdeal.Read

variable (m : (ℓ : Loc nD τ sig) → Buf (Elt Ideal) ℓ) (ρ : Dev nD → PrngReg)

/-- The last layer's value as the region finds it is what region 7 left. -/
theorem entry_h (c : Dev nD) (H7 : (⟨Cert.ReferenceIdeal.S170000x64, .f32⟩ : BufTy).Contents (Elt Ideal))
    (hprev : W16 m ρ c (Proc.devRef .tc main_v113) = H7) : V17 m ρ c main_v113 = H7 :=
  calc V17 m ρ c main_v113
    _ = W16 m ρ c (Proc.devRef .tc main_v113) := StableHlo.after_of_forall_not_mem (b := Proc.devRef .tc main_v113) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = H7 := hprev

/-- The output weight as the region finds it is the argument array. -/
theorem entry_w (c : Dev nD) : V17 m ρ c main_arg7 = (m ((c : Thread nD τ).loc main_arg7)) :=
  calc V17 m ρ c main_arg7
    _ = W16 m ρ c (Proc.devRef .tc main_arg7) := StableHlo.after_of_forall_not_mem (b := Proc.devRef .tc main_arg7) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (m ((c : Thread nD τ).loc main_arg7)) := W16_main_arg7 m ρ c

/-- The bias row the region reads is the bias argument: the host stretch reshapes the 40 entries to one row of 40. -/
theorem entry_b (c : Dev nD) (q : Fin 40) : V17 m ρ c main_v114 (ix2 (0 : Fin 1) q) = (m ((c : Thread nD τ).loc main_arg8)) (ix1 q) := by
  have e : V17 m ρ c main_v114 = shapeCast S1x40 (W16 m ρ c (Proc.devRef .tc main_arg8)) shapeCasts_S40_S1x40 := by
    show StableHlo.after hostOps8 (W16 m ρ c) (Proc.devRef .tc main_v114) = _
    after_results
    rfl
  rw [e]
  refine (shapeCast_addUnit_apply ![40] _ shapeCasts_S40_S1x40 (ix2 (0 : Fin 1) q)).trans ?_
  refine (congrArg (W16 m ρ c (Proc.devRef .tc main_arg8)) (?_ : _ = ix1 q)).trans (congrFun (W16_main_arg8 m ρ c) _)
  funext a
  match a with
  | ⟨0, _⟩ => rfl

/-- @main's result: after region 8 its output array is the reference's result of the arguments. -/
theorem result (hout : OutStageProp) (c : Dev nD)
    (hprev : W16 m ρ c (Proc.devRef .tc main_v113) = val_main_v193 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :
    W18 m ρ c (Proc.devRef .tc main_v115) = val_main_v198 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (W18_arr m ρ c 3).trans (Region8.final (V17 m ρ) c _ (fun t p q =>
    hout (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (iblk8 (V17 m ρ) c 0 t) (iblk8 (V17 m ρ) c 1 t) (iblk8 (V17 m ρ) c 2 t) (5000 * t.val) (by have := t.isLt; have h34 : cfg8.N = 34 := N_8; omega)
      (fun p k => (Region8.iblk_0 (V17 m ρ) c t p k).trans (congrFun (entry_h m ρ c _ hprev) _))
      (fun k q => (Region8.iblk_1 (V17 m ρ) c t k q).trans (congrFun (entry_w m ρ c) _))
      (fun q => (Region8.iblk_2 (V17 m ρ) c t 0 q).trans (entry_b m ρ c q))
      p q))

end Cert.Bridge.Chain8

end
-- ==== Proof.InKernel.lean ====
import proofs.«148744_j91096256348434_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Bridge

open Idealize.ShloMosaic Idealize.SL.Sem Idealize.ShloMosaic.ValueIdx

/-! The input projection. On a block of 5000 rows starting at row `r0`, the kernel body computes
    `max (∑ k, x[p,k] * W[k,q] + b[0,q]) 0`; the reference computes the same expression at row `r0 + p`.
    Both sides are read at one index; the format changes are the identity on extended reals and the
    contraction into the zero accumulator is the plain sum over the 128 features. -/

/-- Row coordinate of the left operand of the block contraction. -/
theorem k0_lhs_0 (i : Cert.KernelIdeal.S5000x64.Idx) (c : Cert.KernelIdeal.dot_S5000x128_S128x64_S5000x64_1_0_0_1_n_n.contr.Idx) :
    (Cert.KernelIdeal.dot_S5000x128_S128x64_S5000x64_1_0_0_1_n_n.lhsIdx i c 0).val = (i 0).val := by
  unfold DotDims.lhsIdx
  rw [dif_neg (show ¬(0 : Fin Cert.KernelIdeal.S5000x128.rank) ∈ Cert.KernelIdeal.dot_S5000x128_S128x64_S5000x64_1_0_0_1_n_n.lhsBatch by decide), dif_pos (show (0 : Fin Cert.KernelIdeal.S5000x128.rank) ∈ Cert.KernelIdeal.dot_S5000x128_S128x64_S5000x64_1_0_0_1_n_n.lhsNonContracting by decide)]
  rfl
/-- Column coordinate of the left operand: the contraction coordinate. -/
theorem k0_lhs_1 (i : Cert.KernelIdeal.S5000x64.Idx) (c : Cert.KernelIdeal.dot_S5000x128_S128x64_S5000x64_1_0_0_1_n_n.contr.Idx) :
    (Cert.KernelIdeal.dot_S5000x128_S128x64_S5000x64_1_0_0_1_n_n.lhsIdx i c 1).val = (c ⟨0, by decide⟩).val :=
  Cert.KernelIdeal.dot_S5000x128_S128x64_S5000x64_1_0_0_1_n_n.lhsIdx_val_of_single rfl i c
/-- Row coordinate of the right operand: the contraction coordinate. -/
theorem k0_rhs_0 (i : Cert.KernelIdeal.S5000x64.Idx) (c : Cert.KernelIdeal.dot_S5000x128_S128x64_S5000x64_1_0_0_1_n_n.contr.Idx) :
    (Cert.KernelIdeal.dot_S5000x128_S128x64_S5000x64_1_0_0_1_n_n.rhsIdx i c 0).val = (c ⟨0, by decide⟩).val :=
  Cert.KernelIdeal.dot_S5000x128_S128x64_S5000x64_1_0_0_1_n_n.rhsIdx_val_of_single rfl i c
/-- Column coordinate of the right operand. -/
theorem k0_rhs_1 (i : Cert.KernelIdeal.S5000x64.Idx) (c : Cert.KernelIdeal.dot_S5000x128_S128x64_S5000x64_1_0_0_1_n_n.contr.Idx) :
    (Cert.KernelIdeal.dot_S5000x128_S128x64_S5000x64_1_0_0_1_n_n.rhsIdx i c 1).val = (i 1).val := by
  unfold DotDims.rhsIdx
  rw [dif_neg (show ¬(1 : Fin Cert.KernelIdeal.S128x64.rank) ∈ Cert.KernelIdeal.dot_S5000x128_S128x64_S5000x64_1_0_0_1_n_n.rhsBatch by decide), dif_pos (show (1 : Fin Cert.KernelIdeal.S128x64.rank) ∈ Cert.KernelIdeal.dot_S5000x128_S128x64_S5000x64_1_0_0_1_n_n.rhsNonContracting by decide)]
  rfl

/-- The block contraction into the zero accumulator, read at `(p, q)`: the sum over the 128 features. -/
theorem k0_matmul_apply (a : FVec Ideal Cert.KernelIdeal.S5000x128 .bf16) (b : FVec Ideal Cert.KernelIdeal.S128x64 .bf16)
    (p : Fin 5000) (q : Fin 64) :
    matmul Cert.KernelIdeal.dot_S5000x128_S128x64_S5000x64_1_0_0_1_n_n none a b (constant (F := Ideal) Cert.KernelIdeal.S5000x64 .f32 0x00000000#32) (ix2 p q)
      = ∑ k : Fin 128, a (ix2 p k) * b (ix2 k q) := by
  simp only [matmul]
  rw [Ideal.matmul_constant_zero_apply, ← Equiv.sum_comp (contrEquiv1 Cert.KernelIdeal.dot_S5000x128_S128x64_S5000x64_1_0_0_1_n_n 128 rfl rfl).symm]
  refine Finset.sum_congr rfl fun k _ => ?_
  have hk := contrEquiv1_symm_val Cert.KernelIdeal.dot_S5000x128_S128x64_S5000x64_1_0_0_1_n_n 128 rfl rfl k
  have el : Cert.KernelIdeal.dot_S5000x128_S128x64_S5000x64_1_0_0_1_n_n.lhsIdx (ix2 p q) ((contrEquiv1 Cert.KernelIdeal.dot_S5000x128_S128x64_S5000x64_1_0_0_1_n_n 128 rfl rfl).symm k) = ix2 p k := funext fun d => Fin.ext (by
    match d with
    | ⟨0, _⟩ => exact k0_lhs_0 _ _
    | ⟨1, _⟩ => exact (k0_lhs_1 _ _).trans hk)
  have er : Cert.KernelIdeal.dot_S5000x128_S128x64_S5000x64_1_0_0_1_n_n.rhsIdx (ix2 p q) ((contrEquiv1 Cert.KernelIdeal.dot_S5000x128_S128x64_S5000x64_1_0_0_1_n_n 128 rfl rfl).symm k) = ix2 k q := funext fun d => Fin.ext (by
    match d with
    | ⟨0, _⟩ => exact (k0_rhs_0 _ _).trans hk
    | ⟨1, _⟩ => exact k0_rhs_1 _ _)
  rw [el, er]

/-- The kernel body's value at `(p, q)` of its block. -/
theorem k0_pay1_apply (xblk : Vec Ideal Cert.KernelIdeal.S5000x128 .f32) (wblk : Vec Ideal Cert.KernelIdeal.S128x64 .f32)
    (bblk : Vec Ideal Cert.KernelIdeal.S1x64 .f32) (p : Fin 5000) (q : Fin 64) :
    Cert.KernelIdeal.Gen.k0_pay1 (F := Ideal) xblk wblk bblk (ix2 p q)
      = max ((∑ k : Fin 128, xblk (ix2 p k) * wblk (ix2 k q)) + bblk (ix2 (0 : Fin 1) q)) (Ideal.ofBits .f32 0x00000000#32) := by
  unfold Cert.KernelIdeal.Gen.k0_pay1
  rw [maximumf_apply, addf_apply, k0_matmul_apply, broadcastTo_1b_ab_apply, shapeCast_self, broadcast_apply]
  rfl

end Cert.Bridge
-- ==== Proof.InStage.lean ====
import proofs.«148744_j91096256348434_1_alg».proof.Proof.Gen.KernelIdeal.Skeleton
import proofs.«148744_j91096256348434_1_alg».proof.Proof.RefRead
import proofs.«148744_j91096256348434_1_alg».proof.Proof.InKernel
import Idealize.ShloMosaic.Lib.ValueIdx
import Idealize.ShloMosaic.Lib.ValueLayout
import Idealize.ShloMosaic.Lib.Pipeline.Value
import Idealize.ShloMosaic.PureOps.Ideal.Laws

noncomputable section

namespace Cert.Bridge

open Idealize.ShloMosaic Idealize.SL.Sem Idealize.ShloMosaic.ValueIdx

/-! The input projection against the reference: the reference's `relu (x @ W + b)` read at one index, and the
    block statement that joins it to the kernel body's value. -/

/-- The reference's value at `(P, q)`. -/
theorem v4_apply (x0 : (⟨Cert.ReferenceIdeal.S170000x128, .f32⟩ : BufTy).Contents (Elt Ideal)) (x4 : (⟨Cert.ReferenceIdeal.S128x64, .f32⟩ : BufTy).Contents (Elt Ideal)) (x5 : (⟨Cert.ReferenceIdeal.S64, .f32⟩ : BufTy).Contents (Elt Ideal))
    (P : Fin 170000) (q : Fin 64) :
    Cert.ReferenceIdeal.Read.val_main_v4 (F := Ideal) x0 x4 x5 (ix2 P q)
      = max ((∑ k : Fin 128, x0 (ix2 P k) * x4 (ix2 k q)) + x5 (ix1 q)) (Ideal.ofBits .f32 0x00000000#32) := by
  rw [Cert.ReferenceIdeal.Read.val_main_v4_apply, Cert.ReferenceIdeal.Read.val_main_v3_apply, Cert.ReferenceIdeal.Read.val_main_v0_apply,
    Cert.ReferenceIdeal.Read.val_main_v2_apply, Cert.ReferenceIdeal.Read.val_main_v1_apply, Cert.ReferenceIdeal.Read.val_main_call0_v0_apply,
    Cert.ReferenceIdeal.Read.val_main_call0_cst_apply]
  have e1 : ∀ k : Fin 128, Cert.ReferenceIdeal.Read.lidx_main_v0 (ix2 P q) k = ix2 P k := fun k => funext fun d =>
    match d with | ⟨0, _⟩ => rfl | ⟨1, _⟩ => rfl
  have e2 : ∀ k : Fin 128, Cert.ReferenceIdeal.Read.ridx_main_v0 (ix2 P q) k = ix2 k q := fun k => funext fun d =>
    match d with | ⟨0, _⟩ => rfl | ⟨1, _⟩ => rfl
  have e3 : Cert.ReferenceIdeal.Read.idx_main_v1 (Cert.ReferenceIdeal.Read.idx_main_v2 (ix2 P q)) = ix1 q := funext fun d =>
    match d with | ⟨0, _⟩ => rfl
  have hs : (∑ k : Fin 128, x0 (Cert.ReferenceIdeal.Read.lidx_main_v0 (ix2 P q) k) * x4 (Cert.ReferenceIdeal.Read.ridx_main_v0 (ix2 P q) k))
      = ∑ k : Fin 128, x0 (ix2 P k) * x4 (ix2 k q) := Finset.sum_congr rfl fun k _ => by rw [e1 k, e2 k]
  rw [hs, e3]
  rfl

/-- The input projection: if the body's blocks hold rows `r0 … r0 + 4999` of the input, the weights and the bias row, its value at `(p, q)` is the reference's at `(r0 + p, q)`. -/
theorem in_stage (x0 : (⟨Cert.ReferenceIdeal.S170000x128, .f32⟩ : BufTy).Contents (Elt Ideal)) (x4 : (⟨Cert.ReferenceIdeal.S128x64, .f32⟩ : BufTy).Contents (Elt Ideal)) (x5 : (⟨Cert.ReferenceIdeal.S64, .f32⟩ : BufTy).Contents (Elt Ideal))
    (xblk : Vec Ideal Cert.KernelIdeal.S5000x128 .f32) (wblk : Vec Ideal Cert.KernelIdeal.S128x64 .f32) (bblk : Vec Ideal Cert.KernelIdeal.S1x64 .f32)
    (r0 : ℕ) (hr0 : r0 + 5000 ≤ 170000)
    (hx : ∀ (p : Fin 5000) (k : Fin 128), xblk (ValueIdx.ix2 p k) = x0 (ValueIdx.ix2 (⟨r0 + p.val, by omega⟩ : Fin 170000) k))
    (hw : ∀ (k : Fin 128) (q : Fin 64), wblk (ValueIdx.ix2 k q) = x4 (ValueIdx.ix2 k q))
    (hb : ∀ q : Fin 64, bblk (ValueIdx.ix2 (0 : Fin 1) q) = x5 (ValueIdx.ix1 q))
    (p : Fin 5000) (q : Fin 64) :
    Cert.KernelIdeal.Gen.k0_pay1 (F := Ideal) xblk wblk bblk (ValueIdx.ix2 p q)
      = Cert.ReferenceIdeal.Read.val_main_v4 (F := Ideal) x0 x4 x5 (ValueIdx.ix2 (⟨r0 + p.val, by omega⟩ : Fin 170000) q) := by
  have hs : (∑ k : Fin 128, xblk (ix2 p k) * wblk (ix2 k q))
      = ∑ k : Fin 128, x0 (ix2 (⟨r0 + p.val, by omega⟩ : Fin 170000) k) * x4 (ix2 k q) :=
    Finset.sum_congr rfl fun k _ => by rw [hx p k, hw k q]
  rw [k0_pay1_apply, v4_apply, hs, hb q]

end Cert.Bridge
-- ==== Proof.CombKernel.lean ====
import proofs.«148744_j91096256348434_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Bridge

open Idealize.ShloMosaic Idealize.SL.Sem Idealize.ShloMosaic.ValueIdx

/-! The contraction shared by the seven layer-combine bodies: a `[5000, 64]` block times a `[64, 64]`
    weight into the zero accumulator, read at one index, is the plain sum over the 64 hidden features. -/

/-- Row coordinate of the left operand of the block contraction. -/
theorem comb_lhs_0 (i : Cert.KernelIdeal.S5000x64.Idx) (c : Cert.KernelIdeal.dot_S5000x64_S64x64_S5000x64_1_0_0_1_n_n.contr.Idx) :
    (Cert.KernelIdeal.dot_S5000x64_S64x64_S5000x64_1_0_0_1_n_n.lhsIdx i c 0).val = (i 0).val := by
  unfold DotDims.lhsIdx
  rw [dif_neg (show ¬(0 : Fin Cert.KernelIdeal.S5000x64.rank) ∈ Cert.KernelIdeal.dot_S5000x64_S64x64_S5000x64_1_0_0_1_n_n.lhsBatch by decide), dif_pos (show (0 : Fin Cert.KernelIdeal.S5000x64.rank) ∈ Cert.KernelIdeal.dot_S5000x64_S64x64_S5000x64_1_0_0_1_n_n.lhsNonContracting by decide)]
  rfl
/-- Column coordinate of the left operand: the contraction coordinate. -/
theorem comb_lhs_1 (i : Cert.KernelIdeal.S5000x64.Idx) (c : Cert.KernelIdeal.dot_S5000x64_S64x64_S5000x64_1_0_0_1_n_n.contr.Idx) :
    (Cert.KernelIdeal.dot_S5000x64_S64x64_S5000x64_1_0_0_1_n_n.lhsIdx i c 1).val = (c ⟨0, by decide⟩).val :=
  Cert.KernelIdeal.dot_S5000x64_S64x64_S5000x64_1_0_0_1_n_n.lhsIdx_val_of_single rfl i c
/-- Row coordinate of the right operand: the contraction coordinate. -/
theorem comb_rhs_0 (i : Cert.KernelIdeal.S5000x64.Idx) (c : Cert.KernelIdeal.dot_S5000x64_S64x64_S5000x64_1_0_0_1_n_n.contr.Idx) :
    (Cert.KernelIdeal.dot_S5000x64_S64x64_S5000x64_1_0_0_1_n_n.rhsIdx i c 0).val = (c ⟨0, by decide⟩).val :=
  Cert.KernelIdeal.dot_S5000x64_S64x64_S5000x64_1_0_0_1_n_n.rhsIdx_val_of_single rfl i c
/-- Column coordinate of the right operand. -/
theorem comb_rhs_1 (i : Cert.KernelIdeal.S5000x64.Idx) (c : Cert.KernelIdeal.dot_S5000x64_S64x64_S5000x64_1_0_0_1_n_n.contr.Idx) :
    (Cert.KernelIdeal.dot_S5000x64_S64x64_S5000x64_1_0_0_1_n_n.rhsIdx i c 1).val = (i 1).val := by
  unfold DotDims.rhsIdx
  rw [dif_neg (show ¬(1 : Fin Cert.KernelIdeal.S64x64.rank) ∈ Cert.KernelIdeal.dot_S5000x64_S64x64_S5000x64_1_0_0_1_n_n.rhsBatch by decide), dif_pos (show (1 : Fin Cert.KernelIdeal.S64x64.rank) ∈ Cert.KernelIdeal.dot_S5000x64_S64x64_S5000x64_1_0_0_1_n_n.rhsNonContracting by decide)]
  rfl

/-- The block contraction into the zero accumulator, read at `(p, q)`: the sum over the 64 hidden features. -/
theorem comb_matmul_apply (a : FVec Ideal Cert.KernelIdeal.S5000x64 .bf16) (b : FVec Ideal Cert.KernelIdeal.S64x64 .bf16)
    (p : Fin 5000) (q : Fin 64) :
    matmul Cert.KernelIdeal.dot_S5000x64_S64x64_S5000x64_1_0_0_1_n_n none a b (constant (F := Ideal) Cert.KernelIdeal.S5000x64 .f32 0x00000000#32) (ix2 p q)
      = ∑ k : Fin 64, a (ix2 p k) * b (ix2 k q) := by
  simp only [matmul]
  rw [Ideal.matmul_constant_zero_apply, ← Equiv.sum_comp (contrEquiv1 Cert.KernelIdeal.dot_S5000x64_S64x64_S5000x64_1_0_0_1_n_n 64 rfl rfl).symm]
  refine Finset.sum_congr rfl fun k _ => ?_
  have hk := contrEquiv1_symm_val Cert.KernelIdeal.dot_S5000x64_S64x64_S5000x64_1_0_0_1_n_n 64 rfl rfl k
  have el : Cert.KernelIdeal.dot_S5000x64_S64x64_S5000x64_1_0_0_1_n_n.lhsIdx (ix2 p q) ((contrEquiv1 Cert.KernelIdeal.dot_S5000x64_S64x64_S5000x64_1_0_0_1_n_n 64 rfl rfl).symm k) = ix2 p k := funext fun d => Fin.ext (by
    match d with
    | ⟨0, _⟩ => exact comb_lhs_0 _ _
    | ⟨1, _⟩ => exact (comb_lhs_1 _ _).trans hk)
  have er : Cert.KernelIdeal.dot_S5000x64_S64x64_S5000x64_1_0_0_1_n_n.rhsIdx (ix2 p q) ((contrEquiv1 Cert.KernelIdeal.dot_S5000x64_S64x64_S5000x64_1_0_0_1_n_n 64 rfl rfl).symm k) = ix2 k q := funext fun d => Fin.ext (by
    match d with
    | ⟨0, _⟩ => exact (comb_rhs_0 _ _).trans hk
    | ⟨1, _⟩ => exact comb_rhs_1 _ _)
  rw [el, er]

/-- Layer 1's combine body at `(p, q)` of its block: with `hh = c₁ * agg + c₂ * res`, the value is
    `max (c₃ * hh[p,q] + c₄ * ∑ k, hh[p,k] * W[k,q]) 0`. -/
theorem k1_pay1_apply (agg res : Vec Ideal Cert.KernelIdeal.S5000x64 .f32) (w : Vec Ideal Cert.KernelIdeal.S64x64 .f32)
    (p : Fin 5000) (q : Fin 64) :
    Cert.KernelIdeal.Gen.k1_pay1 (F := Ideal) agg res w (ix2 p q)
      = max (FloatOps.ofBits (F := Ideal) .f32 0x3F183370#32 * (FloatOps.ofBits (F := Ideal) .f32 0x3F666666#32 * agg (ix2 p q) + FloatOps.ofBits (F := Ideal) .f32 0x3DCCCCCD#32 * res (ix2 p q))
            + FloatOps.ofBits (F := Ideal) .f32 0x3ECF991F#32 * ∑ k : Fin 64, (FloatOps.ofBits (F := Ideal) .f32 0x3F666666#32 * agg (ix2 p k) + FloatOps.ofBits (F := Ideal) .f32 0x3DCCCCCD#32 * res (ix2 p k)) * w (ix2 k q))
          (FloatOps.ofBits (F := Ideal) .f32 0x00000000#32) := by
  unfold Cert.KernelIdeal.Gen.k1_pay1
  rw [maximumf_apply, addf_apply, mulf_apply, mulf_apply, comb_matmul_apply]
  simp only [shapeCast_self, addf_apply, mulf_apply, truncf_apply, broadcast_apply]

/-- Layer 2's combine body at `(p, q)` of its block: with `hh = c₁ * agg + c₂ * res`, the value is
    `max (c₃ * hh[p,q] + c₄ * ∑ k, hh[p,k] * W[k,q]) 0`. -/
theorem k2_pay1_apply (agg res : Vec Ideal Cert.KernelIdeal.S5000x64 .f32) (w : Vec Ideal Cert.KernelIdeal.S64x64 .f32)
    (p : Fin 5000) (q : Fin 64) :
    Cert.KernelIdeal.Gen.k2_pay1 (F := Ideal) agg res w (ix2 p q)
      = max (FloatOps.ofBits (F := Ideal) .f32 0x3F46E010#32 * (FloatOps.ofBits (F := Ideal) .f32 0x3F666666#32 * agg (ix2 p q) + FloatOps.ofBits (F := Ideal) .f32 0x3DCCCCCD#32 * res (ix2 p q))
            + FloatOps.ofBits (F := Ideal) .f32 0x3E647FBE#32 * ∑ k : Fin 64, (FloatOps.ofBits (F := Ideal) .f32 0x3F666666#32 * agg (ix2 p k) + FloatOps.ofBits (F := Ideal) .f32 0x3DCCCCCD#32 * res (ix2 p k)) * w (ix2 k q))
          (FloatOps.ofBits (F := Ideal) .f32 0x00000000#32) := by
  unfold Cert.KernelIdeal.Gen.k2_pay1
  rw [maximumf_apply, addf_apply, mulf_apply, mulf_apply, comb_matmul_apply]
  simp only [shapeCast_self, addf_apply, mulf_apply, truncf_apply, broadcast_apply]

/-- Layer 3's combine body at `(p, q)` of its block: with `hh = c₁ * agg + c₂ * res`, the value is
    `max (c₃ * hh[p,q] + c₄ * ∑ k, hh[p,k] * W[k,q]) 0`. -/
theorem k3_pay1_apply (agg res : Vec Ideal Cert.KernelIdeal.S5000x64 .f32) (w : Vec Ideal Cert.KernelIdeal.S64x64 .f32)
    (p : Fin 5000) (q : Fin 64) :
    Cert.KernelIdeal.Gen.k3_pay1 (F := Ideal) agg res w (ix2 p q)
      = max (FloatOps.ofBits (F := Ideal) .f32 0x3F588995#32 * (FloatOps.ofBits (F := Ideal) .f32 0x3F666666#32 * agg (ix2 p q) + FloatOps.ofBits (F := Ideal) .f32 0x3DCCCCCD#32 * res (ix2 p q))
            + FloatOps.ofBits (F := Ideal) .f32 0x3E1DD9AD#32 * ∑ k : Fin 64, (FloatOps.ofBits (F := Ideal) .f32 0x3F666666#32 * agg (ix2 p k) + FloatOps.ofBits (F := Ideal) .f32 0x3DCCCCCD#32 * res (ix2 p k)) * w (ix2 k q))
          (FloatOps.ofBits (F := Ideal) .f32 0x00000000#32) := by
  unfold Cert.KernelIdeal.Gen.k3_pay1
  rw [maximumf_apply, addf_apply, mulf_apply, mulf_apply, comb_matmul_apply]
  simp only [shapeCast_self, addf_apply, mulf_apply, truncf_apply, broadcast_apply]

/-- Layer 4's combine body at `(p, q)` of its block: with `hh = c₁ * agg + c₂ * res`, the value is
    `max (c₃ * hh[p,q] + c₄ * ∑ k, hh[p,k] * W[k,q]) 0`. -/
theorem k4_pay1_apply (agg res : Vec Ideal Cert.KernelIdeal.S5000x64 .f32) (w : Vec Ideal Cert.KernelIdeal.S64x64 .f32)
    (p : Fin 5000) (q : Fin 64) :
    Cert.KernelIdeal.Gen.k4_pay1 (F := Ideal) agg res w (ix2 p q)
      = max (FloatOps.ofBits (F := Ideal) .f32 0x3F61D8F9#32 * (FloatOps.ofBits (F := Ideal) .f32 0x3F666666#32 * agg (ix2 p q) + FloatOps.ofBits (F := Ideal) .f32 0x3DCCCCCD#32 * res (ix2 p q))
            + FloatOps.ofBits (F := Ideal) .f32 0x3DF1383B#32 * ∑ k : Fin 64, (FloatOps.ofBits (F := Ideal) .f32 0x3F666666#32 * agg (ix2 p k) + FloatOps.ofBits (F := Ideal) .f32 0x3DCCCCCD#32 * res (ix2 p k)) * w (ix2 k q))
          (FloatOps.ofBits (F := Ideal) .f32 0x00000000#32) := by
  unfold Cert.KernelIdeal.Gen.k4_pay1
  rw [maximumf_apply, addf_apply, mulf_apply, mulf_apply, comb_matmul_apply]
  simp only [shapeCast_self, addf_apply, mulf_apply, truncf_apply, broadcast_apply]

/-- Layer 5's combine body at `(p, q)` of its block: with `hh = c₁ * agg + c₂ * res`, the value is
    `max (c₃ * hh[p,q] + c₄ * ∑ k, hh[p,k] * W[k,q]) 0`. -/
theorem k5_pay1_apply (agg res : Vec Ideal Cert.KernelIdeal.S5000x64 .f32) (w : Vec Ideal Cert.KernelIdeal.S64x64 .f32)
    (p : Fin 5000) (q : Fin 64) :
    Cert.KernelIdeal.Gen.k5_pay1 (F := Ideal) agg res w (ix2 p q)
      = max (FloatOps.ofBits (F := Ideal) .f32 0x3F6799C1#32 * (FloatOps.ofBits (F := Ideal) .f32 0x3F666666#32 * agg (ix2 p q) + FloatOps.ofBits (F := Ideal) .f32 0x3DCCCCCD#32 * res (ix2 p q))
            + FloatOps.ofBits (F := Ideal) .f32 0x3DC331FC#32 * ∑ k : Fin 64, (FloatOps.ofBits (F := Ideal) .f32 0x3F666666#32 * agg (ix2 p k) + FloatOps.ofBits (F := Ideal) .f32 0x3DCCCCCD#32 * res (ix2 p k)) * w (ix2 k q))
          (FloatOps.ofBits (F := Ideal) .f32 0x00000000#32) := by
  unfold Cert.KernelIdeal.Gen.k5_pay1
  rw [maximumf_apply, addf_apply, mulf_apply, mulf_apply, comb_matmul_apply]
  simp only [shapeCast_self, addf_apply, mulf_apply, truncf_apply, broadcast_apply]

/-- Layer 6's combine body at `(p, q)` of its block: with `hh = c₁ * agg + c₂ * res`, the value is
    `max (c₃ * hh[p,q] + c₄ * ∑ k, hh[p,k] * W[k,q]) 0`. -/
theorem k6_pay1_apply (agg res : Vec Ideal Cert.KernelIdeal.S5000x64 .f32) (w : Vec Ideal Cert.KernelIdeal.S64x64 .f32)
    (p : Fin 5000) (q : Fin 64) :
    Cert.KernelIdeal.Gen.k6_pay1 (F := Ideal) agg res w (ix2 p q)
      = max (FloatOps.ofBits (F := Ideal) .f32 0x3F6B8252#32 * (FloatOps.ofBits (F := Ideal) .f32 0x3F666666#32 * agg (ix2 p q) + FloatOps.ofBits (F := Ideal) .f32 0x3DCCCCCD#32 * res (ix2 p q))
            + FloatOps.ofBits (F := Ideal) .f32 0x3DA3ED6E#32 * ∑ k : Fin 64, (FloatOps.ofBits (F := Ideal) .f32 0x3F666666#32 * agg (ix2 p k) + FloatOps.ofBits (F := Ideal) .f32 0x3DCCCCCD#32 * res (ix2 p k)) * w (ix2 k q))
          (FloatOps.ofBits (F := Ideal) .f32 0x00000000#32) := by
  unfold Cert.KernelIdeal.Gen.k6_pay1
  rw [maximumf_apply, addf_apply, mulf_apply, mulf_apply, comb_matmul_apply]
  simp only [shapeCast_self, addf_apply, mulf_apply, truncf_apply, broadcast_apply]

/-- Layer 7's combine body at `(p, q)` of its block: with `hh = c₁ * agg + c₂ * res`, the value is
    `max (c₃ * hh[p,q] + c₄ * ∑ k, hh[p,k] * W[k,q]) 0`. -/
theorem k7_pay1_apply (agg res : Vec Ideal Cert.KernelIdeal.S5000x64 .f32) (w : Vec Ideal Cert.KernelIdeal.S64x64 .f32)
    (p : Fin 5000) (q : Fin 64) :
    Cert.KernelIdeal.Gen.k7_pay1 (F := Ideal) agg res w (ix2 p q)
      = max (FloatOps.ofBits (F := Ideal) .f32 0x3F6E567C#32 * (FloatOps.ofBits (F := Ideal) .f32 0x3F666666#32 * agg (ix2 p q) + FloatOps.ofBits (F := Ideal) .f32 0x3DCCCCCD#32 * res (ix2 p q))
            + FloatOps.ofBits (F := Ideal) .f32 0x3D8D4C22#32 * ∑ k : Fin 64, (FloatOps.ofBits (F := Ideal) .f32 0x3F666666#32 * agg (ix2 p k) + FloatOps.ofBits (F := Ideal) .f32 0x3DCCCCCD#32 * res (ix2 p k)) * w (ix2 k q))
          (FloatOps.ofBits (F := Ideal) .f32 0x00000000#32) := by
  unfold Cert.KernelIdeal.Gen.k7_pay1
  rw [maximumf_apply, addf_apply, mulf_apply, mulf_apply, comb_matmul_apply]
  simp only [shapeCast_self, addf_apply, mulf_apply, truncf_apply, broadcast_apply]

end Cert.Bridge
-- ==== Proof.CombStage1.lean ====
import proofs.«148744_j91096256348434_1_alg».proof.Proof.Gen.KernelIdeal.Skeleton
import proofs.«148744_j91096256348434_1_alg».proof.Proof.RefRead
import proofs.«148744_j91096256348434_1_alg».proof.Proof.CombKernel
import Idealize.ShloMosaic.Lib.ValueIdx
import Idealize.ShloMosaic.Lib.ValueLayout
import Idealize.ShloMosaic.Lib.Pipeline.Value
import Idealize.ShloMosaic.PureOps.Ideal.Laws

noncomputable section

namespace Cert.Bridge

open Idealize.ShloMosaic Idealize.SL.Sem Idealize.ShloMosaic.ValueIdx

/-! Layer 1's combine against the reference: the reference's `relu (c₃ * hh + c₄ * (hh @ W))` with
    `hh = c₁ * agg + c₂ * res` read at one index, and the block statement that joins it to the kernel body's value.
    The aggregate and the initial residual stay opaque terms throughout. -/

/-- The reference's `hh = c₁ * agg + c₂ * res` of layer 1 at one index. -/
theorem hh1_apply (x0 : (⟨Cert.ReferenceIdeal.S170000x128, .f32⟩ : BufTy).Contents (Elt Ideal)) (x1 x2 : (⟨Cert.ReferenceIdeal.S1200000, .i32⟩ : BufTy).Contents (Elt Ideal)) (x3 : (⟨Cert.ReferenceIdeal.S1200000, .f32⟩ : BufTy).Contents (Elt Ideal)) (x4 : (⟨Cert.ReferenceIdeal.S128x64, .f32⟩ : BufTy).Contents (Elt Ideal)) (x5 : (⟨Cert.ReferenceIdeal.S64, .f32⟩ : BufTy).Contents (Elt Ideal)) (i : Cert.ReferenceIdeal.S170000x64.Idx) :
    Cert.ReferenceIdeal.Read.val_main_v22 (F := Ideal) x0 x1 x2 x3 x4 x5 i
      = FloatOps.ofBits (F := Ideal) .f32 0x3F666666#32 * Cert.ReferenceIdeal.Read.val_main_v17 (F := Ideal) x0 x1 x2 x3 x4 x5 i + FloatOps.ofBits (F := Ideal) .f32 0x3DCCCCCD#32 * Cert.ReferenceIdeal.Read.val_main_v4 (F := Ideal) x0 x4 x5 i := by
  rw [Cert.ReferenceIdeal.Read.val_main_v22_apply, Cert.ReferenceIdeal.Read.val_main_v19_apply, Cert.ReferenceIdeal.Read.val_main_v21_apply, Cert.ReferenceIdeal.Read.val_main_v18_apply,
    Cert.ReferenceIdeal.Read.val_main_v20_apply, Cert.ReferenceIdeal.Read.val_main_cst_1_apply, Cert.ReferenceIdeal.Read.val_main_cst_2_apply]
  rfl

/-- The reference's layer 1 output at `(P, q)`. -/
theorem v31_apply_ix (x0 : (⟨Cert.ReferenceIdeal.S170000x128, .f32⟩ : BufTy).Contents (Elt Ideal)) (x1 x2 : (⟨Cert.ReferenceIdeal.S1200000, .i32⟩ : BufTy).Contents (Elt Ideal)) (x3 : (⟨Cert.ReferenceIdeal.S1200000, .f32⟩ : BufTy).Contents (Elt Ideal)) (x4 : (⟨Cert.ReferenceIdeal.S128x64, .f32⟩ : BufTy).Contents (Elt Ideal)) (x5 : (⟨Cert.ReferenceIdeal.S64, .f32⟩ : BufTy).Contents (Elt Ideal)) (x6 : (⟨Cert.ReferenceIdeal.S7x64x64, .f32⟩ : BufTy).Contents (Elt Ideal)) (P : Fin 170000) (q : Fin 64) :
    Cert.ReferenceIdeal.Read.val_main_v31 (F := Ideal) x0 x1 x2 x3 x4 x5 x6 (ix2 P q)
      = max (FloatOps.ofBits (F := Ideal) .f32 0x3F183370#32 * Cert.ReferenceIdeal.Read.val_main_v22 (F := Ideal) x0 x1 x2 x3 x4 x5 (ix2 P q)
            + FloatOps.ofBits (F := Ideal) .f32 0x3ECF991F#32 * ∑ k : Fin 64, Cert.ReferenceIdeal.Read.val_main_v22 (F := Ideal) x0 x1 x2 x3 x4 x5 (ix2 P k) * Cert.ReferenceIdeal.Read.val_main_v26 (F := Ideal) x6 (ix2 k q))
          (FloatOps.ofBits (F := Ideal) .f32 0x00000000#32) := by
  rw [Cert.ReferenceIdeal.Read.val_main_v31_apply, Cert.ReferenceIdeal.Read.val_main_v30_apply, Cert.ReferenceIdeal.Read.val_main_v24_apply, Cert.ReferenceIdeal.Read.val_main_v29_apply,
    Cert.ReferenceIdeal.Read.val_main_v27_apply, Cert.ReferenceIdeal.Read.val_main_v23_apply, Cert.ReferenceIdeal.Read.val_main_v28_apply, Cert.ReferenceIdeal.Read.val_main_cst_3_apply,
    Cert.ReferenceIdeal.Read.val_main_cst_4_apply, Cert.ReferenceIdeal.Read.val_main_call1_v0_apply, Cert.ReferenceIdeal.Read.val_main_call1_cst_apply]
  have e1 : ∀ k : Fin 64, Cert.ReferenceIdeal.Read.lidx_main_v27 (ix2 P q) k = ix2 P k := fun k => funext fun d =>
    match d with | ⟨0, _⟩ => rfl | ⟨1, _⟩ => rfl
  have e2 : ∀ k : Fin 64, Cert.ReferenceIdeal.Read.ridx_main_v27 (ix2 P q) k = ix2 k q := fun k => funext fun d =>
    match d with | ⟨0, _⟩ => rfl | ⟨1, _⟩ => rfl
  have hs : (∑ k : Fin 64, Cert.ReferenceIdeal.Read.val_main_v22 (F := Ideal) x0 x1 x2 x3 x4 x5 (Cert.ReferenceIdeal.Read.lidx_main_v27 (ix2 P q) k) * Cert.ReferenceIdeal.Read.val_main_v26 (F := Ideal) x6 (Cert.ReferenceIdeal.Read.ridx_main_v27 (ix2 P q) k))
      = ∑ k : Fin 64, Cert.ReferenceIdeal.Read.val_main_v22 (F := Ideal) x0 x1 x2 x3 x4 x5 (ix2 P k) * Cert.ReferenceIdeal.Read.val_main_v26 (F := Ideal) x6 (ix2 k q) :=
    Finset.sum_congr rfl fun k _ => by rw [e1 k, e2 k]
  rw [hs]
  rfl

/-- Layer 1's combine: if the body's blocks hold rows `r0 … r0 + 4999` of the aggregate and of the initial residual,
    and the layer's 64×64 weight, its value at `(p, q)` is the reference's layer output at `(r0 + p, q)`. -/
theorem comb1_stage (x0 : (⟨Cert.ReferenceIdeal.S170000x128, .f32⟩ : BufTy).Contents (Elt Ideal)) (x1 x2 : (⟨Cert.ReferenceIdeal.S1200000, .i32⟩ : BufTy).Contents (Elt Ideal)) (x3 : (⟨Cert.ReferenceIdeal.S1200000, .f32⟩ : BufTy).Contents (Elt Ideal)) (x4 : (⟨Cert.ReferenceIdeal.S128x64, .f32⟩ : BufTy).Contents (Elt Ideal)) (x5 : (⟨Cert.ReferenceIdeal.S64, .f32⟩ : BufTy).Contents (Elt Ideal)) (x6 : (⟨Cert.ReferenceIdeal.S7x64x64, .f32⟩ : BufTy).Contents (Elt Ideal))
    (aggblk x0blk : Vec Ideal Cert.KernelIdeal.S5000x64 .f32) (wblk : Vec Ideal Cert.KernelIdeal.S64x64 .f32)
    (r0 : ℕ) (hr0 : r0 + 5000 ≤ 170000)
    (hagg : ∀ (p : Fin 5000) (k : Fin 64), aggblk (ValueIdx.ix2 p k) = Cert.ReferenceIdeal.Read.val_main_v17 (F := Ideal) x0 x1 x2 x3 x4 x5 (ValueIdx.ix2 (⟨r0 + p.val, by omega⟩ : Fin 170000) k))
    (hx0 : ∀ (p : Fin 5000) (k : Fin 64), x0blk (ValueIdx.ix2 p k) = Cert.ReferenceIdeal.Read.val_main_v4 (F := Ideal) x0 x4 x5 (ValueIdx.ix2 (⟨r0 + p.val, by omega⟩ : Fin 170000) k))
    (hw : ∀ (k q : Fin 64), wblk (ValueIdx.ix2 k q) = Cert.ReferenceIdeal.Read.val_main_v26 (F := Ideal) x6 (ValueIdx.ix2 k q))
    (p : Fin 5000) (q : Fin 64) :
    Cert.KernelIdeal.Gen.k1_pay1 (F := Ideal) aggblk x0blk wblk (ValueIdx.ix2 p q)
      = Cert.ReferenceIdeal.Read.val_main_v31 (F := Ideal) x0 x1 x2 x3 x4 x5 x6 (ValueIdx.ix2 (⟨r0 + p.val, by omega⟩ : Fin 170000) q) := by
  have hs : (∑ k : Fin 64, (FloatOps.ofBits (F := Ideal) .f32 0x3F666666#32 * aggblk (ix2 p k) + FloatOps.ofBits (F := Ideal) .f32 0x3DCCCCCD#32 * x0blk (ix2 p k)) * wblk (ix2 k q))
      = ∑ k : Fin 64, Cert.ReferenceIdeal.Read.val_main_v22 (F := Ideal) x0 x1 x2 x3 x4 x5 (ix2 (⟨r0 + p.val, by omega⟩ : Fin 170000) k) * Cert.ReferenceIdeal.Read.val_main_v26 (F := Ideal) x6 (ix2 k q) :=
    Finset.sum_congr rfl fun k _ => by rw [hh1_apply, hagg p k, hx0 p k, hw k q]
  rw [k1_pay1_apply, v31_apply_ix, hs, hh1_apply, hagg p q, hx0 p q]

end Cert.Bridge
-- ==== Proof.CombStage2.lean ====
import proofs.«148744_j91096256348434_1_alg».proof.Proof.Gen.KernelIdeal.Skeleton
import proofs.«148744_j91096256348434_1_alg».proof.Proof.RefRead
import proofs.«148744_j91096256348434_1_alg».proof.Proof.CombKernel
import Idealize.ShloMosaic.Lib.ValueIdx
import Idealize.ShloMosaic.Lib.ValueLayout
import Idealize.ShloMosaic.Lib.Pipeline.Value
import Idealize.ShloMosaic.PureOps.Ideal.Laws

noncomputable section

namespace Cert.Bridge

open Idealize.ShloMosaic Idealize.SL.Sem Idealize.ShloMosaic.ValueIdx

/-! Layer 2's combine against the reference: the reference's `relu (c₃ * hh + c₄ * (hh @ W))` with
    `hh = c₁ * agg + c₂ * res` read at one index, and the block statement that joins it to the kernel body's value.
    The aggregate and the initial residual stay opaque terms throughout. -/

/-- The reference's `hh = c₁ * agg + c₂ * res` of layer 2 at one index. -/
theorem hh2_apply (x0 : (⟨Cert.ReferenceIdeal.S170000x128, .f32⟩ : BufTy).Contents (Elt Ideal)) (x1 x2 : (⟨Cert.ReferenceIdeal.S1200000, .i32⟩ : BufTy).Contents (Elt Ideal)) (x3 : (⟨Cert.ReferenceIdeal.S1200000, .f32⟩ : BufTy).Contents (Elt Ideal)) (x4 : (⟨Cert.ReferenceIdeal.S128x64, .f32⟩ : BufTy).Contents (Elt Ideal)) (x5 : (⟨Cert.ReferenceIdeal.S64, .f32⟩ : BufTy).Contents (Elt Ideal)) (x6 : (⟨Cert.ReferenceIdeal.S7x64x64, .f32⟩ : BufTy).Contents (Elt Ideal)) (i : Cert.ReferenceIdeal.S170000x64.Idx) :
    Cert.ReferenceIdeal.Read.val_main_v49 (F := Ideal) x0 x1 x2 x3 x4 x5 x6 i
      = FloatOps.ofBits (F := Ideal) .f32 0x3F666666#32 * Cert.ReferenceIdeal.Read.val_main_v44 (F := Ideal) x0 x1 x2 x3 x4 x5 x6 i + FloatOps.ofBits (F := Ideal) .f32 0x3DCCCCCD#32 * Cert.ReferenceIdeal.Read.val_main_v4 (F := Ideal) x0 x4 x5 i := by
  rw [Cert.ReferenceIdeal.Read.val_main_v49_apply, Cert.ReferenceIdeal.Read.val_main_v46_apply, Cert.ReferenceIdeal.Read.val_main_v48_apply, Cert.ReferenceIdeal.Read.val_main_v45_apply,
    Cert.ReferenceIdeal.Read.val_main_v47_apply, Cert.ReferenceIdeal.Read.val_main_cst_8_apply, Cert.ReferenceIdeal.Read.val_main_cst_9_apply]
  rfl

/-- The reference's layer 2 output at `(P, q)`. -/
theorem v58_apply_ix (x0 : (⟨Cert.ReferenceIdeal.S170000x128, .f32⟩ : BufTy).Contents (Elt Ideal)) (x1 x2 : (⟨Cert.ReferenceIdeal.S1200000, .i32⟩ : BufTy).Contents (Elt Ideal)) (x3 : (⟨Cert.ReferenceIdeal.S1200000, .f32⟩ : BufTy).Contents (Elt Ideal)) (x4 : (⟨Cert.ReferenceIdeal.S128x64, .f32⟩ : BufTy).Contents (Elt Ideal)) (x5 : (⟨Cert.ReferenceIdeal.S64, .f32⟩ : BufTy).Contents (Elt Ideal)) (x6 : (⟨Cert.ReferenceIdeal.S7x64x64, .f32⟩ : BufTy).Contents (Elt Ideal)) (P : Fin 170000) (q : Fin 64) :
    Cert.ReferenceIdeal.Read.val_main_v58 (F := Ideal) x0 x1 x2 x3 x4 x5 x6 (ix2 P q)
      = max (FloatOps.ofBits (F := Ideal) .f32 0x3F46E010#32 * Cert.ReferenceIdeal.Read.val_main_v49 (F := Ideal) x0 x1 x2 x3 x4 x5 x6 (ix2 P q)
            + FloatOps.ofBits (F := Ideal) .f32 0x3E647FBE#32 * ∑ k : Fin 64, Cert.ReferenceIdeal.Read.val_main_v49 (F := Ideal) x0 x1 x2 x3 x4 x5 x6 (ix2 P k) * Cert.ReferenceIdeal.Read.val_main_v53 (F := Ideal) x6 (ix2 k q))
          (FloatOps.ofBits (F := Ideal) .f32 0x00000000#32) := by
  rw [Cert.ReferenceIdeal.Read.val_main_v58_apply, Cert.ReferenceIdeal.Read.val_main_v57_apply, Cert.ReferenceIdeal.Read.val_main_v51_apply, Cert.ReferenceIdeal.Read.val_main_v56_apply,
    Cert.ReferenceIdeal.Read.val_main_v54_apply, Cert.ReferenceIdeal.Read.val_main_v50_apply, Cert.ReferenceIdeal.Read.val_main_v55_apply, Cert.ReferenceIdeal.Read.val_main_cst_10_apply,
    Cert.ReferenceIdeal.Read.val_main_cst_11_apply, Cert.ReferenceIdeal.Read.val_main_call2_v0_apply, Cert.ReferenceIdeal.Read.val_main_call2_cst_apply]
  have e1 : ∀ k : Fin 64, Cert.ReferenceIdeal.Read.lidx_main_v54 (ix2 P q) k = ix2 P k := fun k => funext fun d =>
    match d with | ⟨0, _⟩ => rfl | ⟨1, _⟩ => rfl
  have e2 : ∀ k : Fin 64, Cert.ReferenceIdeal.Read.ridx_main_v54 (ix2 P q) k = ix2 k q := fun k => funext fun d =>
    match d with | ⟨0, _⟩ => rfl | ⟨1, _⟩ => rfl
  have hs : (∑ k : Fin 64, Cert.ReferenceIdeal.Read.val_main_v49 (F := Ideal) x0 x1 x2 x3 x4 x5 x6 (Cert.ReferenceIdeal.Read.lidx_main_v54 (ix2 P q) k) * Cert.ReferenceIdeal.Read.val_main_v53 (F := Ideal) x6 (Cert.ReferenceIdeal.Read.ridx_main_v54 (ix2 P q) k))
      = ∑ k : Fin 64, Cert.ReferenceIdeal.Read.val_main_v49 (F := Ideal) x0 x1 x2 x3 x4 x5 x6 (ix2 P k) * Cert.ReferenceIdeal.Read.val_main_v53 (F := Ideal) x6 (ix2 k q) :=
    Finset.sum_congr rfl fun k _ => by rw [e1 k, e2 k]
  rw [hs]
  rfl

/-- Layer 2's combine: if the body's blocks hold rows `r0 … r0 + 4999` of the aggregate and of the initial residual,
    and the layer's 64×64 weight, its value at `(p, q)` is the reference's layer output at `(r0 + p, q)`. -/
theorem comb2_stage (x0 : (⟨Cert.ReferenceIdeal.S170000x128, .f32⟩ : BufTy).Contents (Elt Ideal)) (x1 x2 : (⟨Cert.ReferenceIdeal.S1200000, .i32⟩ : BufTy).Contents (Elt Ideal)) (x3 : (⟨Cert.ReferenceIdeal.S1200000, .f32⟩ : BufTy).Contents (Elt Ideal)) (x4 : (⟨Cert.ReferenceIdeal.S128x64, .f32⟩ : BufTy).Contents (Elt Ideal)) (x5 : (⟨Cert.ReferenceIdeal.S64, .f32⟩ : BufTy).Contents (Elt Ideal)) (x6 : (⟨Cert.ReferenceIdeal.S7x64x64, .f32⟩ : BufTy).Contents (Elt Ideal))
    (aggblk x0blk : Vec Ideal Cert.KernelIdeal.S5000x64 .f32) (wblk : Vec Ideal Cert.KernelIdeal.S64x64 .f32)
    (r0 : ℕ) (hr0 : r0 + 5000 ≤ 170000)
    (hagg : ∀ (p : Fin 5000) (k : Fin 64), aggblk (ValueIdx.ix2 p k) = Cert.ReferenceIdeal.Read.val_main_v44 (F := Ideal) x0 x1 x2 x3 x4 x5 x6 (ValueIdx.ix2 (⟨r0 + p.val, by omega⟩ : Fin 170000) k))
    (hx0 : ∀ (p : Fin 5000) (k : Fin 64), x0blk (ValueIdx.ix2 p k) = Cert.ReferenceIdeal.Read.val_main_v4 (F := Ideal) x0 x4 x5 (ValueIdx.ix2 (⟨r0 + p.val, by omega⟩ : Fin 170000) k))
    (hw : ∀ (k q : Fin 64), wblk (ValueIdx.ix2 k q) = Cert.ReferenceIdeal.Read.val_main_v53 (F := Ideal) x6 (ValueIdx.ix2 k q))
    (p : Fin 5000) (q : Fin 64) :
    Cert.KernelIdeal.Gen.k2_pay1 (F := Ideal) aggblk x0blk wblk (ValueIdx.ix2 p q)
      = Cert.ReferenceIdeal.Read.val_main_v58 (F := Ideal) x0 x1 x2 x3 x4 x5 x6 (ValueIdx.ix2 (⟨r0 + p.val, by omega⟩ : Fin 170000) q) := by
  have hs : (∑ k : Fin 64, (FloatOps.ofBits (F := Ideal) .f32 0x3F666666#32 * aggblk (ix2 p k) + FloatOps.ofBits (F := Ideal) .f32 0x3DCCCCCD#32 * x0blk (ix2 p k)) * wblk (ix2 k q))
      = ∑ k : Fin 64, Cert.ReferenceIdeal.Read.val_main_v49 (F := Ideal) x0 x1 x2 x3 x4 x5 x6 (ix2 (⟨r0 + p.val, by omega⟩ : Fin 170000) k) * Cert.ReferenceIdeal.Read.val_main_v53 (F := Ideal) x6 (ix2 k q) :=
    Finset.sum_congr rfl fun k _ => by rw [hh2_apply, hagg p k, hx0 p k, hw k q]
  rw [k2_pay1_apply, v58_apply_ix, hs, hh2_apply, hagg p q, hx0 p q]

end Cert.Bridge
-- ==== Proof.CombStage3.lean ====
import proofs.«148744_j91096256348434_1_alg».proof.Proof.Gen.KernelIdeal.Skeleton
import proofs.«148744_j91096256348434_1_alg».proof.Proof.RefRead
import proofs.«148744_j91096256348434_1_alg».proof.Proof.CombKernel
import Idealize.ShloMosaic.Lib.ValueIdx
import Idealize.ShloMosaic.Lib.ValueLayout
import Idealize.ShloMosaic.Lib.Pipeline.Value
import Idealize.ShloMosaic.PureOps.Ideal.Laws

noncomputable section

namespace Cert.Bridge

open Idealize.ShloMosaic Idealize.SL.Sem Idealize.ShloMosaic.ValueIdx

/-! Layer 3's combine against the reference: the reference's `relu (c₃ * hh + c₄ * (hh @ W))` with
    `hh = c₁ * agg + c₂ * res` read at one index, and the block statement that joins it to the kernel body's value.
    The aggregate and the initial residual stay opaque terms throughout. -/

/-- The reference's `hh = c₁ * agg + c₂ * res` of layer 3 at one index. -/
theorem hh3_apply (x0 : (⟨Cert.ReferenceIdeal.S170000x128, .f32⟩ : BufTy).Contents (Elt Ideal)) (x1 x2 : (⟨Cert.ReferenceIdeal.S1200000, .i32⟩ : BufTy).Contents (Elt Ideal)) (x3 : (⟨Cert.ReferenceIdeal.S1200000, .f32⟩ : BufTy).Contents (Elt Ideal)) (x4 : (⟨Cert.ReferenceIdeal.S128x64, .f32⟩ : BufTy).Contents (Elt Ideal)) (x5 : (⟨Cert.ReferenceIdeal.S64, .f32⟩ : BufTy).Contents (Elt Ideal)) (x6 : (⟨Cert.ReferenceIdeal.S7x64x64, .f32⟩ : BufTy).Contents (Elt Ideal)) (i : Cert.ReferenceIdeal.S170000x64.Idx) :
    Cert.ReferenceIdeal.Read.val_main_v76 (F := Ideal) x0 x1 x2 x3 x4 x5 x6 i
      = FloatOps.ofBits (F := Ideal) .f32 0x3F666666#32 * Cert.ReferenceIdeal.Read.val_main_v71 (F := Ideal) x0 x1 x2 x3 x4 x5 x6 i + FloatOps.ofBits (F := Ideal) .f32 0x3DCCCCCD#32 * Cert.ReferenceIdeal.Read.val_main_v4 (F := Ideal) x0 x4 x5 i := by
  rw [Cert.ReferenceIdeal.Read.val_main_v76_apply, Cert.ReferenceIdeal.Read.val_main_v73_apply, Cert.ReferenceIdeal.Read.val_main_v75_apply, Cert.ReferenceIdeal.Read.val_main_v72_apply,
    Cert.ReferenceIdeal.Read.val_main_v74_apply, Cert.ReferenceIdeal.Read.val_main_cst_15_apply, Cert.ReferenceIdeal.Read.val_main_cst_16_apply]
  rfl

/-- The reference's layer 3 output at `(P, q)`. -/
theorem v85_apply_ix (x0 : (⟨Cert.ReferenceIdeal.S170000x128, .f32⟩ : BufTy).Contents (Elt Ideal)) (x1 x2 : (⟨Cert.ReferenceIdeal.S1200000, .i32⟩ : BufTy).Contents (Elt Ideal)) (x3 : (⟨Cert.ReferenceIdeal.S1200000, .f32⟩ : BufTy).Contents (Elt Ideal)) (x4 : (⟨Cert.ReferenceIdeal.S128x64, .f32⟩ : BufTy).Contents (Elt Ideal)) (x5 : (⟨Cert.ReferenceIdeal.S64, .f32⟩ : BufTy).Contents (Elt Ideal)) (x6 : (⟨Cert.ReferenceIdeal.S7x64x64, .f32⟩ : BufTy).Contents (Elt Ideal)) (P : Fin 170000) (q : Fin 64) :
    Cert.ReferenceIdeal.Read.val_main_v85 (F := Ideal) x0 x1 x2 x3 x4 x5 x6 (ix2 P q)
      = max (FloatOps.ofBits (F := Ideal) .f32 0x3F588995#32 * Cert.ReferenceIdeal.Read.val_main_v76 (F := Ideal) x0 x1 x2 x3 x4 x5 x6 (ix2 P q)
            + FloatOps.ofBits (F := Ideal) .f32 0x3E1DD9AD#32 * ∑ k : Fin 64, Cert.ReferenceIdeal.Read.val_main_v76 (F := Ideal) x0 x1 x2 x3 x4 x5 x6 (ix2 P k) * Cert.ReferenceIdeal.Read.val_main_v80 (F := Ideal) x6 (ix2 k q))
          (FloatOps.ofBits (F := Ideal) .f32 0x00000000#32) := by
  rw [Cert.ReferenceIdeal.Read.val_main_v85_apply, Cert.ReferenceIdeal.Read.val_main_v84_apply, Cert.ReferenceIdeal.Read.val_main_v78_apply, Cert.ReferenceIdeal.Read.val_main_v83_apply,
    Cert.ReferenceIdeal.Read.val_main_v81_apply, Cert.ReferenceIdeal.Read.val_main_v77_apply, Cert.ReferenceIdeal.Read.val_main_v82_apply, Cert.ReferenceIdeal.Read.val_main_cst_17_apply,
    Cert.ReferenceIdeal.Read.val_main_cst_18_apply, Cert.ReferenceIdeal.Read.val_main_call3_v0_apply, Cert.ReferenceIdeal.Read.val_main_call3_cst_apply]
  have e1 : ∀ k : Fin 64, Cert.ReferenceIdeal.Read.lidx_main_v81 (ix2 P q) k = ix2 P k := fun k => funext fun d =>
    match d with | ⟨0, _⟩ => rfl | ⟨1, _⟩ => rfl
  have e2 : ∀ k : Fin 64, Cert.ReferenceIdeal.Read.ridx_main_v81 (ix2 P q) k = ix2 k q := fun k => funext fun d =>
    match d with | ⟨0, _⟩ => rfl | ⟨1, _⟩ => rfl
  have hs : (∑ k : Fin 64, Cert.ReferenceIdeal.Read.val_main_v76 (F := Ideal) x0 x1 x2 x3 x4 x5 x6 (Cert.ReferenceIdeal.Read.lidx_main_v81 (ix2 P q) k) * Cert.ReferenceIdeal.Read.val_main_v80 (F := Ideal) x6 (Cert.ReferenceIdeal.Read.ridx_main_v81 (ix2 P q) k))
      = ∑ k : Fin 64, Cert.ReferenceIdeal.Read.val_main_v76 (F := Ideal) x0 x1 x2 x3 x4 x5 x6 (ix2 P k) * Cert.ReferenceIdeal.Read.val_main_v80 (F := Ideal) x6 (ix2 k q) :=
    Finset.sum_congr rfl fun k _ => by rw [e1 k, e2 k]
  rw [hs]
  rfl

/-- Layer 3's combine: if the body's blocks hold rows `r0 … r0 + 4999` of the aggregate and of the initial residual,
    and the layer's 64×64 weight, its value at `(p, q)` is the reference's layer output at `(r0 + p, q)`. -/
theorem comb3_stage (x0 : (⟨Cert.ReferenceIdeal.S170000x128, .f32⟩ : BufTy).Contents (Elt Ideal)) (x1 x2 : (⟨Cert.ReferenceIdeal.S1200000, .i32⟩ : BufTy).Contents (Elt Ideal)) (x3 : (⟨Cert.ReferenceIdeal.S1200000, .f32⟩ : BufTy).Contents (Elt Ideal)) (x4 : (⟨Cert.ReferenceIdeal.S128x64, .f32⟩ : BufTy).Contents (Elt Ideal)) (x5 : (⟨Cert.ReferenceIdeal.S64, .f32⟩ : BufTy).Contents (Elt Ideal)) (x6 : (⟨Cert.ReferenceIdeal.S7x64x64, .f32⟩ : BufTy).Contents (Elt Ideal))
    (aggblk x0blk : Vec Ideal Cert.KernelIdeal.S5000x64 .f32) (wblk : Vec Ideal Cert.KernelIdeal.S64x64 .f32)
    (r0 : ℕ) (hr0 : r0 + 5000 ≤ 170000)
    (hagg : ∀ (p : Fin 5000) (k : Fin 64), aggblk (ValueIdx.ix2 p k) = Cert.ReferenceIdeal.Read.val_main_v71 (F := Ideal) x0 x1 x2 x3 x4 x5 x6 (ValueIdx.ix2 (⟨r0 + p.val, by omega⟩ : Fin 170000) k))
    (hx0 : ∀ (p : Fin 5000) (k : Fin 64), x0blk (ValueIdx.ix2 p k) = Cert.ReferenceIdeal.Read.val_main_v4 (F := Ideal) x0 x4 x5 (ValueIdx.ix2 (⟨r0 + p.val, by omega⟩ : Fin 170000) k))
    (hw : ∀ (k q : Fin 64), wblk (ValueIdx.ix2 k q) = Cert.ReferenceIdeal.Read.val_main_v80 (F := Ideal) x6 (ValueIdx.ix2 k q))
    (p : Fin 5000) (q : Fin 64) :
    Cert.KernelIdeal.Gen.k3_pay1 (F := Ideal) aggblk x0blk wblk (ValueIdx.ix2 p q)
      = Cert.ReferenceIdeal.Read.val_main_v85 (F := Ideal) x0 x1 x2 x3 x4 x5 x6 (ValueIdx.ix2 (⟨r0 + p.val, by omega⟩ : Fin 170000) q) := by
  have hs : (∑ k : Fin 64, (FloatOps.ofBits (F := Ideal) .f32 0x3F666666#32 * aggblk (ix2 p k) + FloatOps.ofBits (F := Ideal) .f32 0x3DCCCCCD#32 * x0blk (ix2 p k)) * wblk (ix2 k q))
      = ∑ k : Fin 64, Cert.ReferenceIdeal.Read.val_main_v76 (F := Ideal) x0 x1 x2 x3 x4 x5 x6 (ix2 (⟨r0 + p.val, by omega⟩ : Fin 170000) k) * Cert.ReferenceIdeal.Read.val_main_v80 (F := Ideal) x6 (ix2 k q) :=
    Finset.sum_congr rfl fun k _ => by rw [hh3_apply, hagg p k, hx0 p k, hw k q]
  rw [k3_pay1_apply, v85_apply_ix, hs, hh3_apply, hagg p q, hx0 p q]

end Cert.Bridge
-- ==== Proof.CombStage4.lean ====
import proofs.«148744_j91096256348434_1_alg».proof.Proof.Gen.KernelIdeal.Skeleton
import proofs.«148744_j91096256348434_1_alg».proof.Proof.RefRead
import proofs.«148744_j91096256348434_1_alg».proof.Proof.CombKernel
import Idealize.ShloMosaic.Lib.ValueIdx
import Idealize.ShloMosaic.Lib.ValueLayout
import Idealize.ShloMosaic.Lib.Pipeline.Value
import Idealize.ShloMosaic.PureOps.Ideal.Laws

noncomputable section

namespace Cert.Bridge

open Idealize.ShloMosaic Idealize.SL.Sem Idealize.ShloMosaic.ValueIdx

/-! Layer 4's combine against the reference: the reference's `relu (c₃ * hh + c₄ * (hh @ W))` with
    `hh = c₁ * agg + c₂ * res` read at one index, and the block statement that joins it to the kernel body's value.
    The aggregate and the initial residual stay opaque terms throughout. -/

/-- The reference's `hh = c₁ * agg + c₂ * res` of layer 4 at one index. -/
theorem hh4_apply (x0 : (⟨Cert.ReferenceIdeal.S170000x128, .f32⟩ : BufTy).Contents (Elt Ideal)) (x1 x2 : (⟨Cert.ReferenceIdeal.S1200000, .i32⟩ : BufTy).Contents (Elt Ideal)) (x3 : (⟨Cert.ReferenceIdeal.S1200000, .f32⟩ : BufTy).Contents (Elt Ideal)) (x4 : (⟨Cert.ReferenceIdeal.S128x64, .f32⟩ : BufTy).Contents (Elt Ideal)) (x5 : (⟨Cert.ReferenceIdeal.S64, .f32⟩ : BufTy).Contents (Elt Ideal)) (x6 : (⟨Cert.ReferenceIdeal.S7x64x64, .f32⟩ : BufTy).Contents (Elt Ideal)) (i : Cert.ReferenceIdeal.S170000x64.Idx) :
    Cert.ReferenceIdeal.Read.val_main_v103 (F := Ideal) x0 x1 x2 x3 x4 x5 x6 i
      = FloatOps.ofBits (F := Ideal) .f32 0x3F666666#32 * Cert.ReferenceIdeal.Read.val_main_v98 (F := Ideal) x0 x1 x2 x3 x4 x5 x6 i + FloatOps.ofBits (F := Ideal) .f32 0x3DCCCCCD#32 * Cert.ReferenceIdeal.Read.val_main_v4 (F := Ideal) x0 x4 x5 i := by
  rw [Cert.ReferenceIdeal.Read.val_main_v103_apply, Cert.ReferenceIdeal.Read.val_main_v100_apply, Cert.ReferenceIdeal.Read.val_main_v102_apply, Cert.ReferenceIdeal.Read.val_main_v99_apply,
    Cert.ReferenceIdeal.Read.val_main_v101_apply, Cert.ReferenceIdeal.Read.val_main_cst_22_apply, Cert.ReferenceIdeal.Read.val_main_cst_23_apply]
  rfl

/-- The reference's layer 4 output at `(P, q)`. -/
theorem v112_apply_ix (x0 : (⟨Cert.ReferenceIdeal.S170000x128, .f32⟩ : BufTy).Contents (Elt Ideal)) (x1 x2 : (⟨Cert.ReferenceIdeal.S1200000, .i32⟩ : BufTy).Contents (Elt Ideal)) (x3 : (⟨Cert.ReferenceIdeal.S1200000, .f32⟩ : BufTy).Contents (Elt Ideal)) (x4 : (⟨Cert.ReferenceIdeal.S128x64, .f32⟩ : BufTy).Contents (Elt Ideal)) (x5 : (⟨Cert.ReferenceIdeal.S64, .f32⟩ : BufTy).Contents (Elt Ideal)) (x6 : (⟨Cert.ReferenceIdeal.S7x64x64, .f32⟩ : BufTy).Contents (Elt Ideal)) (P : Fin 170000) (q : Fin 64) :
    Cert.ReferenceIdeal.Read.val_main_v112 (F := Ideal) x0 x1 x2 x3 x4 x5 x6 (ix2 P q)
      = max (FloatOps.ofBits (F := Ideal) .f32 0x3F61D8F9#32 * Cert.ReferenceIdeal.Read.val_main_v103 (F := Ideal) x0 x1 x2 x3 x4 x5 x6 (ix2 P q)
            + FloatOps.ofBits (F := Ideal) .f32 0x3DF1383B#32 * ∑ k : Fin 64, Cert.ReferenceIdeal.Read.val_main_v103 (F := Ideal) x0 x1 x2 x3 x4 x5 x6 (ix2 P k) * Cert.ReferenceIdeal.Read.val_main_v107 (F := Ideal) x6 (ix2 k q))
          (FloatOps.ofBits (F := Ideal) .f32 0x00000000#32) := by
  rw [Cert.ReferenceIdeal.Read.val_main_v112_apply, Cert.ReferenceIdeal.Read.val_main_v111_apply, Cert.ReferenceIdeal.Read.val_main_v105_apply, Cert.ReferenceIdeal.Read.val_main_v110_apply,
    Cert.ReferenceIdeal.Read.val_main_v108_apply, Cert.ReferenceIdeal.Read.val_main_v104_apply, Cert.ReferenceIdeal.Read.val_main_v109_apply, Cert.ReferenceIdeal.Read.val_main_cst_24_apply,
    Cert.ReferenceIdeal.Read.val_main_cst_25_apply, Cert.ReferenceIdeal.Read.val_main_call4_v0_apply, Cert.ReferenceIdeal.Read.val_main_call4_cst_apply]
  have e1 : ∀ k : Fin 64, Cert.ReferenceIdeal.Read.lidx_main_v108 (ix2 P q) k = ix2 P k := fun k => funext fun d =>
    match d with | ⟨0, _⟩ => rfl | ⟨1, _⟩ => rfl
  have e2 : ∀ k : Fin 64, Cert.ReferenceIdeal.Read.ridx_main_v108 (ix2 P q) k = ix2 k q := fun k => funext fun d =>
    match d with | ⟨0, _⟩ => rfl | ⟨1, _⟩ => rfl
  have hs : (∑ k : Fin 64, Cert.ReferenceIdeal.Read.val_main_v103 (F := Ideal) x0 x1 x2 x3 x4 x5 x6 (Cert.ReferenceIdeal.Read.lidx_main_v108 (ix2 P q) k) * Cert.ReferenceIdeal.Read.val_main_v107 (F := Ideal) x6 (Cert.ReferenceIdeal.Read.ridx_main_v108 (ix2 P q) k))
      = ∑ k : Fin 64, Cert.ReferenceIdeal.Read.val_main_v103 (F := Ideal) x0 x1 x2 x3 x4 x5 x6 (ix2 P k) * Cert.ReferenceIdeal.Read.val_main_v107 (F := Ideal) x6 (ix2 k q) :=
    Finset.sum_congr rfl fun k _ => by rw [e1 k, e2 k]
  rw [hs]
  rfl

/-- Layer 4's combine: if the body's blocks hold rows `r0 … r0 + 4999` of the aggregate and of the initial residual,
    and the layer's 64×64 weight, its value at `(p, q)` is the reference's layer output at `(r0 + p, q)`. -/
theorem comb4_stage (x0 : (⟨Cert.ReferenceIdeal.S170000x128, .f32⟩ : BufTy).Contents (Elt Ideal)) (x1 x2 : (⟨Cert.ReferenceIdeal.S1200000, .i32⟩ : BufTy).Contents (Elt Ideal)) (x3 : (⟨Cert.ReferenceIdeal.S1200000, .f32⟩ : BufTy).Contents (Elt Ideal)) (x4 : (⟨Cert.ReferenceIdeal.S128x64, .f32⟩ : BufTy).Contents (Elt Ideal)) (x5 : (⟨Cert.ReferenceIdeal.S64, .f32⟩ : BufTy).Contents (Elt Ideal)) (x6 : (⟨Cert.ReferenceIdeal.S7x64x64, .f32⟩ : BufTy).Contents (Elt Ideal))
    (aggblk x0blk : Vec Ideal Cert.KernelIdeal.S5000x64 .f32) (wblk : Vec Ideal Cert.KernelIdeal.S64x64 .f32)
    (r0 : ℕ) (hr0 : r0 + 5000 ≤ 170000)
    (hagg : ∀ (p : Fin 5000) (k : Fin 64), aggblk (ValueIdx.ix2 p k) = Cert.ReferenceIdeal.Read.val_main_v98 (F := Ideal) x0 x1 x2 x3 x4 x5 x6 (ValueIdx.ix2 (⟨r0 + p.val, by omega⟩ : Fin 170000) k))
    (hx0 : ∀ (p : Fin 5000) (k : Fin 64), x0blk (ValueIdx.ix2 p k) = Cert.ReferenceIdeal.Read.val_main_v4 (F := Ideal) x0 x4 x5 (ValueIdx.ix2 (⟨r0 + p.val, by omega⟩ : Fin 170000) k))
    (hw : ∀ (k q : Fin 64), wblk (ValueIdx.ix2 k q) = Cert.ReferenceIdeal.Read.val_main_v107 (F := Ideal) x6 (ValueIdx.ix2 k q))
    (p : Fin 5000) (q : Fin 64) :
    Cert.KernelIdeal.Gen.k4_pay1 (F := Ideal) aggblk x0blk wblk (ValueIdx.ix2 p q)
      = Cert.ReferenceIdeal.Read.val_main_v112 (F := Ideal) x0 x1 x2 x3 x4 x5 x6 (ValueIdx.ix2 (⟨r0 + p.val, by omega⟩ : Fin 170000) q) := by
  have hs : (∑ k : Fin 64, (FloatOps.ofBits (F := Ideal) .f32 0x3F666666#32 * aggblk (ix2 p k) + FloatOps.ofBits (F := Ideal) .f32 0x3DCCCCCD#32 * x0blk (ix2 p k)) * wblk (ix2 k q))
      = ∑ k : Fin 64, Cert.ReferenceIdeal.Read.val_main_v103 (F := Ideal) x0 x1 x2 x3 x4 x5 x6 (ix2 (⟨r0 + p.val, by omega⟩ : Fin 170000) k) * Cert.ReferenceIdeal.Read.val_main_v107 (F := Ideal) x6 (ix2 k q) :=
    Finset.sum_congr rfl fun k _ => by rw [hh4_apply, hagg p k, hx0 p k, hw k q]
  rw [k4_pay1_apply, v112_apply_ix, hs, hh4_apply, hagg p q, hx0 p q]

end Cert.Bridge
-- ==== Proof.CombStage5.lean ====
import proofs.«148744_j91096256348434_1_alg».proof.Proof.Gen.KernelIdeal.Skeleton
import proofs.«148744_j91096256348434_1_alg».proof.Proof.RefRead
import proofs.«148744_j91096256348434_1_alg».proof.Proof.CombKernel
import Idealize.ShloMosaic.Lib.ValueIdx
import Idealize.ShloMosaic.Lib.ValueLayout
import Idealize.ShloMosaic.Lib.Pipeline.Value
import Idealize.ShloMosaic.PureOps.Ideal.Laws

noncomputable section

namespace Cert.Bridge

open Idealize.ShloMosaic Idealize.SL.Sem Idealize.ShloMosaic.ValueIdx

/-! Layer 5's combine against the reference: the reference's `relu (c₃ * hh + c₄ * (hh @ W))` with
    `hh = c₁ * agg + c₂ * res` read at one index, and the block statement that joins it to the kernel body's value.
    The aggregate and the initial residual stay opaque terms throughout. -/

/-- The reference's `hh = c₁ * agg + c₂ * res` of layer 5 at one index. -/
theorem hh5_apply (x0 : (⟨Cert.ReferenceIdeal.S170000x128, .f32⟩ : BufTy).Contents (Elt Ideal)) (x1 x2 : (⟨Cert.ReferenceIdeal.S1200000, .i32⟩ : BufTy).Contents (Elt Ideal)) (x3 : (⟨Cert.ReferenceIdeal.S1200000, .f32⟩ : BufTy).Contents (Elt Ideal)) (x4 : (⟨Cert.ReferenceIdeal.S128x64, .f32⟩ : BufTy).Contents (Elt Ideal)) (x5 : (⟨Cert.ReferenceIdeal.S64, .f32⟩ : BufTy).Contents (Elt Ideal)) (x6 : (⟨Cert.ReferenceIdeal.S7x64x64, .f32⟩ : BufTy).Contents (Elt Ideal)) (i : Cert.ReferenceIdeal.S170000x64.Idx) :
    Cert.ReferenceIdeal.Read.val_main_v130 (F := Ideal) x0 x1 x2 x3 x4 x5 x6 i
      = FloatOps.ofBits (F := Ideal) .f32 0x3F666666#32 * Cert.ReferenceIdeal.Read.val_main_v125 (F := Ideal) x0 x1 x2 x3 x4 x5 x6 i + FloatOps.ofBits (F := Ideal) .f32 0x3DCCCCCD#32 * Cert.ReferenceIdeal.Read.val_main_v4 (F := Ideal) x0 x4 x5 i := by
  rw [Cert.ReferenceIdeal.Read.val_main_v130_apply, Cert.ReferenceIdeal.Read.val_main_v127_apply, Cert.ReferenceIdeal.Read.val_main_v129_apply, Cert.ReferenceIdeal.Read.val_main_v126_apply,
    Cert.ReferenceIdeal.Read.val_main_v128_apply, Cert.ReferenceIdeal.Read.val_main_cst_29_apply, Cert.ReferenceIdeal.Read.val_main_cst_30_apply]
  rfl

/-- The reference's layer 5 output at `(P, q)`. -/
theorem v139_apply_ix (x0 : (⟨Cert.ReferenceIdeal.S170000x128, .f32⟩ : BufTy).Contents (Elt Ideal)) (x1 x2 : (⟨Cert.ReferenceIdeal.S1200000, .i32⟩ : BufTy).Contents (Elt Ideal)) (x3 : (⟨Cert.ReferenceIdeal.S1200000, .f32⟩ : BufTy).Contents (Elt Ideal)) (x4 : (⟨Cert.ReferenceIdeal.S128x64, .f32⟩ : BufTy).Contents (Elt Ideal)) (x5 : (⟨Cert.ReferenceIdeal.S64, .f32⟩ : BufTy).Contents (Elt Ideal)) (x6 : (⟨Cert.ReferenceIdeal.S7x64x64, .f32⟩ : BufTy).Contents (Elt Ideal)) (P : Fin 170000) (q : Fin 64) :
    Cert.ReferenceIdeal.Read.val_main_v139 (F := Ideal) x0 x1 x2 x3 x4 x5 x6 (ix2 P q)
      = max (FloatOps.ofBits (F := Ideal) .f32 0x3F6799C1#32 * Cert.ReferenceIdeal.Read.val_main_v130 (F := Ideal) x0 x1 x2 x3 x4 x5 x6 (ix2 P q)
            + FloatOps.ofBits (F := Ideal) .f32 0x3DC331FC#32 * ∑ k : Fin 64, Cert.ReferenceIdeal.Read.val_main_v130 (F := Ideal) x0 x1 x2 x3 x4 x5 x6 (ix2 P k) * Cert.ReferenceIdeal.Read.val_main_v134 (F := Ideal) x6 (ix2 k q))
          (FloatOps.ofBits (F := Ideal) .f32 0x00000000#32) := by
  rw [Cert.ReferenceIdeal.Read.val_main_v139_apply, Cert.ReferenceIdeal.Read.val_main_v138_apply, Cert.ReferenceIdeal.Read.val_main_v132_apply, Cert.ReferenceIdeal.Read.val_main_v137_apply,
    Cert.ReferenceIdeal.Read.val_main_v135_apply, Cert.ReferenceIdeal.Read.val_main_v131_apply, Cert.ReferenceIdeal.Read.val_main_v136_apply, Cert.ReferenceIdeal.Read.val_main_cst_31_apply,
    Cert.ReferenceIdeal.Read.val_main_cst_32_apply, Cert.ReferenceIdeal.Read.val_main_call5_v0_apply, Cert.ReferenceIdeal.Read.val_main_call5_cst_apply]
  have e1 : ∀ k : Fin 64, Cert.ReferenceIdeal.Read.lidx_main_v135 (ix2 P q) k = ix2 P k := fun k => funext fun d =>
    match d with | ⟨0, _⟩ => rfl | ⟨1, _⟩ => rfl
  have e2 : ∀ k : Fin 64, Cert.ReferenceIdeal.Read.ridx_main_v135 (ix2 P q) k = ix2 k q := fun k => funext fun d =>
    match d with | ⟨0, _⟩ => rfl | ⟨1, _⟩ => rfl
  have hs : (∑ k : Fin 64, Cert.ReferenceIdeal.Read.val_main_v130 (F := Ideal) x0 x1 x2 x3 x4 x5 x6 (Cert.ReferenceIdeal.Read.lidx_main_v135 (ix2 P q) k) * Cert.ReferenceIdeal.Read.val_main_v134 (F := Ideal) x6 (Cert.ReferenceIdeal.Read.ridx_main_v135 (ix2 P q) k))
      = ∑ k : Fin 64, Cert.ReferenceIdeal.Read.val_main_v130 (F := Ideal) x0 x1 x2 x3 x4 x5 x6 (ix2 P k) * Cert.ReferenceIdeal.Read.val_main_v134 (F := Ideal) x6 (ix2 k q) :=
    Finset.sum_congr rfl fun k _ => by rw [e1 k, e2 k]
  rw [hs]
  rfl

/-- Layer 5's combine: if the body's blocks hold rows `r0 … r0 + 4999` of the aggregate and of the initial residual,
    and the layer's 64×64 weight, its value at `(p, q)` is the reference's layer output at `(r0 + p, q)`. -/
theorem comb5_stage (x0 : (⟨Cert.ReferenceIdeal.S170000x128, .f32⟩ : BufTy).Contents (Elt Ideal)) (x1 x2 : (⟨Cert.ReferenceIdeal.S1200000, .i32⟩ : BufTy).Contents (Elt Ideal)) (x3 : (⟨Cert.ReferenceIdeal.S1200000, .f32⟩ : BufTy).Contents (Elt Ideal)) (x4 : (⟨Cert.ReferenceIdeal.S128x64, .f32⟩ : BufTy).Contents (Elt Ideal)) (x5 : (⟨Cert.ReferenceIdeal.S64, .f32⟩ : BufTy).Contents (Elt Ideal)) (x6 : (⟨Cert.ReferenceIdeal.S7x64x64, .f32⟩ : BufTy).Contents (Elt Ideal))
    (aggblk x0blk : Vec Ideal Cert.KernelIdeal.S5000x64 .f32) (wblk : Vec Ideal Cert.KernelIdeal.S64x64 .f32)
    (r0 : ℕ) (hr0 : r0 + 5000 ≤ 170000)
    (hagg : ∀ (p : Fin 5000) (k : Fin 64), aggblk (ValueIdx.ix2 p k) = Cert.ReferenceIdeal.Read.val_main_v125 (F := Ideal) x0 x1 x2 x3 x4 x5 x6 (ValueIdx.ix2 (⟨r0 + p.val, by omega⟩ : Fin 170000) k))
    (hx0 : ∀ (p : Fin 5000) (k : Fin 64), x0blk (ValueIdx.ix2 p k) = Cert.ReferenceIdeal.Read.val_main_v4 (F := Ideal) x0 x4 x5 (ValueIdx.ix2 (⟨r0 + p.val, by omega⟩ : Fin 170000) k))
    (hw : ∀ (k q : Fin 64), wblk (ValueIdx.ix2 k q) = Cert.ReferenceIdeal.Read.val_main_v134 (F := Ideal) x6 (ValueIdx.ix2 k q))
    (p : Fin 5000) (q : Fin 64) :
    Cert.KernelIdeal.Gen.k5_pay1 (F := Ideal) aggblk x0blk wblk (ValueIdx.ix2 p q)
      = Cert.ReferenceIdeal.Read.val_main_v139 (F := Ideal) x0 x1 x2 x3 x4 x5 x6 (ValueIdx.ix2 (⟨r0 + p.val, by omega⟩ : Fin 170000) q) := by
  have hs : (∑ k : Fin 64, (FloatOps.ofBits (F := Ideal) .f32 0x3F666666#32 * aggblk (ix2 p k) + FloatOps.ofBits (F := Ideal) .f32 0x3DCCCCCD#32 * x0blk (ix2 p k)) * wblk (ix2 k q))
      = ∑ k : Fin 64, Cert.ReferenceIdeal.Read.val_main_v130 (F := Ideal) x0 x1 x2 x3 x4 x5 x6 (ix2 (⟨r0 + p.val, by omega⟩ : Fin 170000) k) * Cert.ReferenceIdeal.Read.val_main_v134 (F := Ideal) x6 (ix2 k q) :=
    Finset.sum_congr rfl fun k _ => by rw [hh5_apply, hagg p k, hx0 p k, hw k q]
  rw [k5_pay1_apply, v139_apply_ix, hs, hh5_apply, hagg p q, hx0 p q]

end Cert.Bridge
-- ==== Proof.CombStage6.lean ====
import proofs.«148744_j91096256348434_1_alg».proof.Proof.Gen.KernelIdeal.Skeleton
import proofs.«148744_j91096256348434_1_alg».proof.Proof.RefRead
import proofs.«148744_j91096256348434_1_alg».proof.Proof.CombKernel
import Idealize.ShloMosaic.Lib.ValueIdx
import Idealize.ShloMosaic.Lib.ValueLayout
import Idealize.ShloMosaic.Lib.Pipeline.Value
import Idealize.ShloMosaic.PureOps.Ideal.Laws

noncomputable section

namespace Cert.Bridge

open Idealize.ShloMosaic Idealize.SL.Sem Idealize.ShloMosaic.ValueIdx

/-! Layer 6's combine against the reference: the reference's `relu (c₃ * hh + c₄ * (hh @ W))` with
    `hh = c₁ * agg + c₂ * res` read at one index, and the block statement that joins it to the kernel body's value.
    The aggregate and the initial residual stay opaque terms throughout. -/

/-- The reference's `hh = c₁ * agg + c₂ * res` of layer 6 at one index. -/
theorem hh6_apply (x0 : (⟨Cert.ReferenceIdeal.S170000x128, .f32⟩ : BufTy).Contents (Elt Ideal)) (x1 x2 : (⟨Cert.ReferenceIdeal.S1200000, .i32⟩ : BufTy).Contents (Elt Ideal)) (x3 : (⟨Cert.ReferenceIdeal.S1200000, .f32⟩ : BufTy).Contents (Elt Ideal)) (x4 : (⟨Cert.ReferenceIdeal.S128x64, .f32⟩ : BufTy).Contents (Elt Ideal)) (x5 : (⟨Cert.ReferenceIdeal.S64, .f32⟩ : BufTy).Contents (Elt Ideal)) (x6 : (⟨Cert.ReferenceIdeal.S7x64x64, .f32⟩ : BufTy).Contents (Elt Ideal)) (i : Cert.ReferenceIdeal.S170000x64.Idx) :
    Cert.ReferenceIdeal.Read.val_main_v157 (F := Ideal) x0 x1 x2 x3 x4 x5 x6 i
      = FloatOps.ofBits (F := Ideal) .f32 0x3F666666#32 * Cert.ReferenceIdeal.Read.val_main_v152 (F := Ideal) x0 x1 x2 x3 x4 x5 x6 i + FloatOps.ofBits (F := Ideal) .f32 0x3DCCCCCD#32 * Cert.ReferenceIdeal.Read.val_main_v4 (F := Ideal) x0 x4 x5 i := by
  rw [Cert.ReferenceIdeal.Read.val_main_v157_apply, Cert.ReferenceIdeal.Read.val_main_v154_apply, Cert.ReferenceIdeal.Read.val_main_v156_apply, Cert.ReferenceIdeal.Read.val_main_v153_apply,
    Cert.ReferenceIdeal.Read.val_main_v155_apply, Cert.ReferenceIdeal.Read.val_main_cst_36_apply, Cert.ReferenceIdeal.Read.val_main_cst_37_apply]
  rfl

/-- The reference's layer 6 output at `(P, q)`. -/
theorem v166_apply_ix (x0 : (⟨Cert.ReferenceIdeal.S170000x128, .f32⟩ : BufTy).Contents (Elt Ideal)) (x1 x2 : (⟨Cert.ReferenceIdeal.S1200000, .i32⟩ : BufTy).Contents (Elt Ideal)) (x3 : (⟨Cert.ReferenceIdeal.S1200000, .f32⟩ : BufTy).Contents (Elt Ideal)) (x4 : (⟨Cert.ReferenceIdeal.S128x64, .f32⟩ : BufTy).Contents (Elt Ideal)) (x5 : (⟨Cert.ReferenceIdeal.S64, .f32⟩ : BufTy).Contents (Elt Ideal)) (x6 : (⟨Cert.ReferenceIdeal.S7x64x64, .f32⟩ : BufTy).Contents (Elt Ideal)) (P : Fin 170000) (q : Fin 64) :
    Cert.ReferenceIdeal.Read.val_main_v166 (F := Ideal) x0 x1 x2 x3 x4 x5 x6 (ix2 P q)
      = max (FloatOps.ofBits (F := Ideal) .f32 0x3F6B8252#32 * Cert.ReferenceIdeal.Read.val_main_v157 (F := Ideal) x0 x1 x2 x3 x4 x5 x6 (ix2 P q)
            + FloatOps.ofBits (F := Ideal) .f32 0x3DA3ED6E#32 * ∑ k : Fin 64, Cert.ReferenceIdeal.Read.val_main_v157 (F := Ideal) x0 x1 x2 x3 x4 x5 x6 (ix2 P k) * Cert.ReferenceIdeal.Read.val_main_v161 (F := Ideal) x6 (ix2 k q))
          (FloatOps.ofBits (F := Ideal) .f32 0x00000000#32) := by
  rw [Cert.ReferenceIdeal.Read.val_main_v166_apply, Cert.ReferenceIdeal.Read.val_main_v165_apply, Cert.ReferenceIdeal.Read.val_main_v159_apply, Cert.ReferenceIdeal.Read.val_main_v164_apply,
    Cert.ReferenceIdeal.Read.val_main_v162_apply, Cert.ReferenceIdeal.Read.val_main_v158_apply, Cert.ReferenceIdeal.Read.val_main_v163_apply, Cert.ReferenceIdeal.Read.val_main_cst_38_apply,
    Cert.ReferenceIdeal.Read.val_main_cst_39_apply, Cert.ReferenceIdeal.Read.val_main_call6_v0_apply, Cert.ReferenceIdeal.Read.val_main_call6_cst_apply]
  have e1 : ∀ k : Fin 64, Cert.ReferenceIdeal.Read.lidx_main_v162 (ix2 P q) k = ix2 P k := fun k => funext fun d =>
    match d with | ⟨0, _⟩ => rfl | ⟨1, _⟩ => rfl
  have e2 : ∀ k : Fin 64, Cert.ReferenceIdeal.Read.ridx_main_v162 (ix2 P q) k = ix2 k q := fun k => funext fun d =>
    match d with | ⟨0, _⟩ => rfl | ⟨1, _⟩ => rfl
  have hs : (∑ k : Fin 64, Cert.ReferenceIdeal.Read.val_main_v157 (F := Ideal) x0 x1 x2 x3 x4 x5 x6 (Cert.ReferenceIdeal.Read.lidx_main_v162 (ix2 P q) k) * Cert.ReferenceIdeal.Read.val_main_v161 (F := Ideal) x6 (Cert.ReferenceIdeal.Read.ridx_main_v162 (ix2 P q) k))
      = ∑ k : Fin 64, Cert.ReferenceIdeal.Read.val_main_v157 (F := Ideal) x0 x1 x2 x3 x4 x5 x6 (ix2 P k) * Cert.ReferenceIdeal.Read.val_main_v161 (F := Ideal) x6 (ix2 k q) :=
    Finset.sum_congr rfl fun k _ => by rw [e1 k, e2 k]
  rw [hs]
  rfl

/-- Layer 6's combine: if the body's blocks hold rows `r0 … r0 + 4999` of the aggregate and of the initial residual,
    and the layer's 64×64 weight, its value at `(p, q)` is the reference's layer output at `(r0 + p, q)`. -/
theorem comb6_stage (x0 : (⟨Cert.ReferenceIdeal.S170000x128, .f32⟩ : BufTy).Contents (Elt Ideal)) (x1 x2 : (⟨Cert.ReferenceIdeal.S1200000, .i32⟩ : BufTy).Contents (Elt Ideal)) (x3 : (⟨Cert.ReferenceIdeal.S1200000, .f32⟩ : BufTy).Contents (Elt Ideal)) (x4 : (⟨Cert.ReferenceIdeal.S128x64, .f32⟩ : BufTy).Contents (Elt Ideal)) (x5 : (⟨Cert.ReferenceIdeal.S64, .f32⟩ : BufTy).Contents (Elt Ideal)) (x6 : (⟨Cert.ReferenceIdeal.S7x64x64, .f32⟩ : BufTy).Contents (Elt Ideal))
    (aggblk x0blk : Vec Ideal Cert.KernelIdeal.S5000x64 .f32) (wblk : Vec Ideal Cert.KernelIdeal.S64x64 .f32)
    (r0 : ℕ) (hr0 : r0 + 5000 ≤ 170000)
    (hagg : ∀ (p : Fin 5000) (k : Fin 64), aggblk (ValueIdx.ix2 p k) = Cert.ReferenceIdeal.Read.val_main_v152 (F := Ideal) x0 x1 x2 x3 x4 x5 x6 (ValueIdx.ix2 (⟨r0 + p.val, by omega⟩ : Fin 170000) k))
    (hx0 : ∀ (p : Fin 5000) (k : Fin 64), x0blk (ValueIdx.ix2 p k) = Cert.ReferenceIdeal.Read.val_main_v4 (F := Ideal) x0 x4 x5 (ValueIdx.ix2 (⟨r0 + p.val, by omega⟩ : Fin 170000) k))
    (hw : ∀ (k q : Fin 64), wblk (ValueIdx.ix2 k q) = Cert.ReferenceIdeal.Read.val_main_v161 (F := Ideal) x6 (ValueIdx.ix2 k q))
    (p : Fin 5000) (q : Fin 64) :
    Cert.KernelIdeal.Gen.k6_pay1 (F := Ideal) aggblk x0blk wblk (ValueIdx.ix2 p q)
      = Cert.ReferenceIdeal.Read.val_main_v166 (F := Ideal) x0 x1 x2 x3 x4 x5 x6 (ValueIdx.ix2 (⟨r0 + p.val, by omega⟩ : Fin 170000) q) := by
  have hs : (∑ k : Fin 64, (FloatOps.ofBits (F := Ideal) .f32 0x3F666666#32 * aggblk (ix2 p k) + FloatOps.ofBits (F := Ideal) .f32 0x3DCCCCCD#32 * x0blk (ix2 p k)) * wblk (ix2 k q))
      = ∑ k : Fin 64, Cert.ReferenceIdeal.Read.val_main_v157 (F := Ideal) x0 x1 x2 x3 x4 x5 x6 (ix2 (⟨r0 + p.val, by omega⟩ : Fin 170000) k) * Cert.ReferenceIdeal.Read.val_main_v161 (F := Ideal) x6 (ix2 k q) :=
    Finset.sum_congr rfl fun k _ => by rw [hh6_apply, hagg p k, hx0 p k, hw k q]
  rw [k6_pay1_apply, v166_apply_ix, hs, hh6_apply, hagg p q, hx0 p q]

end Cert.Bridge
-- ==== Proof.CombStage7.lean ====
import proofs.«148744_j91096256348434_1_alg».proof.Proof.Gen.KernelIdeal.Skeleton
import proofs.«148744_j91096256348434_1_alg».proof.Proof.RefRead
import proofs.«148744_j91096256348434_1_alg».proof.Proof.CombKernel
import Idealize.ShloMosaic.Lib.ValueIdx
import Idealize.ShloMosaic.Lib.ValueLayout
import Idealize.ShloMosaic.Lib.Pipeline.Value
import Idealize.ShloMosaic.PureOps.Ideal.Laws

noncomputable section

namespace Cert.Bridge

open Idealize.ShloMosaic Idealize.SL.Sem Idealize.ShloMosaic.ValueIdx

/-! Layer 7's combine against the reference: the reference's `relu (c₃ * hh + c₄ * (hh @ W))` with
    `hh = c₁ * agg + c₂ * res` read at one index, and the block statement that joins it to the kernel body's value.
    The aggregate and the initial residual stay opaque terms throughout. -/

/-- The reference's `hh = c₁ * agg + c₂ * res` of layer 7 at one index. -/
theorem hh7_apply (x0 : (⟨Cert.ReferenceIdeal.S170000x128, .f32⟩ : BufTy).Contents (Elt Ideal)) (x1 x2 : (⟨Cert.ReferenceIdeal.S1200000, .i32⟩ : BufTy).Contents (Elt Ideal)) (x3 : (⟨Cert.ReferenceIdeal.S1200000, .f32⟩ : BufTy).Contents (Elt Ideal)) (x4 : (⟨Cert.ReferenceIdeal.S128x64, .f32⟩ : BufTy).Contents (Elt Ideal)) (x5 : (⟨Cert.ReferenceIdeal.S64, .f32⟩ : BufTy).Contents (Elt Ideal)) (x6 : (⟨Cert.ReferenceIdeal.S7x64x64, .f32⟩ : BufTy).Contents (Elt Ideal)) (i : Cert.ReferenceIdeal.S170000x64.Idx) :
    Cert.ReferenceIdeal.Read.val_main_v184 (F := Ideal) x0 x1 x2 x3 x4 x5 x6 i
      = FloatOps.ofBits (F := Ideal) .f32 0x3F666666#32 * Cert.ReferenceIdeal.Read.val_main_v179 (F := Ideal) x0 x1 x2 x3 x4 x5 x6 i + FloatOps.ofBits (F := Ideal) .f32 0x3DCCCCCD#32 * Cert.ReferenceIdeal.Read.val_main_v4 (F := Ideal) x0 x4 x5 i := by
  rw [Cert.ReferenceIdeal.Read.val_main_v184_apply, Cert.ReferenceIdeal.Read.val_main_v181_apply, Cert.ReferenceIdeal.Read.val_main_v183_apply, Cert.ReferenceIdeal.Read.val_main_v180_apply,
    Cert.ReferenceIdeal.Read.val_main_v182_apply, Cert.ReferenceIdeal.Read.val_main_cst_43_apply, Cert.ReferenceIdeal.Read.val_main_cst_44_apply]
  rfl

/-- The reference's layer 7 output at `(P, q)`. -/
theorem v193_apply_ix (x0 : (⟨Cert.ReferenceIdeal.S170000x128, .f32⟩ : BufTy).Contents (Elt Ideal)) (x1 x2 : (⟨Cert.ReferenceIdeal.S1200000, .i32⟩ : BufTy).Contents (Elt Ideal)) (x3 : (⟨Cert.ReferenceIdeal.S1200000, .f32⟩ : BufTy).Contents (Elt Ideal)) (x4 : (⟨Cert.ReferenceIdeal.S128x64, .f32⟩ : BufTy).Contents (Elt Ideal)) (x5 : (⟨Cert.ReferenceIdeal.S64, .f32⟩ : BufTy).Contents (Elt Ideal)) (x6 : (⟨Cert.ReferenceIdeal.S7x64x64, .f32⟩ : BufTy).Contents (Elt Ideal)) (P : Fin 170000) (q : Fin 64) :
    Cert.ReferenceIdeal.Read.val_main_v193 (F := Ideal) x0 x1 x2 x3 x4 x5 x6 (ix2 P q)
      = max (FloatOps.ofBits (F := Ideal) .f32 0x3F6E567C#32 * Cert.ReferenceIdeal.Read.val_main_v184 (F := Ideal) x0 x1 x2 x3 x4 x5 x6 (ix2 P q)
            + FloatOps.ofBits (F := Ideal) .f32 0x3D8D4C22#32 * ∑ k : Fin 64, Cert.ReferenceIdeal.Read.val_main_v184 (F := Ideal) x0 x1 x2 x3 x4 x5 x6 (ix2 P k) * Cert.ReferenceIdeal.Read.val_main_v188 (F := Ideal) x6 (ix2 k q))
          (FloatOps.ofBits (F := Ideal) .f32 0x00000000#32) := by
  rw [Cert.ReferenceIdeal.Read.val_main_v193_apply, Cert.ReferenceIdeal.Read.val_main_v192_apply, Cert.ReferenceIdeal.Read.val_main_v186_apply, Cert.ReferenceIdeal.Read.val_main_v191_apply,
    Cert.ReferenceIdeal.Read.val_main_v189_apply, Cert.ReferenceIdeal.Read.val_main_v185_apply, Cert.ReferenceIdeal.Read.val_main_v190_apply, Cert.ReferenceIdeal.Read.val_main_cst_45_apply,
    Cert.ReferenceIdeal.Read.val_main_cst_46_apply, Cert.ReferenceIdeal.Read.val_main_call7_v0_apply, Cert.ReferenceIdeal.Read.val_main_call7_cst_apply]
  have e1 : ∀ k : Fin 64, Cert.ReferenceIdeal.Read.lidx_main_v189 (ix2 P q) k = ix2 P k := fun k => funext fun d =>
    match d with | ⟨0, _⟩ => rfl | ⟨1, _⟩ => rfl
  have e2 : ∀ k : Fin 64, Cert.ReferenceIdeal.Read.ridx_main_v189 (ix2 P q) k = ix2 k q := fun k => funext fun d =>
    match d with | ⟨0, _⟩ => rfl | ⟨1, _⟩ => rfl
  have hs : (∑ k : Fin 64, Cert.ReferenceIdeal.Read.val_main_v184 (F := Ideal) x0 x1 x2 x3 x4 x5 x6 (Cert.ReferenceIdeal.Read.lidx_main_v189 (ix2 P q) k) * Cert.ReferenceIdeal.Read.val_main_v188 (F := Ideal) x6 (Cert.ReferenceIdeal.Read.ridx_main_v189 (ix2 P q) k))
      = ∑ k : Fin 64, Cert.ReferenceIdeal.Read.val_main_v184 (F := Ideal) x0 x1 x2 x3 x4 x5 x6 (ix2 P k) * Cert.ReferenceIdeal.Read.val_main_v188 (F := Ideal) x6 (ix2 k q) :=
    Finset.sum_congr rfl fun k _ => by rw [e1 k, e2 k]
  rw [hs]
  rfl

/-- Layer 7's combine: if the body's blocks hold rows `r0 … r0 + 4999` of the aggregate and of the initial residual,
    and the layer's 64×64 weight, its value at `(p, q)` is the reference's layer output at `(r0 + p, q)`. -/
theorem comb7_stage (x0 : (⟨Cert.ReferenceIdeal.S170000x128, .f32⟩ : BufTy).Contents (Elt Ideal)) (x1 x2 : (⟨Cert.ReferenceIdeal.S1200000, .i32⟩ : BufTy).Contents (Elt Ideal)) (x3 : (⟨Cert.ReferenceIdeal.S1200000, .f32⟩ : BufTy).Contents (Elt Ideal)) (x4 : (⟨Cert.ReferenceIdeal.S128x64, .f32⟩ : BufTy).Contents (Elt Ideal)) (x5 : (⟨Cert.ReferenceIdeal.S64, .f32⟩ : BufTy).Contents (Elt Ideal)) (x6 : (⟨Cert.ReferenceIdeal.S7x64x64, .f32⟩ : BufTy).Contents (Elt Ideal))
    (aggblk x0blk : Vec Ideal Cert.KernelIdeal.S5000x64 .f32) (wblk : Vec Ideal Cert.KernelIdeal.S64x64 .f32)
    (r0 : ℕ) (hr0 : r0 + 5000 ≤ 170000)
    (hagg : ∀ (p : Fin 5000) (k : Fin 64), aggblk (ValueIdx.ix2 p k) = Cert.ReferenceIdeal.Read.val_main_v179 (F := Ideal) x0 x1 x2 x3 x4 x5 x6 (ValueIdx.ix2 (⟨r0 + p.val, by omega⟩ : Fin 170000) k))
    (hx0 : ∀ (p : Fin 5000) (k : Fin 64), x0blk (ValueIdx.ix2 p k) = Cert.ReferenceIdeal.Read.val_main_v4 (F := Ideal) x0 x4 x5 (ValueIdx.ix2 (⟨r0 + p.val, by omega⟩ : Fin 170000) k))
    (hw : ∀ (k q : Fin 64), wblk (ValueIdx.ix2 k q) = Cert.ReferenceIdeal.Read.val_main_v188 (F := Ideal) x6 (ValueIdx.ix2 k q))
    (p : Fin 5000) (q : Fin 64) :
    Cert.KernelIdeal.Gen.k7_pay1 (F := Ideal) aggblk x0blk wblk (ValueIdx.ix2 p q)
      = Cert.ReferenceIdeal.Read.val_main_v193 (F := Ideal) x0 x1 x2 x3 x4 x5 x6 (ValueIdx.ix2 (⟨r0 + p.val, by omega⟩ : Fin 170000) q) := by
  have hs : (∑ k : Fin 64, (FloatOps.ofBits (F := Ideal) .f32 0x3F666666#32 * aggblk (ix2 p k) + FloatOps.ofBits (F := Ideal) .f32 0x3DCCCCCD#32 * x0blk (ix2 p k)) * wblk (ix2 k q))
      = ∑ k : Fin 64, Cert.ReferenceIdeal.Read.val_main_v184 (F := Ideal) x0 x1 x2 x3 x4 x5 x6 (ix2 (⟨r0 + p.val, by omega⟩ : Fin 170000) k) * Cert.ReferenceIdeal.Read.val_main_v188 (F := Ideal) x6 (ix2 k q) :=
    Finset.sum_congr rfl fun k _ => by rw [hh7_apply, hagg p k, hx0 p k, hw k q]
  rw [k7_pay1_apply, v193_apply_ix, hs, hh7_apply, hagg p q, hx0 p q]

end Cert.Bridge
-- ==== Proof.OutDefs.lean ====
import Idealize.ShloMosaic.PureOps.Ideal

/-!
The log-softmax of one row of 40 lanes over the extended reals, in the form both programs compute
it: the row's maximum is a fold of `max` from −∞ (the value of the f32 word `0xFF800000`, kept as
that word), each lane has the maximum subtracted, and the logarithm of the sum of the exponentials
of those differences is subtracted again.
-/

noncomputable section

namespace Cert.Bridge.Out

open Idealize.ShloMosaic

/-- The maximum of a row of 40 lanes: the fold of `max` over the lanes from the value of the word
    `0xFF800000` (−∞ at f32), in any order. -/
def rowMax (y : Fin 40 → EReal) : EReal :=
  (Finset.univ : Finset (Fin 40)).fold max (Ideal.ofBits .f32 0xFF800000#32) y

/-- The log-softmax of a row of 40 lanes at lane `q`: the lane minus the row's maximum, minus the
    logarithm of the sum over the lanes of the exponentials of the lanes minus the maximum. -/
def logSoftmaxRow (y : Fin 40 → EReal) (q : Fin 40) : EReal :=
  (y q - rowMax y) - Ideal.log (∑ k : Fin 40, Ideal.exp (y k - rowMax y))

/-- The fold starts from its initial value, so a further `max` with that value changes nothing. -/
theorem max_init_rowMax (y : Fin 40 → EReal) :
    max (Ideal.ofBits .f32 0xFF800000#32) (rowMax y) = rowMax y :=
  max_eq_right ((Finset.le_fold_max _).mpr (Or.inl le_rfl))

end Cert.Bridge.Out

end
-- ==== Proof.OutKernel.lean ====
import proofs.«148744_j91096256348434_1_alg».proof.Proof.Gen.KernelIdeal.Skeleton
import proofs.«148744_j91096256348434_1_alg».proof.Proof.OutDefs
import Idealize.ShloMosaic.Lib.ValueIdx
import Idealize.ShloMosaic.Lib.ValueLayout
import Idealize.ShloMosaic.Lib.Pipeline.Value
import Idealize.ShloMosaic.PureOps.Ideal.Laws

/-!
The output stage's kernel body read at an index. On a block of 5000 rows the body computes
`y = h · W + b` (a matrix product into a zero accumulator plus the one-row bias broadcast down the
rows), the row maximum `m` of `y` over the 40 lanes folded from −∞, `z = y − m`, and
`z − log (Σ exp z)`, the row statistics being kept as columns and broadcast back over the lanes.
Read at `(p, q)` this is the log-softmax of row `p` of `y` at lane `q`.
-/

noncomputable section

namespace Cert.Bridge.Out

open Idealize.ShloMosaic Idealize.ShloMosaic.ValueIdx Cert.KernelIdeal

/-! ## Two layout operations at an index: a vector cast to one column, a column broadcast over the lanes -/

section Layout
variable {α : Type}
/-- An `[a]` array cast to `[a, 1]` reads, at `(i, u)`, the operand at `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Layout

/-! ## The body's operations at an index -/

/-- An exponential at an index is the exponential of the element. -/
theorem exp_apply {s : Shape} {φ : FTy} (v : FVec Ideal s φ) (i : s.Idx) : exp v i = Ideal.exp (v i) := rfl
/-- A logarithm at an index is the logarithm of the element. -/
theorem log_apply {s : Shape} {φ : FTy} (v : FVec Ideal s φ) (i : s.Idx) : log v i = Ideal.log (v i) := rfl

theorem lhs_0 (i : S5000x40.Idx) (c : dot_S5000x64_S64x40_S5000x40_1_0_0_1_n_n.contr.Idx) :
    (dot_S5000x64_S64x40_S5000x40_1_0_0_1_n_n.lhsIdx i c 0).val = (i 0).val := by
  unfold DotDims.lhsIdx
  rw [dif_neg (show ¬(0 : Fin S5000x64.rank) ∈ dot_S5000x64_S64x40_S5000x40_1_0_0_1_n_n.lhsBatch by decide), dif_pos (show (0 : Fin S5000x64.rank) ∈ dot_S5000x64_S64x40_S5000x40_1_0_0_1_n_n.lhsNonContracting by decide)]
  rfl
theorem rhs_1 (i : S5000x40.Idx) (c : dot_S5000x64_S64x40_S5000x40_1_0_0_1_n_n.contr.Idx) :
    (dot_S5000x64_S64x40_S5000x40_1_0_0_1_n_n.rhsIdx i c 1).val = (i 1).val := by
  unfold DotDims.rhsIdx
  rw [dif_neg (show ¬(1 : Fin S64x40.rank) ∈ dot_S5000x64_S64x40_S5000x40_1_0_0_1_n_n.rhsBatch by decide), dif_pos (show (1 : Fin S64x40.rank) ∈ dot_S5000x64_S64x40_S5000x40_1_0_0_1_n_n.rhsNonContracting by decide)]
  rfl

/-- The block's matrix product into a zero accumulator, at `(p, q)`: the sum over the 64 contracted lanes. -/
theorem matmul_block_apply {φ₁ φ₂ : FTy} (lhs : FVec Ideal S5000x64 φ₁) (rhs : FVec Ideal S64x40 φ₂) (p : Fin 5000) (q : Fin 40) :
    FloatOps.matmul dot_S5000x64_S64x40_S5000x40_1_0_0_1_n_n none lhs rhs (constant (F := Ideal) S5000x40 .f32 0x00000000#32) (ix2 p q)
      = ∑ k : Fin 64, lhs (ix2 p k) * rhs (ix2 k q) := by
  rw [Ideal.matmul_constant_zero_apply, ← Equiv.sum_comp (contrEquiv1 dot_S5000x64_S64x40_S5000x40_1_0_0_1_n_n 64 rfl rfl).symm]
  refine Finset.sum_congr rfl fun k _ => ?_
  have hk := contrEquiv1_symm_val dot_S5000x64_S64x40_S5000x40_1_0_0_1_n_n 64 rfl rfl k
  have el : dot_S5000x64_S64x40_S5000x40_1_0_0_1_n_n.lhsIdx (ix2 p q) ((contrEquiv1 dot_S5000x64_S64x40_S5000x40_1_0_0_1_n_n 64 rfl rfl).symm k) = ix2 p k := funext fun a => Fin.ext (by
    match a with
    | ⟨0, _⟩ => exact lhs_0 _ _
    | ⟨1, _⟩ => exact (dot_S5000x64_S64x40_S5000x40_1_0_0_1_n_n.lhsIdx_val_of_single rfl _ _).trans hk)
  have er : dot_S5000x64_S64x40_S5000x40_1_0_0_1_n_n.rhsIdx (ix2 p q) ((contrEquiv1 dot_S5000x64_S64x40_S5000x40_1_0_0_1_n_n 64 rfl rfl).symm k) = ix2 k q := funext fun a => Fin.ext (by
    match a with
    | ⟨0, _⟩ => exact (dot_S5000x64_S64x40_S5000x40_1_0_0_1_n_n.rhsIdx_val_of_single rfl _ _).trans hk
    | ⟨1, _⟩ => exact rhs_1 _ _)
  rw [el, er]

/-- The source index over row `p` with lane `k` inserted is `(p, k)`. -/
theorem lift_row (h : S5000x40.Reduces [1] S5000) (p : Fin 5000) (k : Fin 40) : h.lift (ix1 p) k = ix2 p k :=
  funext fun c => Fin.ext (by match c with | ⟨0, _⟩ => rfl | ⟨1, _⟩ => rfl)

/-- A row's maximum kept as a column and broadcast back over the lanes, at `(p, q)`. -/
theorem rowMax_col_apply (Y : FVec Ideal S5000x40 .f32) (h : S5000x40.Reduces [1] S5000) (hφ : FKind.Formats .f32)
    (hacc : (0xFF800000#32 : BitVec 32) = 0xFF800000#32)
    (hc : S5000.ShapeCasts S5000x1) (hb : S5000x1.Broadcasts S5000x40) (p : Fin 5000) (q : Fin 40) :
    broadcastTo S5000x40 (shapeCast S5000x1 (multiReduction .maximumf [1] S5000 Y 0xFF800000#32 h hφ hacc) hc) hb (ix2 p q)
      = rowMax fun k => Y (ix2 p k) := by
  rw [broadcastTo_a1_ab_apply, shapeCast_a_a1_apply]
  refine (Ideal.multiReduction_maximumf_single Y _ h hφ hacc (ix1 p)).trans ?_
  exact congrArg (fun f => (Finset.univ : Finset (Fin 40)).fold max (Ideal.ofBits .f32 0xFF800000#32) f) (funext fun k => congrArg Y (lift_row h p k))

/-- The logarithm of a row's sum kept as a column and broadcast back over the lanes, at `(p, q)`. -/
theorem rowLogSum_col_apply (E : FVec Ideal S5000x40 .f32) (h : S5000x40.Reduces [1] S5000) (hφ : FKind.Formats .f32)
    (hacc : (0x00000000#32 : BitVec 32) = 0x00000000#32)
    (hc : S5000.ShapeCasts S5000x1) (hb : S5000x1.Broadcasts S5000x40) (p : Fin 5000) (q : Fin 40) :
    broadcastTo S5000x40 (log (shapeCast S5000x1 (multiReduction .add [1] S5000 E 0x00000000#32 h hφ hacc) hc)) hb (ix2 p q)
      = Ideal.log (∑ k : Fin 40, E (ix2 p k)) := by
  rw [broadcastTo_a1_ab_apply, log_apply, shapeCast_a_a1_apply]
  refine congrArg Ideal.log ?_
  refine (Ideal.multiReduction_add_single E _ h hφ hacc (ix1 p)).trans ?_
  exact Finset.sum_congr rfl fun k _ => congrArg E (lift_row h p k)

/-- The block's affine map at `(p, q)`: the matrix product into a zero accumulator plus the one-row bias broadcast down the rows. -/
theorem affine_block_apply {φ₁ φ₂ : FTy} (lhs : FVec Ideal S5000x64 φ₁) (rhs : FVec Ideal S64x40 φ₂) (b : FVec Ideal S1x40 .f32)
    (hc : S1x40.ShapeCasts S1x40) (hb : S1x40.Broadcasts S5000x40) (p : Fin 5000) (q : Fin 40) :
    addf (matmul dot_S5000x64_S64x40_S5000x40_1_0_0_1_n_n none lhs rhs (constant (F := Ideal) S5000x40 .f32 0x00000000#32))
        (broadcastTo S5000x40 (shapeCast S1x40 b hc) hb) (ix2 p q)
      = (∑ k : Fin 64, lhs (ix2 p k) * rhs (ix2 k q)) + b (ix2 (0 : Fin 1) q) := by
  rw [addf_apply, broadcastTo_1b_ab_apply, shapeCast_self]
  exact congrArg (· + b (ix2 (0 : Fin 1) q)) (matmul_block_apply lhs rhs p q)

/-- The log-softmax of a block as the kernel computes it — the row maximum and the logarithm of the row sum of
    exponentials each kept as a column and broadcast back — is, at `(p, q)`, the log-softmax of row `p` at lane `q`. -/
theorem logSoftmax_block_apply (Y : FVec Ideal S5000x40 .f32) (h : S5000x40.Reduces [1] S5000) (hφ : FKind.Formats .f32)
    (hmax : (0xFF800000#32 : BitVec 32) = 0xFF800000#32) (hadd : (0x00000000#32 : BitVec 32) = 0x00000000#32)
    (hc : S5000.ShapeCasts S5000x1) (hb : S5000x1.Broadcasts S5000x40) (p : Fin 5000) (q : Fin 40) :
    subf
        (subf Y (broadcastTo S5000x40 (shapeCast S5000x1 (multiReduction .maximumf [1] S5000 Y 0xFF800000#32 h hφ hmax) hc) hb))
        (broadcastTo S5000x40
          (log (shapeCast S5000x1
            (multiReduction .add [1] S5000
              (exp (subf Y (broadcastTo S5000x40 (shapeCast S5000x1 (multiReduction .maximumf [1] S5000 Y 0xFF800000#32 h hφ hmax) hc) hb)))
              0x00000000#32 h hφ hadd) hc)) hb)
        (ix2 p q)
      = logSoftmaxRow (fun k => Y (ix2 p k)) q := by
  unfold logSoftmaxRow
  rw [subf_apply, subf_apply, rowLogSum_col_apply, rowMax_col_apply]
  refine congrArg (fun s => Y (ix2 p q) - rowMax (fun k => Y (ix2 p k)) - Ideal.log s) (Finset.sum_congr rfl fun k _ => ?_)
  rw [exp_apply, subf_apply, rowMax_col_apply]

/-- The output stage's payload at `(p, q)`: the log-softmax over the 40 lanes of row `p` of the affine map of the block. -/
theorem k8_pay1_apply (hblk : Vec Ideal S5000x64 .f32) (wblk : Vec Ideal S64x40 .f32) (bblk : Vec Ideal S1x40 .f32)
    (p : Fin 5000) (q : Fin 40) :
    Gen.k8_pay1 (F := Ideal) hblk wblk bblk (ix2 p q)
      = logSoftmaxRow (fun q' => (∑ k : Fin 64, hblk (ix2 p k) * wblk (ix2 k q')) + bblk (ix2 (0 : Fin 1) q')) q := by
  unfold Gen.k8_pay1
  refine (logSoftmax_block_apply _ _ _ _ _ _ _ p q).trans ?_
  refine congrArg (fun y => logSoftmaxRow y q) (funext fun k => ?_)
  rw [affine_block_apply]
  simp only [truncf_apply, shapeCast_self]

end Cert.Bridge.Out

end
-- ==== Proof.OutRef.lean ====
import proofs.«148744_j91096256348434_1_alg».proof.Proof.RefRead
import proofs.«148744_j91096256348434_1_alg».proof.Proof.OutDefs
import Idealize.ShloMosaic.Lib.ValueIdx
import Idealize.ShloMosaic.Lib.Pipeline.Value
import Idealize.ShloMosaic.PureOps.Ideal.Laws

/-!
The reference's output stage read at an index. The reference computes `y = h · W + b` over all
170000 rows (a `dot_general` plus the broadcast bias) and then the log-softmax of each row: the
row maximum `m` is a reduction by `maximum` from −∞ followed by one more `maximum` with −∞,
`z = y − m`, and the result is `z − log (Σ exp z)`. Read at `(r, q)` this is the log-softmax of
row `r` of `y` at lane `q`. The reduction by `maximum` is read as a fold over the 40 lanes of the row, in any order.
-/

noncomputable section

namespace Cert.Bridge.Out

open Idealize.ShloMosaic Idealize.ShloMosaic.ValueIdx

/-- The source index over row `r` of a `[170000, 40]` array with lane `k` inserted is `(r, k)`. -/
theorem lift_row_ref (h : (⟨2, ![170000, 40]⟩ : Shape).Reduces [1] ⟨1, ![170000]⟩) (r : Fin 170000) (k : Fin 40) :
    h.lift (ix1 r) k = ix2 r k :=
  funext fun c => Fin.ext (by match c with | ⟨0, _⟩ => rfl | ⟨1, _⟩ => rfl)

/-- The host's reduction by `maximum` over the 40 lanes of a `[170000, 40]` array, from an initial value that is the
    word `0xFF800000`, is at row `r` the row's maximum: the fold of `max` over the lanes, in any order. -/
theorem hostRowMax_apply (Y : FVec Ideal ⟨2, ![170000, 40]⟩ .f32) (init : (⟨0, ![]⟩ : Shape).Idx → Ideal .f32)
    (h' : (⟨2, ![170000, 40]⟩ : Shape).ReducesTo [1] ⟨1, ![170000]⟩) (hu : 0 < (⟨0, ![]⟩ : Shape).numel)
    (hinit : init (Shape.Idx.first hu) = Ideal.ofBits .f32 0xFF800000#32) (r : Fin 170000) :
    Host.reduce (FloatOps.maximumf (F := Ideal) (φ := .f32)) Y init h' hu (ix1 r) = rowMax fun k => Y (ix2 r k) := by
  have h : (⟨2, ![170000, 40]⟩ : Shape).Reduces [1] ⟨1, ![170000]⟩ := by decide
  refine (Host.reduce_eq_fold_single _ Y init h' h hu (ix1 r)).trans ?_
  rw [hinit]
  exact congrArg (fun f => (Finset.univ : Finset (Fin 40)).fold max (Ideal.ofBits .f32 0xFF800000#32) f)
    (funext fun k => congrArg Y (lift_row_ref h r k))

open Cert.ReferenceIdeal Cert.ReferenceIdeal.Read

section Reference

variable (x0 : (⟨S170000x128, .f32⟩ : BufTy).Contents (Elt Ideal)) (x1 x2 : (⟨S1200000, .i32⟩ : BufTy).Contents (Elt Ideal))
  (x3 : (⟨S1200000, .f32⟩ : BufTy).Contents (Elt Ideal)) (x4 : (⟨S128x64, .f32⟩ : BufTy).Contents (Elt Ideal))
  (x5 : (⟨S64, .f32⟩ : BufTy).Contents (Elt Ideal)) (x6 : (⟨S7x64x64, .f32⟩ : BufTy).Contents (Elt Ideal))
  (x7 : (⟨S64x40, .f32⟩ : BufTy).Contents (Elt Ideal)) (x8 : (⟨S40, .f32⟩ : BufTy).Contents (Elt Ideal))

/-- The reference's affine map `h · W + b` at `(r, q)`: the sum over the 64 contracted lanes plus the bias at lane `q`. -/
theorem ref_affine_apply (r : Fin 170000) (q : Fin 40) :
    val_main_v197 (F := Ideal) x0 x1 x2 x3 x4 x5 x6 x7 x8 (ix2 r q)
      = (∑ k : Fin 64, val_main_v193 (F := Ideal) x0 x1 x2 x3 x4 x5 x6 (ix2 r k) * x7 (ix2 k q)) + x8 (ix1 q) := by
  have e1 : ∀ k : Fin 64, lidx_main_v194 (ix2 r q) k = ix2 r k := fun k =>
    funext fun a => Fin.ext (by match a with | ⟨0, _⟩ => rfl | ⟨1, _⟩ => rfl)
  have e2 : ∀ k : Fin 64, ridx_main_v194 (ix2 r q) k = ix2 k q := fun k =>
    funext fun a => Fin.ext (by match a with | ⟨0, _⟩ => rfl | ⟨1, _⟩ => rfl)
  have e3 : idx_main_v195 (idx_main_v196 (ix2 r q)) = ix1 q :=
    funext fun a => Fin.ext (by match a with | ⟨0, _⟩ => rfl)
  rw [val_main_v197_apply, val_main_v194_apply, val_main_v196_apply, val_main_v195_apply, Ideal.addf_def, e3]
  exact congrArg (· + x8 (ix1 q)) (Finset.sum_congr rfl fun k _ => by rw [e1 k, e2 k])

/-- The reference's row maximum (a reduction by `maximum` from −∞, then one more `maximum` with −∞) at row `r`. -/
theorem ref_rowMax_apply (r : Fin 170000) :
    val_main_call8_v2 (F := Ideal) x0 x1 x2 x3 x4 x5 x6 x7 x8 (ix1 r)
      = rowMax fun k => val_main_v197 (F := Ideal) x0 x1 x2 x3 x4 x5 x6 x7 x8 (ix2 r k) := by
  have h0 : val_main_call8_v0 (F := Ideal) x0 x1 x2 x3 x4 x5 x6 x7 x8 (ix1 r)
      = rowMax fun k => val_main_v197 (F := Ideal) x0 x1 x2 x3 x4 x5 x6 x7 x8 (ix2 r k) := by
    unfold val_main_call8_v0
    generalize val_main_v197 (F := Ideal) x0 x1 x2 x3 x4 x5 x6 x7 x8 = Y
    exact hostRowMax_apply Y _ _ _ rfl r
  rw [val_main_call8_v2_apply, val_main_call8_v1_apply, val_main_call8_cst_0_apply, Ideal.maximumf_def, Ideal.ofBits_def, h0]
  exact max_init_rowMax _

/-- The reference's shifted row `y − m` at `(r, q)`. -/
theorem ref_shifted_apply (r : Fin 170000) (q : Fin 40) :
    val_main_call8_v5 (F := Ideal) x0 x1 x2 x3 x4 x5 x6 x7 x8 (ix2 r q)
      = val_main_v197 (F := Ideal) x0 x1 x2 x3 x4 x5 x6 x7 x8 (ix2 r q)
        - rowMax fun k => val_main_v197 (F := Ideal) x0 x1 x2 x3 x4 x5 x6 x7 x8 (ix2 r k) := by
  have e : idx_main_call8_v3 (idx_main_call8_v4 (ix2 r q)) = ix1 r :=
    funext fun a => Fin.ext (by match a with | ⟨0, _⟩ => rfl)
  rw [val_main_call8_v5_apply, val_main_call8_v4_apply, val_main_call8_v3_apply, Ideal.subf_def, e, ref_rowMax_apply]

/-- The reference's logarithm of the row sum of exponentials at `(r, q)`. -/
theorem ref_logSum_apply (r : Fin 170000) (q : Fin 40) :
    val_main_call8_v10 (F := Ideal) x0 x1 x2 x3 x4 x5 x6 x7 x8 (ix2 r q)
      = Ideal.log (∑ k : Fin 40, Ideal.exp (val_main_call8_v5 (F := Ideal) x0 x1 x2 x3 x4 x5 x6 x7 x8 (ix2 r k))) := by
  have e : ∀ k : Fin 40, idx_main_call8_v7 (idx_main_call8_v8 (idx_main_call8_v10 (ix2 r q))) k = ix2 r k := fun k =>
    funext fun a => Fin.ext (by match a with | ⟨0, _⟩ => rfl | ⟨1, _⟩ => rfl)
  rw [val_main_call8_v10_apply, val_main_call8_v9_apply, val_main_call8_v8_apply, val_main_call8_v7_apply,
    val_main_call8_cst_1_apply, Ideal.hostUnary_log_def, Ideal.ofBits_def, Ideal.ofBits_zero_f32, zero_add]
  refine congrArg Ideal.log (Finset.sum_congr rfl fun k _ => ?_)
  rw [val_main_call8_v6_apply, Ideal.hostUnary_exp_def, e k]

/-- The reference's output at `(r, q)`: the log-softmax over the 40 lanes of row `r` of its affine map. -/
theorem val_main_v198_row (r : Fin 170000) (q : Fin 40) :
    val_main_v198 (F := Ideal) x0 x1 x2 x3 x4 x5 x6 x7 x8 (ix2 r q)
      = logSoftmaxRow (fun q' => (∑ k : Fin 64, val_main_v193 (F := Ideal) x0 x1 x2 x3 x4 x5 x6 (ix2 r k) * x7 (ix2 k q')) + x8 (ix1 q')) q := by
  have hy : (fun q' : Fin 40 => val_main_v197 (F := Ideal) x0 x1 x2 x3 x4 x5 x6 x7 x8 (ix2 r q'))
      = fun q' => (∑ k : Fin 64, val_main_v193 (F := Ideal) x0 x1 x2 x3 x4 x5 x6 (ix2 r k) * x7 (ix2 k q')) + x8 (ix1 q') :=
    funext fun q' => ref_affine_apply x0 x1 x2 x3 x4 x5 x6 x7 x8 r q'
  refine Eq.trans ?_ (congrArg (fun y => logSoftmaxRow y q) hy)
  unfold logSoftmaxRow
  rw [val_main_v198_apply, Ideal.subf_def, ref_logSum_apply, ref_shifted_apply]
  refine congrArg₂ (· - ·) rfl (congrArg Ideal.log (Finset.sum_congr rfl fun k _ => ?_))
  rw [ref_shifted_apply]

end Reference

end Cert.Bridge.Out

end
-- ==== Proof.OutStage.lean ====
import proofs.«148744_j91096256348434_1_alg».proof.Proof.OutKernel
import proofs.«148744_j91096256348434_1_alg».proof.Proof.OutRef

/-!
The output stage: if a block of 5000 rows starting at row `r0` holds the reference's last hidden
state and the whole weight and bias, the kernel body's payload at `(p, q)` is the reference's
output at `(r0 + p, q)`. Both sides are the log-softmax of one row of `h · W + b`; the rows agree
lane by lane under the block hypotheses.
-/

noncomputable section

namespace Cert.Bridge

open Idealize.ShloMosaic Idealize.SL.Sem Cert.Bridge.Out

theorem out_stage (x0 : (⟨Cert.ReferenceIdeal.S170000x128, .f32⟩ : BufTy).Contents (Elt Ideal)) (x1 x2 : (⟨Cert.ReferenceIdeal.S1200000, .i32⟩ : BufTy).Contents (Elt Ideal)) (x3 : (⟨Cert.ReferenceIdeal.S1200000, .f32⟩ : BufTy).Contents (Elt Ideal)) (x4 : (⟨Cert.ReferenceIdeal.S128x64, .f32⟩ : BufTy).Contents (Elt Ideal)) (x5 : (⟨Cert.ReferenceIdeal.S64, .f32⟩ : BufTy).Contents (Elt Ideal)) (x6 : (⟨Cert.ReferenceIdeal.S7x64x64, .f32⟩ : BufTy).Contents (Elt Ideal)) (x7 : (⟨Cert.ReferenceIdeal.S64x40, .f32⟩ : BufTy).Contents (Elt Ideal)) (x8 : (⟨Cert.ReferenceIdeal.S40, .f32⟩ : BufTy).Contents (Elt Ideal))
    (hblk : Vec Ideal Cert.KernelIdeal.S5000x64 .f32) (wblk : Vec Ideal Cert.KernelIdeal.S64x40 .f32) (bblk : Vec Ideal Cert.KernelIdeal.S1x40 .f32)
    (r0 : ℕ) (hr0 : r0 + 5000 ≤ 170000)
    (hh : ∀ (p : Fin 5000) (k : Fin 64), hblk (ValueIdx.ix2 p k) = Cert.ReferenceIdeal.Read.val_main_v193 (F := Ideal) x0 x1 x2 x3 x4 x5 x6 (ValueIdx.ix2 (⟨r0 + p.val, by omega⟩ : Fin 170000) k))
    (hw : ∀ (k : Fin 64) (q : Fin 40), wblk (ValueIdx.ix2 k q) = x7 (ValueIdx.ix2 k q))
    (hb : ∀ q : Fin 40, bblk (ValueIdx.ix2 (0 : Fin 1) q) = x8 (ValueIdx.ix1 q))
    (p : Fin 5000) (q : Fin 40) :
    Cert.KernelIdeal.Gen.k8_pay1 (F := Ideal) hblk wblk bblk (ValueIdx.ix2 p q)
      = Cert.ReferenceIdeal.Read.val_main_v198 (F := Ideal) x0 x1 x2 x3 x4 x5 x6 x7 x8 (ValueIdx.ix2 (⟨r0 + p.val, by omega⟩ : Fin 170000) q) := by
  rw [k8_pay1_apply, val_main_v198_row]
  refine congrArg (fun y => logSoftmaxRow y q) (funext fun q' => ?_)
  rw [hb q']
  exact congrArg (· + x8 (ValueIdx.ix1 q')) (Finset.sum_congr rfl fun k _ => by rw [hh p k, hw k q'])

end Cert.Bridge

end
-- ==== Proof.KernelValue.lean ====
/-
  The idealized kernel's result as a function of the arguments. Region by region the output array is the reference's
  stage value of the arguments: the initial residual after region 0, then each layer's value from the previous layer's and
  the initial residual, then the result from layer 7's value. Each step is the region's layout (its 34 blocks tile the
  output array) joined to the stage's arithmetic on one block of rows.
-/
import proofs.«148744_j91096256348434_1_alg».proof.Proof.Chain0
import proofs.«148744_j91096256348434_1_alg».proof.Proof.Chain1
import proofs.«148744_j91096256348434_1_alg».proof.Proof.Chain2
import proofs.«148744_j91096256348434_1_alg».proof.Proof.Chain3
import proofs.«148744_j91096256348434_1_alg».proof.Proof.Chain4
import proofs.«148744_j91096256348434_1_alg».proof.Proof.Chain5
import proofs.«148744_j91096256348434_1_alg».proof.Proof.Chain6
import proofs.«148744_j91096256348434_1_alg».proof.Proof.Chain7
import proofs.«148744_j91096256348434_1_alg».proof.Proof.Chain8
import proofs.«148744_j91096256348434_1_alg».proof.Proof.InStage
import proofs.«148744_j91096256348434_1_alg».proof.Proof.CombStage1
import proofs.«148744_j91096256348434_1_alg».proof.Proof.CombStage2
import proofs.«148744_j91096256348434_1_alg».proof.Proof.CombStage3
import proofs.«148744_j91096256348434_1_alg».proof.Proof.CombStage4
import proofs.«148744_j91096256348434_1_alg».proof.Proof.CombStage5
import proofs.«148744_j91096256348434_1_alg».proof.Proof.CombStage6
import proofs.«148744_j91096256348434_1_alg».proof.Proof.CombStage7
import proofs.«148744_j91096256348434_1_alg».proof.Proof.OutStage

set_option maxRecDepth 16384

noncomputable section

namespace Cert.Bridge

open Cert.KernelIdeal Cert.KernelIdeal.Gen
open Idealize.ShloMosaic Idealize.ShloMosaic.TcCoe Idealize.SL.Sem
open Cert.ReferenceIdeal.Read

variable (m : (ℓ : Loc nD τ sig) → Buf (Elt Ideal) ℓ) (ρ : Dev nD → PrngReg)

/-- At the last boundary the result array holds the reference's result of the launch contents of the nine arguments. -/
theorem kernel_value (c : Dev nD) :
    W18 m ρ c (Proc.devRef .tc main_v115) = val_main_v198 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  have h0 := Chain0.result m ρ (fun x0 x4 x5 xblk wblk bblk r0 hr0 hx hw hb p q => in_stage x0 x4 x5 xblk wblk bblk r0 hr0 hx hw hb p q) c
  have h1 := Chain1.result m ρ (fun x0 x1 x2 x3 x4 x5 x6 aggblk x0blk wblk r0 hr0 ha hx hw p q => comb1_stage x0 x1 x2 x3 x4 x5 x6 aggblk x0blk wblk r0 hr0 ha hx hw p q) c h0 h0
  have h2 := Chain2.result m ρ (fun x0 x1 x2 x3 x4 x5 x6 aggblk x0blk wblk r0 hr0 ha hx hw p q => comb2_stage x0 x1 x2 x3 x4 x5 x6 aggblk x0blk wblk r0 hr0 ha hx hw p q) c h0 h1
  have h3 := Chain3.result m ρ (fun x0 x1 x2 x3 x4 x5 x6 aggblk x0blk wblk r0 hr0 ha hx hw p q => comb3_stage x0 x1 x2 x3 x4 x5 x6 aggblk x0blk wblk r0 hr0 ha hx hw p q) c h0 h2
  have h4 := Chain4.result m ρ (fun x0 x1 x2 x3 x4 x5 x6 aggblk x0blk wblk r0 hr0 ha hx hw p q => comb4_stage x0 x1 x2 x3 x4 x5 x6 aggblk x0blk wblk r0 hr0 ha hx hw p q) c h0 h3
  have h5 := Chain5.result m ρ (fun x0 x1 x2 x3 x4 x5 x6 aggblk x0blk wblk r0 hr0 ha hx hw p q => comb5_stage x0 x1 x2 x3 x4 x5 x6 aggblk x0blk wblk r0 hr0 ha hx hw p q) c h0 h4
  have h6 := Chain6.result m ρ (fun x0 x1 x2 x3 x4 x5 x6 aggblk x0blk wblk r0 hr0 ha hx hw p q => comb6_stage x0 x1 x2 x3 x4 x5 x6 aggblk x0blk wblk r0 hr0 ha hx hw p q) c h0 h5
  have h7 := Chain7.result m ρ (fun x0 x1 x2 x3 x4 x5 x6 aggblk x0blk wblk r0 hr0 ha hx hw p q => comb7_stage x0 x1 x2 x3 x4 x5 x6 aggblk x0blk wblk r0 hr0 ha hx hw p q) c h0 h6
  Chain8.result m ρ (fun x0 x1 x2 x3 x4 x5 x6 x7 x8 hblk wblk bblk r0 hr0 hh hw hb p q => out_stage x0 x1 x2 x3 x4 x5 x6 x7 x8 hblk wblk bblk r0 hr0 hh hw hb p q) c h7

end Cert.Bridge

end
-- ==== Proof.lean ====
/-
  The certificate of the GCNII graph network's forward pass: nine kernel regions (an input projection, seven layer
  combines, an output projection with a log-softmax) among host stretches that gather, scale and scatter-add along the
  graph's edges, against the plain jnp reference.

  At the ideal instance both programs compute, layer by layer, the same extended-real function of the arguments. The host
  stretches are the reference's own operations applied to the same values. Inside a region the kernel works on blocks of
  5000 rows: its matrix products accumulate into zero and are the reference's products as plain sums, a change of float
  format is the identity, and the row maximum and row sum of the log-softmax are the reference's. No law beyond reading
  both sides at an index joins them, so the precondition that the inputs are finite is never opened.

  The three frames: the two kernel programs' are the generated frame certificates; the reference's is its run with the
  result dropped. The idealization rewrote no operation, so there is nothing to preserve.
-/
import proofs.«148744_j91096256348434_1_alg».proof.Defs
import proofs.«148744_j91096256348434_1_alg».proof.Proof.Gen.Kernel
import proofs.«148744_j91096256348434_1_alg».proof.Proof.Gen.Kernel.Skeleton
import proofs.«148744_j91096256348434_1_alg».proof.Proof.Gen.Kernel.Launch
import proofs.«148744_j91096256348434_1_alg».proof.Proof.Gen.Kernel.Points
import proofs.«148744_j91096256348434_1_alg».proof.Proof.Gen.Kernel.Frame
import proofs.«148744_j91096256348434_1_alg».proof.Proof.Gen.KernelIdeal
import proofs.«148744_j91096256348434_1_alg».proof.Proof.Gen.KernelIdeal.Skeleton
import proofs.«148744_j91096256348434_1_alg».proof.Proof.Gen.KernelIdeal.Launch
import proofs.«148744_j91096256348434_1_alg».proof.Proof.Gen.KernelIdeal.Points
import proofs.«148744_j91096256348434_1_alg».proof.Proof.Gen.KernelIdeal.Frame
import proofs.«148744_j91096256348434_1_alg».proof.Proof.Gen.ReferenceIdeal
import proofs.«148744_j91096256348434_1_alg».proof.Proof.Gen.Pre_finite_inputs
import proofs.«148744_j91096256348434_1_alg».proof.Proof.RefOps
import proofs.«148744_j91096256348434_1_alg».proof.Proof.RefRead
import proofs.«148744_j91096256348434_1_alg».proof.Proof.RefValue
import proofs.«148744_j91096256348434_1_alg».proof.Proof.KernelRun
import proofs.«148744_j91096256348434_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernel_ideal : Cert.frame_KernelIdeal (hKernelIdeal := Cert.KernelIdeal.Gen.facts) (hPre_finite_inputs := Cert.Pre_finite_inputs.Gen.facts) :=
  fun m ρ _ => Cert.KernelIdeal.Gen.frame m ρ

/-- The reference terminates without a fault with its arguments unchanged: its run, the result dropped. -/
theorem frame_reference_ideal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RunValue.run m ρ)

/-- From memories that agree on the nine arguments the two idealized programs end with the same result array: the kernel's
    is the reference's last stage of its own arguments, and the reference's run ends at that stage of arguments that agree. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.Gen.W18 m ρ c (Proc.devRef .tc Cert.KernelIdeal.main_v115),
    Cert.KernelIdeal.RunValue.run_result (F := Ideal) m ρ, ?_⟩
  refine (θ_run Cert.ReferenceIdeal.defs _ _).mono (fun _ h c => ⟨(h c).1.trans ?_, (h c).2⟩)
    (Cert.ReferenceIdeal.RunValue.run m' ρ')
  obtain ⟨e0, e1, e2, e3, e4, e5, e6, e7, e8⟩ := hagree c
  rw [e0, e1, e2, e3, e4, e5, e6, e7, e8]
  exact (Cert.Bridge.kernel_value m ρ c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
